-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S16384x1 : Shape := ⟨2, ![16384, 1]⟩
abbrev S1000000x128 : Shape := ⟨2, ![1000000, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S16384 : S_.BroadcastsInDim S16384 (![] : Fin 0 → Fin S16384.rank)
  reducesTo_S16384_S_d0 : S16384.ReducesTo [0] S_
  bcast_S_S16384x1 : S_.BroadcastsInDim S16384x1 (![] : Fin 0 → Fin S16384x1.rank)
  reducesTo_S16384x1_S_d0_1 : S16384x1.ReducesTo [0, 1] S_

variable [Facts]

def fn_part1 {F : FTy → Type} [FloatOps F] (main_arg2 : IVec S16384x1 32) (main_v10 : IVec S_ 1) (main_v15 : IVec S16384 1) (main_c_5 : IVec S_ 1) : IVec S_ 1 :=
  let main_v16 : IVec S_ 1 := (fun x v => Host.reduce IntOp.andi x v reducesTo_S16384_S_d0 h_S_) main_v15 main_c_5
  let main_v17 : IVec S_ 1 := andi main_v10 main_v16
  let main_c_6 : IVec S_ 32 := constantI S_ 32 0#32
  let main_v18 : IVec S16384x1 32 := broadcastInDim S16384x1 ![] bcast_S_S16384x1 main_c_6
  let main_v19 : IVec S16384x1 1 := cmpi .sge main_arg2 main_v18
  let main_c_7 : IVec S_ 32 := constantI S_ 32 999999#32
  let main_v20 : IVec S16384x1 32 := broadcastInDim S16384x1 ![] bcast_S_S16384x1 main_c_7
  let main_v21 : IVec S16384x1 1 := cmpi .sle main_arg2 main_v20
  let main_v22 : IVec S16384x1 1 := andi main_v19 main_v21
  let main_c_8 : IVec S_ 1 := constantI S_ 1 1#1
  let main_v23 : IVec S_ 1 := (fun x v => Host.reduce IntOp.andi x v reducesTo_S16384x1_S_d0_1 h_S_) main_v22 main_c_8
  let main_v24 : IVec S_ 1 := andi main_v17 main_v23
  main_v24

def fn {F : FTy → Type} [FloatOps F] (main_arg0 : IVec S16384 32) (main_arg1 : IVec S16384 32) (main_arg2 : IVec S16384x1 32) (main_arg3 : FVec F S1000000x128 .f32) : IVec S_ 1 :=
  let main_v0 : FVec F S1000000x128 .f32 := Host.absf main_arg3
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  let main_c_3 : IVec S_ 32 := constantI S_ 32 0#32
  let main_v11 : IVec S16384 32 := broadcastInDim S16384 ![] bcast_S_S16384 main_c_3
  let main_v12 : IVec S16384 1 := cmpi .sge main_arg1 main_v11
  let main_c_4 : IVec S_ 32 := constantI S_ 32 999999#32
  let main_v13 : IVec S16384 32 := broadcastInDim S16384 ![] bcast_S_S16384 main_c_4
  let main_v14 : IVec S16384 1 := cmpi .sle main_arg1 main_v13
  let main_v15 : IVec S16384 1 := andi main_v12 main_v14
  let main_c_5 : IVec S_ 1 := constantI S_ 1 1#1
  fn_part1 (F := F) main_arg2 main_v10 main_v15 main_c_5
-- ==== Kernel.lean ====
abbrev S16384 : Shape := ⟨1, ![16384]⟩
abbrev S16384x1 : Shape := ⟨2, ![16384, 1]⟩
abbrev S1000000x128 : Shape := ⟨2, ![1000000, 128]⟩
abbrev S32x4x1x128 : Shape := ⟨4, ![32, 4, 1, 128]⟩
abbrev S32x4x3x128 : Shape := ⟨4, ![32, 4, 3, 128]⟩
abbrev S32x1536 : Shape := ⟨2, ![32, 1536]⟩
abbrev S32x16 : Shape := ⟨2, ![32, 16]⟩
abbrev S1536 : Shape := ⟨1, ![1536]⟩
abbrev S384x128 : Shape := ⟨2, ![384, 128]⟩
abbrev S16 : Shape := ⟨1, ![16]⟩
abbrev S_ : Shape := ⟨0, ![]⟩
abbrev S384 : Shape := ⟨1, ![384]⟩
abbrev S1x384 : Shape := ⟨2, ![1, 384]⟩
abbrev S1152 : Shape := ⟨1, ![1152]⟩
abbrev S1x1152 : Shape := ⟨2, ![1, 1152]⟩
abbrev S1x16 : Shape := ⟨2, ![1, 16]⟩

abbrev nBuf : Table → Nat
  | .hbm => 15
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384x1, .i32⟩
  | .hbm, ⟨3, _⟩ => ⟨S1000000x128, .f32⟩
  | .hbm, ⟨4, _⟩ => ⟨S32x4x1x128, .i32⟩
  | .hbm, ⟨5, _⟩ => ⟨S32x4x1x128, .i32⟩
  | .hbm, ⟨6, _⟩ => ⟨S32x4x1x128, .i32⟩
  | .hbm, ⟨7, _⟩ => ⟨S32x4x3x128, .i32⟩
  | .hbm, ⟨8, _⟩ => ⟨S32x1536, .i32⟩
  | .hbm, ⟨9, _⟩ => ⟨S32x16, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local .scVector .vmem, ⟨0, _⟩ => ⟨S1536, .i32⟩
  | .local .scVector .vmem, ⟨1, _⟩ => ⟨S384x128, .f32⟩
  | .local .scVector .vmem, ⟨2, _⟩ => ⟨S384x128, .f32⟩
  | .local .scVector .vmem, ⟨3, _⟩ => ⟨S16, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v4_scv : Ref sig .scVector := ⟨.hbm, 8, rfl⟩
abbrev main_arg3_scv : Ref sig .scVector := ⟨.hbm, 3, rfl⟩
abbrev main_v5_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  ![v1.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32_3 : BitVec 32 := 384#32
  ![v1.toNat, 384]
@[reducible] def k0_t1_loop : Scf.Loop 32 :=
  let c0_i32_38 : BitVec 32 := 0#32
  let c64_i32 : BitVec 32 := 64#32
  let v48 : BitVec 32 := Scalar.addi c0_i32_38 c64_i32
  let c1_i32 : BitVec 32 := 1#32
  ⟨c0_i32_38, v48, c1_i32⟩
def k0_off3 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v86 : Index := Scalar.indexCast v84
  let c0_67 : Index := 0#32
  ![v86.toNat, 0]
def k0_off4 (k0_t1 : Fin k0_t1_loop.trips) (c128_i32 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v89 : BitVec 32 := Scalar.addi c128_i32 v84
  let v90 : Index := Scalar.indexCast v89
  let c0_68 : Index := 0#32
  ![v90.toNat, 0]
def k0_off5 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v100 : Index := Scalar.indexCast v85
  let c0_70 : Index := 0#32
  ![v100.toNat, 0]
def k0_off6 (k0_t1 : Fin k0_t1_loop.trips) (c128_i32_71 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v103 : BitVec 32 := Scalar.addi c128_i32_71 v85
  let v104 : Index := Scalar.indexCast v103
  let c0_72 : Index := 0#32
  ![v104.toNat, 0]
def k0_off7 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v114 : Index := Scalar.indexCast v84
  let c16 : Index := 16#32
  ![v114.toNat, 16]
def k0_off8 (k0_t1 : Fin k0_t1_loop.trips) (c128_i32_75 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v117 : BitVec 32 := Scalar.addi c128_i32_75 v84
  let v118 : Index := Scalar.indexCast v117
  let c16_76 : Index := 16#32
  ![v118.toNat, 16]
def k0_off9 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v128 : Index := Scalar.indexCast v85
  let c16_79 : Index := 16#32
  ![v128.toNat, 16]
def k0_off10 (k0_t1 : Fin k0_t1_loop.trips) (c128_i32_80 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v131 : BitVec 32 := Scalar.addi c128_i32_80 v85
  let v132 : Index := Scalar.indexCast v131
  let c16_81 : Index := 16#32
  ![v132.toNat, 16]
def k0_off11 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v142 : Index := Scalar.indexCast v84
  let c32 : Index := 32#32
  ![v142.toNat, 32]
def k0_off12 (k0_t1 : Fin k0_t1_loop.trips) (c128_i32_84 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v145 : BitVec 32 := Scalar.addi c128_i32_84 v84
  let v146 : Index := Scalar.indexCast v145
  let c32_85 : Index := 32#32
  ![v146.toNat, 32]
def k0_off13 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v156 : Index := Scalar.indexCast v85
  let c32_88 : Index := 32#32
  ![v156.toNat, 32]
def k0_off14 (k0_t1 : Fin k0_t1_loop.trips) (c128_i32_89 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v159 : BitVec 32 := Scalar.addi c128_i32_89 v85
  let v160 : Index := Scalar.indexCast v159
  let c32_90 : Index := 32#32
  ![v160.toNat, 32]
def k0_off15 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v170 : Index := Scalar.indexCast v84
  let c48 : Index := 48#32
  ![v170.toNat, 48]
def k0_off16 (k0_t1 : Fin k0_t1_loop.trips) (c128_i32_93 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v173 : BitVec 32 := Scalar.addi c128_i32_93 v84
  let v174 : Index := Scalar.indexCast v173
  let c48_94 : Index := 48#32
  ![v174.toNat, 48]
def k0_off17 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v184 : Index := Scalar.indexCast v85
  let c48_97 : Index := 48#32
  ![v184.toNat, 48]
def k0_off18 (k0_t1 : Fin k0_t1_loop.trips) (c128_i32_98 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v187 : BitVec 32 := Scalar.addi c128_i32_98 v85
  let v188 : Index := Scalar.indexCast v187
  let c48_99 : Index := 48#32
  ![v188.toNat, 48]
def k0_off19 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v198 : Index := Scalar.indexCast v84
  let c64 : Index := 64#32
  ![v198.toNat, 64]
def k0_off20 (k0_t1 : Fin k0_t1_loop.trips) (c128_i32_102 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v201 : BitVec 32 := Scalar.addi c128_i32_102 v84
  let v202 : Index := Scalar.indexCast v201
  let c64_103 : Index := 64#32
  ![v202.toNat, 64]
def k0_off21 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v212 : Index := Scalar.indexCast v85
  let c64_106 : Index := 64#32
  ![v212.toNat, 64]
def k0_off22 (k0_t1 : Fin k0_t1_loop.trips) (c128_i32_107 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v215 : BitVec 32 := Scalar.addi c128_i32_107 v85
  let v216 : Index := Scalar.indexCast v215
  let c64_108 : Index := 64#32
  ![v216.toNat, 64]
def k0_off23 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v226 : Index := Scalar.indexCast v84
  let c80 : Index := 80#32
  ![v226.toNat, 80]
def k0_off24 (k0_t1 : Fin k0_t1_loop.trips) (c128_i32_111 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v229 : BitVec 32 := Scalar.addi c128_i32_111 v84
  let v230 : Index := Scalar.indexCast v229
  let c80_112 : Index := 80#32
  ![v230.toNat, 80]
def k0_off25 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v240 : Index := Scalar.indexCast v85
  let c80_115 : Index := 80#32
  ![v240.toNat, 80]
def k0_off26 (k0_t1 : Fin k0_t1_loop.trips) (c128_i32_116 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v243 : BitVec 32 := Scalar.addi c128_i32_116 v85
  let v244 : Index := Scalar.indexCast v243
  let c80_117 : Index := 80#32
  ![v244.toNat, 80]
def k0_off27 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v254 : Index := Scalar.indexCast v84
  let c96 : Index := 96#32
  ![v254.toNat, 96]
def k0_off28 (k0_t1 : Fin k0_t1_loop.trips) (c128_i32_120 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v257 : BitVec 32 := Scalar.addi c128_i32_120 v84
  let v258 : Index := Scalar.indexCast v257
  let c96_121 : Index := 96#32
  ![v258.toNat, 96]
def k0_off29 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v268 : Index := Scalar.indexCast v85
  let c96_124 : Index := 96#32
  ![v268.toNat, 96]
def k0_off30 (k0_t1 : Fin k0_t1_loop.trips) (c128_i32_125 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v271 : BitVec 32 := Scalar.addi c128_i32_125 v85
  let v272 : Index := Scalar.indexCast v271
  let c96_126 : Index := 96#32
  ![v272.toNat, 96]
def k0_off31 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v282 : Index := Scalar.indexCast v84
  let c112 : Index := 112#32
  ![v282.toNat, 112]
def k0_off32 (k0_t1 : Fin k0_t1_loop.trips) (c128_i32_129 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let v285 : BitVec 32 := Scalar.addi c128_i32_129 v84
  let v286 : Index := Scalar.indexCast v285
  let c112_130 : Index := 112#32
  ![v286.toNat, 112]
def k0_off33 (k0_t1 : Fin k0_t1_loop.trips) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v296 : Index := Scalar.indexCast v85
  let c112_133 : Index := 112#32
  ![v296.toNat, 112]
def k0_off34 (k0_t1 : Fin k0_t1_loop.trips) (c128_i32_134 : BitVec 32) : Fin 2 → Nat :=
  let c2_i32_65 : BitVec 32 := 2#32
  let c0_i32_38 : BitVec 32 := 0#32
  let c1_i32 : BitVec 32 := 1#32
  let arg13 : BitVec 32 := Scf.iv c0_i32_38 c1_i32 k0_t1
  let v84 : BitVec 32 := Scalar.muli c2_i32_65 arg13
  let c1_i32_66 : BitVec 32 := 1#32
  let v85 : BitVec 32 := Scalar.addi v84 c1_i32_66
  let v299 : BitVec 32 := Scalar.addi c128_i32_134 v85
  let v300 : Index := Scalar.indexCast v299
  let c112_135 : Index := 112#32
  ![v300.toNat, 112]
@[reducible] def k0_t2_loop : Scf.Loop 32 :=
  let c0_i32_45 : BitVec 32 := 0#32
  let c64_i32_46 : BitVec 32 := 64#32
  let v54 : BitVec 32 := Scalar.addi c0_i32_45 c64_i32_46
  let c1_i32_47 : BitVec 32 := 1#32
  ⟨c0_i32_45, v54, c1_i32_47⟩
def k0_off35 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v86 : Index := Scalar.indexCast v84
  let c0_67 : Index := 0#32
  ![v86.toNat, 0]
def k0_off36 (k0_t2 : Fin k0_t2_loop.trips) (c128_i32 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v89 : BitVec 32 := Scalar.addi c128_i32 v84
  let v90 : Index := Scalar.indexCast v89
  let c0_68 : Index := 0#32
  ![v90.toNat, 0]
def k0_off37 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v100 : Index := Scalar.indexCast v85
  let c0_70 : Index := 0#32
  ![v100.toNat, 0]
def k0_off38 (k0_t2 : Fin k0_t2_loop.trips) (c128_i32_71 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v103 : BitVec 32 := Scalar.addi c128_i32_71 v85
  let v104 : Index := Scalar.indexCast v103
  let c0_72 : Index := 0#32
  ![v104.toNat, 0]
def k0_off39 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v114 : Index := Scalar.indexCast v84
  let c16 : Index := 16#32
  ![v114.toNat, 16]
def k0_off40 (k0_t2 : Fin k0_t2_loop.trips) (c128_i32_75 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v117 : BitVec 32 := Scalar.addi c128_i32_75 v84
  let v118 : Index := Scalar.indexCast v117
  let c16_76 : Index := 16#32
  ![v118.toNat, 16]
def k0_off41 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v128 : Index := Scalar.indexCast v85
  let c16_79 : Index := 16#32
  ![v128.toNat, 16]
def k0_off42 (k0_t2 : Fin k0_t2_loop.trips) (c128_i32_80 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v131 : BitVec 32 := Scalar.addi c128_i32_80 v85
  let v132 : Index := Scalar.indexCast v131
  let c16_81 : Index := 16#32
  ![v132.toNat, 16]
def k0_off43 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v142 : Index := Scalar.indexCast v84
  let c32 : Index := 32#32
  ![v142.toNat, 32]
def k0_off44 (k0_t2 : Fin k0_t2_loop.trips) (c128_i32_84 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v145 : BitVec 32 := Scalar.addi c128_i32_84 v84
  let v146 : Index := Scalar.indexCast v145
  let c32_85 : Index := 32#32
  ![v146.toNat, 32]
def k0_off45 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v156 : Index := Scalar.indexCast v85
  let c32_88 : Index := 32#32
  ![v156.toNat, 32]
def k0_off46 (k0_t2 : Fin k0_t2_loop.trips) (c128_i32_89 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v159 : BitVec 32 := Scalar.addi c128_i32_89 v85
  let v160 : Index := Scalar.indexCast v159
  let c32_90 : Index := 32#32
  ![v160.toNat, 32]
def k0_off47 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v170 : Index := Scalar.indexCast v84
  let c48 : Index := 48#32
  ![v170.toNat, 48]
def k0_off48 (k0_t2 : Fin k0_t2_loop.trips) (c128_i32_93 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v173 : BitVec 32 := Scalar.addi c128_i32_93 v84
  let v174 : Index := Scalar.indexCast v173
  let c48_94 : Index := 48#32
  ![v174.toNat, 48]
def k0_off49 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v184 : Index := Scalar.indexCast v85
  let c48_97 : Index := 48#32
  ![v184.toNat, 48]
def k0_off50 (k0_t2 : Fin k0_t2_loop.trips) (c128_i32_98 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v187 : BitVec 32 := Scalar.addi c128_i32_98 v85
  let v188 : Index := Scalar.indexCast v187
  let c48_99 : Index := 48#32
  ![v188.toNat, 48]
def k0_off51 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v198 : Index := Scalar.indexCast v84
  let c64 : Index := 64#32
  ![v198.toNat, 64]
def k0_off52 (k0_t2 : Fin k0_t2_loop.trips) (c128_i32_102 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v201 : BitVec 32 := Scalar.addi c128_i32_102 v84
  let v202 : Index := Scalar.indexCast v201
  let c64_103 : Index := 64#32
  ![v202.toNat, 64]
def k0_off53 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v212 : Index := Scalar.indexCast v85
  let c64_106 : Index := 64#32
  ![v212.toNat, 64]
def k0_off54 (k0_t2 : Fin k0_t2_loop.trips) (c128_i32_107 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v215 : BitVec 32 := Scalar.addi c128_i32_107 v85
  let v216 : Index := Scalar.indexCast v215
  let c64_108 : Index := 64#32
  ![v216.toNat, 64]
def k0_off55 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v226 : Index := Scalar.indexCast v84
  let c80 : Index := 80#32
  ![v226.toNat, 80]
def k0_off56 (k0_t2 : Fin k0_t2_loop.trips) (c128_i32_111 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v229 : BitVec 32 := Scalar.addi c128_i32_111 v84
  let v230 : Index := Scalar.indexCast v229
  let c80_112 : Index := 80#32
  ![v230.toNat, 80]
def k0_off57 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v240 : Index := Scalar.indexCast v85
  let c80_115 : Index := 80#32
  ![v240.toNat, 80]
def k0_off58 (k0_t2 : Fin k0_t2_loop.trips) (c128_i32_116 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v243 : BitVec 32 := Scalar.addi c128_i32_116 v85
  let v244 : Index := Scalar.indexCast v243
  let c80_117 : Index := 80#32
  ![v244.toNat, 80]
def k0_off59 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v254 : Index := Scalar.indexCast v84
  let c96 : Index := 96#32
  ![v254.toNat, 96]
def k0_off60 (k0_t2 : Fin k0_t2_loop.trips) (c128_i32_120 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v257 : BitVec 32 := Scalar.addi c128_i32_120 v84
  let v258 : Index := Scalar.indexCast v257
  let c96_121 : Index := 96#32
  ![v258.toNat, 96]
def k0_off61 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v268 : Index := Scalar.indexCast v85
  let c96_124 : Index := 96#32
  ![v268.toNat, 96]
def k0_off62 (k0_t2 : Fin k0_t2_loop.trips) (c128_i32_125 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v271 : BitVec 32 := Scalar.addi c128_i32_125 v85
  let v272 : Index := Scalar.indexCast v271
  let c96_126 : Index := 96#32
  ![v272.toNat, 96]
def k0_off63 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v282 : Index := Scalar.indexCast v84
  let c112 : Index := 112#32
  ![v282.toNat, 112]
def k0_off64 (k0_t2 : Fin k0_t2_loop.trips) (c128_i32_129 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let v285 : BitVec 32 := Scalar.addi c128_i32_129 v84
  let v286 : Index := Scalar.indexCast v285
  let c112_130 : Index := 112#32
  ![v286.toNat, 112]
def k0_off65 (k0_t2 : Fin k0_t2_loop.trips) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v296 : Index := Scalar.indexCast v85
  let c112_133 : Index := 112#32
  ![v296.toNat, 112]
def k0_off66 (k0_t2 : Fin k0_t2_loop.trips) (c128_i32_134 : BitVec 32) : Fin 2 → Nat :=
  let c2_i32_65 : BitVec 32 := 2#32
  let c0_i32_45 : BitVec 32 := 0#32
  let c1_i32_47 : BitVec 32 := 1#32
  let arg13 : BitVec 32 := Scf.iv c0_i32_45 c1_i32_47 k0_t2
  let v84 : BitVec 32 := Scalar.muli c2_i32_65 arg13
  let c1_i32_66 : BitVec 32 := 1#32
  let v85 : BitVec 32 := Scalar.addi v84 c1_i32_66
  let v299 : BitVec 32 := Scalar.addi c128_i32_134 v85
  let v300 : Index := Scalar.indexCast v299
  let c112_135 : Index := 112#32
  ![v300.toNat, 112]
@[reducible] def k0_t3_loop : Scf.Loop 32 :=
  let c0_i32_54 : BitVec 32 := 0#32
  let c64_i32_55 : BitVec 32 := 64#32
  let v60 : BitVec 32 := Scalar.addi c0_i32_54 c64_i32_55
  let c1_i32_56 : BitVec 32 := 1#32
  ⟨c0_i32_54, v60, c1_i32_56⟩
def k0_off67 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v86 : Index := Scalar.indexCast v84
  let c0_67 : Index := 0#32
  ![v86.toNat, 0]
def k0_off68 (k0_t3 : Fin k0_t3_loop.trips) (c128_i32 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v89 : BitVec 32 := Scalar.addi c128_i32 v84
  let v90 : Index := Scalar.indexCast v89
  let c0_68 : Index := 0#32
  ![v90.toNat, 0]
def k0_off69 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v100 : Index := Scalar.indexCast v85
  let c0_70 : Index := 0#32
  ![v100.toNat, 0]
def k0_off70 (k0_t3 : Fin k0_t3_loop.trips) (c128_i32_71 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v103 : BitVec 32 := Scalar.addi c128_i32_71 v85
  let v104 : Index := Scalar.indexCast v103
  let c0_72 : Index := 0#32
  ![v104.toNat, 0]
def k0_off71 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v114 : Index := Scalar.indexCast v84
  let c16 : Index := 16#32
  ![v114.toNat, 16]
def k0_off72 (k0_t3 : Fin k0_t3_loop.trips) (c128_i32_75 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v117 : BitVec 32 := Scalar.addi c128_i32_75 v84
  let v118 : Index := Scalar.indexCast v117
  let c16_76 : Index := 16#32
  ![v118.toNat, 16]
def k0_off73 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v128 : Index := Scalar.indexCast v85
  let c16_79 : Index := 16#32
  ![v128.toNat, 16]
def k0_off74 (k0_t3 : Fin k0_t3_loop.trips) (c128_i32_80 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v131 : BitVec 32 := Scalar.addi c128_i32_80 v85
  let v132 : Index := Scalar.indexCast v131
  let c16_81 : Index := 16#32
  ![v132.toNat, 16]
def k0_off75 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v142 : Index := Scalar.indexCast v84
  let c32 : Index := 32#32
  ![v142.toNat, 32]
def k0_off76 (k0_t3 : Fin k0_t3_loop.trips) (c128_i32_84 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v145 : BitVec 32 := Scalar.addi c128_i32_84 v84
  let v146 : Index := Scalar.indexCast v145
  let c32_85 : Index := 32#32
  ![v146.toNat, 32]
def k0_off77 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v156 : Index := Scalar.indexCast v85
  let c32_88 : Index := 32#32
  ![v156.toNat, 32]
def k0_off78 (k0_t3 : Fin k0_t3_loop.trips) (c128_i32_89 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v159 : BitVec 32 := Scalar.addi c128_i32_89 v85
  let v160 : Index := Scalar.indexCast v159
  let c32_90 : Index := 32#32
  ![v160.toNat, 32]
def k0_off79 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v170 : Index := Scalar.indexCast v84
  let c48 : Index := 48#32
  ![v170.toNat, 48]
def k0_off80 (k0_t3 : Fin k0_t3_loop.trips) (c128_i32_93 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v173 : BitVec 32 := Scalar.addi c128_i32_93 v84
  let v174 : Index := Scalar.indexCast v173
  let c48_94 : Index := 48#32
  ![v174.toNat, 48]
def k0_off81 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v184 : Index := Scalar.indexCast v85
  let c48_97 : Index := 48#32
  ![v184.toNat, 48]
def k0_off82 (k0_t3 : Fin k0_t3_loop.trips) (c128_i32_98 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v187 : BitVec 32 := Scalar.addi c128_i32_98 v85
  let v188 : Index := Scalar.indexCast v187
  let c48_99 : Index := 48#32
  ![v188.toNat, 48]
def k0_off83 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v198 : Index := Scalar.indexCast v84
  let c64 : Index := 64#32
  ![v198.toNat, 64]
def k0_off84 (k0_t3 : Fin k0_t3_loop.trips) (c128_i32_102 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v201 : BitVec 32 := Scalar.addi c128_i32_102 v84
  let v202 : Index := Scalar.indexCast v201
  let c64_103 : Index := 64#32
  ![v202.toNat, 64]
def k0_off85 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v212 : Index := Scalar.indexCast v85
  let c64_106 : Index := 64#32
  ![v212.toNat, 64]
def k0_off86 (k0_t3 : Fin k0_t3_loop.trips) (c128_i32_107 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v215 : BitVec 32 := Scalar.addi c128_i32_107 v85
  let v216 : Index := Scalar.indexCast v215
  let c64_108 : Index := 64#32
  ![v216.toNat, 64]
def k0_off87 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v226 : Index := Scalar.indexCast v84
  let c80 : Index := 80#32
  ![v226.toNat, 80]
def k0_off88 (k0_t3 : Fin k0_t3_loop.trips) (c128_i32_111 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v229 : BitVec 32 := Scalar.addi c128_i32_111 v84
  let v230 : Index := Scalar.indexCast v229
  let c80_112 : Index := 80#32
  ![v230.toNat, 80]
def k0_off89 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v240 : Index := Scalar.indexCast v85
  let c80_115 : Index := 80#32
  ![v240.toNat, 80]
def k0_off90 (k0_t3 : Fin k0_t3_loop.trips) (c128_i32_116 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v243 : BitVec 32 := Scalar.addi c128_i32_116 v85
  let v244 : Index := Scalar.indexCast v243
  let c80_117 : Index := 80#32
  ![v244.toNat, 80]
def k0_off91 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v254 : Index := Scalar.indexCast v84
  let c96 : Index := 96#32
  ![v254.toNat, 96]
def k0_off92 (k0_t3 : Fin k0_t3_loop.trips) (c128_i32_120 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v257 : BitVec 32 := Scalar.addi c128_i32_120 v84
  let v258 : Index := Scalar.indexCast v257
  let c96_121 : Index := 96#32
  ![v258.toNat, 96]
def k0_off93 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v268 : Index := Scalar.indexCast v85
  let c96_124 : Index := 96#32
  ![v268.toNat, 96]
def k0_off94 (k0_t3 : Fin k0_t3_loop.trips) (c128_i32_125 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v271 : BitVec 32 := Scalar.addi c128_i32_125 v85
  let v272 : Index := Scalar.indexCast v271
  let c96_126 : Index := 96#32
  ![v272.toNat, 96]
def k0_off95 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v282 : Index := Scalar.indexCast v84
  let c112 : Index := 112#32
  ![v282.toNat, 112]
def k0_off96 (k0_t3 : Fin k0_t3_loop.trips) (c128_i32_129 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let v285 : BitVec 32 := Scalar.addi c128_i32_129 v84
  let v286 : Index := Scalar.indexCast v285
  let c112_130 : Index := 112#32
  ![v286.toNat, 112]
def k0_off97 (k0_t3 : Fin k0_t3_loop.trips) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v296 : Index := Scalar.indexCast v85
  let c112_133 : Index := 112#32
  ![v296.toNat, 112]
def k0_off98 (k0_t3 : Fin k0_t3_loop.trips) (c128_i32_134 : BitVec 32) : Fin 2 → Nat :=
  let c2_i32_65 : BitVec 32 := 2#32
  let c0_i32_54 : BitVec 32 := 0#32
  let c1_i32_56 : BitVec 32 := 1#32
  let arg13 : BitVec 32 := Scf.iv c0_i32_54 c1_i32_56 k0_t3
  let v84 : BitVec 32 := Scalar.muli c2_i32_65 arg13
  let c1_i32_66 : BitVec 32 := 1#32
  let v85 : BitVec 32 := Scalar.addi v84 c1_i32_66
  let v299 : BitVec 32 := Scalar.addi c128_i32_134 v85
  let v300 : Index := Scalar.indexCast v299
  let c112_135 : Index := 112#32
  ![v300.toNat, 112]
@[reducible] def k0_t4_loop : Scf.Loop 32 :=
  let c0_i32_61 : BitVec 32 := 0#32
  let c64_i32_62 : BitVec 32 := 64#32
  let v64 : BitVec 32 := Scalar.addi c0_i32_61 c64_i32_62
  let c1_i32_63 : BitVec 32 := 1#32
  ⟨c0_i32_61, v64, c1_i32_63⟩
def k0_off99 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v86 : Index := Scalar.indexCast v84
  let c0_67 : Index := 0#32
  ![v86.toNat, 0]
def k0_off100 (k0_t4 : Fin k0_t4_loop.trips) (c128_i32 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v89 : BitVec 32 := Scalar.addi c128_i32 v84
  let v90 : Index := Scalar.indexCast v89
  let c0_68 : Index := 0#32
  ![v90.toNat, 0]
def k0_off101 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v100 : Index := Scalar.indexCast v85
  let c0_70 : Index := 0#32
  ![v100.toNat, 0]
def k0_off102 (k0_t4 : Fin k0_t4_loop.trips) (c128_i32_71 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v103 : BitVec 32 := Scalar.addi c128_i32_71 v85
  let v104 : Index := Scalar.indexCast v103
  let c0_72 : Index := 0#32
  ![v104.toNat, 0]
def k0_off103 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v114 : Index := Scalar.indexCast v84
  let c16 : Index := 16#32
  ![v114.toNat, 16]
def k0_off104 (k0_t4 : Fin k0_t4_loop.trips) (c128_i32_75 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v117 : BitVec 32 := Scalar.addi c128_i32_75 v84
  let v118 : Index := Scalar.indexCast v117
  let c16_76 : Index := 16#32
  ![v118.toNat, 16]
def k0_off105 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v128 : Index := Scalar.indexCast v85
  let c16_79 : Index := 16#32
  ![v128.toNat, 16]
def k0_off106 (k0_t4 : Fin k0_t4_loop.trips) (c128_i32_80 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v131 : BitVec 32 := Scalar.addi c128_i32_80 v85
  let v132 : Index := Scalar.indexCast v131
  let c16_81 : Index := 16#32
  ![v132.toNat, 16]
def k0_off107 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v142 : Index := Scalar.indexCast v84
  let c32 : Index := 32#32
  ![v142.toNat, 32]
def k0_off108 (k0_t4 : Fin k0_t4_loop.trips) (c128_i32_84 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v145 : BitVec 32 := Scalar.addi c128_i32_84 v84
  let v146 : Index := Scalar.indexCast v145
  let c32_85 : Index := 32#32
  ![v146.toNat, 32]
def k0_off109 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v156 : Index := Scalar.indexCast v85
  let c32_88 : Index := 32#32
  ![v156.toNat, 32]
def k0_off110 (k0_t4 : Fin k0_t4_loop.trips) (c128_i32_89 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v159 : BitVec 32 := Scalar.addi c128_i32_89 v85
  let v160 : Index := Scalar.indexCast v159
  let c32_90 : Index := 32#32
  ![v160.toNat, 32]
def k0_off111 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v170 : Index := Scalar.indexCast v84
  let c48 : Index := 48#32
  ![v170.toNat, 48]
def k0_off112 (k0_t4 : Fin k0_t4_loop.trips) (c128_i32_93 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v173 : BitVec 32 := Scalar.addi c128_i32_93 v84
  let v174 : Index := Scalar.indexCast v173
  let c48_94 : Index := 48#32
  ![v174.toNat, 48]
def k0_off113 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v184 : Index := Scalar.indexCast v85
  let c48_97 : Index := 48#32
  ![v184.toNat, 48]
def k0_off114 (k0_t4 : Fin k0_t4_loop.trips) (c128_i32_98 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v187 : BitVec 32 := Scalar.addi c128_i32_98 v85
  let v188 : Index := Scalar.indexCast v187
  let c48_99 : Index := 48#32
  ![v188.toNat, 48]
def k0_off115 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v198 : Index := Scalar.indexCast v84
  let c64 : Index := 64#32
  ![v198.toNat, 64]
def k0_off116 (k0_t4 : Fin k0_t4_loop.trips) (c128_i32_102 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v201 : BitVec 32 := Scalar.addi c128_i32_102 v84
  let v202 : Index := Scalar.indexCast v201
  let c64_103 : Index := 64#32
  ![v202.toNat, 64]
def k0_off117 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v212 : Index := Scalar.indexCast v85
  let c64_106 : Index := 64#32
  ![v212.toNat, 64]
def k0_off118 (k0_t4 : Fin k0_t4_loop.trips) (c128_i32_107 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v215 : BitVec 32 := Scalar.addi c128_i32_107 v85
  let v216 : Index := Scalar.indexCast v215
  let c64_108 : Index := 64#32
  ![v216.toNat, 64]
def k0_off119 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v226 : Index := Scalar.indexCast v84
  let c80 : Index := 80#32
  ![v226.toNat, 80]
def k0_off120 (k0_t4 : Fin k0_t4_loop.trips) (c128_i32_111 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v229 : BitVec 32 := Scalar.addi c128_i32_111 v84
  let v230 : Index := Scalar.indexCast v229
  let c80_112 : Index := 80#32
  ![v230.toNat, 80]
def k0_off121 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v240 : Index := Scalar.indexCast v85
  let c80_115 : Index := 80#32
  ![v240.toNat, 80]
def k0_off122 (k0_t4 : Fin k0_t4_loop.trips) (c128_i32_116 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v243 : BitVec 32 := Scalar.addi c128_i32_116 v85
  let v244 : Index := Scalar.indexCast v243
  let c80_117 : Index := 80#32
  ![v244.toNat, 80]
def k0_off123 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v254 : Index := Scalar.indexCast v84
  let c96 : Index := 96#32
  ![v254.toNat, 96]
def k0_off124 (k0_t4 : Fin k0_t4_loop.trips) (c128_i32_120 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v257 : BitVec 32 := Scalar.addi c128_i32_120 v84
  let v258 : Index := Scalar.indexCast v257
  let c96_121 : Index := 96#32
  ![v258.toNat, 96]
def k0_off125 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v268 : Index := Scalar.indexCast v85
  let c96_124 : Index := 96#32
  ![v268.toNat, 96]
def k0_off126 (k0_t4 : Fin k0_t4_loop.trips) (c128_i32_125 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v271 : BitVec 32 := Scalar.addi c128_i32_125 v85
  let v272 : Index := Scalar.indexCast v271
  let c96_126 : Index := 96#32
  ![v272.toNat, 96]
def k0_off127 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v282 : Index := Scalar.indexCast v84
  let c112 : Index := 112#32
  ![v282.toNat, 112]
def k0_off128 (k0_t4 : Fin k0_t4_loop.trips) (c128_i32_129 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let v285 : BitVec 32 := Scalar.addi c128_i32_129 v84
  let v286 : Index := Scalar.indexCast v285
  let c112_130 : Index := 112#32
  ![v286.toNat, 112]
def k0_off129 (k0_t4 : Fin k0_t4_loop.trips) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v296 : Index := Scalar.indexCast v85
  let c112_133 : Index := 112#32
  ![v296.toNat, 112]
def k0_off130 (k0_t4 : Fin k0_t4_loop.trips) (c128_i32_134 : BitVec 32) : Fin 2 → Nat :=
  let c2_i32_65 : BitVec 32 := 2#32
  let c0_i32_61 : BitVec 32 := 0#32
  let c1_i32_63 : BitVec 32 := 1#32
  let arg13 : BitVec 32 := Scf.iv c0_i32_61 c1_i32_63 k0_t4
  let v84 : BitVec 32 := Scalar.muli c2_i32_65 arg13
  let c1_i32_66 : BitVec 32 := 1#32
  let v85 : BitVec 32 := Scalar.addi v84 c1_i32_66
  let v299 : BitVec 32 := Scalar.addi c128_i32_134 v85
  let v300 : Index := Scalar.indexCast v299
  let c112_135 : Index := 112#32
  ![v300.toNat, 112]
def k0_off131 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S32x4x1x128 : S16384.ShapeCasts S32x4x1x128
  shapeCasts_S16384x1_S32x4x1x128 : S16384x1.ShapeCasts S32x4x1x128
  concatenates_S32x4x1x128_S32x4x1x128_S32x4x1x128_S32x4x3x128_d2 : Shape.Concatenates [S32x4x1x128, S32x4x1x128, S32x4x1x128] S32x4x3x128 2
  shapeCasts_S32x4x3x128_S32x1536 : S32x4x3x128.ShapeCasts S32x1536
  inb_S1536_S384_0 : ∀ a, (![0] : Fin 1 → Nat) a + S384.size a ≤ S1536.size a
  squeezes_S1x384_S384 : S1x384.Squeezes S384
  inb_S1536_S1152_384 : ∀ a, (![384] : Fin 1 → Nat) a + S1152.size a ≤ S1536.size a
  squeezes_S1x1152_S1152 : S1x1152.Squeezes S1152
  inb_S1000000x128_S1000000x128_0_0 : ∀ a, (![0, 0] : Fin 2 → Nat) a + S1000000x128.size a ≤ S1000000x128.size a
  gathers_S1000000x128_S384x128 : S1000000x128.Gathers 0 S384x128
  inb_S1536_S384_384 : ∀ a, (![384] : Fin 1 → Nat) a + S384.size a ≤ S1536.size a
  h_S1x16 : 0 < S1x16.numel
  shapeCasts_S1x16_S16 : S1x16.ShapeCasts S16
  inb_S1536_S384_768 : ∀ a, (![768] : Fin 1 → Nat) a + S384.size a ≤ S1536.size a
  inb_S1536_S384_1152 : ∀ a, (![1152] : Fin 1 → Nat) a + S384.size a ≤ S1536.size a
  inb_S16_S16_0 : ∀ a, (![0] : Fin 1 → Nat) a + S16.size a ≤ S16.size a
  h_S16 : 0 < S16.numel
  shapeCasts_S16_S16 : S16.ShapeCasts S16
  squeezes_S1x16_S16 : S1x16.Squeezes S16
  reducesTo_S32x16_S_d0_1 : S32x16.ReducesTo [0, 1] S_
  h_S_ : 0 < S_.numel
  hcc0_scratch4 : 0 + S_.numel ≤ 5
  hcc0_scratch5 : 1 + S_.numel ≤ 5
  hcc0_scratch6 : 2 + S_.numel ≤ 5
  hcc0_scratch7 : 3 + S_.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x384.size a ≤ S32x1536.size a
  k0_off2_inb : ∀ i : grid0.Coords, ∀ a, (k0_off2 i) a + S1x1152.size a ≤ S32x1536.size a
  k0_t1_ok : k0_t1_loop.OK
  k0_off3_inb : ∀ k0_t1 : Fin k0_t1_loop.trips, ∀ a, (k0_off3 k0_t1) a + S1x16.size a ≤ S384x128.size a
  k0_off4_inb : ∀ k0_t1 : Fin k0_t1_loop.trips, ∀ (r : Fin 2), ∀ a, (k0_off4 k0_t1 (BitVec.ofNat 32 (128 + 128 * r.val))) a + S1x16.size a ≤ S384x128.size a
  k0_off5_inb : ∀ k0_t1 : Fin k0_t1_loop.trips, ∀ a, (k0_off5 k0_t1) a + S1x16.size a ≤ S384x128.size a
  k0_off6_inb : ∀ k0_t1 : Fin k0_t1_loop.trips, ∀ (r : Fin 2), ∀ a, (k0_off6 k0_t1 (BitVec.ofNat 32 (128 + 128 * r.val))) a + S1x16.size a ≤ S384x128.size a
  k0_off7_inb : ∀ k0_t1 : Fin k0_t1_loop.trips, ∀ a, (k0_off7 k0_t1) a + S1x16.size a ≤ S384x128.size a
  k0_off8_inb : ∀ k0_t1 : Fin k0_t1_loop.trips, ∀ (r : Fin 2), ∀ a, (k0_off8 k0_t1 (BitVec.ofNat 32 (128 + 128 * r.val))) a + S1x16.size a ≤ S384x128.size a
  k0_off9_inb : ∀ k0_t1 : Fin k0_t1_loop.trips, ∀ a, (k0_off9 k0_t1) a + S1x16.size a ≤ S384x128.size a
  k0_off10_inb : ∀ k0_t1 : Fin k0_t1_loop.trips, ∀ (r : Fin 2), ∀ a, (k0_off10 k0_t1 (BitVec.ofNat 32 (128 + 128 * r.val))) a + S1x16.size a ≤ S384x128.size a
  k0_off11_inb : ∀ k0_t1 : Fin k0_t1_loop.trips, ∀ a, (k0_off11 k0_t1) a + S1x16.size a ≤ S384x128.size a
  k0_off12_inb : ∀ k0_t1 : Fin k0_t1_loop.trips, ∀ (r : Fin 2), ∀ a, (k0_off12 k0_t1 (BitVec.ofNat 32 (128 + 128 * r.val))) a + S1x16.size a ≤ S384x128.size a
  k0_off13_inb : ∀ k0_t1 : Fin k0_t1_loop.trips, ∀ a, (k0_off13 k0_t1) a + S1x16.size a ≤ S384x128.size a
  k0_off14_inb : ∀ k0_t1 : Fin k0_t1_loop.trips, ∀ (r : Fin 2), ∀ a, (k0_off14 k0_t1 (BitVec.ofNat 32 (128 + 128 * r.val))) a + S1x16.size a ≤ S384x128.size a
  k0_off15_inb : ∀ k0_t1 : Fin k0_t1_loop.trips, ∀ a, (k0_off15 k0_t1) a + S1x16.size a ≤ S384x128.size a
  k0_off16_inb : ∀ k0_t1 : Fin k0_t1_loop.trips, ∀ (r : Fin 2), ∀ a, (k0_off16 k0_t1 (BitVec.ofNat 32 (128 + 128 * r.val))) a + S1x16.size a ≤ S384x128.size a
  k0_off17_inb : ∀ k0_t1 : Fin k0_t1_loop.trips, ∀ a, (k0_off17 k0_t1) a + S1x16.size a ≤ S384x128.size a
  k0_off18_inb : ∀ k0_t1 : Fin k0_t1_loop.trips, ∀ (r : Fin 2), ∀ a, (k0_off18 k0_t1 (BitVec.ofNat 32 (128 + 128 * r.val))) a + S1x16.size a ≤ S384x128.size a
  k0_off19_inb : ∀ k0_t1 : Fin k0_t1_loop.trips, ∀ a, (k0_off19 k0_t1) a + S1x16.size a ≤ S384x128.size a
  k0_off20_inb : ∀ k0_t1 : Fin k0_t1_loop.trips, ∀ (r : Fin 2), ∀ a, (k0_off20 k0_t1 (BitVec.ofNat 32 (128 + 128 * r.val))) a + S1x16.size a ≤ S384x128.size a
  k0_off21_inb : ∀ k0_t1 : Fin k0_t1_loop.trips, ∀ a, (k0_off21 k0_t1) a + S1x16.size a ≤ S384x128.size a
  k0_off22_inb : ∀ k0_t1 : Fin k0_t1_loop.trips, ∀ (r : Fin 2), ∀ a, (k0_off22 k0_t1 (BitVec.ofNat 32 (128 + 128 * r.val))) a + S1x16.size a ≤ S384x128.size a
  k0_off23_inb : ∀ k0_t1 : Fin k0_t1_loop.trips, ∀ a, (k0_off23 k0_t1) a + S1x16.size a ≤ S384x128.size a
  k0_off24_inb : ∀ k0_t1 : Fin k0_t1_loop.trips, ∀ (r : Fin 2), ∀ a, (k0_off24 k0_t1 (BitVec.ofNat 32 (128 + 128 * r.val))) a + S1x16.size a ≤ S384x128.size a
  k0_off25_inb : ∀ k0_t1 : Fin k0_t1_loop.trips, ∀ a, (k0_off25 k0_t1) a + S1x16.size a ≤ S384x128.size a
  k0_off26_inb : ∀ k0_t1 : Fin k0_t1_loop.trips, ∀ (r : Fin 2), ∀ a, (k0_off26 k0_t1 (BitVec.ofNat 32 (128 + 128 * r.val))) a + S1x16.size a ≤ S384x128.size a
  k0_off27_inb : ∀ k0_t1 : Fin k0_t1_loop.trips, ∀ a, (k0_off27 k0_t1) a + S1x16.size a ≤ S384x128.size a
  k0_off28_inb : ∀ k0_t1 : Fin k0_t1_loop.trips, ∀ (r : Fin 2), ∀ a, (k0_off28 k0_t1 (BitVec.ofNat 32 (128 + 128 * r.val))) a + S1x16.size a ≤ S384x128.size a
  k0_off29_inb : ∀ k0_t1 : Fin k0_t1_loop.trips, ∀ a, (k0_off29 k0_t1) a + S1x16.size a ≤ S384x128.size a
  k0_off30_inb : ∀ k0_t1 : Fin k0_t1_loop.trips, ∀ (r : Fin 2), ∀ a, (k0_off30 k0_t1 (BitVec.ofNat 32 (128 + 128 * r.val))) a + S1x16.size a ≤ S384x128.size a
  k0_off31_inb : ∀ k0_t1 : Fin k0_t1_loop.trips, ∀ a, (k0_off31 k0_t1) a + S1x16.size a ≤ S384x128.size a
  k0_off32_inb : ∀ k0_t1 : Fin k0_t1_loop.trips, ∀ (r : Fin 2), ∀ a, (k0_off32 k0_t1 (BitVec.ofNat 32 (128 + 128 * r.val))) a + S1x16.size a ≤ S384x128.size a
  k0_off33_inb : ∀ k0_t1 : Fin k0_t1_loop.trips, ∀ a, (k0_off33 k0_t1) a + S1x16.size a ≤ S384x128.size a
  k0_off34_inb : ∀ k0_t1 : Fin k0_t1_loop.trips, ∀ (r : Fin 2), ∀ a, (k0_off34 k0_t1 (BitVec.ofNat 32 (128 + 128 * r.val))) a + S1x16.size a ≤ S384x128.size a
  k0_t2_ok : k0_t2_loop.OK
  k0_off35_inb : ∀ k0_t2 : Fin k0_t2_loop.trips, ∀ a, (k0_off35 k0_t2) a + S1x16.size a ≤ S384x128.size a
  k0_off36_inb : ∀ k0_t2 : Fin k0_t2_loop.trips, ∀ (r : Fin 2), ∀ a, (k0_off36 k0_t2 (BitVec.ofNat 32 (128 + 128 * r.val))) a + S1x16.size a ≤ S384x128.size a
  k0_off37_inb : ∀ k0_t2 : Fin k0_t2_loop.trips, ∀ a, (k0_off37 k0_t2) a + S1x16.size a ≤ S384x128.size a
  k0_off38_inb : ∀ k0_t2 : Fin k0_t2_loop.trips, ∀ (r : Fin 2), ∀ a, (k0_off38 k0_t2 (BitVec.ofNat 32 (128 + 128 * r.val))) a + S1x16.size a ≤ S384x128.size a
  k0_off39_inb : ∀ k0_t2 : Fin k0_t2_loop.trips, ∀ a, (k0_off39 k0_t2) a + S1x16.size a ≤ S384x128.size a
  k0_off40_inb : ∀ k0_t2 : Fin k0_t2_loop.trips, ∀ (r : Fin 2), ∀ a, (k0_off40 k0_t2 (BitVec.ofNat 32 (128 + 128 * r.val))) a + S1x16.size a ≤ S384x128.size a
  k0_off41_inb : ∀ k0_t2 : Fin k0_t2_loop.trips, ∀ a, (k0_off41 k0_t2) a + S1x16.size a ≤ S384x128.size a
  k0_off42_inb : ∀ k0_t2 : Fin k0_t2_loop.trips, ∀ (r : Fin 2), ∀ a, (k0_off42 k0_t2 (BitVec.ofNat 32 (128 + 128 * r.val))) a + S1x16.size a ≤ S384x128.size a
  k0_off43_inb : ∀ k0_t2 : Fin k0_t2_loop.trips, ∀ a, (k0_off43 k0_t2) a + S1x16.size a ≤ S384x128.size a
  k0_off44_inb : ∀ k0_t2 : Fin k0_t2_loop.trips, ∀ (r : Fin 2), ∀ a, (k0_off44 k0_t2 (BitVec.ofNat 32 (128 + 128 * r.val))) a + S1x16.size a ≤ S384x128.size a
  k0_off45_inb : ∀ k0_t2 : Fin k0_t2_loop.trips, ∀ a, (k0_off45 k0_t2) a + S1x16.size a ≤ S384x128.size a
  k0_off46_inb : ∀ k0_t2 : Fin k0_t2_loop.trips, ∀ (r : Fin 2), ∀ a, (k0_off46 k0_t2 (BitVec.ofNat 32 (128 + 128 * r.val))) a + S1x16.size a ≤ S384x128.size a
  k0_off47_inb : ∀ k0_t2 : Fin k0_t2_loop.trips, ∀ a, (k0_off47 k0_t2) a + S1x16.size a ≤ S384x128.size a
  k0_off48_inb : ∀ k0_t2 : Fin k0_t2_loop.trips, ∀ (r : Fin 2), ∀ a, (k0_off48 k0_t2 (BitVec.ofNat 32 (128 + 128 * r.val))) a + S1x16.size a ≤ S384x128.size a
  k0_off49_inb : ∀ k0_t2 : Fin k0_t2_loop.trips, ∀ a, (k0_off49 k0_t2) a + S1x16.size a ≤ S384x128.size a
  k0_off50_inb : ∀ k0_t2 : Fin k0_t2_loop.trips, ∀ (r : Fin 2), ∀ a, (k0_off50 k0_t2 (BitVec.ofNat 32 (128 + 128 * r.val))) a + S1x16.size a ≤ S384x128.size a
  k0_off51_inb : ∀ k0_t2 : Fin k0_t2_loop.trips, ∀ a, (k0_off51 k0_t2) a + S1x16.size a ≤ S384x128.size a
  k0_off52_inb : ∀ k0_t2 : Fin k0_t2_loop.trips, ∀ (r : Fin 2), ∀ a, (k0_off52 k0_t2 (BitVec.ofNat 32 (128 + 128 * r.val))) a + S1x16.size a ≤ S384x128.size a
  k0_off53_inb : ∀ k0_t2 : Fin k0_t2_loop.trips, ∀ a, (k0_off53 k0_t2) a + S1x16.size a ≤ S384x128.size a
  k0_off54_inb : ∀ k0_t2 : Fin k0_t2_loop.trips, ∀ (r : Fin 2), ∀ a, (k0_off54 k0_t2 (BitVec.ofNat 32 (128 + 128 * r.val))) a + S1x16.size a ≤ S384x128.size a
  k0_off55_inb : ∀ k0_t2 : Fin k0_t2_loop.trips, ∀ a, (k0_off55 k0_t2) a + S1x16.size a ≤ S384x128.size a
  k0_off56_inb : ∀ k0_t2 : Fin k0_t2_loop.trips, ∀ (r : Fin 2), ∀ a, (k0_off56 k0_t2 (BitVec.ofNat 32 (128 + 128 * r.val))) a + S1x16.size a ≤ S384x128.size a
  k0_off57_inb : ∀ k0_t2 : Fin k0_t2_loop.trips, ∀ a, (k0_off57 k0_t2) a + S1x16.size a ≤ S384x128.size a
  k0_off58_inb : ∀ k0_t2 : Fin k0_t2_loop.trips, ∀ (r : Fin 2), ∀ a, (k0_off58 k0_t2 (BitVec.ofNat 32 (128 + 128 * r.val))) a + S1x16.size a ≤ S384x128.size a
  k0_off59_inb : ∀ k0_t2 : Fin k0_t2_loop.trips, ∀ a, (k0_off59 k0_t2) a + S1x16.size a ≤ S384x128.size a
  k0_off60_inb : ∀ k0_t2 : Fin k0_t2_loop.trips, ∀ (r : Fin 2), ∀ a, (k0_off60 k0_t2 (BitVec.ofNat 32 (128 + 128 * r.val))) a + S1x16.size a ≤ S384x128.size a
  k0_off61_inb : ∀ k0_t2 : Fin k0_t2_loop.trips, ∀ a, (k0_off61 k0_t2) a + S1x16.size a ≤ S384x128.size a
  k0_off62_inb : ∀ k0_t2 : Fin k0_t2_loop.trips, ∀ (r : Fin 2), ∀ a, (k0_off62 k0_t2 (BitVec.ofNat 32 (128 + 128 * r.val))) a + S1x16.size a ≤ S384x128.size a
  k0_off63_inb : ∀ k0_t2 : Fin k0_t2_loop.trips, ∀ a, (k0_off63 k0_t2) a + S1x16.size a ≤ S384x128.size a
  k0_off64_inb : ∀ k0_t2 : Fin k0_t2_loop.trips, ∀ (r : Fin 2), ∀ a, (k0_off64 k0_t2 (BitVec.ofNat 32 (128 + 128 * r.val))) a + S1x16.size a ≤ S384x128.size a
  k0_off65_inb : ∀ k0_t2 : Fin k0_t2_loop.trips, ∀ a, (k0_off65 k0_t2) a + S1x16.size a ≤ S384x128.size a
  k0_off66_inb : ∀ k0_t2 : Fin k0_t2_loop.trips, ∀ (r : Fin 2), ∀ a, (k0_off66 k0_t2 (BitVec.ofNat 32 (128 + 128 * r.val))) a + S1x16.size a ≤ S384x128.size a
  k0_t3_ok : k0_t3_loop.OK
  k0_off67_inb : ∀ k0_t3 : Fin k0_t3_loop.trips, ∀ a, (k0_off67 k0_t3) a + S1x16.size a ≤ S384x128.size a
  k0_off68_inb : ∀ k0_t3 : Fin k0_t3_loop.trips, ∀ (r : Fin 2), ∀ a, (k0_off68 k0_t3 (BitVec.ofNat 32 (128 + 128 * r.val))) a + S1x16.size a ≤ S384x128.size a
  k0_off69_inb : ∀ k0_t3 : Fin k0_t3_loop.trips, ∀ a, (k0_off69 k0_t3) a + S1x16.size a ≤ S384x128.size a
  k0_off70_inb : ∀ k0_t3 : Fin k0_t3_loop.trips, ∀ (r : Fin 2), ∀ a, (k0_off70 k0_t3 (BitVec.ofNat 32 (128 + 128 * r.val))) a + S1x16.size a ≤ S384x128.size a
  k0_off71_inb : ∀ k0_t3 : Fin k0_t3_loop.trips, ∀ a, (k0_off71 k0_t3) a + S1x16.size a ≤ S384x128.size a
  k0_off72_inb : ∀ k0_t3 : Fin k0_t3_loop.trips, ∀ (r : Fin 2), ∀ a, (k0_off72 k0_t3 (BitVec.ofNat 32 (128 + 128 * r.val))) a + S1x16.size a ≤ S384x128.size a
  k0_off73_inb : ∀ k0_t3 : Fin k0_t3_loop.trips, ∀ a, (k0_off73 k0_t3) a + S1x16.size a ≤ S384x128.size a
  k0_off74_inb : ∀ k0_t3 : Fin k0_t3_loop.trips, ∀ (r : Fin 2), ∀ a, (k0_off74 k0_t3 (BitVec.ofNat 32 (128 + 128 * r.val))) a + S1x16.size a ≤ S384x128.size a
  k0_off75_inb : ∀ k0_t3 : Fin k0_t3_loop.trips, ∀ a, (k0_off75 k0_t3) a + S1x16.size a ≤ S384x128.size a
  k0_off76_inb : ∀ k0_t3 : Fin k0_t3_loop.trips, ∀ (r : Fin 2), ∀ a, (k0_off76 k0_t3 (BitVec.ofNat 32 (128 + 128 * r.val))) a + S1x16.size a ≤ S384x128.size a
  k0_off77_inb : ∀ k0_t3 : Fin k0_t3_loop.trips, ∀ a, (k0_off77 k0_t3) a + S1x16.size a ≤ S384x128.size a
  k0_off78_inb : ∀ k0_t3 : Fin k0_t3_loop.trips, ∀ (r : Fin 2), ∀ a, (k0_off78 k0_t3 (BitVec.ofNat 32 (128 + 128 * r.val))) a + S1x16.size a ≤ S384x128.size a
  k0_off79_inb : ∀ k0_t3 : Fin k0_t3_loop.trips, ∀ a, (k0_off79 k0_t3) a + S1x16.size a ≤ S384x128.size a
  k0_off80_inb : ∀ k0_t3 : Fin k0_t3_loop.trips, ∀ (r : Fin 2), ∀ a, (k0_off80 k0_t3 (BitVec.ofNat 32 (128 + 128 * r.val))) a + S1x16.size a ≤ S384x128.size a
  k0_off81_inb : ∀ k0_t3 : Fin k0_t3_loop.trips, ∀ a, (k0_off81 k0_t3) a + S1x16.size a ≤ S384x128.size a
  k0_off82_inb : ∀ k0_t3 : Fin k0_t3_loop.trips, ∀ (r : Fin 2), ∀ a, (k0_off82 k0_t3 (BitVec.ofNat 32 (128 + 128 * r.val))) a + S1x16.size a ≤ S384x128.size a
  k0_off83_inb : ∀ k0_t3 : Fin k0_t3_loop.trips, ∀ a, (k0_off83 k0_t3) a + S1x16.size a ≤ S384x128.size a
  k0_off84_inb : ∀ k0_t3 : Fin k0_t3_loop.trips, ∀ (r : Fin 2), ∀ a, (k0_off84 k0_t3 (BitVec.ofNat 32 (128 + 128 * r.val))) a + S1x16.size a ≤ S384x128.size a
  k0_off85_inb : ∀ k0_t3 : Fin k0_t3_loop.trips, ∀ a, (k0_off85 k0_t3) a + S1x16.size a ≤ S384x128.size a
  k0_off86_inb : ∀ k0_t3 : Fin k0_t3_loop.trips, ∀ (r : Fin 2), ∀ a, (k0_off86 k0_t3 (BitVec.ofNat 32 (128 + 128 * r.val))) a + S1x16.size a ≤ S384x128.size a
  k0_off87_inb : ∀ k0_t3 : Fin k0_t3_loop.trips, ∀ a, (k0_off87 k0_t3) a + S1x16.size a ≤ S384x128.size a
  k0_off88_inb : ∀ k0_t3 : Fin k0_t3_loop.trips, ∀ (r : Fin 2), ∀ a, (k0_off88 k0_t3 (BitVec.ofNat 32 (128 + 128 * r.val))) a + S1x16.size a ≤ S384x128.size a
  k0_off89_inb : ∀ k0_t3 : Fin k0_t3_loop.trips, ∀ a, (k0_off89 k0_t3) a + S1x16.size a ≤ S384x128.size a
  k0_off90_inb : ∀ k0_t3 : Fin k0_t3_loop.trips, ∀ (r : Fin 2), ∀ a, (k0_off90 k0_t3 (BitVec.ofNat 32 (128 + 128 * r.val))) a + S1x16.size a ≤ S384x128.size a
  k0_off91_inb : ∀ k0_t3 : Fin k0_t3_loop.trips, ∀ a, (k0_off91 k0_t3) a + S1x16.size a ≤ S384x128.size a
  k0_off92_inb : ∀ k0_t3 : Fin k0_t3_loop.trips, ∀ (r : Fin 2), ∀ a, (k0_off92 k0_t3 (BitVec.ofNat 32 (128 + 128 * r.val))) a + S1x16.size a ≤ S384x128.size a
  k0_off93_inb : ∀ k0_t3 : Fin k0_t3_loop.trips, ∀ a, (k0_off93 k0_t3) a + S1x16.size a ≤ S384x128.size a
  k0_off94_inb : ∀ k0_t3 : Fin k0_t3_loop.trips, ∀ (r : Fin 2), ∀ a, (k0_off94 k0_t3 (BitVec.ofNat 32 (128 + 128 * r.val))) a + S1x16.size a ≤ S384x128.size a
  k0_off95_inb : ∀ k0_t3 : Fin k0_t3_loop.trips, ∀ a, (k0_off95 k0_t3) a + S1x16.size a ≤ S384x128.size a
  k0_off96_inb : ∀ k0_t3 : Fin k0_t3_loop.trips, ∀ (r : Fin 2), ∀ a, (k0_off96 k0_t3 (BitVec.ofNat 32 (128 + 128 * r.val))) a + S1x16.size a ≤ S384x128.size a
  k0_off97_inb : ∀ k0_t3 : Fin k0_t3_loop.trips, ∀ a, (k0_off97 k0_t3) a + S1x16.size a ≤ S384x128.size a
  k0_off98_inb : ∀ k0_t3 : Fin k0_t3_loop.trips, ∀ (r : Fin 2), ∀ a, (k0_off98 k0_t3 (BitVec.ofNat 32 (128 + 128 * r.val))) a + S1x16.size a ≤ S384x128.size a
  k0_t4_ok : k0_t4_loop.OK
  k0_off99_inb : ∀ k0_t4 : Fin k0_t4_loop.trips, ∀ a, (k0_off99 k0_t4) a + S1x16.size a ≤ S384x128.size a
  k0_off100_inb : ∀ k0_t4 : Fin k0_t4_loop.trips, ∀ (r : Fin 2), ∀ a, (k0_off100 k0_t4 (BitVec.ofNat 32 (128 + 128 * r.val))) a + S1x16.size a ≤ S384x128.size a
  k0_off101_inb : ∀ k0_t4 : Fin k0_t4_loop.trips, ∀ a, (k0_off101 k0_t4) a + S1x16.size a ≤ S384x128.size a
  k0_off102_inb : ∀ k0_t4 : Fin k0_t4_loop.trips, ∀ (r : Fin 2), ∀ a, (k0_off102 k0_t4 (BitVec.ofNat 32 (128 + 128 * r.val))) a + S1x16.size a ≤ S384x128.size a
  k0_off103_inb : ∀ k0_t4 : Fin k0_t4_loop.trips, ∀ a, (k0_off103 k0_t4) a + S1x16.size a ≤ S384x128.size a
  k0_off104_inb : ∀ k0_t4 : Fin k0_t4_loop.trips, ∀ (r : Fin 2), ∀ a, (k0_off104 k0_t4 (BitVec.ofNat 32 (128 + 128 * r.val))) a + S1x16.size a ≤ S384x128.size a
  k0_off105_inb : ∀ k0_t4 : Fin k0_t4_loop.trips, ∀ a, (k0_off105 k0_t4) a + S1x16.size a ≤ S384x128.size a
  k0_off106_inb : ∀ k0_t4 : Fin k0_t4_loop.trips, ∀ (r : Fin 2), ∀ a, (k0_off106 k0_t4 (BitVec.ofNat 32 (128 + 128 * r.val))) a + S1x16.size a ≤ S384x128.size a
  k0_off107_inb : ∀ k0_t4 : Fin k0_t4_loop.trips, ∀ a, (k0_off107 k0_t4) a + S1x16.size a ≤ S384x128.size a
  k0_off108_inb : ∀ k0_t4 : Fin k0_t4_loop.trips, ∀ (r : Fin 2), ∀ a, (k0_off108 k0_t4 (BitVec.ofNat 32 (128 + 128 * r.val))) a + S1x16.size a ≤ S384x128.size a
  k0_off109_inb : ∀ k0_t4 : Fin k0_t4_loop.trips, ∀ a, (k0_off109 k0_t4) a + S1x16.size a ≤ S384x128.size a
  k0_off110_inb : ∀ k0_t4 : Fin k0_t4_loop.trips, ∀ (r : Fin 2), ∀ a, (k0_off110 k0_t4 (BitVec.ofNat 32 (128 + 128 * r.val))) a + S1x16.size a ≤ S384x128.size a
  k0_off111_inb : ∀ k0_t4 : Fin k0_t4_loop.trips, ∀ a, (k0_off111 k0_t4) a + S1x16.size a ≤ S384x128.size a
  k0_off112_inb : ∀ k0_t4 : Fin k0_t4_loop.trips, ∀ (r : Fin 2), ∀ a, (k0_off112 k0_t4 (BitVec.ofNat 32 (128 + 128 * r.val))) a + S1x16.size a ≤ S384x128.size a
  k0_off113_inb : ∀ k0_t4 : Fin k0_t4_loop.trips, ∀ a, (k0_off113 k0_t4) a + S1x16.size a ≤ S384x128.size a
  k0_off114_inb : ∀ k0_t4 : Fin k0_t4_loop.trips, ∀ (r : Fin 2), ∀ a, (k0_off114 k0_t4 (BitVec.ofNat 32 (128 + 128 * r.val))) a + S1x16.size a ≤ S384x128.size a
  k0_off115_inb : ∀ k0_t4 : Fin k0_t4_loop.trips, ∀ a, (k0_off115 k0_t4) a + S1x16.size a ≤ S384x128.size a
  k0_off116_inb : ∀ k0_t4 : Fin k0_t4_loop.trips, ∀ (r : Fin 2), ∀ a, (k0_off116 k0_t4 (BitVec.ofNat 32 (128 + 128 * r.val))) a + S1x16.size a ≤ S384x128.size a
  k0_off117_inb : ∀ k0_t4 : Fin k0_t4_loop.trips, ∀ a, (k0_off117 k0_t4) a + S1x16.size a ≤ S384x128.size a
  k0_off118_inb : ∀ k0_t4 : Fin k0_t4_loop.trips, ∀ (r : Fin 2), ∀ a, (k0_off118 k0_t4 (BitVec.ofNat 32 (128 + 128 * r.val))) a + S1x16.size a ≤ S384x128.size a
  k0_off119_inb : ∀ k0_t4 : Fin k0_t4_loop.trips, ∀ a, (k0_off119 k0_t4) a + S1x16.size a ≤ S384x128.size a
  k0_off120_inb : ∀ k0_t4 : Fin k0_t4_loop.trips, ∀ (r : Fin 2), ∀ a, (k0_off120 k0_t4 (BitVec.ofNat 32 (128 + 128 * r.val))) a + S1x16.size a ≤ S384x128.size a
  k0_off121_inb : ∀ k0_t4 : Fin k0_t4_loop.trips, ∀ a, (k0_off121 k0_t4) a + S1x16.size a ≤ S384x128.size a
  k0_off122_inb : ∀ k0_t4 : Fin k0_t4_loop.trips, ∀ (r : Fin 2), ∀ a, (k0_off122 k0_t4 (BitVec.ofNat 32 (128 + 128 * r.val))) a + S1x16.size a ≤ S384x128.size a
  k0_off123_inb : ∀ k0_t4 : Fin k0_t4_loop.trips, ∀ a, (k0_off123 k0_t4) a + S1x16.size a ≤ S384x128.size a
  k0_off124_inb : ∀ k0_t4 : Fin k0_t4_loop.trips, ∀ (r : Fin 2), ∀ a, (k0_off124 k0_t4 (BitVec.ofNat 32 (128 + 128 * r.val))) a + S1x16.size a ≤ S384x128.size a
  k0_off125_inb : ∀ k0_t4 : Fin k0_t4_loop.trips, ∀ a, (k0_off125 k0_t4) a + S1x16.size a ≤ S384x128.size a
  k0_off126_inb : ∀ k0_t4 : Fin k0_t4_loop.trips, ∀ (r : Fin 2), ∀ a, (k0_off126 k0_t4 (BitVec.ofNat 32 (128 + 128 * r.val))) a + S1x16.size a ≤ S384x128.size a
  k0_off127_inb : ∀ k0_t4 : Fin k0_t4_loop.trips, ∀ a, (k0_off127 k0_t4) a + S1x16.size a ≤ S384x128.size a
  k0_off128_inb : ∀ k0_t4 : Fin k0_t4_loop.trips, ∀ (r : Fin 2), ∀ a, (k0_off128 k0_t4 (BitVec.ofNat 32 (128 + 128 * r.val))) a + S1x16.size a ≤ S384x128.size a
  k0_off129_inb : ∀ k0_t4 : Fin k0_t4_loop.trips, ∀ a, (k0_off129 k0_t4) a + S1x16.size a ≤ S384x128.size a
  k0_off130_inb : ∀ k0_t4 : Fin k0_t4_loop.trips, ∀ (r : Fin 2), ∀ a, (k0_off130 k0_t4 (BitVec.ofNat 32 (128 + 128 * r.val))) a + S1x16.size a ≤ S384x128.size a
  k0_off131_inb : ∀ i : grid0.Coords, ∀ a, (k0_off131 i) a + S1x16.size a ≤ S32x16.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scoped0 : DmaSems sig S_ := SemArray.consecutive 4 S_ hcc0_scoped0

class Facts : Prop extends Facts₀ where

variable [Facts]
-- ==== ReferenceIdeal.lean ====
abbrev S16384 : Shape := ⟨1, ![16384]⟩
abbrev S16384x1 : Shape := ⟨2, ![16384, 1]⟩
abbrev S1000000x128 : Shape := ⟨2, ![1000000, 128]⟩
abbrev S_ : Shape := ⟨0, ![]⟩
abbrev S1 : Shape := ⟨1, ![1]⟩
abbrev S1x1 : Shape := ⟨2, ![1, 1]⟩
abbrev S16384x128 : Shape := ⟨2, ![16384, 128]⟩
abbrev S16384x1x1 : Shape := ⟨3, ![16384, 1, 1]⟩
abbrev S1x1x1 : Shape := ⟨3, ![1, 1, 1]⟩
abbrev S16384x1x128 : Shape := ⟨3, ![16384, 1, 128]⟩

abbrev nBuf : Space → Nat
  | .hbm => 92
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x1, .i32⟩
  | .hbm, ⟨3, _⟩ => ⟨S1000000x128, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x128, .f32⟩
  | .hbm, ⟨23, _⟩ => ⟨S16384x128, .i1⟩
  | .hbm, ⟨24, _⟩ => ⟨S_, .f32⟩
  | .hbm, ⟨25, _⟩ => ⟨S16384x128, .f32⟩
  | .hbm, ⟨26, _⟩ => ⟨S16384x128, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x128, .f32⟩
  | .hbm, ⟨46, _⟩ => ⟨S16384x128, .i1⟩
  | .hbm, ⟨47, _⟩ => ⟨S_, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S_, .f32⟩
  | .hbm, ⟨52, _⟩ => ⟨S16384, .f32⟩
  | .hbm, ⟨53, _⟩ => ⟨S_, .i32⟩
  | .hbm, ⟨54, _⟩ => ⟨S16384x1, .i32⟩
  | .hbm, ⟨55, _⟩ => ⟨S16384x1, .i1⟩
  | .hbm, ⟨56, _⟩ => ⟨S_, .i32⟩
  | .hbm, ⟨57, _⟩ => ⟨S16384x1, .i32⟩
  | .hbm, ⟨58, _⟩ => ⟨S16384x1, .i32⟩
  | .hbm, ⟨59, _⟩ => ⟨S16384x1, .i32⟩
  | .hbm, ⟨60, _⟩ => ⟨S16384x1x1, .i32⟩
  | .hbm, ⟨61, _⟩ => ⟨S1, .i32⟩
  | .hbm, ⟨62, _⟩ => ⟨S_, .i32⟩
  | .hbm, ⟨63, _⟩ => ⟨S16384x1x1, .i32⟩
  | .hbm, ⟨64, _⟩ => ⟨S16384x1x1, .i1⟩
  | .hbm, ⟨65, _⟩ => ⟨S1x1x1, .i32⟩
  | .hbm, ⟨66, _⟩ => ⟨S16384x1x1, .i32⟩
  | .hbm, ⟨67, _⟩ => ⟨S16384x1x1, .i1⟩
  | .hbm, ⟨68, _⟩ => ⟨S16384x1x1, .i1⟩
  | .hbm, ⟨69, _⟩ => ⟨S_, .i1⟩
  | .hbm, ⟨70, _⟩ => ⟨S16384x1, .i1⟩
  | .hbm, ⟨71, _⟩ => ⟨S16384x1x128, .f32⟩
  | .hbm, ⟨72, _⟩ => ⟨S16384x1x128, .i1⟩
  | .hbm, ⟨73, _⟩ => ⟨S_, .f32⟩
  | .hbm, ⟨74, _⟩ => ⟨S16384x1x128, .f32⟩
  | .hbm, ⟨75, _⟩ => ⟨S16384x1x128, .f32⟩
  | .hbm, ⟨76, _⟩ => ⟨S16384x1x128, .f32⟩
  | .hbm, ⟨77, _⟩ => ⟨S16384x1x128, .f32⟩
  | .hbm, ⟨78, _⟩ => ⟨S_, .f32⟩
  | .hbm, ⟨79, _⟩ => ⟨S16384x1, .f32⟩
  | .hbm, ⟨80, _⟩ => ⟨S_, .f32⟩
  | .hbm, ⟨81, _⟩ => ⟨S1, .f32⟩
  | .hbm, ⟨82, _⟩ => ⟨S_, .f32⟩
  | .hbm, ⟨83, _⟩ => ⟨S1, .f32⟩
  | .hbm, ⟨84, _⟩ => ⟨S1, .f32⟩
  | .hbm, ⟨85, _⟩ => ⟨S16384, .f32⟩
  | .hbm, ⟨86, _⟩ => ⟨S16384, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_cst : Ref sig .tc := ⟨.hbm, 51, rfl⟩
abbrev main_v3 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v4 : Ref sig .tc := ⟨.hbm, 75, rfl⟩
abbrev main_v5 : Ref sig .tc := ⟨.hbm, 76, rfl⟩
abbrev main_v6 : Ref sig .tc := ⟨.hbm, 77, rfl⟩
abbrev main_cst_0 : Ref sig .tc := ⟨.hbm, 78, rfl⟩
abbrev main_v7 : Ref sig .tc := ⟨.hbm, 79, rfl⟩
abbrev main_cst_1 : Ref sig .tc := ⟨.hbm, 80, rfl⟩
abbrev main_v8 : Ref sig .tc := ⟨.hbm, 81, rfl⟩
abbrev main_cst_2 : Ref sig .tc := ⟨.hbm, 82, rfl⟩
abbrev main_v9 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_cst_3 : Ref sig .tc := ⟨.hbm, 87, rfl⟩
abbrev main_v13 : Ref sig .tc := ⟨.hbm, 88, rfl⟩
abbrev main_cst_4 : Ref sig .tc := ⟨.hbm, 89, rfl⟩
abbrev main_v14 : Ref sig .tc := ⟨.hbm, 90, rfl⟩
abbrev main_v15 : Ref sig .tc := ⟨.hbm, 91, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  reducesTo_S16384x128_S16384_d1 : S16384x128.ReducesTo [1] S16384
  bcast_S16384x1_S16384x1x1_0_1 : S16384x1.BroadcastsInDim S16384x1x1 (![0, 1] : Fin 2 → Fin S16384x1x1.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  bcast_S16384x1_S16384x1x128_0_1 : S16384x1.BroadcastsInDim S16384x1x128 (![0, 1] : Fin 2 → Fin S16384x1x128.rank)
  bcast_S_S16384x1x128 : S_.BroadcastsInDim S16384x1x128 (![] : Fin 0 → Fin S16384x1x128.rank)
  bcast_S16384x128_S16384x1x128_0_2 : S16384x128.BroadcastsInDim S16384x1x128 (![0, 2] : Fin 2 → Fin S16384x1x128.rank)
  reducesTo_S16384x1x128_S16384x1_d2 : S16384x1x128.ReducesTo [2] S16384x1
  reducesTo_S16384x1_S1_d0 : S16384x1.ReducesTo [0] S1
  bcast_S_S1 : S_.BroadcastsInDim S1 (![] : Fin 0 → Fin S1.rank)
  bcast_S1_S16384_0 : S1.BroadcastsInDim S16384 (![0] : Fin 1 → Fin S16384.rank)
  reducesTo_S16384_S_d0 : S16384.ReducesTo [0] S_
  gather_S1000000x128_S16384x1_S16384x128_1_0_n_n_0_1_1128_wf : GatherDims.WF S1000000x128 S16384x1 S16384x128 [1] [0] [] [0] [] 1 ![1, 128]
  gather_S1000000x128_S16384x1x1_S16384x1x128_2_0_n_n_0_2_1128_wf : GatherDims.WF S1000000x128 S16384x1x1 S16384x1x128 [2] [0] [] [0] [] 2 ![1, 128]

variable [Facts₀]

def gather_S1000000x128_S16384x1_S16384x128_1_0_n_n_0_1_1128 : GatherDims S1000000x128 S16384x1 S16384x128 where
  offsetDims := [1]
  collapsedSliceDims := [0]
  operandBatchingDims := []
  startIndicesBatchingDims := []
  startIndexMap := [0]
  indexVectorDim := 1
  sliceSizes := ![1, 128]
  wf := gather_S1000000x128_S16384x1_S16384x128_1_0_n_n_0_1_1128_wf
def gather_S1000000x128_S16384x1x1_S16384x1x128_2_0_n_n_0_2_1128 : GatherDims S1000000x128 S16384x1x1 S16384x1x128 where
  offsetDims := [2]
  collapsedSliceDims := [0]
  operandBatchingDims := []
  startIndicesBatchingDims := []
  startIndexMap := [0]
  indexVectorDim := 2
  sliceSizes := ![1, 128]
  wf := gather_S1000000x128_S16384x1x1_S16384x1x128_2_0_n_n_0_2_1128_wf

class Facts : Prop extends Facts₀ where

variable [Facts]
-- ==== Proof.TilePre.lean ====
/-
  The vocabulary of one vector subcore's task, at a symbolic place (SparseCore `L 0`, subcore `L 1`), for any float instance.

  Worker `w = 2·(L 1) + (L 0)` copies row `w` of the index matrix (1536 words: four chunks of 128 target, 128 context
  and 128 negative row numbers) into its index scratch in two copies, gathers each chunk's 384 table rows into one of
  two row buffers (the next chunk's gather in flight while the current chunk is summed), adds for every pair of rows
  `r, 128 + r, 256 + r` of a chunk and every group of sixteen lanes the product `buf[r] · (buf[128 + r] − buf[256 + r])`
  into sixteen lane-vector accumulators, sums the sixteen accumulators, stores the sum in its output scratch and copies
  it to row `w` of the output.
-/
import proofs.«205315_g4544075399421_cont_8to1_c_355_20_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205315_g4544075399421_cont_8to1_c_355_20_alg».proof.Proof.Gen.KernelIdeal
import proofs.«205315_g4544075399421_cont_8to1_c_355_20_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch -/

/-- The index matrix (32 × 1536), the table, the output (32 × 16), as locations of device `d`. -/
abbrev iLoc (d : Dev nD) : Loc nD τ sig := (SparseCore.T d).loc main_v4
abbrev eLoc (d : Dev nD) : Loc nD τ sig := (SparseCore.T d).loc main_arg3
abbrev oLoc (d : Dev nD) : Loc nD τ sig := (SparseCore.T d).loc main_v5

local notation "iV" => (Memref.whole Cert.KernelIdeal.main_v4_scv : Memref Cert.KernelIdeal.sig Kind.scVector Space.hbm Cert.KernelIdeal.S32x1536 EltTy.i32)
local notation "eV" => (Memref.whole Cert.KernelIdeal.main_arg3_scv : Memref Cert.KernelIdeal.sig Kind.scVector Space.hbm Cert.KernelIdeal.S1000000x128 EltTy.f32)
local notation "oV" => (Memref.whole Cert.KernelIdeal.main_v5_scv : Memref Cert.KernelIdeal.sig Kind.scVector Space.hbm Cert.KernelIdeal.S32x16 EltTy.f32)
local notation "xS" => (Memref.whole Cert.KernelIdeal.cc0_scratch0 : Memref Cert.KernelIdeal.sig Kind.scVector Space.vmem Cert.KernelIdeal.S1536 EltTy.i32)
local notation "aS" => (Memref.whole Cert.KernelIdeal.cc0_scratch1 : Memref Cert.KernelIdeal.sig Kind.scVector Space.vmem Cert.KernelIdeal.S384x128 EltTy.f32)
local notation "bS" => (Memref.whole Cert.KernelIdeal.cc0_scratch2 : Memref Cert.KernelIdeal.sig Kind.scVector Space.vmem Cert.KernelIdeal.S384x128 EltTy.f32)
local notation "tS" => (Memref.whole Cert.KernelIdeal.cc0_scratch3 : Memref Cert.KernelIdeal.sig Kind.scVector Space.vmem Cert.KernelIdeal.S16 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- Row `w` of the output as the task addresses it (one row of sixteen lanes, squeezed). -/
abbrev oRowK (L : grid0.Coords) : Memref sig .scVector .hbm S16 .f32 :=
  ((oV).slice (Rect.unit (s := S32x16) (k0_off131 L) S1x16.size (k0_off131_inb L)) (fun _ => rfl)).squeeze S16 squeezes_S1x16_S16
abbrev oRowSet (L : grid0.Coords) : Finset S32x16.Idx := (oRowK L).view.set

abbrev cA (d : Dev nD) (c : Fin τ.nSC) (i : Fin τ.nSub) : GSem nD τ sig := (V d c i, .dma cc0_scratch4.sem)
abbrev cB (d : Dev nD) (c : Fin τ.nSC) (i : Fin τ.nSub) : GSem nD τ sig := (V d c i, .dma cc0_scratch5.sem)
abbrev cC (d : Dev nD) (c : Fin τ.nSC) (i : Fin τ.nSub) : GSem nD τ sig := (V d c i, .dma cc0_scratch6.sem)
abbrev cD (d : Dev nD) (c : Fin τ.nSC) (i : Fin τ.nSub) : GSem nD τ sig := (V d c i, .dma cc0_scratch7.sem)
abbrev cE (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ semVal (cD d (cV L) (jV L)) 0 ∗ semVal (cE d (cV L) (jV L)) 0
          ∗ bigSep ((((((ownCells (V d (cV L) (jV L))).erase (cA d (cV L) (jV L))).erase (cB d (cV L) (jV L))).erase (cC d (cV L) (jV L))).erase
              (cD d (cV L) (jV L))).erase (cE d (cV L) (jV L))) fun g => semVal g 0) := by
  unfold SparseCore.Cfg.ownSems0
  rw [SparseCore.bigSep_erase' ((mem_ownCells (g := cA d (cV L) (jV L))).mpr ⟨rfl, by
      show (SemLoc.dma cc0_scratch4.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scratch5.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scratch6.sem : SemLoc sig).isScoped .scVector = true; decide⟩⟩⟩),
    SparseCore.bigSep_erase' (Finset.mem_erase.mpr ⟨by simp [cC, cD]; decide, Finset.mem_erase.mpr ⟨by simp [cB, cD]; decide,
      Finset.mem_erase.mpr ⟨by simp [cA, cD]; decide,
      (mem_ownCells (g := cD d (cV L) (jV L))).mpr ⟨rfl, by show (SemLoc.dma cc0_scratch7.sem : SemLoc sig).isScoped .scVector = true; decide⟩⟩⟩⟩),
    SparseCore.bigSep_erase' (Finset.mem_erase.mpr ⟨by simp [cD, cE]; decide, Finset.mem_erase.mpr ⟨by simp [cC, cE]; decide,
      Finset.mem_erase.mpr ⟨by simp [cB, cE]; decide, Finset.mem_erase.mpr ⟨by simp [cA, cE]; decide,
      (mem_ownCells (g := cE d (cV L) (jV L))).mpr ⟨rfl, by show (SemLoc.dma cc0_scoped0.sem : SemLoc sig).isScoped .scVector = true; decide⟩⟩⟩⟩⟩)]

abbrev rX (L : grid0.Coords) : DevRef τ sig := (Proc.scVector (cV L) (jV L)).devRef cc0_scratch0
abbrev rA (L : grid0.Coords) : DevRef τ sig := (Proc.scVector (cV L) (jV L)).devRef cc0_scratch1
abbrev rB (L : grid0.Coords) : DevRef τ sig := (Proc.scVector (cV L) (jV L)).devRef cc0_scratch2
abbrev rT (L : grid0.Coords) : DevRef τ sig := (Proc.scVector (cV L) (jV L)).devRef cc0_scratch3

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (rX L)).erase (rA L)).erase (rB L)).erase (rT L))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := rX L) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := rA L) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := rB L) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector (cV L) (jV L)) (b := rT L) rfl⟩⟩⟩)]

omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_eV (q : PosShare TreeShare) (f : Buf (Elt F) (eLoc d)) :
    ((eV).view.loc (V d (cV L) (jV L)) ↦{q} f : sProp 𝕄) = eLoc d ↦{q} f := rfl
omit [FloatOps F] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] in
theorem pts_xS (f : Buf (Elt F) ((V d (cV L) (jV L)).loc cc0_scratch0)) :
    ((xS).view.loc (V d (cV L) (jV L)) ↦{fullShare} f : sProp 𝕄) = (V d (cV L) (jV L)).loc cc0_scratch0 ↦{fullShare} f := rfl
omit [FloatOps F] in
theorem pts_aS (f : Buf (Elt F) ((V d (cV L) (jV L)).loc cc0_scratch1)) :
    ((aS).view.loc (V d (cV L) (jV L)) ↦{fullShare} f : sProp 𝕄) = (V d (cV L) (jV L)).loc cc0_scratch1 ↦{fullShare} f := rfl
omit [FloatOps F] in
theorem pts_bS (f : Buf (Elt F) ((V d (cV L) (jV L)).loc cc0_scratch2)) :
    ((bS).view.loc (V d (cV L) (jV L)) ↦{fullShare} f : sProp 𝕄) = (V d (cV L) (jV L)).loc cc0_scratch2 ↦{fullShare} f := rfl
omit [FloatOps F] in
theorem pts_tS (f : Buf (Elt F) ((V d (cV L) (jV L)).loc cc0_scratch3)) :
    ((tS).view.loc (V d (cV L) (jV L)) ↦{fullShare} f : sProp 𝕄) = (V d (cV L) (jV L)).loc cc0_scratch3 ↦{fullShare} f := rfl

/-! ### The index scratch in pieces: the first chunk's 384 words, the other three chunks' 1152 -/

abbrev xs0 : Memref sig .scVector .vmem S384 .i32 := (xS).slice (Rect.unit (s := S1536) ![0] S384.size inb_S1536_S384_0) (fun _ => rfl)
abbrev xs1 : Memref sig .scVector .vmem S384 .i32 := (xS).slice (Rect.unit (s := S1536) ![384] S384.size inb_S1536_S384_384) (fun _ => rfl)
abbrev xs2 : Memref sig .scVector .vmem S384 .i32 := (xS).slice (Rect.unit (s := S1536) ![768] S384.size inb_S1536_S384_768) (fun _ => rfl)
abbrev xs3 : Memref sig .scVector .vmem S384 .i32 := (xS).slice (Rect.unit (s := S1536) ![1152] S384.size inb_S1536_S384_1152) (fun _ => rfl)
abbrev xsR : Memref sig .scVector .vmem S1152 .i32 := (xS).slice (Rect.unit (s := S1536) ![384] S1152.size inb_S1536_S1152_384) (fun _ => rfl)

omit [FloatOps F] in
theorem set_xs0 : (xs0).view.set = (Rect.unit (s := S1536) ![0] S384.size inb_S1536_S384_0).set := by
  show ((View.whole (cc0_scratch0 : Ref sig .scVector)).slice _).set = _
  rw [View.set_slice]; exact Finset.map_refl
omit [FloatOps F] in
theorem set_xs1 : (xs1).view.set = (Rect.unit (s := S1536) ![384] S384.size inb_S1536_S384_384).set := by
  show ((View.whole (cc0_scratch0 : Ref sig .scVector)).slice _).set = _
  rw [View.set_slice]; exact Finset.map_refl
omit [FloatOps F] in
theorem set_xs2 : (xs2).view.set = (Rect.unit (s := S1536) ![768] S384.size inb_S1536_S384_768).set := by
  show ((View.whole (cc0_scratch0 : Ref sig .scVector)).slice _).set = _
  rw [View.set_slice]; exact Finset.map_refl
omit [FloatOps F] in
theorem set_xs3 : (xs3).view.set = (Rect.unit (s := S1536) ![1152] S384.size inb_S1536_S384_1152).set := by
  show ((View.whole (cc0_scratch0 : Ref sig .scVector)).slice _).set = _
  rw [View.set_slice]; exact Finset.map_refl
omit [FloatOps F] in
theorem set_xsR : (xsR).view.set = (Rect.unit (s := S1536) ![384] S1152.size inb_S1536_S1152_384).set := by
  show ((View.whole (cc0_scratch0 : Ref sig .scVector)).slice _).set = _
  rw [View.set_slice]; exact Finset.map_refl

omit [FloatOps F] in
/-- The first chunk's words and the other chunks' words are different words. -/
theorem xs0_disj_xsR : Disjoint (xs0).view.set (xsR).view.set := by
  rw [set_xs0, set_xsR]; exact Rect.unit_disjoint 0 (Or.inl (by decide))
omit [FloatOps F] in
theorem xsR_sub : (xsR).view.set ⊆ Finset.univ \ (xs0).view.set := by
  intro i hi; exact Finset.mem_sdiff.mpr ⟨Finset.mem_univ _, fun h => (Finset.disjoint_left.mp xs0_disj_xsR) h hi⟩
omit [FloatOps F] in
theorem xs1_sub : (xs1).view.set ⊆ (xsR).view.set := by
  rw [set_xs1, set_xsR]; intro i hi
  rw [Rect.mem_set_unit] at hi ⊢
  intro a; have := hi a; revert this
  match a with
  | ⟨0, _⟩ => simp only [Matrix.cons_val_zero, Matrix.cons_val_fin_one]; intro h; exact ⟨h.1, by have := h.2; show _ < 384 + 1152; change _ < 384 + 384 at this; omega⟩
omit [FloatOps F] in
theorem xs2_sub : (xs2).view.set ⊆ (xsR).view.set \ (xs1).view.set := by
  intro i hi
  refine Finset.mem_sdiff.mpr ⟨?_, fun h => (Finset.disjoint_left.mp (by rw [set_xs1, set_xs2]; exact Rect.unit_disjoint 0 (Or.inl (by decide)))) h hi⟩
  rw [set_xs2] at hi; rw [set_xsR]
  rw [Rect.mem_set_unit] at hi ⊢
  intro a; have := hi a; revert this
  match a with
  | ⟨0, _⟩ => simp only [Matrix.cons_val_zero, Matrix.cons_val_fin_one]; intro h; exact ⟨by have := h.1; change 768 ≤ _ at this; show 384 ≤ _; omega, by have := h.2; show _ < 384 + 1152; change _ < 768 + 384 at this; omega⟩
omit [FloatOps F] in
theorem xs3_sub : (xs3).view.set ⊆ ((xsR).view.set \ (xs1).view.set) \ (xs2).view.set := by
  intro i hi
  refine Finset.mem_sdiff.mpr ⟨Finset.mem_sdiff.mpr ⟨?_, fun h => (Finset.disjoint_left.mp (by rw [set_xs1, set_xs3]; exact Rect.unit_disjoint 0 (Or.inl (by decide)))) h hi⟩,
    fun h => (Finset.disjoint_left.mp (by rw [set_xs2, set_xs3]; exact Rect.unit_disjoint 0 (Or.inl (by decide)))) h hi⟩
  rw [set_xs3] at hi; rw [set_xsR]
  rw [Rect.mem_set_unit] at hi ⊢
  intro a; have := hi a; revert this
  match a with
  | ⟨0, _⟩ => simp only [Matrix.cons_val_zero, Matrix.cons_val_fin_one]; intro h; exact ⟨by have := h.1; change 1152 ≤ _ at this; show 384 ≤ _; omega, by have := h.2; show _ < 384 + 1152; change _ < 1152 + 384 at this; omega⟩

omit [FloatOps F] in
theorem pts_xs0 (f : Buf (Elt F) ((V d (cV L) (jV L)).loc cc0_scratch0)) :
    ((xs0).view.loc (V d (cV L) (jV L)) ↦[(xs0).view.set]{fullShare} f : sProp 𝕄) = (V d (cV L) (jV L)).loc cc0_scratch0 ↦[(xs0).view.set]{fullShare} f := rfl
omit [FloatOps F] in
theorem pts_xsR (f : Buf (Elt F) ((V d (cV L) (jV L)).loc cc0_scratch0)) :
    ((xsR).view.loc (V d (cV L) (jV L)) ↦[(xsR).view.set]{fullShare} f : sProp 𝕄) = (V d (cV L) (jV L)).loc cc0_scratch0 ↦[(xsR).view.set]{fullShare} f := rfl
omit [FloatOps F] in
theorem pts_xs1 (f : Buf (Elt F) ((V d (cV L) (jV L)).loc cc0_scratch0)) :
    ((xs1).view.loc (V d (cV L) (jV L)) ↦[(xs1).view.set]{fullShare} f : sProp 𝕄) = (V d (cV L) (jV L)).loc cc0_scratch0 ↦[(xs1).view.set]{fullShare} f := rfl
omit [FloatOps F] in
theorem pts_xs2 (f : Buf (Elt F) ((V d (cV L) (jV L)).loc cc0_scratch0)) :
    ((xs2).view.loc (V d (cV L) (jV L)) ↦[(xs2).view.set]{fullShare} f : sProp 𝕄) = (V d (cV L) (jV L)).loc cc0_scratch0 ↦[(xs2).view.set]{fullShare} f := rfl
omit [FloatOps F] in
theorem pts_xs3 (f : Buf (Elt F) ((V d (cV L) (jV L)).loc cc0_scratch0)) :
    ((xs3).view.loc (V d (cV L) (jV L)) ↦[(xs3).view.set]{fullShare} f : sProp 𝕄) = (V d (cV L) (jV L)).loc cc0_scratch0 ↦[(xs3).view.set]{fullShare} f := rfl

/-- The index matrix and the table at a read share, a row of the output outright. -/
abbrev iPts (d : Dev nD) (q : PosShare TreeShare) (f : Buf (Elt F) (iLoc d)) : sProp 𝕄 := iLoc d ↦{q} f
abbrev ePts (d : Dev nD) (q : PosShare TreeShare) (f : Buf (Elt F) (eLoc d)) : sProp 𝕄 := eLoc d ↦{q} f
abbrev oRowPts (d : Dev nD) (L : grid0.Coords) (f : Buf (Elt F) (oLoc d)) : sProp 𝕄 := oLoc d ↦[oRowSet L]{fullShare} f

/-- The type of "what the whole output holds once every worker has written its row", a function of the index matrix's
    contents and the table's. -/
abbrev OutFn (F : FTy → Type) : Type := (d : Dev nD) → Buf (Elt F) (iLoc d) → Buf (Elt F) (eLoc d) → Buf (Elt F) (oLoc d)

/-- One worker's task: from read shares of the index matrix (every word below a million) and of the table and its own
    row of the output, it ends with the shares back and its row at the whole-output function. -/
def TileStmt (outVal : OutFn F) : Prop :=
  ∀ (d : Dev nD) (L : grid0.Coords) (hF : (K (F := F)).Facts) (I4 : Buf (Elt F) (iLoc d)) (E : Buf (Elt F) (eLoc d)) (O0 : Buf (Elt F) (oLoc d))
    (qi qe : PosShare TreeShare) (hin : ∀ j, (I4 j).toNat < 1000000)
    (O : CellTallies nD τ sig (HIx 1)) (W : Waits sig (HIx 1)) (hO : ∀ g, O g none = 0),
    iprop(levAts (K (F := F)).L (K (F := F)).lev ∗ emp
        ∗ (iPts d qi I4 ∗ ePts d qe E ∗ oRowPts d L O0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_partial_kernel L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0)
          fun _ => iprop((iPts d qi I4 ∗ ePts d qe E ∗ oRowPts d L (outVal d I4 E))
            ∗ scopedBufs (V d (cV L) (jV L)) ∗ scopedSems0 (V d (cV L) (jV L))
            ∗ ∃ W', ⌜∀ p ∈ W', p ∈ W ∨ p.2 = none⌝ ∗ owes (V d (cV L) (jV L)) O W')

end Tile

end Cert.Proof.KI

end
-- ==== Proof.LaunchPayKI.lean ====
/-
  What the one SparseCore call carries, and how it splits among the two SparseCores and their sixteen vector subcores.

  Tile `(c, s)` (SparseCore `c < 2`, subcore `s < 16`) is worker `w = 2 s + c`.  Every worker reads the whole index
  matrix and the whole table, so each gets a read share of both: the full share gives one token to each SparseCore, and
  each SparseCore's token one token to each of its subcores; the remainders stay with the splitter and come back when
  the tokens do.  Worker `w` alone writes row `w` of the 32 × 16 output, so it gets that row outright; the 32 rows are
  pairwise disjoint and cover the output, and all are returned at one and the same whole-output function.
-/
import proofs.«205315_g4544075399421_cont_8to1_c_355_20_alg».proof.Proof.TilePre

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_seq after launchContents tcRefs)
open Idealize.ShloMosaic.Transfers (shareTok shareDrop pointsTo_toks_split pointsTo_toks_join)

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S32x1536 EltTy.i32)
local notation "eV" => (Memref.whole Cert.KernelIdeal.main_arg3_scv : Memref Cert.KernelIdeal.sig Kind.scVector Space.hbm Cert.KernelIdeal.S1000000x128 EltTy.f32)
local notation "oV" => (Memref.whole Cert.KernelIdeal.main_v5_scv : Memref Cert.KernelIdeal.sig Kind.scVector Space.hbm Cert.KernelIdeal.S32x16 EltTy.f32)
local notation "xS" => (Memref.whole Cert.KernelIdeal.cc0_scratch0 : Memref Cert.KernelIdeal.sig Kind.scVector Space.vmem Cert.KernelIdeal.S1536 EltTy.i32)
local notation "aS" => (Memref.whole Cert.KernelIdeal.cc0_scratch1 : Memref Cert.KernelIdeal.sig Kind.scVector Space.vmem Cert.KernelIdeal.S384x128 EltTy.f32)
local notation "bS" => (Memref.whole Cert.KernelIdeal.cc0_scratch2 : Memref Cert.KernelIdeal.sig Kind.scVector Space.vmem Cert.KernelIdeal.S384x128 EltTy.f32)
local notation "tS" => (Memref.whole Cert.KernelIdeal.cc0_scratch3 : Memref Cert.KernelIdeal.sig Kind.scVector Space.vmem Cert.KernelIdeal.S16 EltTy.f32)

/-! ## The grid's coordinates and the worker's row -/

omit F in
theorem bound_zero : grid0.bound 0 = 2 := rfl
omit F in
theorem bound_one : grid0.bound 1 = 16 := rfl

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The grid point of tile `(c, s)`. -/
abbrev LL (c : Fin 2) (s : Fin 16) : grid0.Coords := coordsV (Fin.cast bound_zero.symm c) (Fin.cast bound_one.symm s)

/-- Worker `2 s + c`. -/
def wk (c : Fin 2) (s : Fin 16) : Fin 32 := ⟨2 * s.val + c.val, by have := c.isLt; have := s.isLt; omega⟩

omit F in
theorem odiv : 32 ∣ S32x16.size 0 := ⟨1, rfl⟩
/-- Row `j` of the output. -/
abbrev orow (j : Fin 32) : Rect S32x16 := Rect.part (s := S32x16) (a₀ := 0) odiv j

omit F in
/-- The rectangle tile `(c, s)` addresses is row `2 s + c`. -/
theorem orowK_eq (c : Fin 2) (s : Fin 16) :
    Rect.unit (s := S32x16) (k0_off131 (LL c s)) S1x16.size (k0_off131_inb (LL c s)) = orow (wk c s) := by
  unfold orow Rect.part Rect.block
  congr 1 <;> funext a
  · rw [k0_off131_eq]
    match a with
    | 0 => simp [Shape.partIx, Shape.partSize, wk, LL, coordsV]
    | 1 => simp [Shape.partIx, Shape.partSize]
  · match a with
    | 0 => simp [Shape.partSize]
    | 1 => simp [Shape.partSize]

omit F in
theorem oRowSet_eq (c : Fin 2) (s : Fin 16) : oRowSet (LL c s) = (orow (wk c s)).set := by
  show (((oV).view.slice (Rect.unit (s := S32x16) (k0_off131 (LL c s)) S1x16.size (k0_off131_inb (LL c s)))).reshape S16 squeezes_S1x16_S16.numel_eq).set = _
  rw [View.set_reshape]
  show ((View.whole (main_v5_scv : Ref sig .scVector)).slice _).set = _
  rw [View.set_slice]
  exact Finset.map_refl.trans (congrArg (fun r : Rect S32x16 => r.set) (orowK_eq c s))

omit F in
theorem wk_injective : Function.Injective fun p : Fin 2 × Fin 16 => wk p.1 p.2 := by
  rintro ⟨c, s⟩ ⟨c', s'⟩ h
  have h' : 2 * s.val + c.val = 2 * s'.val + c'.val := congrArg Fin.val h
  have := c.isLt; have := c'.isLt
  refine Prod.ext (Fin.ext ?_) (Fin.ext ?_) <;> dsimp only <;> omega

omit F in
theorem orows_disjoint : ∀ p ∈ (Finset.univ : Finset (Fin 2 × Fin 16)), ∀ p' ∈ (Finset.univ : Finset (Fin 2 × Fin 16)), p ≠ p' →
    Disjoint (oRowSet (LL p.1 p.2)) (oRowSet (LL p'.1 p'.2)) :=
  fun p _ p' _ h => by rw [oRowSet_eq, oRowSet_eq]; exact Rect.part_disjoint odiv fun e => h (wk_injective e)

omit F in
theorem orows_cover : (Finset.univ : Finset (Fin 2 × Fin 16)).biUnion (fun p => oRowSet (LL p.1 p.2)) = Finset.univ := by
  ext i
  simp only [Finset.mem_biUnion, Finset.mem_univ, true_and, iff_true]
  obtain ⟨j, hj⟩ := Rect.exists_mem_part odiv i
  refine ⟨(⟨j.val % 2, by omega⟩, ⟨j.val / 2, by have := j.isLt; omega⟩), ?_⟩
  rw [oRowSet_eq]
  have e : wk ⟨j.val % 2, by omega⟩ ⟨j.val / 2, by have := j.isLt; omega⟩ = j := Fin.ext (by simp only [wk]; omega)
  rw [e]; exact hj

/-- The output whole is its 32 rows, SparseCore by SparseCore, subcore by subcore. -/
theorem oPts_rows (d : Dev nD) (f : Buf (Elt F) (oLoc d)) :
    (oLoc d ↦{fullShare} f : sProp 𝕄) = bigSep Finset.univ fun c : Fin 2 => bigSep Finset.univ fun s : Fin 16 => oRowPts d (LL c s) f := by
  rw [← SparseCore.bigSep_product Finset.univ Finset.univ (fun p : Fin 2 × Fin 16 => (oRowPts d (LL p.1 p.2) f : sProp 𝕄)), Finset.univ_product_univ,
    ← pointsTo_biUnion Finset.univ (ℓ := oLoc d) (fun p : Fin 2 × Fin 16 => oRowSet (LL p.1 p.2)) orows_disjoint, orows_cover]
  try rfl

variable [FloatOps F]

/-! ## What the handshakes carry -/

variable (m : (ℓ : Loc nD τ sig) → Buf (Elt F) ℓ) (outVal : OutFn F)

/-- The five host operations before the call: the three index arrays reshaped, concatenated, reshaped to 32 × 1536. -/
def headOps : List (HloOp τ sig (Elt F)) :=
  [StableHlo.reshape main_arg0 main_v0 rfl shapeCasts_S16384_S32x4x1x128,
   StableHlo.reshape main_arg1 main_v1 rfl shapeCasts_S16384_S32x4x1x128,
   StableHlo.reshape main_arg2 main_v2 rfl shapeCasts_S16384x1_S32x4x1x128,
   StableHlo.nary ![main_v0, main_v1, main_v2] main_v3 (fun u => concatenate S32x4x3x128 2 [⟨S32x4x1x128, u 0⟩, ⟨S32x4x1x128, u 1⟩, ⟨S32x4x1x128, u 2⟩] concatenates_S32x4x1x128_S32x4x1x128_S32x4x1x128_S32x4x3x128_d2),
   StableHlo.reshape main_v3 main_v4 rfl shapeCasts_S32x4x3x128_S32x1536]

/-- The device's arrays after those, from the launch contents. -/
def VH (d : Dev nD) : Valuation τ sig (Elt F) := after headOps (launchContents m d)

/-- The index matrix the call reads, the table, the output before and after. -/
abbrev I4 (d : Dev nD) : Buf (Elt F) (iLoc d) := VH m d (Proc.devRef .tc main_v4)
abbrev E0 (d : Dev nD) : Buf (Elt F) (eLoc d) := m (eLoc d)
abbrev O0 (d : Dev nD) : Buf (Elt F) (oLoc d) := VH m d (Proc.devRef .tc main_v5)
abbrev O1 (d : Dev nD) : Buf (Elt F) (oLoc d) := outVal d (I4 m d) (E0 m d)

/-- What the proof asks of the launch memory: every word of the index matrix is below a million. -/
def PreOK : Prop := ∀ (d : Dev nD) (j : S32x1536.Idx), (I4 m d j).toNat < 1000000

/-- SparseCore `c`'s read token, and subcore `s`'s token of it. -/
abbrev qc (c : Fin 2) : PosShare TreeShare := shareTok fullShare 2 c
abbrev qt (c : Fin 2) (s : Fin 16) : PosShare TreeShare := shareTok (qc c) 16 s

/-- A tile's part: its read tokens and its row, the row at `O`. -/
def goR (d : Dev nD) (O : Buf (Elt F) (oLoc d)) (c : Fin 2) (s : Fin 16) : sProp 𝕄 :=
  iprop(iPts d (qt c s) (I4 m d) ∗ ePts d (qt c s) (E0 m d) ∗ oRowPts d (LL c s) O)
/-- A SparseCore's part: its read tokens and its sixteen rows, at `O`. -/
def stR (d : Dev nD) (O : Buf (Elt F) (oLoc d)) (c : Fin 2) : sProp 𝕄 :=
  iprop(iPts d (qc c) (I4 m d) ∗ ePts d (qc c) (E0 m d) ∗ bigSep Finset.univ fun s : Fin 16 => oRowPts d (LL c s) O)

instance goR_storable (d : Dev nD) (O : Buf (Elt F) (oLoc d)) (c : Fin 2) (s : Fin 16) : BI.Storable (upEmb : UEmb _ 𝕄) (goR m d O c s) := by
  unfold goR; infer_instance
instance stR_storable (d : Dev nD) (O : Buf (Elt F) (oLoc d)) (c : Fin 2) : BI.Storable (upEmb : UEmb _ 𝕄) (stR m d O c) := by
  unfold stR; infer_instance

/-- The one call: each SparseCore its tokens and rows, each tile its tokens and row; back the same with the rows at the
    whole-output function. -/
def P : (K (F := F)).Pay (nD := nD) (Val := Elt F) (Name := ℕ) (U := UU) where
  st := fun q d c => match q with | 0 => stR m d (O0 m d) (Fin.cast nCore_zero c)
  dn := fun q d c => match q with | 0 => stR m d (O1 m outVal d) (Fin.cast nCore_zero c)
  go := fun q d c i => match q with | 0 => goR m d (O0 m d) (Fin.cast nCore_zero c) (Fin.cast nSub_zero i)
  td := fun q d c i => match q with | 0 => goR m d (O1 m outVal d) (Fin.cast nCore_zero c) (Fin.cast nSub_zero i)
  x := fun _ _ => iprop(emp)

instance P_storable : (P (F := F) m outVal).IsStorable where
  st q d c := match q with | 0 => stR_storable m d _ _
  dn q d c := match q with | 0 => stR_storable m d _ _
  go q d c i := match q with | 0 => goR_storable m d _ _ _
  td q d c i := match q with | 0 => goR_storable m d _ _ _

/-! ## The obligation -/

theorem defs₀_vector (c : Fin τ.nSC) (s : Fin τ.nSub) :
    defs₀ (F := F) (.scVector c s) 0 ()
      = SparseCore.onTile hcore0 hsub0 (fun c s => cc0_partial_kernel (coordsV c s)
          iV (Memref.isWhole_whole _) eV (Memref.isWhole_whole _) oV (Memref.isWhole_whole _)
          xS (Memref.isWhole_whole _) aS (Memref.isWhole_whole _) bS (Memref.isWhole_whole _) tS (Memref.isWhole_whole _)
          cc0_scratch4 cc0_scratch5 cc0_scratch6 cc0_scratch7 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hbody : TileStmt (F := F) outVal) (hpre : PreOK m) :
    (K (F := F)).TileObl (D (F := F)) 𝒱 (P m outVal) v₀ 0 := by
  intro d c i O W hO _ _
  simp only [show (P m outVal).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) hF (I4 m d) (E0 m d) (O0 m d) _ _ (hpre d) O W hO).trans (wp_mono frame _ _ fun _ => obl_post)

/-! ## A SparseCore's part splits into its tiles' and gathers from theirs -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem split16 (d : Dev nD) (c : Fin 2) (O O' : Buf (Elt F) (oLoc d)) :
    stR m d O c ⊢ |={Set.univ}=> iprop((bigSep Finset.univ fun s : Fin 16 => goR m d O c s)
      ∗ ((bigSep Finset.univ fun s : Fin 16 => goR m d O' c s) -∗ stR m d O' c)) := by
  unfold stR goR iPts ePts
  rw [bigSep_sep', bigSep_sep', bigSep_sep', bigSep_sep']
  iintro ⟨Hi, He, Ho⟩
  ihave Hi2 := (pointsTo_toks_split (qc c) 16) $$ Hi
  icases Hi2 with ⟨Hir, Hit⟩
  ihave He2 := (pointsTo_toks_split (qc c) 16) $$ He
  icases He2 with ⟨Her, Het⟩
  imodintro
  isplitl [Hit Het Ho]
  · isplitl [Hit]; · iexact Hit
    isplitl [Het]; · iexact Het
    iexact Ho
  iintro ⟨Hit, Het, Ho⟩
  isplitl [Hir Hit]
  · iapply (pointsTo_toks_join (qc c) 16)
    isplitl [Hir]; · iexact Hir
    iexact Hit
  isplitl [Her Het]
  · iapply (pointsTo_toks_join (qc c) 16)
    isplitl [Her]; · iexact Her
    iexact Het
  iexact Ho

theorem vecSplit : (K (F := F)).VecSplit' (P m outVal) 0 := by
  intro d c
  show stR m d (O0 m d) (Fin.cast nCore_zero c) ⊢ |={Set.univ}=> iprop(
      (bigSep Finset.univ fun i : Fin ((K (F := F)).nSub 0) => goR m d (O0 m d) (Fin.cast nCore_zero c) (Fin.cast nSub_zero i))
      ∗ ((bigSep Finset.univ fun i : Fin ((K (F := F)).nSub 0) => goR m d (O1 m outVal d) (Fin.cast nCore_zero c) (Fin.cast nSub_zero i))
          -∗ stR m d (O1 m outVal d) (Fin.cast nCore_zero c)))
  rw [bigSep_tasks (F := F) (fun i => goR m d (O0 m d) (Fin.cast nCore_zero c) i),
    bigSep_tasks (F := F) (fun i => goR m d (O1 m outVal d) (Fin.cast nCore_zero c) i)]
  exact split16 m d _ _ _

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m outVal).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m outVal).x q thr) = bigSep Finset.univ fun _ => iprop(emp) from
    bigSep_congr fun _ _ => bigSep_univ_of_subsingleton (0 : Fin 1), bigSep_emp']
  iempintro

end Cert.Proof.KI

end
-- ==== Proof.LaunchKI.lean ====
/-
  The program's run: @main on the TensorCore around the one SparseCore call, and what the final memory holds.

  @main reshapes and concatenates the three index arrays into the 32 × 1536 index matrix (five host operations), makes
  the call — handing each SparseCore a read token of the index matrix and of the table and its sixteen rows of the
  output, and getting them back with every row at the whole-output function —, then sums the 32 × 16 output, divides by
  16384 and negates (five host operations).  No host operation writes an argument array, and the call only reads the
  table, so the four arguments end as they started; the result is the tail's value at the whole-output function.
-/
import proofs.«205315_g4544075399421_cont_8to1_c_355_20_alg».proof.Proof.LaunchPayKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_seq after launchContents tcRefs)
open Idealize.ShloMosaic.Transfers (shareTok shareDrop pointsTo_toks_split pointsTo_toks_join)

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S32x1536 EltTy.i32)
local notation "eV" => (Memref.whole Cert.KernelIdeal.main_arg3_scv : Memref Cert.KernelIdeal.sig Kind.scVector Space.hbm Cert.KernelIdeal.S1000000x128 EltTy.f32)
local notation "oV" => (Memref.whole Cert.KernelIdeal.main_v5_scv : Memref Cert.KernelIdeal.sig Kind.scVector Space.hbm Cert.KernelIdeal.S32x16 EltTy.f32)
local notation "xS" => (Memref.whole Cert.KernelIdeal.cc0_scratch0 : Memref Cert.KernelIdeal.sig Kind.scVector Space.vmem Cert.KernelIdeal.S1536 EltTy.i32)
local notation "aS" => (Memref.whole Cert.KernelIdeal.cc0_scratch1 : Memref Cert.KernelIdeal.sig Kind.scVector Space.vmem Cert.KernelIdeal.S384x128 EltTy.f32)
local notation "bS" => (Memref.whole Cert.KernelIdeal.cc0_scratch2 : Memref Cert.KernelIdeal.sig Kind.scVector Space.vmem Cert.KernelIdeal.S384x128 EltTy.f32)
local notation "tS" => (Memref.whole Cert.KernelIdeal.cc0_scratch3 : Memref Cert.KernelIdeal.sig Kind.scVector Space.vmem Cert.KernelIdeal.S16 EltTy.f32)

variable [FloatOps F]

variable (m : (ℓ : Loc nD τ sig) → Buf (Elt F) ℓ) (ρ : Dev nD → PrngReg) (outVal : OutFn F)

/-! ## The host operations around the call -/

/-- The five host operations after the call: zero, the sum of the output over both axes, 16384, the quotient, its negation. -/
def tailOps : List (HloOp τ sig (Elt F)) :=
  [StableHlo.nullary main_cst (constant S_ .f32 0x00000000#32),
   StableHlo.binary main_v5 main_cst main_v6 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.nullary main_cst_0 (constant S_ .f32 0x46800000#32),
   StableHlo.binary main_v6 main_cst_0 main_v7 (Host.divf : (⟨S_, .f32⟩ : BufTy).Contents (Elt F) → (⟨S_, .f32⟩ : BufTy).Contents (Elt F) → (⟨S_, .f32⟩ : BufTy).Contents (Elt F)),
   StableHlo.unary main_v7 main_v8 (Host.negf : (⟨S_, .f32⟩ : BufTy).Contents (Elt F) → (⟨S_, .f32⟩ : BufTy).Contents (Elt F))]

/-- @main is the head, the call, the tail. -/
theorem main_eq (d : Dev nD) :
    main (F := F) d = (StableHlo.seq headOps >>= fun _ => (K (F := F)).run d 0 >>= fun _ => (StableHlo.seq tailOps >>= fun u => pure u)) := rfl

theorem headOps_sub : ∀ op ∈ (headOps : List (HloOp τ sig (Elt F))), op.bufs ⊆ tcRefs τ sig :=
  List.forall_iff_forall_mem.1 (show (headOps : List (HloOp τ sig (Elt F))).Forall fun op => op.bufs ⊆ tcRefs τ sig from
    ⟨StableHlo.reshape_bufs_sub .., StableHlo.reshape_bufs_sub .., StableHlo.reshape_bufs_sub .., StableHlo.nary_bufs_sub .., StableHlo.reshape_bufs_sub ..⟩)
theorem tailOps_sub : ∀ op ∈ (tailOps : List (HloOp τ sig (Elt F))), op.bufs ⊆ tcRefs τ sig :=
  List.forall_iff_forall_mem.1 (show (tailOps : List (HloOp τ sig (Elt F))).Forall fun op => op.bufs ⊆ tcRefs τ sig from
    ⟨StableHlo.nullary_bufs_sub .., StableHlo.binary_bufs_sub .., StableHlo.nullary_bufs_sub .., StableHlo.binary_bufs_sub .., StableHlo.unary_bufs_sub ..⟩)
theorem headOps_fresh : ∀ op ∈ (headOps : List (HloOp τ sig (Elt F))), op.fresh = ∅ := by
  intro _ h; (repeat (cases h with | head => rfl | tail _ h => ?_)); exact nomatch h
theorem tailOps_fresh : ∀ op ∈ (tailOps : List (HloOp τ sig (Elt F))), op.fresh = ∅ := by
  intro _ h; (repeat (cases h with | head => rfl | tail _ h => ?_)); exact nomatch h

/-! ## The TensorCore's arrays, and the three the call takes -/

abbrev i' : DevRef τ sig := Proc.devRef .tc (main_v4 : Ref sig .tc)
abbrev e' : DevRef τ sig := Proc.devRef .tc (main_arg3 : Ref sig .tc)
abbrev o' : DevRef τ sig := Proc.devRef .tc (main_v5 : Ref sig .tc)
abbrev S3 : Finset (DevRef τ sig) := {i', e', o'}

omit [FloatOps F] in
theorem held_S3 (d : Dev nD) (W : Valuation τ sig (Elt F)) :
    (held (T d) S3 W : sProp 𝕄) = iprop((iLoc d ↦{fullShare} W i') ∗ (eLoc d ↦{fullShare} W e') ∗ oLoc d ↦{fullShare} W o') := by
  unfold held S3
  rw [SparseCore.bigSep_insert' (by decide), SparseCore.bigSep_insert' (by decide), bigSep_singleton]

omit F [FloatOps F] in
theorem S3_sub : S3 ⊆ tcRefs τ sig :=
  Finset.insert_subset (StableHlo.devRef_mem_tcRefs _) (Finset.insert_subset (StableHlo.devRef_mem_tcRefs _)
    (Finset.singleton_subset_iff.mpr (StableHlo.devRef_mem_tcRefs _)))

omit F [FloatOps F] in
theorem allUnscoped : (Finset.univ.filter fun b : Ref sig .tc => ¬ b.isScoped) = Finset.univ := by decide

omit [FloatOps F] in
theorem unscoped_held (d : Dev nD) :
    (unscopedBufs d (fun b => m ((SparseCore.T d).loc b)) : sProp 𝕄) = held (T d) (tcRefs τ sig) (launchContents m d) := by
  unfold unscopedBufs held tcRefs
  rw [allUnscoped, bigSep_map]; rfl

/-- The table is not written before the call. -/
theorem VH_e (d : Dev nD) : VH m d e' = m (eLoc d) := by
  unfold VH headOps
  after_results
  try rfl

/-- After the call: the output at the whole-output function, everything else as before it. -/
def V1 (d : Dev nD) : Valuation τ sig (Elt F) := Function.update (VH m d) o' (O1 m outVal d)
/-- At the end. -/
def VF (d : Dev nD) : Valuation τ sig (Elt F) := after tailOps (V1 m outVal d)
/-- The program's result: what the tail computes from the output at the whole-output function. -/
def resVal (d : Dev nD) : Buf (Elt F) ((d.tc : Thread nD τ).loc main_v8) := VF m outVal d (Proc.devRef .tc main_v8)

theorem V1_i (d : Dev nD) : V1 m outVal d i' = I4 m d := Function.update_of_ne (show i' ≠ o' by decide) _ _
theorem V1_e (d : Dev nD) : V1 m outVal d e' = m (eLoc d) := (Function.update_of_ne (show e' ≠ o' by decide) _ _).trans (VH_e m d)
theorem V1_o (d : Dev nD) : V1 m outVal d o' = O1 m outVal d := Function.update_self _ _ _

theorem heldVH_eq (d : Dev nD) :
    (held (T d) (tcRefs τ sig) (VH m d) : sProp 𝕄)
      = iprop(((iLoc d ↦{fullShare} I4 m d) ∗ (eLoc d ↦{fullShare} E0 m d) ∗ oLoc d ↦{fullShare} O0 m d) ∗ held (T d) (tcRefs τ sig \ S3) (VH m d)) := by
  rw [held_sub_split (T d) S3_sub, held_S3, VH_e]

/-- The same, spelt as the head's run leaves it. -/
theorem heldVH_eq' (d : Dev nD) :
    (held (d.tc : Thread nD τ) (tcRefs τ sig) (after headOps (launchContents m d)) : sProp 𝕄)
      = iprop(((iLoc d ↦{fullShare} I4 m d) ∗ (eLoc d ↦{fullShare} E0 m d) ∗ oLoc d ↦{fullShare} O0 m d) ∗ held (T d) (tcRefs τ sig \ S3) (VH m d)) :=
  heldVH_eq m d

theorem heldV1_eq (d : Dev nD) :
    (held (T d) (tcRefs τ sig) (V1 m outVal d) : sProp 𝕄)
      = iprop(((iLoc d ↦{fullShare} I4 m d) ∗ (eLoc d ↦{fullShare} E0 m d) ∗ oLoc d ↦{fullShare} O1 m outVal d) ∗ held (T d) (tcRefs τ sig \ S3) (VH m d)) := by
  rw [held_sub_split (T d) S3_sub, held_S3, V1_i, V1_e, V1_o,
    held_congr (T d) (V := V1 m outVal d) (V' := VH m d) fun b hb => Function.update_of_ne
      (fun e => (Finset.mem_sdiff.mp hb).2 (e ▸ (by decide : o' ∈ S3))) _ _]

/-! ## What the call takes for the two SparseCores, and what it hands back -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- Two read tokens of the index matrix, two of the table and the output whole are the two SparseCores' parts. -/
theorem st_intro (d : Dev nD) (O : Buf (Elt F) (oLoc d)) :
    (iprop((bigSep Finset.univ fun c : Fin 2 => iLoc d ↦{qc c} I4 m d) ∗ (bigSep Finset.univ fun c : Fin 2 => eLoc d ↦{qc c} E0 m d)
        ∗ oLoc d ↦{fullShare} O) : sProp 𝕄)
      = bigSep Finset.univ fun c : Fin 2 => stR m d O c := by
  unfold stR iPts ePts
  rw [bigSep_sep', bigSep_sep', oPts_rows]

theorem st0_eq (d : Dev nD) :
    (bigSep Finset.univ fun c : Fin ((K (F := F)).nCore 0) => (P m outVal).st 0 d c) = bigSep Finset.univ fun c : Fin 2 => stR m d (O0 m d) c :=
  bigSep_cores (F := F) (fun c => stR m d (O0 m d) c)
theorem dn0_eq (d : Dev nD) :
    (bigSep Finset.univ fun c : Fin ((K (F := F)).nCore 0) => (P m outVal).dn 0 d c) = bigSep Finset.univ fun c : Fin 2 => stR m d (O1 m outVal d) c :=
  bigSep_cores (F := F) (fun c => stR m d (O1 m outVal d) c)

/-! ## @main on the TensorCore -/

/-- What @main leaves the claim: every array of the TensorCore, at its final contents. -/
abbrev FIN (d : Dev nD) : sProp 𝕄 := held (T d) (tcRefs τ sig) (after tailOps (V1 m outVal d))

set_option backward.isDefEq.respectTransparency.types false in
set_option maxRecDepth 16384 in
theorem hmain (κ : GSem nD τ sig → ℕ) (d : Dev nD) :
    iprop((K (F := F)).ctx EH (P m outVal) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m outVal d) := by
  unfold SparseCore.Cfg.tcRes
  rw [unscoped_held, main_eq]
  iintro ⟨#Hctx, Hst, ⟨Hb, Hheld, -, -⟩, -⟩
  -- the head: the index matrix made from the three index arrays
  iapply (wp_seq 𝒱 none Set.univ d (tcRefs τ sig) _ headOps headOps_sub headOps_fresh (launchContents m d)) $$ [Hb Hheld]
  · isplitl [Hb]; · iexact Hb
    iexact Hheld
  iintro ⟨Hb, Hheld⟩
  ihave Hh := (Entails.of_eq (heldVH_eq' m d)) $$ Hheld
  icases Hh with ⟨⟨Hi, He, Ho⟩, Hrest⟩
  ihave Hi2 := (pointsTo_toks_split fullShare 2) $$ Hi
  icases Hi2 with ⟨Hir, Hit⟩
  ihave He2 := (pointsTo_toks_split fullShare 2) $$ He
  icases He2 with ⟨Her, Het⟩
  -- the call
  rw [wp_bind]
  iapply ((K (F := F)).wp_run (D (F := F)) 𝒱 (EH := EH) (P := P m outVal) κ d 0) $$ [Hst Hit Het Ho Hb Hir Her Hrest]
  isplitr; · iexact Hctx
  isplitl [Hst]; · iexact Hst
  isplitl [Hit Het Ho]
  · rw [st0_eq, ← st_intro]
    isplitl [Hit]; · iexact Hit
    isplitl [Het]; · iexact Het
    iexact Ho
  iintro ⟨Hst, Hdn⟩
  ihave Hdn' := (Entails.of_eq ((dn0_eq m outVal d).trans (st_intro m d (O1 m outVal d)).symm)) $$ Hdn
  icases Hdn' with ⟨Hit, Het, Ho⟩
  ihave Hi := (pointsTo_toks_join fullShare 2) $$ [Hir Hit]
  · isplitl [Hir]; · iexact Hir
    iexact Hit
  ihave He := (pointsTo_toks_join fullShare 2) $$ [Her Het]
  · isplitl [Her]; · iexact Her
    iexact Het
  ihave Hheld := (Entails.of_eq (heldV1_eq m outVal d).symm) $$ [Hi He Ho Hrest]
  · isplitl [Hi He Ho]
    · isplitl [Hi]; · iexact Hi
      isplitl [He]; · iexact He
      iexact Ho
    iexact Hrest
  -- the tail: the sum, the quotient, the negation
  iapply (wp_seq 𝒱 none Set.univ d (tcRefs τ sig) _ tailOps tailOps_sub tailOps_fresh (V1 m outVal d)) $$ [Hb Hheld]
  · isplitl [Hb]; · iexact Hb
    iexact Hheld
  iintro ⟨Hb, Hheld⟩
  rw [wp_pure]; imodintro
  isplitl [Hst]; · iexact Hst
  iexact Hheld

/-! ## The final memory -/

def fq (d : Dev nD) (s' : Phys nD τ sig (Elt F)) : Prop :=
  ∀ b : Ref sig .tc, s'.mem.mem ((d.tc : Thread nD τ).loc b) = VF m outVal d (Proc.devRef .tc b)

set_option maxRecDepth 16384 in
theorem hfin (d : Dev nD) (s' : Phys nD τ sig (Elt F)) : iprop(FIN m outVal d ∗ SI s') ⊢ (⌜fq m outVal d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (StableHlo.devRef_mem_tcRefs b)

/-- No host operation writes an argument array, nor does the call. -/
theorem VF_arg0 (d : Dev nD) : VF m outVal d (Proc.devRef .tc main_arg0) = m ((d.tc : Thread nD τ).loc main_arg0) := by
  unfold VF tailOps; after_results
  rw [V1, Function.update_of_ne (by decide)]
  unfold VH headOps; after_results
  try rfl
theorem VF_arg1 (d : Dev nD) : VF m outVal d (Proc.devRef .tc main_arg1) = m ((d.tc : Thread nD τ).loc main_arg1) := by
  unfold VF tailOps; after_results
  rw [V1, Function.update_of_ne (by decide)]
  unfold VH headOps; after_results
  try rfl
theorem VF_arg2 (d : Dev nD) : VF m outVal d (Proc.devRef .tc main_arg2) = m ((d.tc : Thread nD τ).loc main_arg2) := by
  unfold VF tailOps; after_results
  rw [V1, Function.update_of_ne (by decide)]
  unfold VH headOps; after_results
  try rfl
theorem VF_arg3 (d : Dev nD) : VF m outVal d (Proc.devRef .tc main_arg3) = m ((d.tc : Thread nD τ).loc main_arg3) := by
  unfold VF tailOps; after_results
  rw [V1, Function.update_of_ne (by decide)]
  unfold VH headOps; after_results
  try rfl

/-- The result in closed form: minus the quotient by 16384 of the sum of the output at the whole-output function. -/
theorem resVal_eq (d : Dev nD) :
    resVal m outVal d = Host.negf (Host.divf (Host.reduceAdd (O1 m outVal d) (constant S_ .f32 0x00000000#32) reducesTo_S32x16_S_d0_1 h_S_)
      (constant S_ .f32 0x46800000#32)) := by
  unfold resVal VF tailOps; after_results
  rw [V1_o]

/-! ## The program's run -/

def QC : PUnit × MemSt nD τ sig (Elt F) → Prop := fun r => ∀ c : Dev nD,
  r.2.mem ((c.tc : Thread nD τ).loc main_v8) = resVal m outVal c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

theorem run_main [∀ e, Nonempty (Elt F e)] (hbody : TileStmt (F := F) outVal) (hpre : PreOK m) :
    θ_run (Cert.KernelIdeal.defs (F := F)) (Cert.KernelIdeal.threads (F := F)) ⟨m, fun _ => 0, ρ⟩ (QC m outVal) :=
  SparseCore.Cfg.θ_run_sc (K := K (F := F)) (D := D (F := F)) (𝒱 := 𝒱) (EH := EH) (P := P m outVal) facts v₀
    (fun q hq => match q with | 0 => nomatch hq)
    (fun q _ => match q with | 0 => tileObl m outVal facts hbody hpre)
    (fun q _ => match q with | 0 => SparseCore.Cfg.VecSplit.of_plain (vecSplit m outVal))
    m ρ main (fun _ => iprop(emp)) (FIN m outVal) (u₀ (F := F)) (sep_elim_left.trans (hu₀ m outVal)) (hmain m ρ outVal) (fq m outVal) (hfin m outVal) (QC m outVal)
    (fun _ h c => ⟨h c main_v8, (h c main_arg0).trans (VF_arg0 m outVal c), (h c main_arg1).trans (VF_arg1 m outVal c),
      (h c main_arg2).trans (VF_arg2 m outVal c), (h c main_arg3).trans (VF_arg3 m outVal c)⟩)

end Cert.Proof.KI

end
-- ==== Proof.HostIndex.lean ====
/-
  The index matrix in closed form, read at an index.

  The three index arrays — targets, contexts (16384 words each) and negatives (16384 × 1) — are each reshaped to
  32 × 4 × 1 × 128, stacked along the third axis into 32 × 4 × 3 × 128, and reshaped to 32 × 1536.  A reshape keeps the
  row-major position, so word `384 j + 128 s + r` of row `w` of the matrix (`j < 4`, `s < 3`, `r < 128`) is word
  `512 w + 128 j + r` of the target array for `s = 0`, of the context array for `s = 1`, of the negative array for `s = 2`.
  Every word of the matrix is such a word, so a bound on the three arrays' words bounds the matrix's.
-/
import proofs.«205315_g4544075399421_cont_8to1_c_355_20_alg».proof.Proof.LaunchKI

import Idealize.ShloMosaic.Lib.ValueIdx
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.Pipeline
open Idealize.ShloMosaic.StableHlo (held held_sub_split held_congr wp_seq after launchContents tcRefs)
open Idealize.ShloMosaic.Transfers (shareTok shareDrop pointsTo_toks_split pointsTo_toks_join)

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S32x1536 EltTy.i32)
local notation "eV" => (Memref.whole Cert.KernelIdeal.main_arg3_scv : Memref Cert.KernelIdeal.sig Kind.scVector Space.hbm Cert.KernelIdeal.S1000000x128 EltTy.f32)
local notation "oV" => (Memref.whole Cert.KernelIdeal.main_v5_scv : Memref Cert.KernelIdeal.sig Kind.scVector Space.hbm Cert.KernelIdeal.S32x16 EltTy.f32)
local notation "xS" => (Memref.whole Cert.KernelIdeal.cc0_scratch0 : Memref Cert.KernelIdeal.sig Kind.scVector Space.vmem Cert.KernelIdeal.S1536 EltTy.i32)
local notation "aS" => (Memref.whole Cert.KernelIdeal.cc0_scratch1 : Memref Cert.KernelIdeal.sig Kind.scVector Space.vmem Cert.KernelIdeal.S384x128 EltTy.f32)
local notation "bS" => (Memref.whole Cert.KernelIdeal.cc0_scratch2 : Memref Cert.KernelIdeal.sig Kind.scVector Space.vmem Cert.KernelIdeal.S384x128 EltTy.f32)
local notation "tS" => (Memref.whole Cert.KernelIdeal.cc0_scratch3 : Memref Cert.KernelIdeal.sig Kind.scVector Space.vmem Cert.KernelIdeal.S16 EltTy.f32)

variable [FloatOps F]

/-! ## The matrix as a function of the three arrays -/

omit F [FloatOps F] in
/-- The 32 × 1536 index matrix made of the three index arrays. -/
def v4 (T C : IVec S16384 32) (N : IVec S16384x1 32) : IVec S32x1536 32 :=
  shapeCast S32x1536 (concatenate S32x4x3x128 2
    [⟨S32x4x1x128, shapeCast S32x4x1x128 T shapeCasts_S16384_S32x4x1x128⟩,
     ⟨S32x4x1x128, shapeCast S32x4x1x128 C shapeCasts_S16384_S32x4x1x128⟩,
     ⟨S32x4x1x128, shapeCast S32x4x1x128 N shapeCasts_S16384x1_S32x4x1x128⟩]
    concatenates_S32x4x1x128_S32x4x1x128_S32x4x1x128_S32x4x3x128_d2) shapeCasts_S32x4x3x128_S32x1536

variable (m : (ℓ : Loc nD τ sig) → Buf (Elt F) ℓ)

omit [FloatOps F] in
/-- A host operation over a literal family of three arrays, read at its result: its function at the three arrays'
    contents, each at its own array. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

open Idealize.ShloMosaic.StableHlo in
/-- What the call reads is that matrix of the launch's three index arrays. -/
theorem I4_eq (d : Dev nD) :
    I4 m d = v4 (m ((d.tc : Thread nD τ).loc main_arg0)) (m ((d.tc : Thread nD τ).loc main_arg1)) (m ((d.tc : Thread nD τ).loc main_arg2)) := by
  unfold I4 VH headOps
  simp only [after_cons, after_nil]
  rw [reshape_result, nary3_result]
  after_results
  rfl

/-! ## Read at an index -/

/-- Sample `512 w + 128 j + r`. -/
def smp (w : Fin 32) (j : Fin 4) (r : Fin 128) : Fin 16384 :=
  ⟨512 * w.val + 128 * j.val + r.val, by have := w.isLt; have := j.isLt; have := r.isLt; omega⟩
/-- Column `384 j + 128 s + r`. -/
def col (j : Fin 4) (s : Fin 3) (r : Fin 128) : Fin 1536 :=
  ⟨384 * j.val + 128 * s.val + r.val, by have := j.isLt; have := s.isLt; have := r.isLt; omega⟩

section Apply

variable (T C : IVec S16384 32) (N : IVec S16384x1 32)

omit F [FloatOps F] in
/-- The outer reshape keeps the row-major position. -/
theorem v4_mid (w : Fin 32) (j : Fin 4) (s : Fin 3) (r : Fin 128) :
    v4 T C N (ix2 w (col j s r)) = concatenate S32x4x3x128 2
      [⟨S32x4x1x128, shapeCast S32x4x1x128 T shapeCasts_S16384_S32x4x1x128⟩,
       ⟨S32x4x1x128, shapeCast S32x4x1x128 C shapeCasts_S16384_S32x4x1x128⟩,
       ⟨S32x4x1x128, shapeCast S32x4x1x128 N shapeCasts_S16384x1_S32x4x1x128⟩]
      concatenates_S32x4x1x128_S32x4x1x128_S32x4x1x128_S32x4x3x128_d2 (ix4 w j s r) := by
  unfold v4
  refine shapeCast_apply _ _ _ (ix4 w j s r) ?_
  rw [Shape.rowMajor_val_four, Shape.rowMajor_val_two]
  show ((w.val * 4 + j.val) * 3 + s.val) * 128 + r.val = w.val * 1536 + (384 * j.val + 128 * s.val + r.val)
  omega

omit F [FloatOps F] in
/-- A stack of three unit-thick pieces read in piece `0`, `1`, `2`. -/
theorem cat3_0 {α : Type} (A B D : S32x4x1x128.Idx → α) (h) (w : Fin 32) (j : Fin 4) (r : Fin 128) :
    concatenate S32x4x3x128 2 [⟨S32x4x1x128, A⟩, ⟨S32x4x1x128, B⟩, ⟨S32x4x1x128, D⟩] h (ix4 w j 0 r) = A (ix4 w j 0 r) :=
  concatenate_apply_piece (t := S32x4x3x128) (2 : Fin 4) [⟨S32x4x1x128, A⟩, ⟨S32x4x1x128, B⟩, ⟨S32x4x1x128, D⟩] h (ix4 w j 0 r) 0 (by show (0 : ℕ) < 3; omega) S32x4x1x128 A rfl rfl 0 rfl (ix4 w j 0 r)
    (fun b hb => match b, hb with
      | ⟨0, _⟩, _ => rfl | ⟨1, _⟩, _ => rfl | ⟨2, _⟩, hb => absurd rfl hb | ⟨3, _⟩, _ => rfl
      | ⟨_ + 4, h⟩, _ => absurd h (Nat.not_lt.2 (Nat.le_add_left _ _))) rfl
omit F [FloatOps F] in
theorem cat3_1 {α : Type} (A B D : S32x4x1x128.Idx → α) (h) (w : Fin 32) (j : Fin 4) (r : Fin 128) :
    concatenate S32x4x3x128 2 [⟨S32x4x1x128, A⟩, ⟨S32x4x1x128, B⟩, ⟨S32x4x1x128, D⟩] h (ix4 w j 1 r) = B (ix4 w j 0 r) :=
  concatenate_apply_piece (t := S32x4x3x128) (2 : Fin 4) [⟨S32x4x1x128, A⟩, ⟨S32x4x1x128, B⟩, ⟨S32x4x1x128, D⟩] h (ix4 w j 1 r) 1 (by show (1 : ℕ) < 3; omega) S32x4x1x128 B rfl rfl 1 rfl (ix4 w j 0 r)
    (fun b hb => match b, hb with
      | ⟨0, _⟩, _ => rfl | ⟨1, _⟩, _ => rfl | ⟨2, _⟩, hb => absurd rfl hb | ⟨3, _⟩, _ => rfl
      | ⟨_ + 4, h⟩, _ => absurd h (Nat.not_lt.2 (Nat.le_add_left _ _))) rfl
omit F [FloatOps F] in
theorem cat3_2 {α : Type} (A B D : S32x4x1x128.Idx → α) (h) (w : Fin 32) (j : Fin 4) (r : Fin 128) :
    concatenate S32x4x3x128 2 [⟨S32x4x1x128, A⟩, ⟨S32x4x1x128, B⟩, ⟨S32x4x1x128, D⟩] h (ix4 w j 2 r) = D (ix4 w j 0 r) :=
  concatenate_apply_piece (t := S32x4x3x128) (2 : Fin 4) [⟨S32x4x1x128, A⟩, ⟨S32x4x1x128, B⟩, ⟨S32x4x1x128, D⟩] h (ix4 w j 2 r) 2 (by show (2 : ℕ) < 3; omega) S32x4x1x128 D rfl rfl 2 rfl (ix4 w j 0 r)
    (fun b hb => match b, hb with
      | ⟨0, _⟩, _ => rfl | ⟨1, _⟩, _ => rfl | ⟨2, _⟩, hb => absurd rfl hb | ⟨3, _⟩, _ => rfl
      | ⟨_ + 4, h⟩, _ => absurd h (Nat.not_lt.2 (Nat.le_add_left _ _))) rfl

omit F [FloatOps F] in
/-- The inner reshapes keep the row-major position. -/
theorem sc_vec (X : IVec S16384 32) (w : Fin 32) (j : Fin 4) (r : Fin 128) :
    shapeCast S32x4x1x128 X shapeCasts_S16384_S32x4x1x128 (ix4 w j 0 r) = X (ix1 (smp w j r)) := by
  refine shapeCast_apply _ _ _ (ix1 (smp w j r)) ?_
  rw [Shape.rowMajor_val_one, Shape.rowMajor_val_four]
  show 512 * w.val + 128 * j.val + r.val = ((w.val * 4 + j.val) * 1 + 0) * 128 + r.val
  omega
omit F [FloatOps F] in
theorem sc_col (X : IVec S16384x1 32) (w : Fin 32) (j : Fin 4) (r : Fin 128) :
    shapeCast S32x4x1x128 X shapeCasts_S16384x1_S32x4x1x128 (ix4 w j 0 r) = X (ix2 (smp w j r) 0) := by
  refine shapeCast_apply _ _ _ (ix2 (smp w j r) 0) ?_
  rw [Shape.rowMajor_val_two, Shape.rowMajor_val_four]
  show (512 * w.val + 128 * j.val + r.val) * 1 + 0 = ((w.val * 4 + j.val) * 1 + 0) * 128 + r.val
  omega

omit F [FloatOps F] in
/-- Word `384 j + r` of row `w` is the target of sample `512 w + 128 j + r`; `128` further on its context, `256` its negative. -/
theorem v4_apply_t (w : Fin 32) (j : Fin 4) (r : Fin 128) : v4 T C N (ix2 w (col j 0 r)) = T (ix1 (smp w j r)) := by
  rw [v4_mid, cat3_0, sc_vec]
omit F [FloatOps F] in
theorem v4_apply_c (w : Fin 32) (j : Fin 4) (r : Fin 128) : v4 T C N (ix2 w (col j 1 r)) = C (ix1 (smp w j r)) := by
  rw [v4_mid, cat3_1, sc_vec]
omit F [FloatOps F] in
theorem v4_apply_n (w : Fin 32) (j : Fin 4) (r : Fin 128) : v4 T C N (ix2 w (col j 2 r)) = N (ix2 (smp w j r) 0) := by
  rw [v4_mid, cat3_2, sc_col]

omit F [FloatOps F] in
/-- Every index of the matrix is `(w, 384 j + 128 s + r)` for some `w, j, s, r`. -/
theorem exists_col (x : S32x1536.Idx) : ∃ (w : Fin 32) (j : Fin 4) (s : Fin 3) (r : Fin 128), x = ix2 w (col j s r) := by
  have h1 : (x 1).val < 1536 := (x 1).isLt
  refine ⟨x 0, ⟨(x 1).val / 384, by omega⟩, ⟨(x 1).val % 384 / 128, by omega⟩, ⟨(x 1).val % 128, by omega⟩, ?_⟩
  have e : x 1 = col ⟨(x 1).val / 384, by omega⟩ ⟨(x 1).val % 384 / 128, by omega⟩ ⟨(x 1).val % 128, by omega⟩ :=
    Fin.ext (by simp only [col]; omega)
  rw [← e]; exact eq_ix2 x

omit F [FloatOps F] in
/-- A bound on every word of the three arrays bounds every word of the matrix. -/
theorem v4_lt (hT : ∀ i : Fin 16384, (T (ix1 i)).toNat < 1000000) (hC : ∀ i : Fin 16384, (C (ix1 i)).toNat < 1000000)
    (hN : ∀ i : Fin 16384, (N (ix2 i (0 : Fin 1))).toNat < 1000000) (x : S32x1536.Idx) : (v4 T C N x).toNat < 1000000 := by
  obtain ⟨w, j, s, r, rfl⟩ := exists_col x
  match s with
  | 0 => rw [v4_apply_t]; exact hT _
  | 1 => rw [v4_apply_c]; exact hC _
  | 2 => rw [v4_apply_n]; exact hN _

end Apply

/-- The launch asks nothing more than the three arrays' words below a million. -/
theorem preOK_of_lt
    (h : ∀ d : Dev nD, (∀ i : Fin 16384, (m ((d.tc : Thread nD τ).loc main_arg0) (ix1 i)).toNat < 1000000)
      ∧ (∀ i : Fin 16384, (m ((d.tc : Thread nD τ).loc main_arg1) (ix1 i)).toNat < 1000000)
      ∧ (∀ i : Fin 16384, (m ((d.tc : Thread nD τ).loc main_arg2) (ix2 i (0 : Fin 1))).toNat < 1000000)) : PreOK m := by
  intro d x
  rw [I4_eq]
  exact v4_lt _ _ _ (h d).1 (h d).2.1 (h d).2.2 x

end Cert.Proof.KI

end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.InputDomain.lean ====
/-
  What the input-domain precondition says of the three index arrays.

  The precondition is a conjunction of four all-true tests: the table's entries are finite, and each of the three index
  arrays has every entry, read as a signed word, in [0, 999999].  A conjunction of one-bit words that is 1 has every
  conjunct 1, an all-true test that is 1 has every element 1, and a signed comparison that is 1 is the inequality of
  the signed readings; so each index word `b` satisfies `0 ≤ b.toInt ≤ 999999`.  None of that looks at the floats, so it
  holds whichever way the table's entries are read.  Read as extended reals, the first test says every entry's absolute
  value is below +∞, which makes every entry a real number.
-/
import proofs.«205315_g4544075399421_cont_8to1_c_355_20_alg».proof.Proof.Gen.Pre_input_domain
import Idealize.ShloMosaic.Lib.ReduceAll
import Idealize.ShloMosaic.Lib.ValueIdx
import Idealize.ShloMosaic.PureOps.Ideal
import proofs.«205315_g4544075399421_cont_8to1_c_355_20_alg».proof.Proof.LibFiniteEntry

noncomputable section

namespace Cert.InputDomain

open Idealize.ShloMosaic Idealize.ShloMosaic.ValueIdx Cert.Pre_input_domain Cert.Pre_input_domain.Gen

/-- A 32-bit word that, read signed, lies in [0, 999999]. -/
def InRange (b : BitVec 32) : Prop := 0 ≤ b.toInt ∧ b.toInt ≤ 999999

/-- The two comparisons of the range test, both 1, say the word is in range. -/
theorem inRange_of_cmp (b : BitVec 32)
    (h : IntOp.andi (IntOp.cmpi .sge b 0#32) (IntOp.cmpi .sle b 999999#32) = 1#1) : InRange b := by
  obtain ⟨h1, h2⟩ := IntOp.andi_eq_one.mp h
  have a := IntOp.cmpi_sge.mp h1
  have c := IntOp.cmpi_sle.mp h2
  have e0 : (0#32 : BitVec 32).toInt = 0 := by decide
  have e9 : (999999#32 : BitVec 32).toInt = 999999 := by decide
  rw [e0] at a
  rw [e9] at c
  exact ⟨a, c⟩

/-- A word in range is its own value below a million: the signed reading is the unsigned one. -/
theorem InRange.toNat_lt {b : BitVec 32} (h : InRange b) : b.toNat < 1000000 ∧ b.toInt = (b.toNat : Int) := by
  obtain ⟨h0, h1⟩ := h
  have hb := b.isLt
  rw [BitVec.toInt_eq_toNat_cond] at h0 h1 ⊢
  split at h0 <;> split at h1 <;> constructor <;> simp_all <;> omega

/-- Under the precondition every entry of each index array is in range, however the floats are read. -/
theorem ranges_of_pre {F : FTy → Type} [FloatOps F] (T C : IVec ⟨1, ![16384]⟩ 32) (N : IVec ⟨2, ![16384, 1]⟩ 32)
    (E : FVec F ⟨2, ![1000000, 128]⟩ .f32)
    (h : Cert.Pre_input_domain.fn (F := F) T C N E = fun _ => 1#1) :
    (∀ i : Fin 16384, InRange (T (ix1 i))) ∧ (∀ i : Fin 16384, InRange (C (ix1 i)))
      ∧ (∀ i : Fin 16384, InRange (N (ix2 i (0 : Fin 1)))) := by
  have h0 := congrFun h ix0
  dsimp only [fn, fn_part1] at h0
  obtain ⟨h17, h23⟩ := IntOp.andi_eq_one.mp h0
  obtain ⟨h10, h16⟩ := IntOp.andi_eq_one.mp h17
  obtain ⟨-, h9⟩ := IntOp.andi_eq_one.mp h10
  exact ⟨fun i => inRange_of_cmp _ (Host.reduce_andi_all _ _ _ _ _ h9 (ix1 i)),
    fun i => inRange_of_cmp _ (Host.reduce_andi_all _ _ _ _ _ h16 (ix1 i)),
    fun i => inRange_of_cmp _ (Host.reduce_andi_all _ _ _ _ _ h23 (ix2 i (0 : Fin 1)))⟩

/-- Under the precondition, read at the extended reals, every entry of the table is a real number. -/
theorem finite_of_pre (T C : IVec ⟨1, ![16384]⟩ 32) (N : IVec ⟨2, ![16384, 1]⟩ 32)
    (E : FVec Ideal ⟨2, ![1000000, 128]⟩ .f32)
    (h : Cert.Pre_input_domain.fn (F := Ideal) T C N E = fun _ => 1#1) :
    ∀ j, ∃ r : ℝ, E j = (r : EReal) := by
  have h0 := congrFun h ix0
  dsimp only [fn, fn_part1] at h0
  obtain ⟨h17, -⟩ := IntOp.andi_eq_one.mp h0
  obtain ⟨h10, -⟩ := IntOp.andi_eq_one.mp h17
  obtain ⟨h3, -⟩ := IntOp.andi_eq_one.mp h10
  exact fun j => Cert.FiniteEntry.real_of_abs_lt_top (E j) (Host.reduce_andi_all _ _ _ _ _ h3 j)

end Cert.InputDomain

end
-- ==== Proof.Spec.lean ====
/-
  The two closed forms this certificate joins, over the extended reals, and the order in which the kernel's tiles
  visit the samples.

  A sample `i` names three rows of the table `E` — the target's `t i`, the context's `c i`, the negative's `n i` — and
  contributes `Σ_d E[t i, d] · (E[c i, d] − E[n i, d])`.  The kernel sums these contributions over all samples and
  lanes and returns minus the sum over 16384 (`kerLoss`).  The reference forms `pos i = Σ_d E[t i, d] · E[c i, d]` and
  `neg k = Σ_d E[t k, d] · E[n k, d]`, subtracts the mean of `neg` from every `pos i`, and returns minus the mean of the
  differences (`refLoss`).  Over the reals the two agree by distributivity and `Σ_{i<16384} μ = 16384 · μ`; on the
  extended reals distributivity needs the table's entries finite.
-/
import Idealize.ShloMosaic.PureOps.Ideal
import Idealize.ShloMosaic.Lib.ValueIdx

noncomputable section

open scoped BigOperators

namespace Cert.Spec

open Idealize.ShloMosaic Idealize.ShloMosaic.ValueIdx

/-- The table's shape: a million rows of 128 lanes. -/
abbrev STab : Shape := ⟨2, ![1000000, 128]⟩
/-- A table of extended reals. -/
abbrev Tab : Type := STab.Idx → EReal

/-- The row a 32-bit word names (for a word below a million: its value). -/
def row (b : BitVec 32) : Fin 1000000 := ⟨b.toNat % 1000000, Nat.mod_lt _ (by norm_num)⟩

/-- Entry `d` of the row the word `b` names. -/
def ent (E : Tab) (b : BitVec 32) (d : Fin 128) : EReal := E (ix2 (row b) d)

/-- The inner product of the rows two words name. -/
def dot (E : Tab) (a b : BitVec 32) : EReal := ∑ d : Fin 128, ent E a d * ent E b d

/-- The divisor both programs use, as the word they print: 16384 in binary32. -/
def c16384 : EReal := Ideal.ofBits .f32 0x46800000#32

/-- The reference's result: minus the mean over the samples of `pos i − mean neg`. -/
def refLoss (T C N : Fin 16384 → BitVec 32) (E : Tab) : EReal :=
  -(Ideal.div (∑ i : Fin 16384, (dot E (T i) (C i) - Ideal.div (∑ k : Fin 16384, dot E (T k) (N k)) c16384)) c16384)

/-- One sample's contribution at one lane. -/
def term (T C N : Fin 16384 → BitVec 32) (E : Tab) (i : Fin 16384) (d : Fin 128) : EReal :=
  ent E (T i) d * (ent E (C i) d - ent E (N i) d)

/-- The kernel's result: minus the sum of all contributions over 16384. -/
def kerLoss (T C N : Fin 16384 → BitVec 32) (E : Tab) : EReal :=
  -(Ideal.div (∑ i : Fin 16384, ∑ d : Fin 128, term T C N E i d) c16384)

/-- The sample worker `w` visits in chunk `j`, trip `k`, at parity `p`: `512 w + 128 j + 2 k + p`. -/
def sampleOf (w : Fin 32) (j : Fin 4) (k : Fin 64) (p : Fin 2) : Fin 16384 :=
  ⟨512 * w.val + 128 * j.val + 2 * k.val + p.val, by have := w.isLt; have := j.isLt; have := k.isLt; have := p.isLt; omega⟩

/-- Lane `l` of lane group `g`: `16 g + l`. -/
def laneOf (g : Fin 8) (l : Fin 16) : Fin 128 := ⟨16 * g.val + l.val, by have := g.isLt; have := l.isLt; omega⟩

/-- The contributions summed in the kernel's order: per worker and output lane, per accumulator (parity and lane
    group), per chunk and trip. -/
def tiledSum (T C N : Fin 16384 → BitVec 32) (E : Tab) : EReal :=
  ∑ w : Fin 32, ∑ l : Fin 16, ∑ p : Fin 2, ∑ g : Fin 8, ∑ j : Fin 4, ∑ k : Fin 64,
    term T C N E (sampleOf w j k p) (laneOf g l)

end Cert.Spec

end
-- ==== Proof.HostGlue.lean ====
/-
  The launch's two links to the claim: the precondition bounds the index matrix, and the tail read at the extended reals.

  The precondition says every word of the three index arrays, read signed, lies in [0, 999999]; such a word is its own
  unsigned value, below a million, and every word of the index matrix is one of them.  At the extended reals the tail
  is exact: the host's sum over both axes of the 32 × 16 output is the zero word's value (0) plus the double sum, the
  quotient by the word 16384.0 is the exact quotient, the negation the exact negation.
-/
import proofs.«205315_g4544075399421_cont_8to1_c_355_20_alg».proof.Proof.HostIndex

import proofs.«205315_g4544075399421_cont_8to1_c_355_20_alg».proof.Proof.InputDomain
import proofs.«205315_g4544075399421_cont_8to1_c_355_20_alg».proof.Proof.Spec
import Idealize.ShloMosaic.PureOps.Ideal.Laws

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_sub_split held_congr wp_seq after launchContents tcRefs)
open Idealize.ShloMosaic.Transfers (shareTok shareDrop pointsTo_toks_split pointsTo_toks_join)

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S32x1536 EltTy.i32)
local notation "eV" => (Memref.whole Cert.KernelIdeal.main_arg3_scv : Memref Cert.KernelIdeal.sig Kind.scVector Space.hbm Cert.KernelIdeal.S1000000x128 EltTy.f32)
local notation "oV" => (Memref.whole Cert.KernelIdeal.main_v5_scv : Memref Cert.KernelIdeal.sig Kind.scVector Space.hbm Cert.KernelIdeal.S32x16 EltTy.f32)
local notation "xS" => (Memref.whole Cert.KernelIdeal.cc0_scratch0 : Memref Cert.KernelIdeal.sig Kind.scVector Space.vmem Cert.KernelIdeal.S1536 EltTy.i32)
local notation "aS" => (Memref.whole Cert.KernelIdeal.cc0_scratch1 : Memref Cert.KernelIdeal.sig Kind.scVector Space.vmem Cert.KernelIdeal.S384x128 EltTy.f32)
local notation "bS" => (Memref.whole Cert.KernelIdeal.cc0_scratch2 : Memref Cert.KernelIdeal.sig Kind.scVector Space.vmem Cert.KernelIdeal.S384x128 EltTy.f32)
local notation "tS" => (Memref.whole Cert.KernelIdeal.cc0_scratch3 : Memref Cert.KernelIdeal.sig Kind.scVector Space.vmem Cert.KernelIdeal.S16 EltTy.f32)

variable [FloatOps F]

variable (m : (ℓ : Loc nD τ sig) → Buf (Elt F) ℓ)

/-! ## The precondition bounds the index matrix -/

/-- In-range index arrays make the launch's demand true. -/
theorem preOK_of_ranges
    (h : ∀ d : Dev nD, (∀ i : Fin 16384, Cert.InputDomain.InRange (m ((d.tc : Thread nD τ).loc main_arg0) (ix1 i)))
      ∧ (∀ i : Fin 16384, Cert.InputDomain.InRange (m ((d.tc : Thread nD τ).loc main_arg1) (ix1 i)))
      ∧ (∀ i : Fin 16384, Cert.InputDomain.InRange (m ((d.tc : Thread nD τ).loc main_arg2) (ix2 i (0 : Fin 1))))) : PreOK m :=
  preOK_of_lt m fun d => ⟨fun i => ((h d).1 i).toNat_lt.1, fun i => ((h d).2.1 i).toNat_lt.1, fun i => ((h d).2.2 i).toNat_lt.1⟩

/-- The precondition, all ones, gives the launch's demand. -/
theorem ok_of_pre (m : (ℓ : Loc nD τ sig) → Buf (Elt Ideal) ℓ) (h : Cert.Pre_KernelIdeal m) : PreOK (F := Ideal) m :=
  preOK_of_ranges m fun d => Cert.InputDomain.ranges_of_pre (F := Ideal) _ _ _ _ (h d)

/-! ## The tail at the extended reals -/

/-- The program's result at the extended reals: minus the exact quotient by 16384 of the double sum of the output at
    the whole-output function. -/
theorem resVal_ideal (m : (ℓ : Loc nD τ sig) → Buf (Elt Ideal) ℓ) (outVal : OutFn Ideal) (d : Dev nD) :
    resVal (F := Ideal) m outVal d
      = fun _ => -(Ideal.div (∑ w : Fin 32, ∑ l : Fin 16, O1 m outVal d (ix2 w l)) Cert.Spec.c16384) := by
  rw [resVal_eq]
  funext i
  show -(Ideal.div (Ideal.hostReduceAdd reducesTo_S32x16_S_d0_1 (O1 m outVal d) (Ideal.ofBits .f32 0x00000000#32) i)
    (Ideal.ofBits .f32 0x46800000#32)) = _
  rw [Ideal.hostReduceAdd_total _ (fun b => b.elim0), Ideal.ofBits_zero_f32, zero_add, sum_idx2]
  rfl

end Cert.Proof.KI

end
-- ==== Proof.TilePreB.lean ====
/-
  The vocabulary of one vector subcore's task, at a symbolic place (SparseCore `L 0`, subcore `L 1`), for any float instance.

  Worker `w = 2·(L 1) + (L 0)` copies row `w` of the index matrix (1536 words: four chunks of 128 target, 128 context
  and 128 negative row numbers) into its index scratch in two copies, gathers each chunk's 384 table rows into one of
  two row buffers (the next chunk's gather in flight while the current chunk is summed), adds for every pair of rows
  `r, 128 + r, 256 + r` of a chunk and every group of sixteen lanes the product `buf[r] · (buf[128 + r] − buf[256 + r])`
  into sixteen lane-vector accumulators, sums the sixteen accumulators, stores the sum in its output scratch and copies
  it to row `w` of the output.
-/
import proofs.«205315_g4544075399421_cont_8to1_c_355_20_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«205315_g4544075399421_cont_8to1_c_355_20_alg».proof.Proof.Gen.Kernel
import proofs.«205315_g4544075399421_cont_8to1_c_355_20_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch -/

/-- The index matrix (32 × 1536), the table, the output (32 × 16), as locations of device `d`. -/
abbrev iLoc (d : Dev nD) : Loc nD τ sig := (SparseCore.T d).loc main_v4
abbrev eLoc (d : Dev nD) : Loc nD τ sig := (SparseCore.T d).loc main_arg3
abbrev oLoc (d : Dev nD) : Loc nD τ sig := (SparseCore.T d).loc main_v5

local notation "iV" => (Memref.whole Cert.Kernel.main_v4_scv : Memref Cert.Kernel.sig Kind.scVector Space.hbm Cert.Kernel.S32x1536 EltTy.i32)
local notation "eV" => (Memref.whole Cert.Kernel.main_arg3_scv : Memref Cert.Kernel.sig Kind.scVector Space.hbm Cert.Kernel.S1000000x128 EltTy.f32)
local notation "oV" => (Memref.whole Cert.Kernel.main_v5_scv : Memref Cert.Kernel.sig Kind.scVector Space.hbm Cert.Kernel.S32x16 EltTy.f32)
local notation "xS" => (Memref.whole Cert.Kernel.cc0_scratch0 : Memref Cert.Kernel.sig Kind.scVector Space.vmem Cert.Kernel.S1536 EltTy.i32)
local notation "aS" => (Memref.whole Cert.Kernel.cc0_scratch1 : Memref Cert.Kernel.sig Kind.scVector Space.vmem Cert.Kernel.S384x128 EltTy.f32)
local notation "bS" => (Memref.whole Cert.Kernel.cc0_scratch2 : Memref Cert.Kernel.sig Kind.scVector Space.vmem Cert.Kernel.S384x128 EltTy.f32)
local notation "tS" => (Memref.whole Cert.Kernel.cc0_scratch3 : Memref Cert.Kernel.sig Kind.scVector Space.vmem Cert.Kernel.S16 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- Row `w` of the output as the task addresses it (one row of sixteen lanes, squeezed). -/
abbrev oRowK (L : grid0.Coords) : Memref sig .scVector .hbm S16 .f32 :=
  ((oV).slice (Rect.unit (s := S32x16) (k0_off131 L) S1x16.size (k0_off131_inb L)) (fun _ => rfl)).squeeze S16 squeezes_S1x16_S16
abbrev oRowSet (L : grid0.Coords) : Finset S32x16.Idx := (oRowK L).view.set

abbrev cA (d : Dev nD) (c : Fin τ.nSC) (i : Fin τ.nSub) : GSem nD τ sig := (V d c i, .dma cc0_scratch4.sem)
abbrev cB (d : Dev nD) (c : Fin τ.nSC) (i : Fin τ.nSub) : GSem nD τ sig := (V d c i, .dma cc0_scratch5.sem)
abbrev cC (d : Dev nD) (c : Fin τ.nSC) (i : Fin τ.nSub) : GSem nD τ sig := (V d c i, .dma cc0_scratch6.sem)
abbrev cD (d : Dev nD) (c : Fin τ.nSC) (i : Fin τ.nSub) : GSem nD τ sig := (V d c i, .dma cc0_scratch7.sem)
abbrev cE (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ semVal (cD d (cV L) (jV L)) 0 ∗ semVal (cE d (cV L) (jV L)) 0
          ∗ bigSep ((((((ownCells (V d (cV L) (jV L))).erase (cA d (cV L) (jV L))).erase (cB d (cV L) (jV L))).erase (cC d (cV L) (jV L))).erase
              (cD d (cV L) (jV L))).erase (cE d (cV L) (jV L))) fun g => semVal g 0) := by
  unfold SparseCore.Cfg.ownSems0
  rw [SparseCore.bigSep_erase' ((mem_ownCells (g := cA d (cV L) (jV L))).mpr ⟨rfl, by
      show (SemLoc.dma cc0_scratch4.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scratch5.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scratch6.sem : SemLoc sig).isScoped .scVector = true; decide⟩⟩⟩),
    SparseCore.bigSep_erase' (Finset.mem_erase.mpr ⟨by simp [cC, cD]; decide, Finset.mem_erase.mpr ⟨by simp [cB, cD]; decide,
      Finset.mem_erase.mpr ⟨by simp [cA, cD]; decide,
      (mem_ownCells (g := cD d (cV L) (jV L))).mpr ⟨rfl, by show (SemLoc.dma cc0_scratch7.sem : SemLoc sig).isScoped .scVector = true; decide⟩⟩⟩⟩),
    SparseCore.bigSep_erase' (Finset.mem_erase.mpr ⟨by simp [cD, cE]; decide, Finset.mem_erase.mpr ⟨by simp [cC, cE]; decide,
      Finset.mem_erase.mpr ⟨by simp [cB, cE]; decide, Finset.mem_erase.mpr ⟨by simp [cA, cE]; decide,
      (mem_ownCells (g := cE d (cV L) (jV L))).mpr ⟨rfl, by show (SemLoc.dma cc0_scoped0.sem : SemLoc sig).isScoped .scVector = true; decide⟩⟩⟩⟩⟩)]

abbrev rX (L : grid0.Coords) : DevRef τ sig := (Proc.scVector (cV L) (jV L)).devRef cc0_scratch0
abbrev rA (L : grid0.Coords) : DevRef τ sig := (Proc.scVector (cV L) (jV L)).devRef cc0_scratch1
abbrev rB (L : grid0.Coords) : DevRef τ sig := (Proc.scVector (cV L) (jV L)).devRef cc0_scratch2
abbrev rT (L : grid0.Coords) : DevRef τ sig := (Proc.scVector (cV L) (jV L)).devRef cc0_scratch3

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (rX L)).erase (rA L)).erase (rB L)).erase (rT L))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := rX L) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := rA L) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := rB L) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
      SparseCore.Cfg.mem_ownRefs_of_owner (p := Proc.scVector (cV L) (jV L)) (b := rT L) rfl⟩⟩⟩)]

omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_eV (q : PosShare TreeShare) (f : Buf (Elt F) (eLoc d)) :
    ((eV).view.loc (V d (cV L) (jV L)) ↦{q} f : sProp 𝕄) = eLoc d ↦{q} f := rfl
omit [FloatOps F] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] in
theorem pts_xS (f : Buf (Elt F) ((V d (cV L) (jV L)).loc cc0_scratch0)) :
    ((xS).view.loc (V d (cV L) (jV L)) ↦{fullShare} f : sProp 𝕄) = (V d (cV L) (jV L)).loc cc0_scratch0 ↦{fullShare} f := rfl
omit [FloatOps F] in
theorem pts_aS (f : Buf (Elt F) ((V d (cV L) (jV L)).loc cc0_scratch1)) :
    ((aS).view.loc (V d (cV L) (jV L)) ↦{fullShare} f : sProp 𝕄) = (V d (cV L) (jV L)).loc cc0_scratch1 ↦{fullShare} f := rfl
omit [FloatOps F] in
theorem pts_bS (f : Buf (Elt F) ((V d (cV L) (jV L)).loc cc0_scratch2)) :
    ((bS).view.loc (V d (cV L) (jV L)) ↦{fullShare} f : sProp 𝕄) = (V d (cV L) (jV L)).loc cc0_scratch2 ↦{fullShare} f := rfl
omit [FloatOps F] in
theorem pts_tS (f : Buf (Elt F) ((V d (cV L) (jV L)).loc cc0_scratch3)) :
    ((tS).view.loc (V d (cV L) (jV L)) ↦{fullShare} f : sProp 𝕄) = (V d (cV L) (jV L)).loc cc0_scratch3 ↦{fullShare} f := rfl

/-! ### The index scratch in pieces: the first chunk's 384 words, the other three chunks' 1152 -/

abbrev xs0 : Memref sig .scVector .vmem S384 .i32 := (xS).slice (Rect.unit (s := S1536) ![0] S384.size inb_S1536_S384_0) (fun _ => rfl)
abbrev xs1 : Memref sig .scVector .vmem S384 .i32 := (xS).slice (Rect.unit (s := S1536) ![384] S384.size inb_S1536_S384_384) (fun _ => rfl)
abbrev xs2 : Memref sig .scVector .vmem S384 .i32 := (xS).slice (Rect.unit (s := S1536) ![768] S384.size inb_S1536_S384_768) (fun _ => rfl)
abbrev xs3 : Memref sig .scVector .vmem S384 .i32 := (xS).slice (Rect.unit (s := S1536) ![1152] S384.size inb_S1536_S384_1152) (fun _ => rfl)
abbrev xsR : Memref sig .scVector .vmem S1152 .i32 := (xS).slice (Rect.unit (s := S1536) ![384] S1152.size inb_S1536_S1152_384) (fun _ => rfl)

omit [FloatOps F] in
theorem set_xs0 : (xs0).view.set = (Rect.unit (s := S1536) ![0] S384.size inb_S1536_S384_0).set := by
  show ((View.whole (cc0_scratch0 : Ref sig .scVector)).slice _).set = _
  rw [View.set_slice]; exact Finset.map_refl
omit [FloatOps F] in
theorem set_xs1 : (xs1).view.set = (Rect.unit (s := S1536) ![384] S384.size inb_S1536_S384_384).set := by
  show ((View.whole (cc0_scratch0 : Ref sig .scVector)).slice _).set = _
  rw [View.set_slice]; exact Finset.map_refl
omit [FloatOps F] in
theorem set_xs2 : (xs2).view.set = (Rect.unit (s := S1536) ![768] S384.size inb_S1536_S384_768).set := by
  show ((View.whole (cc0_scratch0 : Ref sig .scVector)).slice _).set = _
  rw [View.set_slice]; exact Finset.map_refl
omit [FloatOps F] in
theorem set_xs3 : (xs3).view.set = (Rect.unit (s := S1536) ![1152] S384.size inb_S1536_S384_1152).set := by
  show ((View.whole (cc0_scratch0 : Ref sig .scVector)).slice _).set = _
  rw [View.set_slice]; exact Finset.map_refl
omit [FloatOps F] in
theorem set_xsR : (xsR).view.set = (Rect.unit (s := S1536) ![384] S1152.size inb_S1536_S1152_384).set := by
  show ((View.whole (cc0_scratch0 : Ref sig .scVector)).slice _).set = _
  rw [View.set_slice]; exact Finset.map_refl

omit [FloatOps F] in
/-- The first chunk's words and the other chunks' words are different words. -/
theorem xs0_disj_xsR : Disjoint (xs0).view.set (xsR).view.set := by
  rw [set_xs0, set_xsR]; exact Rect.unit_disjoint 0 (Or.inl (by decide))
omit [FloatOps F] in
theorem xsR_sub : (xsR).view.set ⊆ Finset.univ \ (xs0).view.set := by
  intro i hi; exact Finset.mem_sdiff.mpr ⟨Finset.mem_univ _, fun h => (Finset.disjoint_left.mp xs0_disj_xsR) h hi⟩
omit [FloatOps F] in
theorem xs1_sub : (xs1).view.set ⊆ (xsR).view.set := by
  rw [set_xs1, set_xsR]; intro i hi
  rw [Rect.mem_set_unit] at hi ⊢
  intro a; have := hi a; revert this
  match a with
  | ⟨0, _⟩ => simp only [Matrix.cons_val_zero, Matrix.cons_val_fin_one]; intro h; exact ⟨h.1, by have := h.2; show _ < 384 + 1152; change _ < 384 + 384 at this; omega⟩
omit [FloatOps F] in
theorem xs2_sub : (xs2).view.set ⊆ (xsR).view.set \ (xs1).view.set := by
  intro i hi
  refine Finset.mem_sdiff.mpr ⟨?_, fun h => (Finset.disjoint_left.mp (by rw [set_xs1, set_xs2]; exact Rect.unit_disjoint 0 (Or.inl (by decide)))) h hi⟩
  rw [set_xs2] at hi; rw [set_xsR]
  rw [Rect.mem_set_unit] at hi ⊢
  intro a; have := hi a; revert this
  match a with
  | ⟨0, _⟩ => simp only [Matrix.cons_val_zero, Matrix.cons_val_fin_one]; intro h; exact ⟨by have := h.1; change 768 ≤ _ at this; show 384 ≤ _; omega, by have := h.2; show _ < 384 + 1152; change _ < 768 + 384 at this; omega⟩
omit [FloatOps F] in
theorem xs3_sub : (xs3).view.set ⊆ ((xsR).view.set \ (xs1).view.set) \ (xs2).view.set := by
  intro i hi
  refine Finset.mem_sdiff.mpr ⟨Finset.mem_sdiff.mpr ⟨?_, fun h => (Finset.disjoint_left.mp (by rw [set_xs1, set_xs3]; exact Rect.unit_disjoint 0 (Or.inl (by decide)))) h hi⟩,
    fun h => (Finset.disjoint_left.mp (by rw [set_xs2, set_xs3]; exact Rect.unit_disjoint 0 (Or.inl (by decide)))) h hi⟩
  rw [set_xs3] at hi; rw [set_xsR]
  rw [Rect.mem_set_unit] at hi ⊢
  intro a; have := hi a; revert this
  match a with
  | ⟨0, _⟩ => simp only [Matrix.cons_val_zero, Matrix.cons_val_fin_one]; intro h; exact ⟨by have := h.1; change 1152 ≤ _ at this; show 384 ≤ _; omega, by have := h.2; show _ < 384 + 1152; change _ < 1152 + 384 at this; omega⟩

omit [FloatOps F] in
theorem pts_xs0 (f : Buf (Elt F) ((V d (cV L) (jV L)).loc cc0_scratch0)) :
    ((xs0).view.loc (V d (cV L) (jV L)) ↦[(xs0).view.set]{fullShare} f : sProp 𝕄) = (V d (cV L) (jV L)).loc cc0_scratch0 ↦[(xs0).view.set]{fullShare} f := rfl
omit [FloatOps F] in
theorem pts_xsR (f : Buf (Elt F) ((V d (cV L) (jV L)).loc cc0_scratch0)) :
    ((xsR).view.loc (V d (cV L) (jV L)) ↦[(xsR).view.set]{fullShare} f : sProp 𝕄) = (V d (cV L) (jV L)).loc cc0_scratch0 ↦[(xsR).view.set]{fullShare} f := rfl
omit [FloatOps F] in
theorem pts_xs1 (f : Buf (Elt F) ((V d (cV L) (jV L)).loc cc0_scratch0)) :
    ((xs1).view.loc (V d (cV L) (jV L)) ↦[(xs1).view.set]{fullShare} f : sProp 𝕄) = (V d (cV L) (jV L)).loc cc0_scratch0 ↦[(xs1).view.set]{fullShare} f := rfl
omit [FloatOps F] in
theorem pts_xs2 (f : Buf (Elt F) ((V d (cV L) (jV L)).loc cc0_scratch0)) :
    ((xs2).view.loc (V d (cV L) (jV L)) ↦[(xs2).view.set]{fullShare} f : sProp 𝕄) = (V d (cV L) (jV L)).loc cc0_scratch0 ↦[(xs2).view.set]{fullShare} f := rfl
omit [FloatOps F] in
theorem pts_xs3 (f : Buf (Elt F) ((V d (cV L) (jV L)).loc cc0_scratch0)) :
    ((xs3).view.loc (V d (cV L) (jV L)) ↦[(xs3).view.set]{fullShare} f : sProp 𝕄) = (V d (cV L) (jV L)).loc cc0_scratch0 ↦[(xs3).view.set]{fullShare} f := rfl

/-- The index matrix and the table at a read share, a row of the output outright. -/
abbrev iPts (d : Dev nD) (q : PosShare TreeShare) (f : Buf (Elt F) (iLoc d)) : sProp 𝕄 := iLoc d ↦{q} f
abbrev ePts (d : Dev nD) (q : PosShare TreeShare) (f : Buf (Elt F) (eLoc d)) : sProp 𝕄 := eLoc d ↦{q} f
abbrev oRowPts (d : Dev nD) (L : grid0.Coords) (f : Buf (Elt F) (oLoc d)) : sProp 𝕄 := oLoc d ↦[oRowSet L]{fullShare} f

/-- The type of "what the whole output holds once every worker has written its row", a function of the index matrix's
    contents and the table's. -/
abbrev OutFn (F : FTy → Type) : Type := (d : Dev nD) → Buf (Elt F) (iLoc d) → Buf (Elt F) (eLoc d) → Buf (Elt F) (oLoc d)

/-- One worker's task: from read shares of the index matrix (every word below a million) and of the table and its own
    row of the output, it ends with the shares back and its row at the whole-output function. -/
def TileStmt (outVal : OutFn F) : Prop :=
  ∀ (d : Dev nD) (L : grid0.Coords) (hF : (K (F := F)).Facts) (I4 : Buf (Elt F) (iLoc d)) (E : Buf (Elt F) (eLoc d)) (O0 : Buf (Elt F) (oLoc d))
    (qi qe : PosShare TreeShare) (hin : ∀ j, (I4 j).toNat < 1000000)
    (O : CellTallies nD τ sig (HIx 1)) (W : Waits sig (HIx 1)) (hO : ∀ g, O g none = 0),
    iprop(levAts (K (F := F)).L (K (F := F)).lev ∗ emp
        ∗ (iPts d qi I4 ∗ ePts d qe E ∗ oRowPts d L O0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_partial_kernel L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0)
          fun _ => iprop((iPts d qi I4 ∗ ePts d qe E ∗ oRowPts d L (outVal d I4 E))
            ∗ scopedBufs (V d (cV L) (jV L)) ∗ scopedSems0 (V d (cV L) (jV L))
            ∗ ∃ W', ⌜∀ p ∈ W', p ∈ W ∨ p.2 = none⌝ ∗ owes (V d (cV L) (jV L)) O W')

end Tile

end Cert.Proof.KB

end
-- ==== Proof.LaunchPayKB.lean ====
/-
  What the one SparseCore call carries, and how it splits among the two SparseCores and their sixteen vector subcores.

  Tile `(c, s)` (SparseCore `c < 2`, subcore `s < 16`) is worker `w = 2 s + c`.  Every worker reads the whole index
  matrix and the whole table, so each gets a read share of both: the full share gives one token to each SparseCore, and
  each SparseCore's token one token to each of its subcores; the remainders stay with the splitter and come back when
  the tokens do.  Worker `w` alone writes row `w` of the 32 × 16 output, so it gets that row outright; the 32 rows are
  pairwise disjoint and cover the output, and all are returned at one and the same whole-output function.
-/
import proofs.«205315_g4544075399421_cont_8to1_c_355_20_alg».proof.Proof.TilePreB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_seq after launchContents tcRefs)
open Idealize.ShloMosaic.Transfers (shareTok shareDrop pointsTo_toks_split pointsTo_toks_join)

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S32x1536 EltTy.i32)
local notation "eV" => (Memref.whole Cert.Kernel.main_arg3_scv : Memref Cert.Kernel.sig Kind.scVector Space.hbm Cert.Kernel.S1000000x128 EltTy.f32)
local notation "oV" => (Memref.whole Cert.Kernel.main_v5_scv : Memref Cert.Kernel.sig Kind.scVector Space.hbm Cert.Kernel.S32x16 EltTy.f32)
local notation "xS" => (Memref.whole Cert.Kernel.cc0_scratch0 : Memref Cert.Kernel.sig Kind.scVector Space.vmem Cert.Kernel.S1536 EltTy.i32)
local notation "aS" => (Memref.whole Cert.Kernel.cc0_scratch1 : Memref Cert.Kernel.sig Kind.scVector Space.vmem Cert.Kernel.S384x128 EltTy.f32)
local notation "bS" => (Memref.whole Cert.Kernel.cc0_scratch2 : Memref Cert.Kernel.sig Kind.scVector Space.vmem Cert.Kernel.S384x128 EltTy.f32)
local notation "tS" => (Memref.whole Cert.Kernel.cc0_scratch3 : Memref Cert.Kernel.sig Kind.scVector Space.vmem Cert.Kernel.S16 EltTy.f32)

/-! ## The grid's coordinates and the worker's row -/

omit F in
theorem bound_zero : grid0.bound 0 = 2 := rfl
omit F in
theorem bound_one : grid0.bound 1 = 16 := rfl

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The grid point of tile `(c, s)`. -/
abbrev LL (c : Fin 2) (s : Fin 16) : grid0.Coords := coordsV (Fin.cast bound_zero.symm c) (Fin.cast bound_one.symm s)

/-- Worker `2 s + c`. -/
def wk (c : Fin 2) (s : Fin 16) : Fin 32 := ⟨2 * s.val + c.val, by have := c.isLt; have := s.isLt; omega⟩

omit F in
theorem odiv : 32 ∣ S32x16.size 0 := ⟨1, rfl⟩
/-- Row `j` of the output. -/
abbrev orow (j : Fin 32) : Rect S32x16 := Rect.part (s := S32x16) (a₀ := 0) odiv j

omit F in
/-- The rectangle tile `(c, s)` addresses is row `2 s + c`. -/
theorem orowK_eq (c : Fin 2) (s : Fin 16) :
    Rect.unit (s := S32x16) (k0_off131 (LL c s)) S1x16.size (k0_off131_inb (LL c s)) = orow (wk c s) := by
  unfold orow Rect.part Rect.block
  congr 1 <;> funext a
  · rw [k0_off131_eq]
    match a with
    | 0 => simp [Shape.partIx, Shape.partSize, wk, LL, coordsV]
    | 1 => simp [Shape.partIx, Shape.partSize]
  · match a with
    | 0 => simp [Shape.partSize]
    | 1 => simp [Shape.partSize]

omit F in
theorem oRowSet_eq (c : Fin 2) (s : Fin 16) : oRowSet (LL c s) = (orow (wk c s)).set := by
  show (((oV).view.slice (Rect.unit (s := S32x16) (k0_off131 (LL c s)) S1x16.size (k0_off131_inb (LL c s)))).reshape S16 squeezes_S1x16_S16.numel_eq).set = _
  rw [View.set_reshape]
  show ((View.whole (main_v5_scv : Ref sig .scVector)).slice _).set = _
  rw [View.set_slice]
  exact Finset.map_refl.trans (congrArg (fun r : Rect S32x16 => r.set) (orowK_eq c s))

omit F in
theorem wk_injective : Function.Injective fun p : Fin 2 × Fin 16 => wk p.1 p.2 := by
  rintro ⟨c, s⟩ ⟨c', s'⟩ h
  have h' : 2 * s.val + c.val = 2 * s'.val + c'.val := congrArg Fin.val h
  have := c.isLt; have := c'.isLt
  refine Prod.ext (Fin.ext ?_) (Fin.ext ?_) <;> dsimp only <;> omega

omit F in
theorem orows_disjoint : ∀ p ∈ (Finset.univ : Finset (Fin 2 × Fin 16)), ∀ p' ∈ (Finset.univ : Finset (Fin 2 × Fin 16)), p ≠ p' →
    Disjoint (oRowSet (LL p.1 p.2)) (oRowSet (LL p'.1 p'.2)) :=
  fun p _ p' _ h => by rw [oRowSet_eq, oRowSet_eq]; exact Rect.part_disjoint odiv fun e => h (wk_injective e)

omit F in
theorem orows_cover : (Finset.univ : Finset (Fin 2 × Fin 16)).biUnion (fun p => oRowSet (LL p.1 p.2)) = Finset.univ := by
  ext i
  simp only [Finset.mem_biUnion, Finset.mem_univ, true_and, iff_true]
  obtain ⟨j, hj⟩ := Rect.exists_mem_part odiv i
  refine ⟨(⟨j.val % 2, by omega⟩, ⟨j.val / 2, by have := j.isLt; omega⟩), ?_⟩
  rw [oRowSet_eq]
  have e : wk ⟨j.val % 2, by omega⟩ ⟨j.val / 2, by have := j.isLt; omega⟩ = j := Fin.ext (by simp only [wk]; omega)
  rw [e]; exact hj

/-- The output whole is its 32 rows, SparseCore by SparseCore, subcore by subcore. -/
theorem oPts_rows (d : Dev nD) (f : Buf (Elt F) (oLoc d)) :
    (oLoc d ↦{fullShare} f : sProp 𝕄) = bigSep Finset.univ fun c : Fin 2 => bigSep Finset.univ fun s : Fin 16 => oRowPts d (LL c s) f := by
  rw [← SparseCore.bigSep_product Finset.univ Finset.univ (fun p : Fin 2 × Fin 16 => (oRowPts d (LL p.1 p.2) f : sProp 𝕄)), Finset.univ_product_univ,
    ← pointsTo_biUnion Finset.univ (ℓ := oLoc d) (fun p : Fin 2 × Fin 16 => oRowSet (LL p.1 p.2)) orows_disjoint, orows_cover]
  try rfl

variable [FloatOps F]

/-! ## What the handshakes carry -/

variable (m : (ℓ : Loc nD τ sig) → Buf (Elt F) ℓ) (outVal : OutFn F)

/-- The five host operations before the call: the three index arrays reshaped, concatenated, reshaped to 32 × 1536. -/
def headOps : List (HloOp τ sig (Elt F)) :=
  [StableHlo.reshape main_arg0 main_v0 rfl shapeCasts_S16384_S32x4x1x128,
   StableHlo.reshape main_arg1 main_v1 rfl shapeCasts_S16384_S32x4x1x128,
   StableHlo.reshape main_arg2 main_v2 rfl shapeCasts_S16384x1_S32x4x1x128,
   StableHlo.nary ![main_v0, main_v1, main_v2] main_v3 (fun u => concatenate S32x4x3x128 2 [⟨S32x4x1x128, u 0⟩, ⟨S32x4x1x128, u 1⟩, ⟨S32x4x1x128, u 2⟩] concatenates_S32x4x1x128_S32x4x1x128_S32x4x1x128_S32x4x3x128_d2),
   StableHlo.reshape main_v3 main_v4 rfl shapeCasts_S32x4x3x128_S32x1536]

/-- The device's arrays after those, from the launch contents. -/
def VH (d : Dev nD) : Valuation τ sig (Elt F) := after headOps (launchContents m d)

/-- The index matrix the call reads, the table, the output before and after. -/
abbrev I4 (d : Dev nD) : Buf (Elt F) (iLoc d) := VH m d (Proc.devRef .tc main_v4)
abbrev E0 (d : Dev nD) : Buf (Elt F) (eLoc d) := m (eLoc d)
abbrev O0 (d : Dev nD) : Buf (Elt F) (oLoc d) := VH m d (Proc.devRef .tc main_v5)
abbrev O1 (d : Dev nD) : Buf (Elt F) (oLoc d) := outVal d (I4 m d) (E0 m d)

/-- What the proof asks of the launch memory: every word of the index matrix is below a million. -/
def PreOK : Prop := ∀ (d : Dev nD) (j : S32x1536.Idx), (I4 m d j).toNat < 1000000

/-- SparseCore `c`'s read token, and subcore `s`'s token of it. -/
abbrev qc (c : Fin 2) : PosShare TreeShare := shareTok fullShare 2 c
abbrev qt (c : Fin 2) (s : Fin 16) : PosShare TreeShare := shareTok (qc c) 16 s

/-- A tile's part: its read tokens and its row, the row at `O`. -/
def goR (d : Dev nD) (O : Buf (Elt F) (oLoc d)) (c : Fin 2) (s : Fin 16) : sProp 𝕄 :=
  iprop(iPts d (qt c s) (I4 m d) ∗ ePts d (qt c s) (E0 m d) ∗ oRowPts d (LL c s) O)
/-- A SparseCore's part: its read tokens and its sixteen rows, at `O`. -/
def stR (d : Dev nD) (O : Buf (Elt F) (oLoc d)) (c : Fin 2) : sProp 𝕄 :=
  iprop(iPts d (qc c) (I4 m d) ∗ ePts d (qc c) (E0 m d) ∗ bigSep Finset.univ fun s : Fin 16 => oRowPts d (LL c s) O)

instance goR_storable (d : Dev nD) (O : Buf (Elt F) (oLoc d)) (c : Fin 2) (s : Fin 16) : BI.Storable (upEmb : UEmb _ 𝕄) (goR m d O c s) := by
  unfold goR; infer_instance
instance stR_storable (d : Dev nD) (O : Buf (Elt F) (oLoc d)) (c : Fin 2) : BI.Storable (upEmb : UEmb _ 𝕄) (stR m d O c) := by
  unfold stR; infer_instance

/-- The one call: each SparseCore its tokens and rows, each tile its tokens and row; back the same with the rows at the
    whole-output function. -/
def P : (K (F := F)).Pay (nD := nD) (Val := Elt F) (Name := ℕ) (U := UU) where
  st := fun q d c => match q with | 0 => stR m d (O0 m d) (Fin.cast nCore_zero c)
  dn := fun q d c => match q with | 0 => stR m d (O1 m outVal d) (Fin.cast nCore_zero c)
  go := fun q d c i => match q with | 0 => goR m d (O0 m d) (Fin.cast nCore_zero c) (Fin.cast nSub_zero i)
  td := fun q d c i => match q with | 0 => goR m d (O1 m outVal d) (Fin.cast nCore_zero c) (Fin.cast nSub_zero i)
  x := fun _ _ => iprop(emp)

instance P_storable : (P (F := F) m outVal).IsStorable where
  st q d c := match q with | 0 => stR_storable m d _ _
  dn q d c := match q with | 0 => stR_storable m d _ _
  go q d c i := match q with | 0 => goR_storable m d _ _ _
  td q d c i := match q with | 0 => goR_storable m d _ _ _

/-! ## The obligation -/

theorem defs₀_vector (c : Fin τ.nSC) (s : Fin τ.nSub) :
    defs₀ (F := F) (.scVector c s) 0 ()
      = SparseCore.onTile hcore0 hsub0 (fun c s => cc0_partial_kernel (coordsV c s)
          iV (Memref.isWhole_whole _) eV (Memref.isWhole_whole _) oV (Memref.isWhole_whole _)
          xS (Memref.isWhole_whole _) aS (Memref.isWhole_whole _) bS (Memref.isWhole_whole _) tS (Memref.isWhole_whole _)
          cc0_scratch4 cc0_scratch5 cc0_scratch6 cc0_scratch7 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hbody : TileStmt (F := F) outVal) (hpre : PreOK m) :
    (K (F := F)).TileObl (D (F := F)) 𝒱 (P m outVal) v₀ 0 := by
  intro d c i O W hO _ _
  simp only [show (P m outVal).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) hF (I4 m d) (E0 m d) (O0 m d) _ _ (hpre d) O W hO).trans (wp_mono frame _ _ fun _ => obl_post)

/-! ## A SparseCore's part splits into its tiles' and gathers from theirs -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem split16 (d : Dev nD) (c : Fin 2) (O O' : Buf (Elt F) (oLoc d)) :
    stR m d O c ⊢ |={Set.univ}=> iprop((bigSep Finset.univ fun s : Fin 16 => goR m d O c s)
      ∗ ((bigSep Finset.univ fun s : Fin 16 => goR m d O' c s) -∗ stR m d O' c)) := by
  unfold stR goR iPts ePts
  rw [bigSep_sep', bigSep_sep', bigSep_sep', bigSep_sep']
  iintro ⟨Hi, He, Ho⟩
  ihave Hi2 := (pointsTo_toks_split (qc c) 16) $$ Hi
  icases Hi2 with ⟨Hir, Hit⟩
  ihave He2 := (pointsTo_toks_split (qc c) 16) $$ He
  icases He2 with ⟨Her, Het⟩
  imodintro
  isplitl [Hit Het Ho]
  · isplitl [Hit]; · iexact Hit
    isplitl [Het]; · iexact Het
    iexact Ho
  iintro ⟨Hit, Het, Ho⟩
  isplitl [Hir Hit]
  · iapply (pointsTo_toks_join (qc c) 16)
    isplitl [Hir]; · iexact Hir
    iexact Hit
  isplitl [Her Het]
  · iapply (pointsTo_toks_join (qc c) 16)
    isplitl [Her]; · iexact Her
    iexact Het
  iexact Ho

theorem vecSplit : (K (F := F)).VecSplit' (P m outVal) 0 := by
  intro d c
  show stR m d (O0 m d) (Fin.cast nCore_zero c) ⊢ |={Set.univ}=> iprop(
      (bigSep Finset.univ fun i : Fin ((K (F := F)).nSub 0) => goR m d (O0 m d) (Fin.cast nCore_zero c) (Fin.cast nSub_zero i))
      ∗ ((bigSep Finset.univ fun i : Fin ((K (F := F)).nSub 0) => goR m d (O1 m outVal d) (Fin.cast nCore_zero c) (Fin.cast nSub_zero i))
          -∗ stR m d (O1 m outVal d) (Fin.cast nCore_zero c)))
  rw [bigSep_tasks (F := F) (fun i => goR m d (O0 m d) (Fin.cast nCore_zero c) i),
    bigSep_tasks (F := F) (fun i => goR m d (O1 m outVal d) (Fin.cast nCore_zero c) i)]
  exact split16 m d _ _ _

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m outVal).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m outVal).x q thr) = bigSep Finset.univ fun _ => iprop(emp) from
    bigSep_congr fun _ _ => bigSep_univ_of_subsingleton (0 : Fin 1), bigSep_emp']
  iempintro

end Cert.Proof.KB

end
-- ==== Proof.LaunchKB.lean ====
/-
  The program's run: @main on the TensorCore around the one SparseCore call, and what the final memory holds.

  @main reshapes and concatenates the three index arrays into the 32 × 1536 index matrix (five host operations), makes
  the call — handing each SparseCore a read token of the index matrix and of the table and its sixteen rows of the
  output, and getting them back with every row at the whole-output function —, then sums the 32 × 16 output, divides by
  16384 and negates (five host operations).  No host operation writes an argument array, and the call only reads the
  table, so the four arguments end as they started; the result is the tail's value at the whole-output function.
-/
import proofs.«205315_g4544075399421_cont_8to1_c_355_20_alg».proof.Proof.LaunchPayKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_seq after launchContents tcRefs)
open Idealize.ShloMosaic.Transfers (shareTok shareDrop pointsTo_toks_split pointsTo_toks_join)

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S32x1536 EltTy.i32)
local notation "eV" => (Memref.whole Cert.Kernel.main_arg3_scv : Memref Cert.Kernel.sig Kind.scVector Space.hbm Cert.Kernel.S1000000x128 EltTy.f32)
local notation "oV" => (Memref.whole Cert.Kernel.main_v5_scv : Memref Cert.Kernel.sig Kind.scVector Space.hbm Cert.Kernel.S32x16 EltTy.f32)
local notation "xS" => (Memref.whole Cert.Kernel.cc0_scratch0 : Memref Cert.Kernel.sig Kind.scVector Space.vmem Cert.Kernel.S1536 EltTy.i32)
local notation "aS" => (Memref.whole Cert.Kernel.cc0_scratch1 : Memref Cert.Kernel.sig Kind.scVector Space.vmem Cert.Kernel.S384x128 EltTy.f32)
local notation "bS" => (Memref.whole Cert.Kernel.cc0_scratch2 : Memref Cert.Kernel.sig Kind.scVector Space.vmem Cert.Kernel.S384x128 EltTy.f32)
local notation "tS" => (Memref.whole Cert.Kernel.cc0_scratch3 : Memref Cert.Kernel.sig Kind.scVector Space.vmem Cert.Kernel.S16 EltTy.f32)

variable [FloatOps F]

variable (m : (ℓ : Loc nD τ sig) → Buf (Elt F) ℓ) (ρ : Dev nD → PrngReg) (outVal : OutFn F)

/-! ## The host operations around the call -/

/-- The five host operations after the call: zero, the sum of the output over both axes, 16384, the quotient, its negation. -/
def tailOps : List (HloOp τ sig (Elt F)) :=
  [StableHlo.nullary main_cst (constant S_ .f32 0x00000000#32),
   StableHlo.binary main_v5 main_cst main_v6 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.nullary main_cst_0 (constant S_ .f32 0x46800000#32),
   StableHlo.binary main_v6 main_cst_0 main_v7 (Host.divf : (⟨S_, .f32⟩ : BufTy).Contents (Elt F) → (⟨S_, .f32⟩ : BufTy).Contents (Elt F) → (⟨S_, .f32⟩ : BufTy).Contents (Elt F)),
   StableHlo.unary main_v7 main_v8 (Host.negf : (⟨S_, .f32⟩ : BufTy).Contents (Elt F) → (⟨S_, .f32⟩ : BufTy).Contents (Elt F))]

/-- @main is the head, the call, the tail. -/
theorem main_eq (d : Dev nD) :
    main (F := F) d = (StableHlo.seq headOps >>= fun _ => (K (F := F)).run d 0 >>= fun _ => (StableHlo.seq tailOps >>= fun u => pure u)) := rfl

theorem headOps_sub : ∀ op ∈ (headOps : List (HloOp τ sig (Elt F))), op.bufs ⊆ tcRefs τ sig :=
  List.forall_iff_forall_mem.1 (show (headOps : List (HloOp τ sig (Elt F))).Forall fun op => op.bufs ⊆ tcRefs τ sig from
    ⟨StableHlo.reshape_bufs_sub .., StableHlo.reshape_bufs_sub .., StableHlo.reshape_bufs_sub .., StableHlo.nary_bufs_sub .., StableHlo.reshape_bufs_sub ..⟩)
theorem tailOps_sub : ∀ op ∈ (tailOps : List (HloOp τ sig (Elt F))), op.bufs ⊆ tcRefs τ sig :=
  List.forall_iff_forall_mem.1 (show (tailOps : List (HloOp τ sig (Elt F))).Forall fun op => op.bufs ⊆ tcRefs τ sig from
    ⟨StableHlo.nullary_bufs_sub .., StableHlo.binary_bufs_sub .., StableHlo.nullary_bufs_sub .., StableHlo.binary_bufs_sub .., StableHlo.unary_bufs_sub ..⟩)
theorem headOps_fresh : ∀ op ∈ (headOps : List (HloOp τ sig (Elt F))), op.fresh = ∅ := by
  intro _ h; (repeat (cases h with | head => rfl | tail _ h => ?_)); exact nomatch h
theorem tailOps_fresh : ∀ op ∈ (tailOps : List (HloOp τ sig (Elt F))), op.fresh = ∅ := by
  intro _ h; (repeat (cases h with | head => rfl | tail _ h => ?_)); exact nomatch h

/-! ## The TensorCore's arrays, and the three the call takes -/

abbrev i' : DevRef τ sig := Proc.devRef .tc (main_v4 : Ref sig .tc)
abbrev e' : DevRef τ sig := Proc.devRef .tc (main_arg3 : Ref sig .tc)
abbrev o' : DevRef τ sig := Proc.devRef .tc (main_v5 : Ref sig .tc)
abbrev S3 : Finset (DevRef τ sig) := {i', e', o'}

omit [FloatOps F] in
theorem held_S3 (d : Dev nD) (W : Valuation τ sig (Elt F)) :
    (held (T d) S3 W : sProp 𝕄) = iprop((iLoc d ↦{fullShare} W i') ∗ (eLoc d ↦{fullShare} W e') ∗ oLoc d ↦{fullShare} W o') := by
  unfold held S3
  rw [SparseCore.bigSep_insert' (by decide), SparseCore.bigSep_insert' (by decide), bigSep_singleton]

omit F [FloatOps F] in
theorem S3_sub : S3 ⊆ tcRefs τ sig :=
  Finset.insert_subset (StableHlo.devRef_mem_tcRefs _) (Finset.insert_subset (StableHlo.devRef_mem_tcRefs _)
    (Finset.singleton_subset_iff.mpr (StableHlo.devRef_mem_tcRefs _)))

omit F [FloatOps F] in
theorem allUnscoped : (Finset.univ.filter fun b : Ref sig .tc => ¬ b.isScoped) = Finset.univ := by decide

omit [FloatOps F] in
theorem unscoped_held (d : Dev nD) :
    (unscopedBufs d (fun b => m ((SparseCore.T d).loc b)) : sProp 𝕄) = held (T d) (tcRefs τ sig) (launchContents m d) := by
  unfold unscopedBufs held tcRefs
  rw [allUnscoped, bigSep_map]; rfl

/-- The table is not written before the call. -/
theorem VH_e (d : Dev nD) : VH m d e' = m (eLoc d) := by
  unfold VH headOps
  after_results
  try rfl

/-- After the call: the output at the whole-output function, everything else as before it. -/
def V1 (d : Dev nD) : Valuation τ sig (Elt F) := Function.update (VH m d) o' (O1 m outVal d)
/-- At the end. -/
def VF (d : Dev nD) : Valuation τ sig (Elt F) := after tailOps (V1 m outVal d)
/-- The program's result: what the tail computes from the output at the whole-output function. -/
def resVal (d : Dev nD) : Buf (Elt F) ((d.tc : Thread nD τ).loc main_v8) := VF m outVal d (Proc.devRef .tc main_v8)

theorem V1_i (d : Dev nD) : V1 m outVal d i' = I4 m d := Function.update_of_ne (show i' ≠ o' by decide) _ _
theorem V1_e (d : Dev nD) : V1 m outVal d e' = m (eLoc d) := (Function.update_of_ne (show e' ≠ o' by decide) _ _).trans (VH_e m d)
theorem V1_o (d : Dev nD) : V1 m outVal d o' = O1 m outVal d := Function.update_self _ _ _

theorem heldVH_eq (d : Dev nD) :
    (held (T d) (tcRefs τ sig) (VH m d) : sProp 𝕄)
      = iprop(((iLoc d ↦{fullShare} I4 m d) ∗ (eLoc d ↦{fullShare} E0 m d) ∗ oLoc d ↦{fullShare} O0 m d) ∗ held (T d) (tcRefs τ sig \ S3) (VH m d)) := by
  rw [held_sub_split (T d) S3_sub, held_S3, VH_e]

/-- The same, spelt as the head's run leaves it. -/
theorem heldVH_eq' (d : Dev nD) :
    (held (d.tc : Thread nD τ) (tcRefs τ sig) (after headOps (launchContents m d)) : sProp 𝕄)
      = iprop(((iLoc d ↦{fullShare} I4 m d) ∗ (eLoc d ↦{fullShare} E0 m d) ∗ oLoc d ↦{fullShare} O0 m d) ∗ held (T d) (tcRefs τ sig \ S3) (VH m d)) :=
  heldVH_eq m d

theorem heldV1_eq (d : Dev nD) :
    (held (T d) (tcRefs τ sig) (V1 m outVal d) : sProp 𝕄)
      = iprop(((iLoc d ↦{fullShare} I4 m d) ∗ (eLoc d ↦{fullShare} E0 m d) ∗ oLoc d ↦{fullShare} O1 m outVal d) ∗ held (T d) (tcRefs τ sig \ S3) (VH m d)) := by
  rw [held_sub_split (T d) S3_sub, held_S3, V1_i, V1_e, V1_o,
    held_congr (T d) (V := V1 m outVal d) (V' := VH m d) fun b hb => Function.update_of_ne
      (fun e => (Finset.mem_sdiff.mp hb).2 (e ▸ (by decide : o' ∈ S3))) _ _]

/-! ## What the call takes for the two SparseCores, and what it hands back -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- Two read tokens of the index matrix, two of the table and the output whole are the two SparseCores' parts. -/
theorem st_intro (d : Dev nD) (O : Buf (Elt F) (oLoc d)) :
    (iprop((bigSep Finset.univ fun c : Fin 2 => iLoc d ↦{qc c} I4 m d) ∗ (bigSep Finset.univ fun c : Fin 2 => eLoc d ↦{qc c} E0 m d)
        ∗ oLoc d ↦{fullShare} O) : sProp 𝕄)
      = bigSep Finset.univ fun c : Fin 2 => stR m d O c := by
  unfold stR iPts ePts
  rw [bigSep_sep', bigSep_sep', oPts_rows]

theorem st0_eq (d : Dev nD) :
    (bigSep Finset.univ fun c : Fin ((K (F := F)).nCore 0) => (P m outVal).st 0 d c) = bigSep Finset.univ fun c : Fin 2 => stR m d (O0 m d) c :=
  bigSep_cores (F := F) (fun c => stR m d (O0 m d) c)
theorem dn0_eq (d : Dev nD) :
    (bigSep Finset.univ fun c : Fin ((K (F := F)).nCore 0) => (P m outVal).dn 0 d c) = bigSep Finset.univ fun c : Fin 2 => stR m d (O1 m outVal d) c :=
  bigSep_cores (F := F) (fun c => stR m d (O1 m outVal d) c)

/-! ## @main on the TensorCore -/

/-- What @main leaves the claim: every array of the TensorCore, at its final contents. -/
abbrev FIN (d : Dev nD) : sProp 𝕄 := held (T d) (tcRefs τ sig) (after tailOps (V1 m outVal d))

set_option backward.isDefEq.respectTransparency.types false in
set_option maxRecDepth 16384 in
theorem hmain (κ : GSem nD τ sig → ℕ) (d : Dev nD) :
    iprop((K (F := F)).ctx EH (P m outVal) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m outVal d) := by
  unfold SparseCore.Cfg.tcRes
  rw [unscoped_held, main_eq]
  iintro ⟨#Hctx, Hst, ⟨Hb, Hheld, -, -⟩, -⟩
  -- the head: the index matrix made from the three index arrays
  iapply (wp_seq 𝒱 none Set.univ d (tcRefs τ sig) _ headOps headOps_sub headOps_fresh (launchContents m d)) $$ [Hb Hheld]
  · isplitl [Hb]; · iexact Hb
    iexact Hheld
  iintro ⟨Hb, Hheld⟩
  ihave Hh := (Entails.of_eq (heldVH_eq' m d)) $$ Hheld
  icases Hh with ⟨⟨Hi, He, Ho⟩, Hrest⟩
  ihave Hi2 := (pointsTo_toks_split fullShare 2) $$ Hi
  icases Hi2 with ⟨Hir, Hit⟩
  ihave He2 := (pointsTo_toks_split fullShare 2) $$ He
  icases He2 with ⟨Her, Het⟩
  -- the call
  rw [wp_bind]
  iapply ((K (F := F)).wp_run (D (F := F)) 𝒱 (EH := EH) (P := P m outVal) κ d 0) $$ [Hst Hit Het Ho Hb Hir Her Hrest]
  isplitr; · iexact Hctx
  isplitl [Hst]; · iexact Hst
  isplitl [Hit Het Ho]
  · rw [st0_eq, ← st_intro]
    isplitl [Hit]; · iexact Hit
    isplitl [Het]; · iexact Het
    iexact Ho
  iintro ⟨Hst, Hdn⟩
  ihave Hdn' := (Entails.of_eq ((dn0_eq m outVal d).trans (st_intro m d (O1 m outVal d)).symm)) $$ Hdn
  icases Hdn' with ⟨Hit, Het, Ho⟩
  ihave Hi := (pointsTo_toks_join fullShare 2) $$ [Hir Hit]
  · isplitl [Hir]; · iexact Hir
    iexact Hit
  ihave He := (pointsTo_toks_join fullShare 2) $$ [Her Het]
  · isplitl [Her]; · iexact Her
    iexact Het
  ihave Hheld := (Entails.of_eq (heldV1_eq m outVal d).symm) $$ [Hi He Ho Hrest]
  · isplitl [Hi He Ho]
    · isplitl [Hi]; · iexact Hi
      isplitl [He]; · iexact He
      iexact Ho
    iexact Hrest
  -- the tail: the sum, the quotient, the negation
  iapply (wp_seq 𝒱 none Set.univ d (tcRefs τ sig) _ tailOps tailOps_sub tailOps_fresh (V1 m outVal d)) $$ [Hb Hheld]
  · isplitl [Hb]; · iexact Hb
    iexact Hheld
  iintro ⟨Hb, Hheld⟩
  rw [wp_pure]; imodintro
  isplitl [Hst]; · iexact Hst
  iexact Hheld

/-! ## The final memory -/

def fq (d : Dev nD) (s' : Phys nD τ sig (Elt F)) : Prop :=
  ∀ b : Ref sig .tc, s'.mem.mem ((d.tc : Thread nD τ).loc b) = VF m outVal d (Proc.devRef .tc b)

set_option maxRecDepth 16384 in
theorem hfin (d : Dev nD) (s' : Phys nD τ sig (Elt F)) : iprop(FIN m outVal d ∗ SI s') ⊢ (⌜fq m outVal d s'⌝ : sProp 𝕄) := by
  unfold FIN held
  iintro ⟨H, HSI⟩
  ihave %h := (SI_pointsTo_bufs_agree (qs := fun _ => fullShare) (tcRefs τ sig)) $$ [HSI H]
  · isplitl [HSI]; · iexact HSI
    iexact H
  ipureintro
  exact fun b => h _ (StableHlo.devRef_mem_tcRefs b)

/-- No host operation writes an argument array, nor does the call. -/
theorem VF_arg0 (d : Dev nD) : VF m outVal d (Proc.devRef .tc main_arg0) = m ((d.tc : Thread nD τ).loc main_arg0) := by
  unfold VF tailOps; after_results
  rw [V1, Function.update_of_ne (by decide)]
  unfold VH headOps; after_results
  try rfl
theorem VF_arg1 (d : Dev nD) : VF m outVal d (Proc.devRef .tc main_arg1) = m ((d.tc : Thread nD τ).loc main_arg1) := by
  unfold VF tailOps; after_results
  rw [V1, Function.update_of_ne (by decide)]
  unfold VH headOps; after_results
  try rfl
theorem VF_arg2 (d : Dev nD) : VF m outVal d (Proc.devRef .tc main_arg2) = m ((d.tc : Thread nD τ).loc main_arg2) := by
  unfold VF tailOps; after_results
  rw [V1, Function.update_of_ne (by decide)]
  unfold VH headOps; after_results
  try rfl
theorem VF_arg3 (d : Dev nD) : VF m outVal d (Proc.devRef .tc main_arg3) = m ((d.tc : Thread nD τ).loc main_arg3) := by
  unfold VF tailOps; after_results
  rw [V1, Function.update_of_ne (by decide)]
  unfold VH headOps; after_results
  try rfl

/-- The result in closed form: minus the quotient by 16384 of the sum of the output at the whole-output function. -/
theorem resVal_eq (d : Dev nD) :
    resVal m outVal d = Host.negf (Host.divf (Host.reduceAdd (O1 m outVal d) (constant S_ .f32 0x00000000#32) reducesTo_S32x16_S_d0_1 h_S_)
      (constant S_ .f32 0x46800000#32)) := by
  unfold resVal VF tailOps; after_results
  rw [V1_o]

/-! ## The program's run -/

def QC : PUnit × MemSt nD τ sig (Elt F) → Prop := fun r => ∀ c : Dev nD,
  r.2.mem ((c.tc : Thread nD τ).loc main_v8) = resVal m outVal c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

theorem run_main [∀ e, Nonempty (Elt F e)] (hbody : TileStmt (F := F) outVal) (hpre : PreOK m) :
    θ_run (Cert.Kernel.defs (F := F)) (Cert.Kernel.threads (F := F)) ⟨m, fun _ => 0, ρ⟩ (QC m outVal) :=
  SparseCore.Cfg.θ_run_sc (K := K (F := F)) (D := D (F := F)) (𝒱 := 𝒱) (EH := EH) (P := P m outVal) facts v₀
    (fun q hq => match q with | 0 => nomatch hq)
    (fun q _ => match q with | 0 => tileObl m outVal facts hbody hpre)
    (fun q _ => match q with | 0 => SparseCore.Cfg.VecSplit.of_plain (vecSplit m outVal))
    m ρ main (fun _ => iprop(emp)) (FIN m outVal) (u₀ (F := F)) (sep_elim_left.trans (hu₀ m outVal)) (hmain m ρ outVal) (fq m outVal) (hfin m outVal) (QC m outVal)
    (fun _ h c => ⟨h c main_v8, (h c main_arg0).trans (VF_arg0 m outVal c), (h c main_arg1).trans (VF_arg1 m outVal c),
      (h c main_arg2).trans (VF_arg2 m outVal c), (h c main_arg3).trans (VF_arg3 m outVal c)⟩)

end Cert.Proof.KB

end
-- ==== Proof.HostIndexB.lean ====
/-
  The index matrix in closed form, read at an index.

  The three index arrays — targets, contexts (16384 words each) and negatives (16384 × 1) — are each reshaped to
  32 × 4 × 1 × 128, stacked along the third axis into 32 × 4 × 3 × 128, and reshaped to 32 × 1536.  A reshape keeps the
  row-major position, so word `384 j + 128 s + r` of row `w` of the matrix (`j < 4`, `s < 3`, `r < 128`) is word
  `512 w + 128 j + r` of the target array for `s = 0`, of the context array for `s = 1`, of the negative array for `s = 2`.
  Every word of the matrix is such a word, so a bound on the three arrays' words bounds the matrix's.
-/
import proofs.«205315_g4544075399421_cont_8to1_c_355_20_alg».proof.Proof.LaunchKB

import Idealize.ShloMosaic.Lib.ValueIdx
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Idealize.ShloMosaic.Pipeline
open Idealize.ShloMosaic.StableHlo (held held_sub_split held_congr wp_seq after launchContents tcRefs)
open Idealize.ShloMosaic.Transfers (shareTok shareDrop pointsTo_toks_split pointsTo_toks_join)

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S32x1536 EltTy.i32)
local notation "eV" => (Memref.whole Cert.Kernel.main_arg3_scv : Memref Cert.Kernel.sig Kind.scVector Space.hbm Cert.Kernel.S1000000x128 EltTy.f32)
local notation "oV" => (Memref.whole Cert.Kernel.main_v5_scv : Memref Cert.Kernel.sig Kind.scVector Space.hbm Cert.Kernel.S32x16 EltTy.f32)
local notation "xS" => (Memref.whole Cert.Kernel.cc0_scratch0 : Memref Cert.Kernel.sig Kind.scVector Space.vmem Cert.Kernel.S1536 EltTy.i32)
local notation "aS" => (Memref.whole Cert.Kernel.cc0_scratch1 : Memref Cert.Kernel.sig Kind.scVector Space.vmem Cert.Kernel.S384x128 EltTy.f32)
local notation "bS" => (Memref.whole Cert.Kernel.cc0_scratch2 : Memref Cert.Kernel.sig Kind.scVector Space.vmem Cert.Kernel.S384x128 EltTy.f32)
local notation "tS" => (Memref.whole Cert.Kernel.cc0_scratch3 : Memref Cert.Kernel.sig Kind.scVector Space.vmem Cert.Kernel.S16 EltTy.f32)

variable [FloatOps F]

/-! ## The matrix as a function of the three arrays -/

omit F [FloatOps F] in
/-- The 32 × 1536 index matrix made of the three index arrays. -/
def v4 (T C : IVec S16384 32) (N : IVec S16384x1 32) : IVec S32x1536 32 :=
  shapeCast S32x1536 (concatenate S32x4x3x128 2
    [⟨S32x4x1x128, shapeCast S32x4x1x128 T shapeCasts_S16384_S32x4x1x128⟩,
     ⟨S32x4x1x128, shapeCast S32x4x1x128 C shapeCasts_S16384_S32x4x1x128⟩,
     ⟨S32x4x1x128, shapeCast S32x4x1x128 N shapeCasts_S16384x1_S32x4x1x128⟩]
    concatenates_S32x4x1x128_S32x4x1x128_S32x4x1x128_S32x4x3x128_d2) shapeCasts_S32x4x3x128_S32x1536

variable (m : (ℓ : Loc nD τ sig) → Buf (Elt F) ℓ)

omit [FloatOps F] in
/-- A host operation over a literal family of three arrays, read at its result: its function at the three arrays'
    contents, each at its own array. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

open Idealize.ShloMosaic.StableHlo in
/-- What the call reads is that matrix of the launch's three index arrays. -/
theorem I4_eq (d : Dev nD) :
    I4 m d = v4 (m ((d.tc : Thread nD τ).loc main_arg0)) (m ((d.tc : Thread nD τ).loc main_arg1)) (m ((d.tc : Thread nD τ).loc main_arg2)) := by
  unfold I4 VH headOps
  simp only [after_cons, after_nil]
  rw [reshape_result, nary3_result]
  after_results
  rfl

/-! ## Read at an index -/

/-- Sample `512 w + 128 j + r`. -/
def smp (w : Fin 32) (j : Fin 4) (r : Fin 128) : Fin 16384 :=
  ⟨512 * w.val + 128 * j.val + r.val, by have := w.isLt; have := j.isLt; have := r.isLt; omega⟩
/-- Column `384 j + 128 s + r`. -/
def col (j : Fin 4) (s : Fin 3) (r : Fin 128) : Fin 1536 :=
  ⟨384 * j.val + 128 * s.val + r.val, by have := j.isLt; have := s.isLt; have := r.isLt; omega⟩

section Apply

variable (T C : IVec S16384 32) (N : IVec S16384x1 32)

omit F [FloatOps F] in
/-- The outer reshape keeps the row-major position. -/
theorem v4_mid (w : Fin 32) (j : Fin 4) (s : Fin 3) (r : Fin 128) :
    v4 T C N (ix2 w (col j s r)) = concatenate S32x4x3x128 2
      [⟨S32x4x1x128, shapeCast S32x4x1x128 T shapeCasts_S16384_S32x4x1x128⟩,
       ⟨S32x4x1x128, shapeCast S32x4x1x128 C shapeCasts_S16384_S32x4x1x128⟩,
       ⟨S32x4x1x128, shapeCast S32x4x1x128 N shapeCasts_S16384x1_S32x4x1x128⟩]
      concatenates_S32x4x1x128_S32x4x1x128_S32x4x1x128_S32x4x3x128_d2 (ix4 w j s r) := by
  unfold v4
  refine shapeCast_apply _ _ _ (ix4 w j s r) ?_
  rw [Shape.rowMajor_val_four, Shape.rowMajor_val_two]
  show ((w.val * 4 + j.val) * 3 + s.val) * 128 + r.val = w.val * 1536 + (384 * j.val + 128 * s.val + r.val)
  omega

omit F [FloatOps F] in
/-- A stack of three unit-thick pieces read in piece `0`, `1`, `2`. -/
theorem cat3_0 {α : Type} (A B D : S32x4x1x128.Idx → α) (h) (w : Fin 32) (j : Fin 4) (r : Fin 128) :
    concatenate S32x4x3x128 2 [⟨S32x4x1x128, A⟩, ⟨S32x4x1x128, B⟩, ⟨S32x4x1x128, D⟩] h (ix4 w j 0 r) = A (ix4 w j 0 r) :=
  concatenate_apply_piece (t := S32x4x3x128) (2 : Fin 4) [⟨S32x4x1x128, A⟩, ⟨S32x4x1x128, B⟩, ⟨S32x4x1x128, D⟩] h (ix4 w j 0 r) 0 (by show (0 : ℕ) < 3; omega) S32x4x1x128 A rfl rfl 0 rfl (ix4 w j 0 r)
    (fun b hb => match b, hb with
      | ⟨0, _⟩, _ => rfl | ⟨1, _⟩, _ => rfl | ⟨2, _⟩, hb => absurd rfl hb | ⟨3, _⟩, _ => rfl
      | ⟨_ + 4, h⟩, _ => absurd h (Nat.not_lt.2 (Nat.le_add_left _ _))) rfl
omit F [FloatOps F] in
theorem cat3_1 {α : Type} (A B D : S32x4x1x128.Idx → α) (h) (w : Fin 32) (j : Fin 4) (r : Fin 128) :
    concatenate S32x4x3x128 2 [⟨S32x4x1x128, A⟩, ⟨S32x4x1x128, B⟩, ⟨S32x4x1x128, D⟩] h (ix4 w j 1 r) = B (ix4 w j 0 r) :=
  concatenate_apply_piece (t := S32x4x3x128) (2 : Fin 4) [⟨S32x4x1x128, A⟩, ⟨S32x4x1x128, B⟩, ⟨S32x4x1x128, D⟩] h (ix4 w j 1 r) 1 (by show (1 : ℕ) < 3; omega) S32x4x1x128 B rfl rfl 1 rfl (ix4 w j 0 r)
    (fun b hb => match b, hb with
      | ⟨0, _⟩, _ => rfl | ⟨1, _⟩, _ => rfl | ⟨2, _⟩, hb => absurd rfl hb | ⟨3, _⟩, _ => rfl
      | ⟨_ + 4, h⟩, _ => absurd h (Nat.not_lt.2 (Nat.le_add_left _ _))) rfl
omit F [FloatOps F] in
theorem cat3_2 {α : Type} (A B D : S32x4x1x128.Idx → α) (h) (w : Fin 32) (j : Fin 4) (r : Fin 128) :
    concatenate S32x4x3x128 2 [⟨S32x4x1x128, A⟩, ⟨S32x4x1x128, B⟩, ⟨S32x4x1x128, D⟩] h (ix4 w j 2 r) = D (ix4 w j 0 r) :=
  concatenate_apply_piece (t := S32x4x3x128) (2 : Fin 4) [⟨S32x4x1x128, A⟩, ⟨S32x4x1x128, B⟩, ⟨S32x4x1x128, D⟩] h (ix4 w j 2 r) 2 (by show (2 : ℕ) < 3; omega) S32x4x1x128 D rfl rfl 2 rfl (ix4 w j 0 r)
    (fun b hb => match b, hb with
      | ⟨0, _⟩, _ => rfl | ⟨1, _⟩, _ => rfl | ⟨2, _⟩, hb => absurd rfl hb | ⟨3, _⟩, _ => rfl
      | ⟨_ + 4, h⟩, _ => absurd h (Nat.not_lt.2 (Nat.le_add_left _ _))) rfl

omit F [FloatOps F] in
/-- The inner reshapes keep the row-major position. -/
theorem sc_vec (X : IVec S16384 32) (w : Fin 32) (j : Fin 4) (r : Fin 128) :
    shapeCast S32x4x1x128 X shapeCasts_S16384_S32x4x1x128 (ix4 w j 0 r) = X (ix1 (smp w j r)) := by
  refine shapeCast_apply _ _ _ (ix1 (smp w j r)) ?_
  rw [Shape.rowMajor_val_one, Shape.rowMajor_val_four]
  show 512 * w.val + 128 * j.val + r.val = ((w.val * 4 + j.val) * 1 + 0) * 128 + r.val
  omega
omit F [FloatOps F] in
theorem sc_col (X : IVec S16384x1 32) (w : Fin 32) (j : Fin 4) (r : Fin 128) :
    shapeCast S32x4x1x128 X shapeCasts_S16384x1_S32x4x1x128 (ix4 w j 0 r) = X (ix2 (smp w j r) 0) := by
  refine shapeCast_apply _ _ _ (ix2 (smp w j r) 0) ?_
  rw [Shape.rowMajor_val_two, Shape.rowMajor_val_four]
  show (512 * w.val + 128 * j.val + r.val) * 1 + 0 = ((w.val * 4 + j.val) * 1 + 0) * 128 + r.val
  omega

omit F [FloatOps F] in
/-- Word `384 j + r` of row `w` is the target of sample `512 w + 128 j + r`; `128` further on its context, `256` its negative. -/
theorem v4_apply_t (w : Fin 32) (j : Fin 4) (r : Fin 128) : v4 T C N (ix2 w (col j 0 r)) = T (ix1 (smp w j r)) := by
  rw [v4_mid, cat3_0, sc_vec]
omit F [FloatOps F] in
theorem v4_apply_c (w : Fin 32) (j : Fin 4) (r : Fin 128) : v4 T C N (ix2 w (col j 1 r)) = C (ix1 (smp w j r)) := by
  rw [v4_mid, cat3_1, sc_vec]
omit F [FloatOps F] in
theorem v4_apply_n (w : Fin 32) (j : Fin 4) (r : Fin 128) : v4 T C N (ix2 w (col j 2 r)) = N (ix2 (smp w j r) 0) := by
  rw [v4_mid, cat3_2, sc_col]

omit F [FloatOps F] in
/-- Every index of the matrix is `(w, 384 j + 128 s + r)` for some `w, j, s, r`. -/
theorem exists_col (x : S32x1536.Idx) : ∃ (w : Fin 32) (j : Fin 4) (s : Fin 3) (r : Fin 128), x = ix2 w (col j s r) := by
  have h1 : (x 1).val < 1536 := (x 1).isLt
  refine ⟨x 0, ⟨(x 1).val / 384, by omega⟩, ⟨(x 1).val % 384 / 128, by omega⟩, ⟨(x 1).val % 128, by omega⟩, ?_⟩
  have e : x 1 = col ⟨(x 1).val / 384, by omega⟩ ⟨(x 1).val % 384 / 128, by omega⟩ ⟨(x 1).val % 128, by omega⟩ :=
    Fin.ext (by simp only [col]; omega)
  rw [← e]; exact eq_ix2 x

omit F [FloatOps F] in
/-- A bound on every word of the three arrays bounds every word of the matrix. -/
theorem v4_lt (hT : ∀ i : Fin 16384, (T (ix1 i)).toNat < 1000000) (hC : ∀ i : Fin 16384, (C (ix1 i)).toNat < 1000000)
    (hN : ∀ i : Fin 16384, (N (ix2 i (0 : Fin 1))).toNat < 1000000) (x : S32x1536.Idx) : (v4 T C N x).toNat < 1000000 := by
  obtain ⟨w, j, s, r, rfl⟩ := exists_col x
  match s with
  | 0 => rw [v4_apply_t]; exact hT _
  | 1 => rw [v4_apply_c]; exact hC _
  | 2 => rw [v4_apply_n]; exact hN _

end Apply

/-- The launch asks nothing more than the three arrays' words below a million. -/
theorem preOK_of_lt
    (h : ∀ d : Dev nD, (∀ i : Fin 16384, (m ((d.tc : Thread nD τ).loc main_arg0) (ix1 i)).toNat < 1000000)
      ∧ (∀ i : Fin 16384, (m ((d.tc : Thread nD τ).loc main_arg1) (ix1 i)).toNat < 1000000)
      ∧ (∀ i : Fin 16384, (m ((d.tc : Thread nD τ).loc main_arg2) (ix2 i (0 : Fin 1))).toNat < 1000000)) : PreOK m := by
  intro d x
  rw [I4_eq]
  exact v4_lt _ _ _ (h d).1 (h d).2.1 (h d).2.2 x

end Cert.Proof.KB

end
-- ==== Proof.HostGlueB.lean ====
/-
  The launch's link to the claim, for the program as printed: the precondition bounds the index matrix.

  The precondition says every word of the three index arrays, read signed, lies in [0, 999999]; such a word is its own
  unsigned value, below a million, and every word of the index matrix is one of them.
-/
import proofs.«205315_g4544075399421_cont_8to1_c_355_20_alg».proof.Proof.HostIndexB

import proofs.«205315_g4544075399421_cont_8to1_c_355_20_alg».proof.Proof.InputDomain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_sub_split held_congr wp_seq after launchContents tcRefs)
open Idealize.ShloMosaic.Transfers (shareTok shareDrop pointsTo_toks_split pointsTo_toks_join)

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S32x1536 EltTy.i32)
local notation "eV" => (Memref.whole Cert.Kernel.main_arg3_scv : Memref Cert.Kernel.sig Kind.scVector Space.hbm Cert.Kernel.S1000000x128 EltTy.f32)
local notation "oV" => (Memref.whole Cert.Kernel.main_v5_scv : Memref Cert.Kernel.sig Kind.scVector Space.hbm Cert.Kernel.S32x16 EltTy.f32)
local notation "xS" => (Memref.whole Cert.Kernel.cc0_scratch0 : Memref Cert.Kernel.sig Kind.scVector Space.vmem Cert.Kernel.S1536 EltTy.i32)
local notation "aS" => (Memref.whole Cert.Kernel.cc0_scratch1 : Memref Cert.Kernel.sig Kind.scVector Space.vmem Cert.Kernel.S384x128 EltTy.f32)
local notation "bS" => (Memref.whole Cert.Kernel.cc0_scratch2 : Memref Cert.Kernel.sig Kind.scVector Space.vmem Cert.Kernel.S384x128 EltTy.f32)
local notation "tS" => (Memref.whole Cert.Kernel.cc0_scratch3 : Memref Cert.Kernel.sig Kind.scVector Space.vmem Cert.Kernel.S16 EltTy.f32)

variable [FloatOps F]

variable (m : (ℓ : Loc nD τ sig) → Buf (Elt F) ℓ)

/-! ## The precondition bounds the index matrix -/

/-- In-range index arrays make the launch's demand true. -/
theorem preOK_of_ranges
    (h : ∀ d : Dev nD, (∀ i : Fin 16384, Cert.InputDomain.InRange (m ((d.tc : Thread nD τ).loc main_arg0) (ix1 i)))
      ∧ (∀ i : Fin 16384, Cert.InputDomain.InRange (m ((d.tc : Thread nD τ).loc main_arg1) (ix1 i)))
      ∧ (∀ i : Fin 16384, Cert.InputDomain.InRange (m ((d.tc : Thread nD τ).loc main_arg2) (ix2 i (0 : Fin 1))))) : PreOK m :=
  preOK_of_lt m fun d => ⟨fun i => ((h d).1 i).toNat_lt.1, fun i => ((h d).2.1 i).toNat_lt.1, fun i => ((h d).2.2 i).toNat_lt.1⟩

/-- The precondition, all ones, gives the launch's demand. -/
theorem ok_of_pre (m : (ℓ : Loc nD τ sig) → Buf (Elt Bits) ℓ) (h : Cert.Pre_Kernel m) : PreOK (F := Bits) m :=
  preOK_of_ranges m fun d => Cert.InputDomain.ranges_of_pre (F := Bits) _ _ _ _ (h d)

end Cert.Proof.KB

end
-- ==== Proof.Retile.lean ====
/-
  The kernel's order of summation is a re-indexing of the plain double sum over samples and lanes.

  A sample index below 16384 is written uniquely as `512 w + 128 j + 2 k + p` with `w < 32`, `j < 4`, `k < 64`,
  `p < 2` (divide by 512, then the remainder by 128, then that remainder by 2), and a lane below 128 uniquely as
  `16 g + l` with `g < 8`, `l < 16`.  So the six coordinates `(w, l, p, g, j, k)` and the pairs (sample, lane)
  are in bijection, and a sum over one is the sum over the other in any commutative monoid: no finiteness is used.
-/
import proofs.«205315_g4544075399421_cont_8to1_c_355_20_alg».proof.Proof.Spec

noncomputable section

open scoped BigOperators

namespace Cert.Spec

/-- The six tile coordinates, in the order the kernel nests its sums, against the pair (sample, lane):
    `(w, l, p, g, j, k) ↦ (512 w + 128 j + 2 k + p, 16 g + l)`, inverted by quotients and remainders. -/
def tileEquiv : Fin 32 × Fin 16 × Fin 2 × Fin 8 × Fin 4 × Fin 64 ≃ Fin 16384 × Fin 128 where
  toFun x := (sampleOf x.1 x.2.2.2.2.1 x.2.2.2.2.2 x.2.2.1, laneOf x.2.2.2.1 x.2.1)
  invFun y :=
    (⟨y.1.val / 512, by have := y.1.isLt; omega⟩, ⟨y.2.val % 16, by omega⟩, ⟨y.1.val % 2, by omega⟩,
      ⟨y.2.val / 16, by have := y.2.isLt; omega⟩, ⟨y.1.val % 512 / 128, by omega⟩, ⟨y.1.val % 128 / 2, by omega⟩)
  left_inv := by
    rintro ⟨w, l, p, g, j, k⟩
    have := w.isLt; have := l.isLt; have := p.isLt; have := g.isLt; have := j.isLt; have := k.isLt
    simp only [sampleOf, laneOf, Prod.mk.injEq, Fin.ext_iff]
    refine ⟨?_, ?_, ?_, ?_, ?_, ?_⟩ <;> omega
  right_inv := by
    rintro ⟨i, d⟩
    have := i.isLt; have := d.isLt
    simp only [sampleOf, laneOf, Prod.mk.injEq, Fin.ext_iff]
    refine ⟨?_, ?_⟩ <;> omega

/-- A sum nested in the kernel's order — worker, output lane, parity, lane group, chunk, trip — is the double sum over
    samples and lanes, in any commutative monoid. -/
theorem sum_tiled {M : Type*} [AddCommMonoid M] (f : Fin 16384 → Fin 128 → M) :
    (∑ w : Fin 32, ∑ l : Fin 16, ∑ p : Fin 2, ∑ g : Fin 8, ∑ j : Fin 4, ∑ k : Fin 64,
      f (sampleOf w j k p) (laneOf g l)) = ∑ i : Fin 16384, ∑ d : Fin 128, f i d := by
  rw [← Fintype.sum_prod_type' (f := f), ← Equiv.sum_comp tileEquiv]
  simp only [Fintype.sum_prod_type]
  rfl

/-- The contributions summed in the kernel's order are the contributions summed sample by sample, lane by lane. -/
theorem tiledSum_eq (T C N : Fin 16384 → BitVec 32) (E : Tab) :
    tiledSum T C N E = ∑ i : Fin 16384, ∑ d : Fin 128, term T C N E i d :=
  sum_tiled (term T C N E)

end Cert.Spec

end
-- ==== Proof.Algebra.lean ====
/-
  The kernel's closed form and the reference's agree when the table's entries are finite.

  Write `a i d`, `c i d`, `n i d` for the real entries at lane `d` of the three rows sample `i` names.  The kernel's sum is
  `Σ_i Σ_d a i d · (c i d − n i d) = Σ_i pos i − Σ_i neg i` with `pos i = Σ_d a i d · c i d` and `neg i = Σ_d a i d · n i d`
  (distributivity).  The reference's sum is `Σ_i (pos i − μ)` with `μ = (Σ_k neg k) / 16384`, and
  `Σ_{i<16384} μ = 16384 · μ = Σ_k neg k`.  So the two sums are equal, and both programs divide them by the same 16384
  and negate.  On the extended reals distributivity can fail at the infinities, so the entries are first read as reals;
  every operation involved (products, differences, finite sums, the division by 16384) commutes with that reading.
-/
import proofs.«205315_g4544075399421_cont_8to1_c_355_20_alg».proof.Proof.Retile
import Idealize.ShloMosaic.PureOps.IdealRules

noncomputable section

open scoped BigOperators

namespace Cert.Spec

open Idealize.ShloMosaic Idealize.ShloMosaic.ValueIdx

/-- The word `0x46800000` in binary32 — sign 0, exponent 141, fraction 0 — denotes `2^23 · 2^(141 − 127 − 23) = 16384`. -/
theorem c16384_eq : c16384 = ((16384 : ℝ) : EReal) := by
  unfold c16384
  simp [Ideal.ofBits, Ideal.ieee, -EReal.coe_mul]; norm_num

/-- A word whose value is below a million names the row of that value. -/
theorem row_val {b : BitVec 32} (h : b.toNat < 1000000) : (row b).val = b.toNat :=
  Nat.mod_eq_of_lt h

/-- A finite sum of reals read in the extended reals is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals, for any finite families: subtracting from every `pos i` the mean of `neg` and summing
    is summing `pos i − neg i`, because the mean is added as many times as there are samples. -/
theorem sum_sub_mean {ι κ : Type*} [Fintype ι] [Fintype κ] (a c n : ι → κ → ℝ) (K : ℝ)
    (hK : (Fintype.card ι : ℝ) = K) (hK0 : K ≠ 0) :
    (∑ i, ∑ d, a i d * (c i d - n i d))
      = ∑ i, ((∑ d, a i d * c i d) - (∑ k, ∑ d, a k d * n k d) * (1 / K)) := by
  simp only [mul_sub, Finset.sum_sub_distrib, Finset.sum_const, Finset.card_univ, nsmul_eq_mul, hK]
  field_simp

/-- With finite entries the kernel's result is the reference's. -/
theorem kerLoss_eq_refLoss (T C N : Fin 16384 → BitVec 32) (E : Tab) (hfin : ∀ j, ∃ r : ℝ, E j = (r : EReal)) :
    kerLoss T C N E = refLoss T C N E := by
  choose e he using hfin
  have hent : ∀ b d, ent E b d = ((e (ix2 (row b) d) : ℝ) : EReal) := fun b d => he _
  have h0 : (16384 : ℝ) ≠ 0 := by norm_num
  have hlaw := sum_sub_mean (fun (i : Fin 16384) (d : Fin 128) => e (ix2 (row (T i)) d))
    (fun i d => e (ix2 (row (C i)) d)) (fun i d => e (ix2 (row (N i)) d)) 16384
    (by rw [Fintype.card_fin]; norm_num) h0
  simp only [kerLoss, refLoss, term, dot, hent, c16384_eq, Ideal.div_coe h0, ← EReal.coe_mul, ← EReal.coe_sub,
    ← coe_sum]
  rw [hlaw]

/-- The kernel's tiled sum over 16384, negated, is the reference's result. -/
theorem tiled_loss_eq_refLoss (T C N : Fin 16384 → BitVec 32) (E : Tab) (hfin : ∀ j, ∃ r : ℝ, E j = (r : EReal)) :
    -(Ideal.div (tiledSum T C N E) c16384) = refLoss T C N E := by
  rw [tiledSum_eq]
  exact kerLoss_eq_refLoss T C N E hfin

end Cert.Spec

end
-- ==== Proof.RefRun.lean ====
/-
  The reference program as a straight line of operations, and its run.

  The reference calls a row-taking function three times (rows of the table at the targets, at the contexts, at the
  negatives); each call is twenty-three operations on buffers of its own: the index wrapped if negative, the test
  that it lies in range, the gather of the rows, and a select that keeps a gathered row where the test passed.
  Around the calls the program multiplies rows, sums over lanes, averages and negates.  Written out in order, the
  calls unfolded, the program is eighty-eight operations; every weakly fair execution runs them in that order, so each
  buffer ends holding the fold of the operations over what the buffers held at launch.
-/
import proofs.«205315_g4544075399421_cont_8to1_c_355_20_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's eighty-eight operations in order: the rows at the targets (23), the rows at the contexts (23), their
    product summed over lanes (3), the rows at the negatives (23), and the rest — the product with the targets' rows
    summed over lanes, its mean over the samples, the difference, its mean, the negation (16). -/
abbrev ops : List (HloOp τ sig (Elt F)) :=
  [ TRef.nullary main_call0.c (constantI S_ 32 0#32),
    TRef.unary main_call0.c main_call0.v0 (broadcastInDim S16384 ![] bcast_S_S16384),
    TRef.binary (.of main_arg0 : TRef sig ⟨S16384, .i32⟩) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0 : TRef sig ⟨S16384, .i32⟩) main_call0.v2 main_call0.v3 addi,
    TRef.ternary main_call0.v1 main_call0.v3 (.of main_arg0 : TRef sig ⟨S16384, .i32⟩) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg3 : TRef sig ⟨S1000000x128, .f32⟩) main_call0.v5 main_call0.v13 (fun x i => Host.gather gather_S1000000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1 : TRef sig ⟨S16384, .i32⟩) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg1 : TRef sig ⟨S16384, .i32⟩) main_call1.v2 main_call1.v3 addi,
    TRef.ternary main_call1.v1 main_call1.v3 (.of main_arg1 : TRef sig ⟨S16384, .i32⟩) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3 : TRef sig ⟨S1000000x128, .f32⟩) main_call1.v5 main_call1.v13 (fun x i => Host.gather gather_S1000000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select,
    binary main_v0 main_v1 main_v2 (mulf : (⟨S16384x128, .f32⟩ : BufTy).Contents (Elt F) → (⟨S16384x128, .f32⟩ : BufTy).Contents (Elt F) → (⟨S16384x128, .f32⟩ : BufTy).Contents (Elt F)),
    nullary main_cst (constant S_ .f32 0x00000000#32),
    binary main_v2 main_cst main_v3 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    TRef.nullary main_call2.c (constantI S_ 32 0#32),
    TRef.unary main_call2.c main_call2.v0 (broadcastInDim S16384x1 ![] bcast_S_S16384x1),
    TRef.binary (.of main_arg2 : TRef sig ⟨S16384x1, .i32⟩) main_call2.v0 main_call2.v1 (cmpi .slt),
    TRef.nullary main_call2.c_0 (constantI S_ 32 1000000#32),
    TRef.unary main_call2.c_0 main_call2.v2 (broadcastInDim S16384x1 ![] bcast_S_S16384x1),
    TRef.binary (.of main_arg2 : TRef sig ⟨S16384x1, .i32⟩) main_call2.v2 main_call2.v3 addi,
    TRef.ternary main_call2.v1 main_call2.v3 (.of main_arg2 : TRef sig ⟨S16384x1, .i32⟩) main_call2.call0.v0 select,
    TRef.unary main_call2.call0.v0 main_call2.v5 (broadcastInDim S16384x1x1 ![0, 1] bcast_S16384x1_S16384x1x1_0_1),
    TRef.nullary main_call2.c_1 (constantI S1 32 999999#32),
    TRef.nullary main_call2.c_2 (constantI S_ 32 0#32),
    TRef.unary main_call2.c_2 main_call2.v6 (broadcastInDim S16384x1x1 ![] bcast_S_S16384x1x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S16384x1x1 ![0, 1, 2] bcast_S1x1x1_S16384x1x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1x1_S16384x1_d2 h_S_),
    TRef.binary (.of main_arg3 : TRef sig ⟨S1000000x128, .f32⟩) main_call2.v5 main_call2.v13 (fun x i => Host.gather gather_S1000000x128_S16384x1x1_S16384x1x128_2_0_n_n_0_2_1128 x i),
    TRef.unary main_call2.v12 main_call2.v14 (broadcastInDim S16384x1x128 ![0, 1] bcast_S16384x1_S16384x1x128_0_1),
    TRef.nullary main_call2.cst (constant S_ .f32 0x7FC00000#32),
    TRef.unary main_call2.cst main_call2.v15 (broadcastInDim S16384x1x128 ![] bcast_S_S16384x1x128),
    TRef.ternary main_call2.v14 main_call2.v13 main_call2.v15 main_call2.v16 select,
    unary main_v0 main_v5 (broadcastInDim S16384x1x128 ![0, 2] bcast_S16384x128_S16384x1x128_0_2 : (⟨S16384x128, .f32⟩ : BufTy).Contents (Elt F) → (⟨S16384x1x128, .f32⟩ : BufTy).Contents (Elt F)),
    binary main_v5 main_v4 main_v6 (mulf : (⟨S16384x1x128, .f32⟩ : BufTy).Contents (Elt F) → (⟨S16384x1x128, .f32⟩ : BufTy).Contents (Elt F) → (⟨S16384x1x128, .f32⟩ : BufTy).Contents (Elt F)),
    nullary main_cst_0 (constant S_ .f32 0x00000000#32),
    binary main_v6 main_cst_0 main_v7 ((fun x v => Host.reduceAdd x v reducesTo_S16384x1x128_S16384x1_d2 h_S_) : (⟨S16384x1x128, .f32⟩ : BufTy).Contents (Elt F) → (⟨S_, .f32⟩ : BufTy).Contents (Elt F) → (⟨S16384x1, .f32⟩ : BufTy).Contents (Elt F)),
    nullary main_cst_1 (constant S_ .f32 0x00000000#32),
    binary main_v7 main_cst_1 main_v8 ((fun x v => Host.reduceAdd x v reducesTo_S16384x1_S1_d0 h_S_) : (⟨S16384x1, .f32⟩ : BufTy).Contents (Elt F) → (⟨S_, .f32⟩ : BufTy).Contents (Elt F) → (⟨S1, .f32⟩ : BufTy).Contents (Elt F)),
    nullary main_cst_2 (constant S_ .f32 0x46800000#32),
    unary main_cst_2 main_v9 (broadcastInDim S1 ![] bcast_S_S1 : (⟨S_, .f32⟩ : BufTy).Contents (Elt F) → (⟨S1, .f32⟩ : BufTy).Contents (Elt F)),
    binary main_v8 main_v9 main_v10 (Host.divf : (⟨S1, .f32⟩ : BufTy).Contents (Elt F) → (⟨S1, .f32⟩ : BufTy).Contents (Elt F) → (⟨S1, .f32⟩ : BufTy).Contents (Elt F)),
    unary main_v10 main_v11 (broadcastInDim S16384 ![0] bcast_S1_S16384_0 : (⟨S1, .f32⟩ : BufTy).Contents (Elt F) → (⟨S16384, .f32⟩ : BufTy).Contents (Elt F)),
    binary main_v3 main_v11 main_v12 (subf : (⟨S16384, .f32⟩ : BufTy).Contents (Elt F) → (⟨S16384, .f32⟩ : BufTy).Contents (Elt F) → (⟨S16384, .f32⟩ : BufTy).Contents (Elt F)),
    nullary main_cst_3 (constant S_ .f32 0x00000000#32),
    binary main_v12 main_cst_3 main_v13 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_4 (constant S_ .f32 0x46800000#32),
    binary main_v13 main_cst_4 main_v14 (Host.divf : (⟨S_, .f32⟩ : BufTy).Contents (Elt F) → (⟨S_, .f32⟩ : BufTy).Contents (Elt F) → (⟨S_, .f32⟩ : BufTy).Contents (Elt F)),
    unary main_v14 main_v15 (Host.negf : (⟨S_, .f32⟩ : BufTy).Contents (Elt F) → (⟨S_, .f32⟩ : BufTy).Contents (Elt F)) ]

set_option maxHeartbeats 1000000 in
/-- The program is that straight line: each call unfolded at its site and each record at its fields, sequencing
    reassociated; both sides are the same chain of operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., nullary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., binary_bufs_sub .., nullary_bufs_sub .., binary_bufs_sub .., nullary_bufs_sub .., binary_bufs_sub ..,
    nullary_bufs_sub .., unary_bufs_sub .., binary_bufs_sub .., unary_bufs_sub .., binary_bufs_sub .., nullary_bufs_sub ..,
    binary_bufs_sub .., nullary_bufs_sub .., binary_bufs_sub .., unary_bufs_sub ..⟩

/-- From any memory with zero counters every weakly fair execution of the program terminates, and each buffer ends at
    the fold of the eighty-eight operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefTerm.lean ====
/-
  What the reference computes, as one pure function of its four arguments.

  Taking rows: a row number is wrapped (a negative one has a million added), tested to lie in [0, 999999], and used to
  gather a row of the table; where the test fails the row is replaced by a fill word.  The result multiplies the
  targets' rows with the contexts' rows and with the negatives' rows, sums each product over the 128 lanes, averages the
  second over the samples, subtracts that average from every first sum, averages the differences and negates.
  Folding the program's eighty-eight operations over any launch contents leaves exactly this term in the result buffer,
  and leaves the four arguments as they were.
-/
import proofs.«205315_g4544075399421_cont_8to1_c_355_20_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Rows at a vector of row numbers -/

/-- The row numbers wrapped: a negative one has a million added. -/
def wrap1 (idx : IVec S16384 32) : IVec S16384 32 :=
  select (cmpi .slt idx (broadcastInDim S16384 ![] bcast_S_S16384 (constantI S_ 32 0#32)))
    (addi idx (broadcastInDim S16384 ![] bcast_S_S16384 (constantI S_ 32 1000000#32))) idx

/-- The wrapped row numbers as a column. -/
def col1 (idx : IVec S16384 32) : IVec S16384x1 32 :=
  broadcastInDim S16384x1 ![0] bcast_S16384_S16384x1_0 (wrap1 idx)

/-- Per sample: does the wrapped row number lie in [0, 999999]? -/
def ok1 (idx : IVec S16384 32) : IVec S16384 1 :=
  Host.reduce IntOp.andi
    (andi (cmpi .sge (col1 idx) (broadcastInDim S16384x1 ![] bcast_S_S16384x1 (constantI S_ 32 0#32)))
      (cmpi .sle (col1 idx) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The table's rows at a vector of row numbers, a row that fails the range test replaced by the fill word. -/
def take1 (E : FVec F S1000000x128 .f32) (idx : IVec S16384 32) : FVec F S16384x128 .f32 :=
  select (broadcastInDim S16384x128 ![0] bcast_S16384_S16384x128_0 (ok1 idx))
    (Host.gather gather_S1000000x128_S16384x1_S16384x128_1_0_n_n_0_1_1128 E (col1 idx))
    (broadcastInDim S16384x128 ![] bcast_S_S16384x128 (constant S_ .f32 0x7FC00000#32))

/-! ## Rows at a column of row numbers -/

/-- The column's row numbers wrapped. -/
def wrap2 (idx : IVec S16384x1 32) : IVec S16384x1 32 :=
  select (cmpi .slt idx (broadcastInDim S16384x1 ![] bcast_S_S16384x1 (constantI S_ 32 0#32)))
    (addi idx (broadcastInDim S16384x1 ![] bcast_S_S16384x1 (constantI S_ 32 1000000#32))) idx

/-- The wrapped row numbers with a unit axis appended. -/
def col2 (idx : IVec S16384x1 32) : IVec S16384x1x1 32 :=
  broadcastInDim S16384x1x1 ![0, 1] bcast_S16384x1_S16384x1x1_0_1 (wrap2 idx)

/-- Per entry of the column: does the wrapped row number lie in [0, 999999]? -/
def ok2 (idx : IVec S16384x1 32) : IVec S16384x1 1 :=
  Host.reduce IntOp.andi
    (andi (cmpi .sge (col2 idx) (broadcastInDim S16384x1x1 ![] bcast_S_S16384x1x1 (constantI S_ 32 0#32)))
      (cmpi .sle (col2 idx) (broadcastInDim S16384x1x1 ![0, 1, 2] bcast_S1x1x1_S16384x1x1_0_1_2
        (broadcastInDim S1x1x1 ![2] bcast_S1_S1x1x1_2 (constantI S1 32 999999#32)))))
    (constantI S_ 1 1#1) reducesTo_S16384x1x1_S16384x1_d2 h_S_

/-- The table's rows at a column of row numbers. -/
def take2 (E : FVec F S1000000x128 .f32) (idx : IVec S16384x1 32) : FVec F S16384x1x128 .f32 :=
  select (broadcastInDim S16384x1x128 ![0, 1] bcast_S16384x1_S16384x1x128_0_1 (ok2 idx))
    (Host.gather gather_S1000000x128_S16384x1x1_S16384x1x128_2_0_n_n_0_2_1128 E (col2 idx))
    (broadcastInDim S16384x1x128 ![] bcast_S_S16384x1x128 (constant S_ .f32 0x7FC00000#32))

/-! ## The result -/

/-- Per sample, the inner product of the target's row with the context's row. -/
def posSums (T C : IVec S16384 32) (E : FVec F S1000000x128 .f32) : FVec F S16384 .f32 :=
  Host.reduceAdd (mulf (take1 E T) (take1 E C)) (constant S_ .f32 0x00000000#32) reducesTo_S16384x128_S16384_d1 h_S_

/-- Per sample, the inner product of the target's row with the negative's row. -/
def negSums (T : IVec S16384 32) (N : IVec S16384x1 32) (E : FVec F S1000000x128 .f32) : FVec F S16384x1 .f32 :=
  Host.reduceAdd
    (mulf (broadcastInDim S16384x1x128 ![0, 2] bcast_S16384x128_S16384x1x128_0_2 (take1 E T)) (take2 E N))
    (constant S_ .f32 0x00000000#32) reducesTo_S16384x1x128_S16384x1_d2 h_S_

/-- The mean over the samples of the second inner products. -/
def negMean (T : IVec S16384 32) (N : IVec S16384x1 32) (E : FVec F S1000000x128 .f32) : FVec F S1 .f32 :=
  Host.divf (Host.reduceAdd (negSums T N E) (constant S_ .f32 0x00000000#32) reducesTo_S16384x1_S1_d0 h_S_)
    (broadcastInDim S1 ![] bcast_S_S1 (constant S_ .f32 0x46800000#32))

/-- Minus the mean over the samples of: first inner product minus that mean. -/
def out (T C : IVec S16384 32) (N : IVec S16384x1 32) (E : FVec F S1000000x128 .f32) : FVec F S_ .f32 :=
  Host.negf (Host.divf
    (Host.reduceAdd (subf (posSums T C E) (broadcastInDim S16384 ![0] bcast_S1_S16384_0 (negMean T N E)))
      (constant S_ .f32 0x00000000#32) reducesTo_S16384_S_d0 h_S_)
    (constant S_ .f32 0x46800000#32))

/-! ## The fold of the operations is that term -/

attribute [local irreducible] Host.reduce Host.gather Host.reduceAdd in
set_option maxHeartbeats 2000000 in
/-- After the eighty-eight operations the result buffer holds `out` of the four arguments' contents. -/
theorem out_eq (V : Valuation τ sig (Elt F)) :
    after ops V (main_v15 : DevRef τ sig)
      = out (V (main_arg0 : DevRef τ sig)) (V (main_arg1 : DevRef τ sig)) (V (main_arg2 : DevRef τ sig))
          (V (main_arg3 : DevRef τ sig)) := by
  after_results_simp
  rfl

set_option maxHeartbeats 2000000 in
/-- No operation writes the first argument. -/
theorem arg0_eq (V : Valuation τ sig (Elt F)) :
    after ops V (main_arg0 : DevRef τ sig) = V (main_arg0 : DevRef τ sig) := by
  after_results_simp

set_option maxHeartbeats 2000000 in
theorem arg1_eq (V : Valuation τ sig (Elt F)) :
    after ops V (main_arg1 : DevRef τ sig) = V (main_arg1 : DevRef τ sig) := by
  after_results_simp

set_option maxHeartbeats 2000000 in
theorem arg2_eq (V : Valuation τ sig (Elt F)) :
    after ops V (main_arg2 : DevRef τ sig) = V (main_arg2 : DevRef τ sig) := by
  after_results_simp

set_option maxHeartbeats 2000000 in
theorem arg3_eq (V : Valuation τ sig (Elt F)) :
    after ops V (main_arg3 : DevRef τ sig) = V (main_arg3 : DevRef τ sig) := by
  after_results_simp

end Cert.ReferenceIdeal.Hand

end
-- ==== Proof.LibRowGatherScatter.lean ====
/-
  Rows taken and rows added, read at coordinates.

  `x[idx]` of a flat array `[N]` and of a matrix `[N, D]` at a column `[M, 1]` of integer row numbers (a gather that
  collapses axis 0): element `e` (row `e`) of the result is the operand's element (row) whose number is the word
  `idx[e, 0]` read signed and clamped into `[0, N − 1]`.
  A scatter-add of `M` rows of width `D` into the rows of an `[N, D]` array at row numbers `idx : [M, 1]`: update
  element `(e, d')` lands on `(n, d)` only if the word `idx[e, 0]`, read signed and NOT clamped, is `n`, and `d' = d`.
  Hence: on a row that an update lands on, taking row `idx[e, 0]` (after the usual "add N to a negative number"
  normalisation) of any array gives row `n` of it.
  All at any extents; the dimension numbers' conditions are a hypothesis, decided on a program's literal shapes.
-/
import Idealize.ShloMosaic.Lib.ValueIdx
import Idealize.ShloMosaic.PureOps.ShapeOps

noncomputable section

open Idealize.ShloMosaic Idealize.ShloMosaic.ValueIdx

namespace Cert.Lib.RowGatherScatter

variable {α : Type}

/-! ## Taking elements of a flat array -/

/-- The dimension numbers of `x[idx]` for `x : [N]`, `idx : [M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Element `e` of `x[idx]` is `x` at the word `idx[e, 0]` read signed and clamped into `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (flatDims N M wf).start (ix1 e) idx 0 + (flatDims N M wf).batchCoord (ix1 e) 0 + (flatDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 e) ⟨List.idxOf (0 : Fin 1) (flatDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Taking rows of a matrix -/

/-- The dimension numbers of `x[idx]` for `x : [N, D]`, `idx : [M, 1]`, result `[M, D]`. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, d)` of `x[idx]` is `x` at row `idx[e, 0]` (read signed, clamped into `[0, N − 1]`), column `d`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (rowDims N D M wf) x idx (ix2 e d)
      = x (ix2 ⟨min (idx (ix2 e (0 : Fin 1))).toInt.toNat (N - 1), by omega⟩ d) := by
  unfold Host.gather
  congr 1
  funext a
  refine Fin.ext ?_
  match a with
  | ⟨0, _⟩ =>
    show (rowDims N D M wf).start (ix2 e d) idx 0 + (rowDims N D M wf).batchCoord (ix2 e d) 0
      + (rowDims N D M wf).offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e d) ⟨List.idxOf (0 : Fin 2) (rowDims N D M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D M wf).start (ix2 e d) idx 1 + (rowDims N D M wf).batchCoord (ix2 e d) 1
      + (rowDims N D M wf).offCoord (ix2 e d) 1 = d.val
    have h1 : (rowDims N D M wf).start (ix2 e d) idx 1 = 0 := by
      unfold GatherDims.start; exact dif_neg (show (1 : Fin 2) ∉ ([0] : List (Fin 2)) from by decide)
    have h3 : (rowDims N D M wf).offCoord (ix2 e d) 1 = d.val := rfl
    rw [h1, GatherDims.batchCoord_eq_zero _ _ _ List.not_mem_nil, h3]
    omega

/-! ## Adding rows into a matrix -/

/-- The dimension numbers of `x.at[idx].add(u)` (a row-wise segment sum) for `x : [N, D]`, `idx : [M, 1]`, `u : [M, D]`. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- An update entry `(e, d')` lands on `(n, d)` only if the row number `idx[e, 0]`, read signed, is `n`, and `d' = d`. -/
theorem scatter_rows_hit {N D M w : Nat} (wf : ScatterDims.WF ⟨2, ![N, D]⟩ ⟨2, ![M, 1]⟩ ⟨2, ![M, D]⟩ [1] [0] [0] 1)
    (idx : IVec ⟨2, ![M, 1]⟩ w) (e : Fin M) (d' : Fin D) (n : Fin N) (d : Fin D)
    (h : (rowAddDims N D M wf).resultIdx? (ix2 e d') idx = some (ix2 n d)) :
    (idx (ix2 e (0 : Fin 1))).toInt = (n.val : Int) ∧ d' = d := by
  unfold ScatterDims.resultIdx? at h
  split at h
  · rename_i hin
    have hf := Option.some.inj h
    have h0 : ((rowAddDims N D M wf).start (ix2 e d') idx 0 + ((rowAddDims N D M wf).window (ix2 e d') 0 : Int)).toNat = n.val :=
      congrArg (fun f => (f 0).val) hf
    have h1 : ((rowAddDims N D M wf).start (ix2 e d') idx 1 + ((rowAddDims N D M wf).window (ix2 e d') 1 : Int)).toNat = d.val :=
      congrArg (fun f => (f 1).val) hf
    have g0 := (hin 0).1
    have hs0 : (rowAddDims N D M wf).start (ix2 e d') idx 0 = (idx (ix2 e (0 : Fin 1))).toInt := by
      unfold ScatterDims.start
      rw [dif_pos (show (0 : Fin 2) ∈ (rowAddDims N D M wf).scatterDimsToOperandDims from List.mem_singleton.mpr rfl)]
      have hsi : (rowAddDims N D M wf).siIdx (ix2 e d') ⟨List.idxOf (0 : Fin 2) (rowAddDims N D M wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw0 : (rowAddDims N D M wf).window (ix2 e d') 0 = 0 := rfl
    have hs1 : (rowAddDims N D M wf).start (ix2 e d') idx 1 = 0 := by
      unfold ScatterDims.start; exact dif_neg (show (1 : Fin 2) ∉ ([0] : List (Fin 2)) from by decide)
    have hw1 : (rowAddDims N D M wf).window (ix2 e d') 1 = d'.val := rfl
    rw [hs0, hw0] at h0 g0
    rw [hs1, hw1] at h1
    refine ⟨by omega, Fin.ext (by omega)⟩
  · exact absurd h (by simp)

/-! ## A row number that a scatter accepts is taken unchanged by a gather -/

/-- A 32-bit row number that reads signed as `n < N` (so it is not negative) is left alone by the normalisation
    "if negative add `N`", and the gather's clamp gives `n`. -/
theorem normalised_row {N : Nat} (c : BitVec 32) (Nw : BitVec 32) (n : Fin N) (hc : c.toInt = (n.val : Int)) :
    min (Scalar.select (IntOp.cmpi .slt c 0#32) (IntOp.addi c Nw) c).toInt.toNat (N - 1) = n.val := by
  have hslt : IntOp.cmpi .slt c 0#32 = 0#1 := by
    have : c.slt 0#32 = false := by
      rw [BitVec.slt_eq_decide]
      simp only [BitVec.toInt_zero, decide_eq_false_iff_not, not_lt]
      omega
    simp [IntOp.cmpi, this]
  rw [hslt, select_zero, hc]
  have := n.isLt
  omega

end Cert.Lib.RowGatherScatter

end
-- ==== Proof.RowGatherColumn.lean ====
/-
  Rows of a matrix taken at a column of row numbers that carries a trailing unit axis.

  `x[idx]` for a matrix `x : [N, D]` and row numbers `idx : [M, 1]` lowers to a gather whose start indices are
  `[M, 1, 1]` (the last axis the index vector) and whose result is `[M, 1, D]`: entry `(e, u, d)` of the result is
  `x` at the row whose number is the word `idx[e, u, 0]` read signed and clamped into `[0, N − 1]`, column `d`.
-/
import Idealize.ShloMosaic.Lib.ValueIdx
import Idealize.ShloMosaic.PureOps.ShapeOps

noncomputable section

open Idealize.ShloMosaic Idealize.ShloMosaic.ValueIdx

namespace Cert.Lib.RowGatherColumn

variable {α : Type}

/-- The dimension numbers of `x[idx]` for `x : [N, D]`, start indices `[M, 1, 1]`, result `[M, 1, D]`. -/
abbrev rowDims3 (N D M : Nat)
    (wf : GatherDims.WF ⟨2, ![N, D]⟩ ⟨3, ![M, 1, 1]⟩ ⟨3, ![M, 1, D]⟩ [2] [0] [] [0] [] 2 ![1, D]) :
    GatherDims ⟨2, ![N, D]⟩ ⟨3, ![M, 1, 1]⟩ ⟨3, ![M, 1, D]⟩ where
  offsetDims := [2]
  collapsedSliceDims := [0]
  operandBatchingDims := []
  startIndicesBatchingDims := []
  startIndexMap := [0]
  indexVectorDim := 2
  sliceSizes := ![1, D]
  wf := wf

/-- Entry `(e, u, d)` of `x[idx]` is `x` at row `idx[e, u, 0]` (read signed, clamped into `[0, N − 1]`), column `d`. -/
theorem gather_rows3_apply {N D M w : Nat} (hN : 0 < N)
    (wf : GatherDims.WF ⟨2, ![N, D]⟩ ⟨3, ![M, 1, 1]⟩ ⟨3, ![M, 1, D]⟩ [2] [0] [] [0] [] 2 ![1, D])
    (x : (⟨2, ![N, D]⟩ : Shape).Idx → α) (idx : IVec ⟨3, ![M, 1, 1]⟩ w) (e : Fin M) (u : Fin 1) (d : Fin D) :
    Host.gather (rowDims3 N D M wf) x idx (ix3 e u d)
      = x (ix2 ⟨min (idx (ix3 e u (0 : Fin 1))).toInt.toNat (N - 1), by omega⟩ d) := by
  unfold Host.gather
  congr 1
  funext a
  refine Fin.ext ?_
  match a with
  | ⟨0, _⟩ =>
    show (rowDims3 N D M wf).start (ix3 e u d) idx 0 + (rowDims3 N D M wf).batchCoord (ix3 e u d) 0
      + (rowDims3 N D M wf).offCoord (ix3 e u d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 N D M wf).startIndexMap from List.mem_singleton.mpr rfl)]
    have hsi : (rowDims3 N D M wf).siIdx (ix3 e u d) ⟨List.idxOf (0 : Fin 2) (rowDims3 N D M wf).startIndexMap,
        List.idxOf_lt_length_iff.2 (List.mem_singleton.mpr rfl)⟩ = ix3 e u (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims3 N D M wf).start (ix3 e u d) idx 1 + (rowDims3 N D M wf).batchCoord (ix3 e u d) 1
      + (rowDims3 N D M wf).offCoord (ix3 e u d) 1 = d.val
    have h1 : (rowDims3 N D M wf).start (ix3 e u d) idx 1 = 0 := by
      unfold GatherDims.start; exact dif_neg (show (1 : Fin 2) ∉ ([0] : List (Fin 2)) from by decide)
    have h3 : (rowDims3 N D M wf).offCoord (ix3 e u d) 1 = d.val := rfl
    rw [h1, GatherDims.batchCoord_eq_zero _ _ _ List.not_mem_nil, h3]
    omega

end Cert.Lib.RowGatherColumn

end
-- ==== Proof.RefValue.lean ====
/-
  The reference's result under the input-domain precondition: the loss of the specification.

  When every row number lies in [0, 999999] the wrap leaves it alone (it is not negative), the range test passes, and the
  gather's clamp into [0, 999999] leaves it alone too: taking rows is then reading row `idx[e]` of the table, lane by
  lane, and the fill word is never used.  A sum over the lanes of a product of two taken rows is the inner product of the
  two table rows; a sum over the samples' axis is a sum over the samples; a quotient by the broadcast word of 16384 is
  the division by that word.  Read at its one index, the program's term is therefore minus the mean over the samples of
  (inner product of target and context rows, minus the mean over the samples of the inner products of target and
  negative rows).
-/
import proofs.«205315_g4544075399421_cont_8to1_c_355_20_alg».proof.Proof.RefTerm
import proofs.«205315_g4544075399421_cont_8to1_c_355_20_alg».proof.Proof.InputDomain
import proofs.«205315_g4544075399421_cont_8to1_c_355_20_alg».proof.Proof.LibRowGatherScatter
import proofs.«205315_g4544075399421_cont_8to1_c_355_20_alg».proof.Proof.RowGatherColumn
import proofs.«205315_g4544075399421_cont_8to1_c_355_20_alg».proof.Proof.Spec
import Idealize.ShloMosaic.Lib.IdealHost
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx
open Cert.InputDomain Cert.Spec Cert.Lib.RowGatherScatter Cert.Lib.RowGatherColumn

/-! ## An all-true test over words that are all 1 -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 of an array whose entries are all 1 is 1 at every result index. -/
theorem reduce_andi_of_forall {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl, hi]
  exact foldl_andi_one x _ fun n _ => hx n

/-- A word in range is not negative, and is at most 999999: the two comparisons of the range test are 1. -/
theorem cmp_of_inRange {b : BitVec 32} (h : InRange b) :
    IntOp.andi (IntOp.cmpi .sge b 0#32) (IntOp.cmpi .sle b 999999#32) = 1#1 := by
  have e0 : (0#32 : BitVec 32).toInt = 0 := by decide
  have e9 : (999999#32 : BitVec 32).toInt = 999999 := by decide
  exact IntOp.andi_eq_one.mpr ⟨IntOp.cmpi_sge.mpr (by rw [e0]; exact h.1), IntOp.cmpi_sle.mpr (by rw [e9]; exact h.2)⟩

/-- A word in range is not below zero: the wrap's comparison is 0. -/
theorem slt_zero_of_inRange {b : BitVec 32} (h : InRange b) : IntOp.cmpi .slt b 0#32 = 0#1 := by
  refine eq_zero_of_ne_one fun h1 => ?_
  have := IntOp.cmpi_slt.mp h1
  have e0 : (0#32 : BitVec 32).toInt = 0 := by decide
  rw [e0] at this
  exact absurd h.1 (by omega)

/-- The row a word in range names, as the gather clamps it, is the row of the specification. -/
theorem clamp_eq_row {b : BitVec 32} (h : InRange b) : min b.toInt.toNat (1000000 - 1) = (row b).val := by
  obtain ⟨hlt, he⟩ := h.toNat_lt
  show _ = b.toNat % 1000000
  rw [he, Int.toNat_natCast, Nat.mod_eq_of_lt hlt]
  omega

/-! ## Rows at a vector of row numbers -/

section Take1
variable (idx : IVec S16384 32) (hall : ∀ e : Fin 16384, InRange (idx (ix1 e)))
include hall

theorem wrap1_apply (e : Fin 16384) : wrap1 idx (ix1 e) = idx (ix1 e) := by
  show Scalar.select (IntOp.cmpi .slt (idx (ix1 e)) 0#32) (IntOp.addi (idx (ix1 e)) 1000000#32) (idx (ix1 e)) = _
  rw [slt_zero_of_inRange (hall e), select_zero]

theorem col1_apply (e : Fin 16384) : col1 idx (ix2 e (0 : Fin 1)) = idx (ix1 e) := by
  unfold col1
  rw [broadcastInDim_apply _ _ _ _ (ix1 e) (fun a => by match a with | ⟨0, _⟩ => rfl)]
  exact wrap1_apply idx hall e

theorem ok1_apply (e : Fin 16384) : ok1 idx (ix1 e) = 1#1 := by
  unfold ok1
  refine reduce_andi_of_forall _ _ _ _ _ rfl fun i => ?_
  obtain ⟨a, b, rfl⟩ : ∃ (a : Fin 16384) (b : Fin 1), i = ix2 a b := ⟨i 0, i 1, eq_ix2 i⟩
  obtain rfl : b = 0 := Subsingleton.elim _ _
  show IntOp.andi (IntOp.cmpi .sge (col1 idx (ix2 a (0 : Fin 1))) 0#32)
    (IntOp.cmpi .sle (col1 idx (ix2 a (0 : Fin 1))) 999999#32) = 1#1
  rw [col1_apply idx hall a]
  exact cmp_of_inRange (hall a)

/-- Under the range hypothesis taking rows is reading the named row of the table. -/
theorem take1_apply (E : FVec Ideal S1000000x128 .f32) (e : Fin 16384) (d : Fin 128) :
    take1 E idx (ix2 e d) = ent E (idx (ix1 e)) d := by
  unfold take1
  rw [select_apply, broadcastInDim_apply _ _ _ _ (ix1 e) (fun a => by match a with | ⟨0, _⟩ => rfl),
    ok1_apply idx hall e, select_one]
  show Host.gather (rowDims 1000000 128 16384 gather_S1000000x128_S16384x1_S16384x128_1_0_n_n_0_1_1128_wf) E (col1 idx)
    (ix2 e d) = _
  rw [gather_rows_apply (by norm_num)]
  unfold ent
  refine congrArg E (congrArg (fun r => ix2 r d) (Fin.ext ?_))
  show min (col1 idx (ix2 e (0 : Fin 1))).toInt.toNat (1000000 - 1) = _
  rw [col1_apply idx hall e]
  exact clamp_eq_row (hall e)

end Take1

/-! ## Rows at a column of row numbers -/

section Take2
variable (idx : IVec S16384x1 32) (hall : ∀ e : Fin 16384, InRange (idx (ix2 e (0 : Fin 1))))
include hall

theorem wrap2_apply (e : Fin 16384) : wrap2 idx (ix2 e (0 : Fin 1)) = idx (ix2 e (0 : Fin 1)) := by
  show Scalar.select (IntOp.cmpi .slt (idx (ix2 e (0 : Fin 1))) 0#32)
    (IntOp.addi (idx (ix2 e (0 : Fin 1))) 1000000#32) (idx (ix2 e (0 : Fin 1))) = _
  rw [slt_zero_of_inRange (hall e), select_zero]

theorem col2_apply (e : Fin 16384) : col2 idx (ix3 e (0 : Fin 1) (0 : Fin 1)) = idx (ix2 e (0 : Fin 1)) := by
  unfold col2
  rw [broadcastInDim_apply _ _ _ _ (ix2 e (0 : Fin 1)) (fun a => by match a with | ⟨0, _⟩ => rfl | ⟨1, _⟩ => rfl)]
  exact wrap2_apply idx hall e

theorem ok2_apply (e : Fin 16384) : ok2 idx (ix2 e (0 : Fin 1)) = 1#1 := by
  unfold ok2
  refine reduce_andi_of_forall _ _ _ _ _ rfl fun i => ?_
  obtain ⟨a, b, c, rfl⟩ : ∃ (a : Fin 16384) (b : Fin 1) (c : Fin 1), i = ix3 a b c := ⟨i 0, i 1, i 2, eq_ix3 i⟩
  obtain rfl : b = 0 := Subsingleton.elim _ _
  obtain rfl : c = 0 := Subsingleton.elim _ _
  show IntOp.andi (IntOp.cmpi .sge (col2 idx (ix3 a (0 : Fin 1) (0 : Fin 1))) 0#32)
    (IntOp.cmpi .sle (col2 idx (ix3 a (0 : Fin 1) (0 : Fin 1))) 999999#32) = 1#1
  rw [col2_apply idx hall a]
  exact cmp_of_inRange (hall a)

/-- Under the range hypothesis taking rows at a column is reading the named row of the table. -/
theorem take2_apply (E : FVec Ideal S1000000x128 .f32) (e : Fin 16384) (d : Fin 128) :
    take2 E idx (ix3 e (0 : Fin 1) d) = ent E (idx (ix2 e (0 : Fin 1))) d := by
  unfold take2
  rw [select_apply, broadcastInDim_apply _ _ _ _ (ix2 e (0 : Fin 1)) (fun a => by match a with | ⟨0, _⟩ => rfl | ⟨1, _⟩ => rfl),
    ok2_apply idx hall e, select_one]
  show Host.gather (rowDims3 1000000 128 16384 gather_S1000000x128_S16384x1x1_S16384x1x128_2_0_n_n_0_2_1128_wf) E (col2 idx)
    (ix3 e (0 : Fin 1) d) = _
  rw [gather_rows3_apply (by norm_num)]
  unfold ent
  refine congrArg E (congrArg (fun r => ix2 r d) (Fin.ext ?_))
  show min (col2 idx (ix3 e (0 : Fin 1) (0 : Fin 1))).toInt.toNat (1000000 - 1) = _
  rw [col2_apply idx hall e]
  exact clamp_eq_row (hall e)

end Take2

/-! ## A sum over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The sums -/

section Sums
variable (T C : IVec S16384 32) (N : IVec S16384x1 32) (E : FVec Ideal S1000000x128 .f32)
  (hT : ∀ e : Fin 16384, InRange (T (ix1 e))) (hC : ∀ e : Fin 16384, InRange (C (ix1 e)))
  (hN : ∀ e : Fin 16384, InRange (N (ix2 e (0 : Fin 1))))

include hT hC in
/-- Per sample, the first sum over lanes is the inner product of the target's and the context's rows. -/
theorem posSums_apply (i : Fin 16384) : posSums T C E (ix1 i) = dot E (T (ix1 i)) (C (ix1 i)) := by
  have hl : ∀ k : Fin 128, (by decide : S16384x128.Reduces [1] S16384).lift (ix1 i) k = ix2 i k := fun k => by
    funext a; refine Fin.ext ?_
    match a with
    | ⟨0, _⟩ => rfl
    | ⟨1, _⟩ => rfl
  unfold posSums
  rw [hostReduceAdd_apply, Ideal.hostReduceAdd_single _ (by decide : S16384x128.Reduces [1] S16384)]
  show Ideal.ofBits .f32 0x00000000#32 + ∑ k : Fin 128, mulf (take1 E T) (take1 E C)
    ((by decide : S16384x128.Reduces [1] S16384).lift (ix1 i) k) = _
  rw [Ideal.ofBits_zero_f32, zero_add]
  unfold dot
  refine Finset.sum_congr rfl fun (k : Fin 128) _ => ?_
  rw [hl k]
  show take1 E T (ix2 i k) * take1 E C (ix2 i k) = _
  rw [take1_apply T hT E i k, take1_apply C hC E i k]

include hT hN in
/-- Per sample, the second sum over lanes is the inner product of the target's and the negative's rows. -/
theorem negSums_apply (k : Fin 16384) :
    negSums T N E (ix2 k (0 : Fin 1)) = dot E (T (ix1 k)) (N (ix2 k (0 : Fin 1))) := by
  have hl : ∀ d : Fin 128, (by decide : S16384x1x128.Reduces [2] S16384x1).lift (ix2 k (0 : Fin 1)) d
      = ix3 k (0 : Fin 1) d := fun d => by
    funext a; refine Fin.ext ?_
    match a with
    | ⟨0, _⟩ => rfl
    | ⟨1, _⟩ => rfl
    | ⟨2, _⟩ => rfl
  unfold negSums
  rw [hostReduceAdd_apply, Ideal.hostReduceAdd_single _ (by decide : S16384x1x128.Reduces [2] S16384x1)]
  show Ideal.ofBits .f32 0x00000000#32 + ∑ d : Fin 128,
    mulf (broadcastInDim S16384x1x128 ![0, 2] bcast_S16384x128_S16384x1x128_0_2 (take1 E T)) (take2 E N)
      ((by decide : S16384x1x128.Reduces [2] S16384x1).lift (ix2 k (0 : Fin 1)) d) = _
  rw [Ideal.ofBits_zero_f32, zero_add]
  unfold dot
  refine Finset.sum_congr rfl fun (d : Fin 128) _ => ?_
  rw [hl d]
  show broadcastInDim S16384x1x128 ![0, 2] bcast_S16384x128_S16384x1x128_0_2 (take1 E T) (ix3 k (0 : Fin 1) d)
    * take2 E N (ix3 k (0 : Fin 1) d) = _
  rw [broadcastInDim_apply _ _ _ _ (ix2 k d) (fun a => by match a with | ⟨0, _⟩ => rfl | ⟨1, _⟩ => rfl),
    take1_apply T hT E k d, take2_apply N hN E k d]

include hT hN in
/-- The mean of the second inner products over the samples. -/
theorem negMean_apply :
    negMean T N E (ix1 (0 : Fin 1))
      = Ideal.div (∑ k : Fin 16384, dot E (T (ix1 k)) (N (ix2 k (0 : Fin 1)))) c16384 := by
  have hl : ∀ k : Fin 16384, (by decide : S16384x1.Reduces [0] S1).lift (ix1 (0 : Fin 1)) k = ix2 k (0 : Fin 1) :=
    fun k => by
      funext a; refine Fin.ext ?_
      match a with
      | ⟨0, _⟩ => rfl
      | ⟨1, _⟩ => rfl
  unfold negMean
  rw [hostDivf_apply, hostReduceAdd_apply, Ideal.hostReduceAdd_single _ (by decide : S16384x1.Reduces [0] S1),
    broadcastInDim_scalar_apply]
  show Ideal.div (Ideal.ofBits .f32 0x00000000#32 + ∑ k : Fin 16384,
      negSums T N E ((by decide : S16384x1.Reduces [0] S1).lift (ix1 (0 : Fin 1)) k))
    (Ideal.ofBits .f32 0x46800000#32) = _
  rw [Ideal.ofBits_zero_f32, zero_add]
  unfold c16384
  simp only [hl, negSums_apply T N E hT hN]

include hT hC hN in
/-- The program's term at its one index is the loss of the specification. -/
theorem out_apply :
    out T C N E ix0 = refLoss (fun i => T (ix1 i)) (fun i => C (ix1 i)) (fun i => N (ix2 i (0 : Fin 1))) E := by
  have hb : ∀ i : Fin 16384, broadcastInDim S16384 ![0] bcast_S1_S16384_0 (negMean T N E) (ix1 i)
      = negMean T N E (ix1 (0 : Fin 1)) := fun i =>
    broadcastInDim_apply _ _ _ _ (ix1 (0 : Fin 1)) (fun a => by match a with | ⟨0, _⟩ => rfl)
  unfold out
  show -(Ideal.div (Host.reduceAdd (subf (posSums T C E) (broadcastInDim S16384 ![0] bcast_S1_S16384_0 (negMean T N E)))
    (constant S_ .f32 0x00000000#32) reducesTo_S16384_S_d0 h_S_ ix0) (Ideal.ofBits .f32 0x46800000#32)) = _
  rw [hostReduceAdd_apply, Ideal.hostReduceAdd_total _ (fun b => b.elim0), sum_idx1]
  show -(Ideal.div (Ideal.ofBits .f32 0x00000000#32 + ∑ i : Fin 16384,
      (posSums T C E (ix1 i) - broadcastInDim S16384 ![0] bcast_S1_S16384_0 (negMean T N E) (ix1 i)))
    (Ideal.ofBits .f32 0x46800000#32)) = _
  rw [Ideal.ofBits_zero_f32, zero_add]
  unfold refLoss c16384
  simp only [hb, posSums_apply T C E hT hC, negMean_apply T N E hT hN]
  rfl

end Sums

end Cert.ReferenceIdeal.Hand

end
-- ==== Proof.RefLoss.lean ====
/-
  The reference's run under the input-domain precondition.

  Every weakly fair execution of the reference terminates without a fault; its result buffer ends holding the loss of the
  specification at the row numbers and the table the memory gave its arguments, and the four argument arrays end as they
  began.  The run is the straight line's; its result is the program's term, which under the precondition (every row number
  in range) is the specification's loss.  The frame is the same run with the value forgotten.
-/
import proofs.«205315_g4544075399421_cont_8to1_c_355_20_alg».proof.Proof.RefValue
import proofs.«205315_g4544075399421_cont_8to1_c_355_20_alg».proof.Defs

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.InputDomain Cert.Spec

/-- Under the precondition the reference runs to the end, its result the loss of the specification at the arguments the
    memory holds, its arguments unchanged. -/
theorem run (m : (ℓ : Loc nD τ sig) → Buf (Elt Ideal) ℓ) (g : Dev nD → PrngReg) (hpre : Cert.Pre_ReferenceIdeal m) :
    θ_run (defs (F := Ideal)) (onTc (τ := τ) (main (F := Ideal))) ⟨m, fun _ => 0, g⟩ (fun r => ∀ c : Dev nD,
      r.2.mem ((c.tc : Thread nD τ).loc main_v15)
          = (fun _ => refLoss
              (fun i => (m ((c.tc : Thread nD τ).loc main_arg0) : IVec S16384 32) (ix1 i))
              (fun i => (m ((c.tc : Thread nD τ).loc main_arg1) : IVec S16384 32) (ix1 i))
              (fun i => (m ((c.tc : Thread nD τ).loc main_arg2) : IVec S16384x1 32) (ix2 i (0 : Fin 1)))
              (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r h c => ?_) (run_main (F := Ideal) m g)
  obtain ⟨hT, hC, hN⟩ := ranges_of_pre _ _ _ _ (hpre c)
  refine ⟨(h c main_v15).trans ((out_eq _).trans ?_), (h c main_arg0).trans (arg0_eq _), (h c main_arg1).trans (arg1_eq _),
    (h c main_arg2).trans (arg2_eq _), (h c main_arg3).trans (arg3_eq _)⟩
  funext j
  obtain rfl := eq_ix0 j
  exact out_apply _ _ _ _ hT hC hN

/-- The reference runs and leaves its arguments unchanged. -/
theorem frame : Cert.frame_ReferenceIdeal := fun m g hpre =>
  (θ_run (defs (F := Ideal)) _ _).mono (fun _ h c => (h c).2) (run m g hpre)

end Cert.ReferenceIdeal.Hand

end
-- ==== Proof.Assemble.lean ====
/-
  The five conjuncts of the claim, each from the runs of the three programs.

  The kernel as printed and the kernel read at the extended reals are the same text over two float instances, and one
  run theorem serves both: under the precondition (every index word in [0, 999999]) every weakly fair execution
  terminates, the four argument arrays end as they began, and the result buffer ends at minus the quotient by 16384 of
  the sum of the 32 × 16 output, the output being the whole-output function of the index matrix and the table.  The
  two frames are that run with the value forgotten; the reference's frame is its own run with the value forgotten; the
  idealization rewrote no operation, so it preserves trivially.

  For the algebraic conjunct both runs are kept with their values.  At the extended reals the kernel's double sum of the
  whole-output function is the sum of the contributions `E[t i, d] · (E[c i, d] − E[n i, d])` in the tiles' order, which
  is the plain double sum over samples and lanes; the reference's result is minus the mean of `pos i − mean neg`.  The
  precondition makes every table entry a real number, and over the reals the two agree by distributivity and
  `Σ_{i<16384} μ = 16384 · μ`.  The memories agree on the arguments, so both results are the same function of them.
-/
import proofs.«205315_g4544075399421_cont_8to1_c_355_20_alg».proof.Proof.HostGlue
import proofs.«205315_g4544075399421_cont_8to1_c_355_20_alg».proof.Proof.HostGlueB
import proofs.«205315_g4544075399421_cont_8to1_c_355_20_alg».proof.Proof.Algebra
import proofs.«205315_g4544075399421_cont_8to1_c_355_20_alg».proof.Proof.RefLoss

noncomputable section

namespace Cert.Proof

open Idealize.ShloMosaic Idealize.SL.Sem Idealize.ShloMosaic.ValueIdx

/-- The kernel as printed runs and leaves its arguments unchanged: its run with the value forgotten. -/
theorem frame_Kernel_of (outVal : KB.OutFn Bits) (hbody : KB.TileStmt (F := Bits) outVal) : Cert.frame_Kernel := fun m g hpre =>
  (θ_run Cert.Kernel.defs _ _).mono (fun _ h c => (h c).2) (KB.run_main (F := Bits) m g outVal hbody (KB.ok_of_pre m hpre))

/-- The kernel at the extended reals runs and leaves its arguments unchanged: its run with the value forgotten. -/
theorem frame_KernelIdeal_of (outVal : KI.OutFn Ideal) (hbody : KI.TileStmt (F := Ideal) outVal) : Cert.frame_KernelIdeal := fun m g hpre =>
  (θ_run Cert.KernelIdeal.defs _ _).mono (fun _ h c => (h c).2) (KI.run_main (F := Ideal) m g outVal hbody (KI.ok_of_pre m hpre))

/-- At the extended reals the kernel and the reference, from memories agreeing on the arguments, end with the same
    result — the specification's loss at the arguments — and unchanged arguments. `hsum`: the double sum of the
    whole-output function is the contributions summed in the tiles' order. -/
theorem algebraic_of (outVal : KI.OutFn Ideal) (hbody : KI.TileStmt (F := Ideal) outVal)
    (hsum : ∀ (d : Dev Cert.KernelIdeal.nD) (T C : IVec Cert.KernelIdeal.S16384 32) (N : IVec Cert.KernelIdeal.S16384x1 32)
      (E : Cert.KernelIdeal.S1000000x128.Idx → EReal),
      (∑ w : Fin 32, ∑ l : Fin 16, outVal d (KI.v4 T C N) E (ix2 w l) : EReal)
        = Cert.Spec.tiledSum (fun i => T (ix1 i)) (fun i => C (ix1 i)) (fun i => N (ix2 i (0 : Fin 1))) E) :
    Cert.algebraic_KernelIdeal_ReferenceIdeal := by
  intro m g m' g' hpre hagree
  refine ⟨fun c _ => Cert.Spec.refLoss
      (fun i => (m ((c.tc : Thread Cert.KernelIdeal.nD Cert.KernelIdeal.τ).loc Cert.KernelIdeal.main_arg0) : IVec Cert.KernelIdeal.S16384 32) (ix1 i))
      (fun i => (m ((c.tc : Thread Cert.KernelIdeal.nD Cert.KernelIdeal.τ).loc Cert.KernelIdeal.main_arg1) : IVec Cert.KernelIdeal.S16384 32) (ix1 i))
      (fun i => (m ((c.tc : Thread Cert.KernelIdeal.nD Cert.KernelIdeal.τ).loc Cert.KernelIdeal.main_arg2) : IVec Cert.KernelIdeal.S16384x1 32) (ix2 i (0 : Fin 1)))
      (m ((c.tc : Thread Cert.KernelIdeal.nD Cert.KernelIdeal.τ).loc Cert.KernelIdeal.main_arg3)), ?_, ?_⟩
  · -- the kernel: its result is minus the tiled sum over 16384, which is the reference's closed form
    refine (θ_run Cert.KernelIdeal.defs _ _).mono (fun r h c => ?_) (KI.run_main (F := Ideal) m g outVal hbody (KI.ok_of_pre m hpre))
    obtain ⟨h8, h0, h1, h2, h3⟩ := h c
    refine ⟨h8.trans ((KI.resVal_ideal m outVal c).trans (funext fun _ => ?_)), h0, h1, h2, h3⟩
    unfold KI.O1 KI.E0
    rw [KI.I4_eq, hsum]
    exact Cert.Spec.tiled_loss_eq_refLoss _ _ _ _ (Cert.InputDomain.finite_of_pre _ _ _ _ (hpre c))
  · -- the reference: its own run, from a memory that agrees with the kernel's on the arguments
    have hpre' : Cert.Pre_ReferenceIdeal m' := fun c => by
      obtain ⟨e0, e1, e2, e3⟩ := hagree c
      rw [e0, e1, e2, e3]; exact hpre c
    refine (θ_run Cert.ReferenceIdeal.defs _ _).mono (fun r h c => ?_) (Cert.ReferenceIdeal.Hand.run m' g' hpre')
    obtain ⟨e0, e1, e2, e3⟩ := hagree c
    obtain ⟨h15, h0, h1, h2, h3⟩ := h c
    refine ⟨h15.trans ?_, h0, h1, h2, h3⟩
    rw [e0, e1, e2, e3]
    rfl

end Cert.Proof

end
-- ==== Proof.KStep.lean ====
/-
  The arithmetic of one trip of a chunk-loop, as a pure function of the row buffer, for any float instance.

  A row buffer holds a chunk's 384 gathered table rows: rows `0..127` the targets', `128..255` the contexts',
  `256..383` the negatives'.  Trip `k` visits rows `2k` and `2k + 1`; for each of them and each of the eight groups of
  sixteen lanes it adds `t · (c − n)` — the target row's lanes times the difference of the context row's and the negative
  row's — into that row parity's and lane group's accumulator.  Sixteen accumulators, each sixteen lanes.
-/
import proofs.«205315_g4544075399421_cont_8to1_c_355_20_alg».proof.Proof.TilePre

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S32x1536 EltTy.i32)
local notation "eV" => (Memref.whole Cert.KernelIdeal.main_arg3_scv : Memref Cert.KernelIdeal.sig Kind.scVector Space.hbm Cert.KernelIdeal.S1000000x128 EltTy.f32)
local notation "oV" => (Memref.whole Cert.KernelIdeal.main_v5_scv : Memref Cert.KernelIdeal.sig Kind.scVector Space.hbm Cert.KernelIdeal.S32x16 EltTy.f32)
local notation "xS" => (Memref.whole Cert.KernelIdeal.cc0_scratch0 : Memref Cert.KernelIdeal.sig Kind.scVector Space.vmem Cert.KernelIdeal.S1536 EltTy.i32)
local notation "aS" => (Memref.whole Cert.KernelIdeal.cc0_scratch1 : Memref Cert.KernelIdeal.sig Kind.scVector Space.vmem Cert.KernelIdeal.S384x128 EltTy.f32)
local notation "bS" => (Memref.whole Cert.KernelIdeal.cc0_scratch2 : Memref Cert.KernelIdeal.sig Kind.scVector Space.vmem Cert.KernelIdeal.S384x128 EltTy.f32)
local notation "tS" => (Memref.whole Cert.KernelIdeal.cc0_scratch3 : Memref Cert.KernelIdeal.sig Kind.scVector Space.vmem Cert.KernelIdeal.S16 EltTy.f32)

variable [FloatOps F]

/-- The sixteen lane-vector accumulators a chunk-loop carries: parity 0's eight lane groups, then parity 1's. -/
abbrev Acc (F : FTy → Type) : Type :=
  FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32

/-- The contents of the first and of the second row buffer. -/
abbrev RowBufA (F : FTy → Type) : Type := ((aS).view).ty.Contents (Elt F)
abbrev RowBufB (F : FTy → Type) : Type := ((bS).view).ty.Contents (Elt F)

/-- Sixteen lanes of one row of a row buffer, starting at the printed offsets. -/
def lanesA (B : RowBufA F) (off : Fin 2 → Nat) (inb : ∀ a, off a + S1x16.size a ≤ S384x128.size a) : FVec F S16 .f32 :=
  shapeCast S16 (View.readAt (Elt F) (aS).view (Rect.unit (s := S384x128) off S1x16.size inb).toLoadRect B) shapeCasts_S1x16_S16
def lanesB (B : RowBufB F) (off : Fin 2 → Nat) (inb : ∀ a, off a + S1x16.size a ≤ S384x128.size a) : FVec F S16 .f32 :=
  shapeCast S16 (View.readAt (Elt F) (bS).view (Rect.unit (s := S384x128) off S1x16.size inb).toLoadRect B) shapeCasts_S1x16_S16

/-- An accumulator gains `t · (c − n)`. -/
def upd (a t c n : FVec F S16 .f32) : FVec F S16 .f32 := addf a (mulf t (subf c n))

/-- One trip of chunk-loop 1: every accumulator gains its row's and lane group's product. -/
def step1 (B : RowBufA F) (k : Fin k0_t1_loop.trips) : Acc F → Acc F :=
  fun (a0, a1, a2, a3, a4, a5, a6, a7, a8, a9, a10, a11, a12, a13, a14, a15) =>
    (upd a0 (lanesA B (k0_off3 k) (k0_off3_inb k)) (lanesA B (k0_off4 k 128#32) (k0_off4_inb k 0)) (lanesA B (k0_off4 k 256#32) (k0_off4_inb k 1)),
     upd a1 (lanesA B (k0_off7 k) (k0_off7_inb k)) (lanesA B (k0_off8 k 128#32) (k0_off8_inb k 0)) (lanesA B (k0_off8 k 256#32) (k0_off8_inb k 1)),
     upd a2 (lanesA B (k0_off11 k) (k0_off11_inb k)) (lanesA B (k0_off12 k 128#32) (k0_off12_inb k 0)) (lanesA B (k0_off12 k 256#32) (k0_off12_inb k 1)),
     upd a3 (lanesA B (k0_off15 k) (k0_off15_inb k)) (lanesA B (k0_off16 k 128#32) (k0_off16_inb k 0)) (lanesA B (k0_off16 k 256#32) (k0_off16_inb k 1)),
     upd a4 (lanesA B (k0_off19 k) (k0_off19_inb k)) (lanesA B (k0_off20 k 128#32) (k0_off20_inb k 0)) (lanesA B (k0_off20 k 256#32) (k0_off20_inb k 1)),
     upd a5 (lanesA B (k0_off23 k) (k0_off23_inb k)) (lanesA B (k0_off24 k 128#32) (k0_off24_inb k 0)) (lanesA B (k0_off24 k 256#32) (k0_off24_inb k 1)),
     upd a6 (lanesA B (k0_off27 k) (k0_off27_inb k)) (lanesA B (k0_off28 k 128#32) (k0_off28_inb k 0)) (lanesA B (k0_off28 k 256#32) (k0_off28_inb k 1)),
     upd a7 (lanesA B (k0_off31 k) (k0_off31_inb k)) (lanesA B (k0_off32 k 128#32) (k0_off32_inb k 0)) (lanesA B (k0_off32 k 256#32) (k0_off32_inb k 1)),
     upd a8 (lanesA B (k0_off5 k) (k0_off5_inb k)) (lanesA B (k0_off6 k 128#32) (k0_off6_inb k 0)) (lanesA B (k0_off6 k 256#32) (k0_off6_inb k 1)),
     upd a9 (lanesA B (k0_off9 k) (k0_off9_inb k)) (lanesA B (k0_off10 k 128#32) (k0_off10_inb k 0)) (lanesA B (k0_off10 k 256#32) (k0_off10_inb k 1)),
     upd a10 (lanesA B (k0_off13 k) (k0_off13_inb k)) (lanesA B (k0_off14 k 128#32) (k0_off14_inb k 0)) (lanesA B (k0_off14 k 256#32) (k0_off14_inb k 1)),
     upd a11 (lanesA B (k0_off17 k) (k0_off17_inb k)) (lanesA B (k0_off18 k 128#32) (k0_off18_inb k 0)) (lanesA B (k0_off18 k 256#32) (k0_off18_inb k 1)),
     upd a12 (lanesA B (k0_off21 k) (k0_off21_inb k)) (lanesA B (k0_off22 k 128#32) (k0_off22_inb k 0)) (lanesA B (k0_off22 k 256#32) (k0_off22_inb k 1)),
     upd a13 (lanesA B (k0_off25 k) (k0_off25_inb k)) (lanesA B (k0_off26 k 128#32) (k0_off26_inb k 0)) (lanesA B (k0_off26 k 256#32) (k0_off26_inb k 1)),
     upd a14 (lanesA B (k0_off29 k) (k0_off29_inb k)) (lanesA B (k0_off30 k 128#32) (k0_off30_inb k 0)) (lanesA B (k0_off30 k 256#32) (k0_off30_inb k 1)),
     upd a15 (lanesA B (k0_off33 k) (k0_off33_inb k)) (lanesA B (k0_off34 k 128#32) (k0_off34_inb k 0)) (lanesA B (k0_off34 k 256#32) (k0_off34_inb k 1)))

/-- The accumulators after the first `n` trips of chunk-loop 1. -/
def iter1 (B : RowBufA F) (a : Acc F) : ℕ → Acc F
  | 0 => a
  | n + 1 => if h : n < k0_t1_loop.trips then step1 B ⟨n, h⟩ (iter1 B a n) else iter1 B a n

/-- One trip of chunk-loop 2: every accumulator gains its row's and lane group's product. -/
def step2 (B : RowBufB F) (k : Fin k0_t2_loop.trips) : Acc F → Acc F :=
  fun (a0, a1, a2, a3, a4, a5, a6, a7, a8, a9, a10, a11, a12, a13, a14, a15) =>
    (upd a0 (lanesB B (k0_off35 k) (k0_off35_inb k)) (lanesB B (k0_off36 k 128#32) (k0_off36_inb k 0)) (lanesB B (k0_off36 k 256#32) (k0_off36_inb k 1)),
     upd a1 (lanesB B (k0_off39 k) (k0_off39_inb k)) (lanesB B (k0_off40 k 128#32) (k0_off40_inb k 0)) (lanesB B (k0_off40 k 256#32) (k0_off40_inb k 1)),
     upd a2 (lanesB B (k0_off43 k) (k0_off43_inb k)) (lanesB B (k0_off44 k 128#32) (k0_off44_inb k 0)) (lanesB B (k0_off44 k 256#32) (k0_off44_inb k 1)),
     upd a3 (lanesB B (k0_off47 k) (k0_off47_inb k)) (lanesB B (k0_off48 k 128#32) (k0_off48_inb k 0)) (lanesB B (k0_off48 k 256#32) (k0_off48_inb k 1)),
     upd a4 (lanesB B (k0_off51 k) (k0_off51_inb k)) (lanesB B (k0_off52 k 128#32) (k0_off52_inb k 0)) (lanesB B (k0_off52 k 256#32) (k0_off52_inb k 1)),
     upd a5 (lanesB B (k0_off55 k) (k0_off55_inb k)) (lanesB B (k0_off56 k 128#32) (k0_off56_inb k 0)) (lanesB B (k0_off56 k 256#32) (k0_off56_inb k 1)),
     upd a6 (lanesB B (k0_off59 k) (k0_off59_inb k)) (lanesB B (k0_off60 k 128#32) (k0_off60_inb k 0)) (lanesB B (k0_off60 k 256#32) (k0_off60_inb k 1)),
     upd a7 (lanesB B (k0_off63 k) (k0_off63_inb k)) (lanesB B (k0_off64 k 128#32) (k0_off64_inb k 0)) (lanesB B (k0_off64 k 256#32) (k0_off64_inb k 1)),
     upd a8 (lanesB B (k0_off37 k) (k0_off37_inb k)) (lanesB B (k0_off38 k 128#32) (k0_off38_inb k 0)) (lanesB B (k0_off38 k 256#32) (k0_off38_inb k 1)),
     upd a9 (lanesB B (k0_off41 k) (k0_off41_inb k)) (lanesB B (k0_off42 k 128#32) (k0_off42_inb k 0)) (lanesB B (k0_off42 k 256#32) (k0_off42_inb k 1)),
     upd a10 (lanesB B (k0_off45 k) (k0_off45_inb k)) (lanesB B (k0_off46 k 128#32) (k0_off46_inb k 0)) (lanesB B (k0_off46 k 256#32) (k0_off46_inb k 1)),
     upd a11 (lanesB B (k0_off49 k) (k0_off49_inb k)) (lanesB B (k0_off50 k 128#32) (k0_off50_inb k 0)) (lanesB B (k0_off50 k 256#32) (k0_off50_inb k 1)),
     upd a12 (lanesB B (k0_off53 k) (k0_off53_inb k)) (lanesB B (k0_off54 k 128#32) (k0_off54_inb k 0)) (lanesB B (k0_off54 k 256#32) (k0_off54_inb k 1)),
     upd a13 (lanesB B (k0_off57 k) (k0_off57_inb k)) (lanesB B (k0_off58 k 128#32) (k0_off58_inb k 0)) (lanesB B (k0_off58 k 256#32) (k0_off58_inb k 1)),
     upd a14 (lanesB B (k0_off61 k) (k0_off61_inb k)) (lanesB B (k0_off62 k 128#32) (k0_off62_inb k 0)) (lanesB B (k0_off62 k 256#32) (k0_off62_inb k 1)),
     upd a15 (lanesB B (k0_off65 k) (k0_off65_inb k)) (lanesB B (k0_off66 k 128#32) (k0_off66_inb k 0)) (lanesB B (k0_off66 k 256#32) (k0_off66_inb k 1)))

/-- The accumulators after the first `n` trips of chunk-loop 2. -/
def iter2 (B : RowBufB F) (a : Acc F) : ℕ → Acc F
  | 0 => a
  | n + 1 => if h : n < k0_t2_loop.trips then step2 B ⟨n, h⟩ (iter2 B a n) else iter2 B a n

/-- One trip of chunk-loop 3: every accumulator gains its row's and lane group's product. -/
def step3 (B : RowBufA F) (k : Fin k0_t3_loop.trips) : Acc F → Acc F :=
  fun (a0, a1, a2, a3, a4, a5, a6, a7, a8, a9, a10, a11, a12, a13, a14, a15) =>
    (upd a0 (lanesA B (k0_off67 k) (k0_off67_inb k)) (lanesA B (k0_off68 k 128#32) (k0_off68_inb k 0)) (lanesA B (k0_off68 k 256#32) (k0_off68_inb k 1)),
     upd a1 (lanesA B (k0_off71 k) (k0_off71_inb k)) (lanesA B (k0_off72 k 128#32) (k0_off72_inb k 0)) (lanesA B (k0_off72 k 256#32) (k0_off72_inb k 1)),
     upd a2 (lanesA B (k0_off75 k) (k0_off75_inb k)) (lanesA B (k0_off76 k 128#32) (k0_off76_inb k 0)) (lanesA B (k0_off76 k 256#32) (k0_off76_inb k 1)),
     upd a3 (lanesA B (k0_off79 k) (k0_off79_inb k)) (lanesA B (k0_off80 k 128#32) (k0_off80_inb k 0)) (lanesA B (k0_off80 k 256#32) (k0_off80_inb k 1)),
     upd a4 (lanesA B (k0_off83 k) (k0_off83_inb k)) (lanesA B (k0_off84 k 128#32) (k0_off84_inb k 0)) (lanesA B (k0_off84 k 256#32) (k0_off84_inb k 1)),
     upd a5 (lanesA B (k0_off87 k) (k0_off87_inb k)) (lanesA B (k0_off88 k 128#32) (k0_off88_inb k 0)) (lanesA B (k0_off88 k 256#32) (k0_off88_inb k 1)),
     upd a6 (lanesA B (k0_off91 k) (k0_off91_inb k)) (lanesA B (k0_off92 k 128#32) (k0_off92_inb k 0)) (lanesA B (k0_off92 k 256#32) (k0_off92_inb k 1)),
     upd a7 (lanesA B (k0_off95 k) (k0_off95_inb k)) (lanesA B (k0_off96 k 128#32) (k0_off96_inb k 0)) (lanesA B (k0_off96 k 256#32) (k0_off96_inb k 1)),
     upd a8 (lanesA B (k0_off69 k) (k0_off69_inb k)) (lanesA B (k0_off70 k 128#32) (k0_off70_inb k 0)) (lanesA B (k0_off70 k 256#32) (k0_off70_inb k 1)),
     upd a9 (lanesA B (k0_off73 k) (k0_off73_inb k)) (lanesA B (k0_off74 k 128#32) (k0_off74_inb k 0)) (lanesA B (k0_off74 k 256#32) (k0_off74_inb k 1)),
     upd a10 (lanesA B (k0_off77 k) (k0_off77_inb k)) (lanesA B (k0_off78 k 128#32) (k0_off78_inb k 0)) (lanesA B (k0_off78 k 256#32) (k0_off78_inb k 1)),
     upd a11 (lanesA B (k0_off81 k) (k0_off81_inb k)) (lanesA B (k0_off82 k 128#32) (k0_off82_inb k 0)) (lanesA B (k0_off82 k 256#32) (k0_off82_inb k 1)),
     upd a12 (lanesA B (k0_off85 k) (k0_off85_inb k)) (lanesA B (k0_off86 k 128#32) (k0_off86_inb k 0)) (lanesA B (k0_off86 k 256#32) (k0_off86_inb k 1)),
     upd a13 (lanesA B (k0_off89 k) (k0_off89_inb k)) (lanesA B (k0_off90 k 128#32) (k0_off90_inb k 0)) (lanesA B (k0_off90 k 256#32) (k0_off90_inb k 1)),
     upd a14 (lanesA B (k0_off93 k) (k0_off93_inb k)) (lanesA B (k0_off94 k 128#32) (k0_off94_inb k 0)) (lanesA B (k0_off94 k 256#32) (k0_off94_inb k 1)),
     upd a15 (lanesA B (k0_off97 k) (k0_off97_inb k)) (lanesA B (k0_off98 k 128#32) (k0_off98_inb k 0)) (lanesA B (k0_off98 k 256#32) (k0_off98_inb k 1)))

/-- The accumulators after the first `n` trips of chunk-loop 3. -/
def iter3 (B : RowBufA F) (a : Acc F) : ℕ → Acc F
  | 0 => a
  | n + 1 => if h : n < k0_t3_loop.trips then step3 B ⟨n, h⟩ (iter3 B a n) else iter3 B a n

/-- One trip of chunk-loop 4: every accumulator gains its row's and lane group's product. -/
def step4 (B : RowBufB F) (k : Fin k0_t4_loop.trips) : Acc F → Acc F :=
  fun (a0, a1, a2, a3, a4, a5, a6, a7, a8, a9, a10, a11, a12, a13, a14, a15) =>
    (upd a0 (lanesB B (k0_off99 k) (k0_off99_inb k)) (lanesB B (k0_off100 k 128#32) (k0_off100_inb k 0)) (lanesB B (k0_off100 k 256#32) (k0_off100_inb k 1)),
     upd a1 (lanesB B (k0_off103 k) (k0_off103_inb k)) (lanesB B (k0_off104 k 128#32) (k0_off104_inb k 0)) (lanesB B (k0_off104 k 256#32) (k0_off104_inb k 1)),
     upd a2 (lanesB B (k0_off107 k) (k0_off107_inb k)) (lanesB B (k0_off108 k 128#32) (k0_off108_inb k 0)) (lanesB B (k0_off108 k 256#32) (k0_off108_inb k 1)),
     upd a3 (lanesB B (k0_off111 k) (k0_off111_inb k)) (lanesB B (k0_off112 k 128#32) (k0_off112_inb k 0)) (lanesB B (k0_off112 k 256#32) (k0_off112_inb k 1)),
     upd a4 (lanesB B (k0_off115 k) (k0_off115_inb k)) (lanesB B (k0_off116 k 128#32) (k0_off116_inb k 0)) (lanesB B (k0_off116 k 256#32) (k0_off116_inb k 1)),
     upd a5 (lanesB B (k0_off119 k) (k0_off119_inb k)) (lanesB B (k0_off120 k 128#32) (k0_off120_inb k 0)) (lanesB B (k0_off120 k 256#32) (k0_off120_inb k 1)),
     upd a6 (lanesB B (k0_off123 k) (k0_off123_inb k)) (lanesB B (k0_off124 k 128#32) (k0_off124_inb k 0)) (lanesB B (k0_off124 k 256#32) (k0_off124_inb k 1)),
     upd a7 (lanesB B (k0_off127 k) (k0_off127_inb k)) (lanesB B (k0_off128 k 128#32) (k0_off128_inb k 0)) (lanesB B (k0_off128 k 256#32) (k0_off128_inb k 1)),
     upd a8 (lanesB B (k0_off101 k) (k0_off101_inb k)) (lanesB B (k0_off102 k 128#32) (k0_off102_inb k 0)) (lanesB B (k0_off102 k 256#32) (k0_off102_inb k 1)),
     upd a9 (lanesB B (k0_off105 k) (k0_off105_inb k)) (lanesB B (k0_off106 k 128#32) (k0_off106_inb k 0)) (lanesB B (k0_off106 k 256#32) (k0_off106_inb k 1)),
     upd a10 (lanesB B (k0_off109 k) (k0_off109_inb k)) (lanesB B (k0_off110 k 128#32) (k0_off110_inb k 0)) (lanesB B (k0_off110 k 256#32) (k0_off110_inb k 1)),
     upd a11 (lanesB B (k0_off113 k) (k0_off113_inb k)) (lanesB B (k0_off114 k 128#32) (k0_off114_inb k 0)) (lanesB B (k0_off114 k 256#32) (k0_off114_inb k 1)),
     upd a12 (lanesB B (k0_off117 k) (k0_off117_inb k)) (lanesB B (k0_off118 k 128#32) (k0_off118_inb k 0)) (lanesB B (k0_off118 k 256#32) (k0_off118_inb k 1)),
     upd a13 (lanesB B (k0_off121 k) (k0_off121_inb k)) (lanesB B (k0_off122 k 128#32) (k0_off122_inb k 0)) (lanesB B (k0_off122 k 256#32) (k0_off122_inb k 1)),
     upd a14 (lanesB B (k0_off125 k) (k0_off125_inb k)) (lanesB B (k0_off126 k 128#32) (k0_off126_inb k 0)) (lanesB B (k0_off126 k 256#32) (k0_off126_inb k 1)),
     upd a15 (lanesB B (k0_off129 k) (k0_off129_inb k)) (lanesB B (k0_off130 k 128#32) (k0_off130_inb k 0)) (lanesB B (k0_off130 k 256#32) (k0_off130_inb k 1)))

/-- The accumulators after the first `n` trips of chunk-loop 4. -/
def iter4 (B : RowBufB F) (a : Acc F) : ℕ → Acc F
  | 0 => a
  | n + 1 => if h : n < k0_t4_loop.trips then step4 B ⟨n, h⟩ (iter4 B a n) else iter4 B a n

section Trips

variable (d : Dev nD) (L : grid0.Coords)

set_option maxHeartbeats 4000000 in
/-- One trip of chunk-loop 1 reads its row buffer and yields `step1` of the accumulators. -/
theorem trip1 (B : Buf (Elt F) ((V d (cV L) (jV L)).loc cc0_scratch1)) (k : Fin k0_t1_loop.trips) (acc : Acc F)
    (v28 v29 : FVec F S16 .f32) (c18 : F .f32) :
    ((aS).view.loc (V d (cV L) (jV L)) ↦{fullShare} B : sProp 𝕄)
      ⊢ wp frame (wpE (defs₀ (F := F)) 𝒱₀ (V d (cV L) (jV L)) none) Set.univ
          (k0_t1_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 v28 v29 c18 k acc)
          (fun r => iprop(⌜r = step1 B k acc⌝ ∗ (aS).view.loc (V d (cV L) (jV L)) ↦{fullShare} B)) := by
  obtain ⟨a0, a1, a2, a3, a4, a5, a6, a7, a8, a9, a10, a11, a12, a13, a14, a15⟩ := acc
  unfold k0_t1_body
  iintro H
  sl_exec
  sl_step
  isplitr
  · ipureintro; rfl
  · iexact H

set_option maxHeartbeats 4000000 in
/-- One trip of chunk-loop 2 reads its row buffer and yields `step2` of the accumulators. -/
theorem trip2 (B : Buf (Elt F) ((V d (cV L) (jV L)).loc cc0_scratch2)) (k : Fin k0_t2_loop.trips) (acc : Acc F)
    (w0 w1 w2 w3 w4 w5 w6 w7 w8 w9 w10 w11 w12 w13 w14 w15 : FVec F S16 .f32) (z : BitVec 32) :
    ((bS).view.loc (V d (cV L) (jV L)) ↦{fullShare} B : sProp 𝕄)
      ⊢ wp frame (wpE (defs₀ (F := F)) 𝒱₀ (V d (cV L) (jV L)) none) Set.univ
          (k0_t2_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 w0 w1 w2 w3 w4 w5 w6 w7 w8 w9 w10 w11 w12 w13 w14 w15 z k acc)
          (fun r => iprop(⌜r = step2 B k acc⌝ ∗ (bS).view.loc (V d (cV L) (jV L)) ↦{fullShare} B)) := by
  obtain ⟨a0, a1, a2, a3, a4, a5, a6, a7, a8, a9, a10, a11, a12, a13, a14, a15⟩ := acc
  unfold k0_t2_body
  iintro H
  sl_exec
  sl_step
  isplitr
  · ipureintro; rfl
  · iexact H

set_option maxHeartbeats 4000000 in
/-- One trip of chunk-loop 3 reads its row buffer and yields `step3` of the accumulators. -/
theorem trip3 (B : Buf (Elt F) ((V d (cV L) (jV L)).loc cc0_scratch1)) (k : Fin k0_t3_loop.trips) (acc : Acc F)
    (w0 w1 w2 w3 w4 w5 w6 w7 w8 w9 w10 w11 w12 w13 w14 w15 : FVec F S16 .f32) (z : BitVec 32) :
    ((aS).view.loc (V d (cV L) (jV L)) ↦{fullShare} B : sProp 𝕄)
      ⊢ wp frame (wpE (defs₀ (F := F)) 𝒱₀ (V d (cV L) (jV L)) none) Set.univ
          (k0_t3_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 w0 w1 w2 w3 w4 w5 w6 w7 w8 w9 w10 w11 w12 w13 w14 w15 z k acc)
          (fun r => iprop(⌜r = step3 B k acc⌝ ∗ (aS).view.loc (V d (cV L) (jV L)) ↦{fullShare} B)) := by
  obtain ⟨a0, a1, a2, a3, a4, a5, a6, a7, a8, a9, a10, a11, a12, a13, a14, a15⟩ := acc
  unfold k0_t3_body
  iintro H
  sl_exec
  sl_step
  isplitr
  · ipureintro; rfl
  · iexact H

set_option maxHeartbeats 4000000 in
/-- One trip of chunk-loop 4 reads its row buffer and yields `step4` of the accumulators. -/
theorem trip4 (B : Buf (Elt F) ((V d (cV L) (jV L)).loc cc0_scratch2)) (k : Fin k0_t4_loop.trips) (acc : Acc F)
    (w0 w1 w2 w3 w4 w5 w6 w7 w8 w9 w10 w11 w12 w13 w14 w15 : FVec F S16 .f32) (z : BitVec 32) :
    ((bS).view.loc (V d (cV L) (jV L)) ↦{fullShare} B : sProp 𝕄)
      ⊢ wp frame (wpE (defs₀ (F := F)) 𝒱₀ (V d (cV L) (jV L)) none) Set.univ
          (k0_t4_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 w0 w1 w2 w3 w4 w5 w6 w7 w8 w9 w10 w11 w12 w13 w14 w15 z k acc)
          (fun r => iprop(⌜r = step4 B k acc⌝ ∗ (bS).view.loc (V d (cV L) (jV L)) ↦{fullShare} B)) := by
  obtain ⟨a0, a1, a2, a3, a4, a5, a6, a7, a8, a9, a10, a11, a12, a13, a14, a15⟩ := acc
  unfold k0_t4_body
  iintro H
  sl_exec
  sl_step
  isplitr
  · ipureintro; rfl
  · iexact H

end Trips

end Cert.Proof.KI

end
-- ==== Proof.KPlumb.lean ====
/-
  Where the task's views sit in their buffers, and what they read.

  A whole buffer written whole holds the payload.  Worker `w = 2·(L 1) + (L 0)`'s two slices of the index matrix are row
  `w`, columns `0..383` and `384..1535`; its slice of the output is row `w`.  The index scratch's four chunk slices sit
  at words `384 j ..`, and the three later ones read, out of the 1152 words copied in at word 384, the words
  `384 (j − 1) ..`.  A row gather of the whole table delivers, at row `r` and lane `c`, the table's entry at the row the
  list's `r`-th word names and lane `c`.
-/
import proofs.«205315_g4544075399421_cont_8to1_c_355_20_alg».proof.Proof.KStep
import Idealize.ShloMosaic.Lib.Writes
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S32x1536 EltTy.i32)
local notation "eV" => (Memref.whole Cert.KernelIdeal.main_arg3_scv : Memref Cert.KernelIdeal.sig Kind.scVector Space.hbm Cert.KernelIdeal.S1000000x128 EltTy.f32)
local notation "oV" => (Memref.whole Cert.KernelIdeal.main_v5_scv : Memref Cert.KernelIdeal.sig Kind.scVector Space.hbm Cert.KernelIdeal.S32x16 EltTy.f32)
local notation "xS" => (Memref.whole Cert.KernelIdeal.cc0_scratch0 : Memref Cert.KernelIdeal.sig Kind.scVector Space.vmem Cert.KernelIdeal.S1536 EltTy.i32)
local notation "aS" => (Memref.whole Cert.KernelIdeal.cc0_scratch1 : Memref Cert.KernelIdeal.sig Kind.scVector Space.vmem Cert.KernelIdeal.S384x128 EltTy.f32)
local notation "bS" => (Memref.whole Cert.KernelIdeal.cc0_scratch2 : Memref Cert.KernelIdeal.sig Kind.scVector Space.vmem Cert.KernelIdeal.S384x128 EltTy.f32)
local notation "tS" => (Memref.whole Cert.KernelIdeal.cc0_scratch3 : Memref Cert.KernelIdeal.sig Kind.scVector Space.vmem Cert.KernelIdeal.S16 EltTy.f32)

open Idealize.ShloMosaic.ValueIdx

variable [FloatOps F]

/-! ## A whole buffer written whole -/

/-- The first row buffer, written whole, holds the payload. -/
theorem writes_whole_aS (g : RowBufA F) (P : S384x128.Idx → Elt F .f32) :
    (aS).view.writes (Elt F) g [⟨Rect.whole S384x128, P⟩] = P := by
  funext i
  exact (congrArg (fun j => (aS).view.writes (Elt F) g [⟨Rect.whole S384x128, P⟩] j) (Rect.emb_whole_apply S384x128 i)).symm.trans
    (View.read_writes_cons_emb (aS).view g (Rect.whole S384x128) P [] i)

/-- The second row buffer, written whole, holds the payload. -/
theorem writes_whole_bS (g : RowBufB F) (P : S384x128.Idx → Elt F .f32) :
    (bS).view.writes (Elt F) g [⟨Rect.whole S384x128, P⟩] = P := by
  funext i
  exact (congrArg (fun j => (bS).view.writes (Elt F) g [⟨Rect.whole S384x128, P⟩] j) (Rect.emb_whole_apply S384x128 i)).symm.trans
    (View.read_writes_cons_emb (bS).view g (Rect.whole S384x128) P [] i)

/-- The first chunk's 384 words of the index scratch, written whole, read the payload. -/
theorem read_writes_whole_xs0 (g : (xs0).view.ty.Contents (Elt F)) (P : S384.Idx → Elt F .i32) :
    (xs0).view.read (Elt F) ((xs0).view.writes (Elt F) g [⟨Rect.whole S384, P⟩]) = P := by
  funext x
  exact (congrArg (fun j => (xs0).view.read (Elt F) ((xs0).view.writes (Elt F) g [⟨Rect.whole S384, P⟩]) j)
    (Rect.emb_whole_apply S384 x)).symm.trans (View.read_writes_cons_emb (xs0).view g (Rect.whole S384) P [] x)

/-! ## The worker's row of the index matrix and of the output -/

/-- The worker's number. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- A one-axis index matched with `[1, n]` is `(0, ·)`. -/
theorem reshapeEquiv_1n {n : ℕ} (h : (⟨1, ![n]⟩ : Shape).numel = (⟨2, ![1, n]⟩ : Shape).numel) (x : (⟨1, ![n]⟩ : Shape).Idx) :
    Shape.reshapeEquiv h x = ix2 (0 : Fin 1) (⟨(x 0).val, (x 0).isLt⟩ : Fin n) :=
  Shape.reshapeEquiv_eq_of_rowMajor h (by
    rw [Shape.rowMajor_val_two, Shape.rowMajor_val_one]
    show 0 * n + (x 0).val = (x 0).val
    omega)

/-- The worker's first slice of the index matrix: its row's first 384 words. -/
abbrev v7 (L : grid0.Coords) : Memref sig .scVector .hbm S384 .i32 :=
  ((iV).slice (Rect.unit (s := S32x1536) (k0_off1 L) S1x384.size (k0_off1_inb L)) (fun _ => rfl)).squeeze S384 squeezes_S1x384_S384

/-- The worker's second slice of the index matrix: its row's other 1152 words. -/
abbrev v13 (L : grid0.Coords) : Memref sig .scVector .hbm S1152 .i32 :=
  ((iV).slice (Rect.unit (s := S32x1536) (k0_off2 L) S1x1152.size (k0_off2_inb L)) (fun _ => rfl)).squeeze S1152 squeezes_S1x1152_S1152

theorem v7_emb (L : grid0.Coords) (x : S384.Idx) :
    (v7 L).view.emb x = ix2 (⟨wid L, wid_lt L⟩ : Fin 32) (⟨(x 0).val, by have h : (x 0).val < 384 := (x 0).isLt; omega⟩ : Fin 1536) := by
  funext a
  refine Fin.ext ?_
  show ((Rect.unit (s := S32x1536) (k0_off1 L) S1x384.size (k0_off1_inb L)).emb
    (Shape.reshapeEquiv squeezes_S1x384_S384.numel_eq x) a : ℕ) = _
  rw [Rect.emb_apply, reshapeEquiv_1n]
  show k0_off1 L a + 1 * ((ix2 (0 : Fin 1) (⟨(x 0).val, (x 0).isLt⟩ : Fin 384)) a).val = _
  rw [k0_off1_eq]
  match a with
  | ⟨0, _⟩ => show 2 * (L 1).val + (L 0).val + 1 * 0 = wid L; unfold wid; omega
  | ⟨1, _⟩ => show 0 + 1 * (x 0).val = (x 0).val; omega

theorem v13_emb (L : grid0.Coords) (y : S1152.Idx) :
    (v13 L).view.emb y = ix2 (⟨wid L, wid_lt L⟩ : Fin 32) (⟨384 + (y 0).val, by have h : (y 0).val < 1152 := (y 0).isLt; omega⟩ : Fin 1536) := by
  funext a
  refine Fin.ext ?_
  show ((Rect.unit (s := S32x1536) (k0_off2 L) S1x1152.size (k0_off2_inb L)).emb
    (Shape.reshapeEquiv squeezes_S1x1152_S1152.numel_eq y) a : ℕ) = _
  rw [Rect.emb_apply, reshapeEquiv_1n]
  show k0_off2 L a + 1 * ((ix2 (0 : Fin 1) (⟨(y 0).val, (y 0).isLt⟩ : Fin 1152)) a).val = _
  rw [k0_off2_eq]
  match a with
  | ⟨0, _⟩ => show 2 * (L 1).val + (L 0).val + 1 * 0 = wid L; unfold wid; omega
  | ⟨1, _⟩ => show 384 + 1 * (y 0).val = 384 + (y 0).val; omega

theorem oRowK_emb (L : grid0.Coords) (z : S16.Idx) :
    (oRowK L).view.emb z = ix2 (⟨wid L, wid_lt L⟩ : Fin 32) (⟨(z 0).val, (z 0).isLt⟩ : Fin 16) := by
  funext a
  refine Fin.ext ?_
  show ((Rect.unit (s := S32x16) (k0_off131 L) S1x16.size (k0_off131_inb L)).emb
    (Shape.reshapeEquiv squeezes_S1x16_S16.numel_eq z) a : ℕ) = _
  rw [Rect.emb_apply, reshapeEquiv_1n]
  show k0_off131 L a + 1 * ((ix2 (0 : Fin 1) (⟨(z 0).val, (z 0).isLt⟩ : Fin 16)) a).val = _
  rw [k0_off131_eq]
  match a with
  | ⟨0, _⟩ => show 2 * (L 1).val + (L 0).val + 1 * 0 = wid L; unfold wid; omega
  | ⟨1, _⟩ => show 0 + 1 * (z 0).val = (z 0).val; omega

/-- The first slice reads the worker's row of the index matrix at the same column. -/
theorem v7_read (L : grid0.Coords) (I4 : S32x1536.Idx → BitVec 32) (x : S384.Idx) :
    (v7 L).view.read (Elt F) I4 x
      = I4 (ix2 (⟨wid L, wid_lt L⟩ : Fin 32) (⟨(x 0).val, by have h : (x 0).val < 384 := (x 0).isLt; omega⟩ : Fin 1536)) := by
  rw [View.read_apply, v7_emb]; rfl

/-- The second slice reads the worker's row of the index matrix 384 columns on. -/
theorem v13_read (L : grid0.Coords) (I4 : S32x1536.Idx → BitVec 32) (y : S1152.Idx) :
    (v13 L).view.read (Elt F) I4 y
      = I4 (ix2 (⟨wid L, wid_lt L⟩ : Fin 32) (⟨384 + (y 0).val, by have h : (y 0).val < 1152 := (y 0).isLt; omega⟩ : Fin 1536)) := by
  rw [View.read_apply, v13_emb]; rfl

/-- The output slice reads the worker's row of the output. -/
theorem oRowK_read (L : grid0.Coords) (O : S32x16.Idx → Elt F .f32) (z : S16.Idx) :
    (oRowK L).view.read (Elt F) O z = O (ix2 (⟨wid L, wid_lt L⟩ : Fin 32) (⟨(z 0).val, (z 0).isLt⟩ : Fin 16)) := by
  rw [View.read_apply, oRowK_emb]; rfl

/-! ## The index scratch's slices -/

theorem xs0_emb (x : S384.Idx) :
    (xs0).view.emb x = ix1 (⟨0 + (x 0).val, by have h : (x 0).val < 384 := (x 0).isLt; omega⟩ : Fin 1536) := by
  funext a
  refine Fin.ext ?_
  match a with
  | ⟨0, _⟩ => show 0 + 1 * (x 0).val = 0 + (x 0).val; omega

/-- Chunk 0's slice reads the scratch's words from word 0 on. -/
theorem xs0_read (g : S1536.Idx → BitVec 32) (x : S384.Idx) :
    (xs0).view.read (Elt F) g x
      = g (ix1 (⟨0 + (x 0).val, by have h : (x 0).val < 384 := (x 0).isLt; omega⟩ : Fin 1536)) := by
  rw [View.read_apply, xs0_emb]; rfl

theorem xs1_emb (x : S384.Idx) :
    (xs1).view.emb x = ix1 (⟨384 + (x 0).val, by have h : (x 0).val < 384 := (x 0).isLt; omega⟩ : Fin 1536) := by
  funext a
  refine Fin.ext ?_
  match a with
  | ⟨0, _⟩ => show 384 + 1 * (x 0).val = 384 + (x 0).val; omega

/-- Chunk 1's slice reads the scratch's words from word 384 on. -/
theorem xs1_read (g : S1536.Idx → BitVec 32) (x : S384.Idx) :
    (xs1).view.read (Elt F) g x
      = g (ix1 (⟨384 + (x 0).val, by have h : (x 0).val < 384 := (x 0).isLt; omega⟩ : Fin 1536)) := by
  rw [View.read_apply, xs1_emb]; rfl

theorem xs2_emb (x : S384.Idx) :
    (xs2).view.emb x = ix1 (⟨768 + (x 0).val, by have h : (x 0).val < 384 := (x 0).isLt; omega⟩ : Fin 1536) := by
  funext a
  refine Fin.ext ?_
  match a with
  | ⟨0, _⟩ => show 768 + 1 * (x 0).val = 768 + (x 0).val; omega

/-- Chunk 2's slice reads the scratch's words from word 768 on. -/
theorem xs2_read (g : S1536.Idx → BitVec 32) (x : S384.Idx) :
    (xs2).view.read (Elt F) g x
      = g (ix1 (⟨768 + (x 0).val, by have h : (x 0).val < 384 := (x 0).isLt; omega⟩ : Fin 1536)) := by
  rw [View.read_apply, xs2_emb]; rfl

theorem xs3_emb (x : S384.Idx) :
    (xs3).view.emb x = ix1 (⟨1152 + (x 0).val, by have h : (x 0).val < 384 := (x 0).isLt; omega⟩ : Fin 1536) := by
  funext a
  refine Fin.ext ?_
  match a with
  | ⟨0, _⟩ => show 1152 + 1 * (x 0).val = 1152 + (x 0).val; omega

/-- Chunk 3's slice reads the scratch's words from word 1152 on. -/
theorem xs3_read (g : S1536.Idx → BitVec 32) (x : S384.Idx) :
    (xs3).view.read (Elt F) g x
      = g (ix1 (⟨1152 + (x 0).val, by have h : (x 0).val < 384 := (x 0).isLt; omega⟩ : Fin 1536)) := by
  rw [View.read_apply, xs3_emb]; rfl

theorem xsR_emb (y : S1152.Idx) :
    (xsR).view.emb y = ix1 (⟨384 + (y 0).val, by have h : (y 0).val < 1152 := (y 0).isLt; omega⟩ : Fin 1536) := by
  funext a
  refine Fin.ext ?_
  match a with
  | ⟨0, _⟩ => show 384 + 1 * (y 0).val = 384 + (y 0).val; omega

/-- The later chunks' slice reads the scratch's words from word 384 on. -/
theorem xsR_read (g : S1536.Idx → BitVec 32) (y : S1152.Idx) :
    (xsR).view.read (Elt F) g y
      = g (ix1 (⟨384 + (y 0).val, by have h : (y 0).val < 1152 := (y 0).isLt; omega⟩ : Fin 1536)) := by
  rw [View.read_apply, xsR_emb]; rfl

/-- The later chunks' 1152 words, written whole: word `384 + y` of the scratch holds the payload's word `y`. -/
theorem writes_whole_xsR_apply (g : S1536.Idx → BitVec 32) (P : S1152.Idx → BitVec 32) (y : Fin 1152) :
    ((xsR).view.writes (Elt F) g [⟨Rect.whole S1152, P⟩] : S1536.Idx → BitVec 32)
        (ix1 (⟨384 + y.val, by have := y.isLt; omega⟩ : Fin 1536)) = P (ix1 y) := by
  have h := View.read_writes_cons_emb (Val := Elt F) (xsR).view g (Rect.whole S1152) P [] (ix1 y)
  generalize (xsR).view.writes (Elt F) g [⟨Rect.whole S1152, P⟩] = W at h ⊢
  have e : (Rect.whole S1152).emb (ix1 y) = ix1 y := Rect.emb_whole_apply S1152 (ix1 y)
  rw [e, xsR_read] at h
  exact h

/-- Chunk 1's slice, after the 1152 words are written, reads the payload from word 0 on. -/
theorem xs1_read_writes_xsR (g : S1536.Idx → BitVec 32) (P : S1152.Idx → BitVec 32) (x : S384.Idx) :
    (xs1).view.read (Elt F) ((xsR).view.writes (Elt F) g [⟨Rect.whole S1152, P⟩]) x
      = P (ix1 (⟨0 + (x 0).val, by have h : (x 0).val < 384 := (x 0).isLt; omega⟩ : Fin 1152)) := by
  have hx : (x 0).val < 384 := (x 0).isLt
  rw [xs1_read]
  have h := writes_whole_xsR_apply (F := F) g P (⟨0 + (x 0).val, by omega⟩ : Fin 1152)
  refine Eq.trans (congrArg _ (congrArg ix1 (Fin.ext ?_))) h
  show 384 + (x 0).val = 384 + (0 + (x 0).val)
  omega

/-- Chunk 2's slice, after the 1152 words are written, reads the payload from word 384 on. -/
theorem xs2_read_writes_xsR (g : S1536.Idx → BitVec 32) (P : S1152.Idx → BitVec 32) (x : S384.Idx) :
    (xs2).view.read (Elt F) ((xsR).view.writes (Elt F) g [⟨Rect.whole S1152, P⟩]) x
      = P (ix1 (⟨384 + (x 0).val, by have h : (x 0).val < 384 := (x 0).isLt; omega⟩ : Fin 1152)) := by
  have hx : (x 0).val < 384 := (x 0).isLt
  rw [xs2_read]
  have h := writes_whole_xsR_apply (F := F) g P (⟨384 + (x 0).val, by omega⟩ : Fin 1152)
  refine Eq.trans (congrArg _ (congrArg ix1 (Fin.ext ?_))) h
  show 768 + (x 0).val = 384 + (384 + (x 0).val)
  omega

/-- Chunk 3's slice, after the 1152 words are written, reads the payload from word 768 on. -/
theorem xs3_read_writes_xsR (g : S1536.Idx → BitVec 32) (P : S1152.Idx → BitVec 32) (x : S384.Idx) :
    (xs3).view.read (Elt F) ((xsR).view.writes (Elt F) g [⟨Rect.whole S1152, P⟩]) x
      = P (ix1 (⟨768 + (x 0).val, by have h : (x 0).val < 384 := (x 0).isLt; omega⟩ : Fin 1152)) := by
  have hx : (x 0).val < 384 := (x 0).isLt
  rw [xs3_read]
  have h := writes_whole_xsR_apply (F := F) g P (⟨768 + (x 0).val, by omega⟩ : Fin 1152)
  refine Eq.trans (congrArg _ (congrArg ix1 (Fin.ext ?_))) h
  show 1152 + (x 0).val = 384 + (768 + (x 0).val)
  omega

/-! ## The row gather -/

/-- The whole table as the kernel slices it. -/
abbrev tblSrc : Memref sig .scVector .hbm S1000000x128 .f32 :=
  (eV).slice (Rect.unit (s := S1000000x128) ![0, 0] S1000000x128.size inb_S1000000x128_S1000000x128_0_0) (fun _ => rfl)

/-- A row gather of the whole table: row `r`, lane `c` of what it delivers is the table's entry at the row the list's
    `r`-th word names, lane `c`. -/
theorem gatherPayload_apply (E : S1000000x128.Idx → Elt F .f32) (f : S384.Idx → BitVec 32)
    (h : ∀ x, (f x).toNat < S1000000x128.size gathers_S1000000x128_S384x128.axis)
    (hn : S384.numel = S384x128.size gathers_S1000000x128_S384x128.axis') (r : Fin 384) (c : Fin 128) :
    SparseCore.gatherPayload (F := F) gathers_S1000000x128_S384x128 ((tblSrc).view.read (Elt F) E) (SparseCore.rows (F := F) f hn h)
        (ix2 r c)
      = E (ix2 (⟨(f (ix1 r)).toNat, h (ix1 r)⟩ : Fin 1000000) c) := by
  unfold SparseCore.gatherPayload
  rw [View.read_apply]
  show E _ = _
  refine congrArg E (funext fun a => Fin.ext ?_)
  match a with
  | ⟨0, _⟩ =>
    show 0 + 1 * (f (S384.rowMajor.symm ((⟨r.val, _⟩ : Fin _)))).toNat = (f (ix1 r)).toNat
    have hr : S384.rowMajor.symm (Fin.cast hn.symm r) = ix1 r := by
      rw [Equiv.symm_apply_eq]; exact Fin.ext (by rw [Shape.rowMajor_val_one]; rfl)
    rw [Nat.zero_add, Nat.one_mul]
    exact congrArg (fun i => (f i).toNat) hr
  | ⟨1, _⟩ => show 0 + 1 * c.val = c.val; omega

end Cert.Proof.KI

end
-- ==== Proof.KOut.lean ====
/-
  What the kernel leaves in the output, as a pure function of the index matrix and the table, for any float instance.

  Worker `w` (row `w` of the index matrix) has four chunks of 384 row numbers; chunk `j`'s are the words
  `384 j .. 384 j + 383` of the row.  A chunk's row buffer holds, at row `r`, the table row its `r`-th word names.  The
  worker's sixteen accumulators are the four chunk-loops run one after the other from zero; its total is their sum;
  the output holds worker `w`'s total in row `w`.
-/
import proofs.«205315_g4544075399421_cont_8to1_c_355_20_alg».proof.Proof.KPlumb

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S32x1536 EltTy.i32)
local notation "eV" => (Memref.whole Cert.KernelIdeal.main_arg3_scv : Memref Cert.KernelIdeal.sig Kind.scVector Space.hbm Cert.KernelIdeal.S1000000x128 EltTy.f32)
local notation "oV" => (Memref.whole Cert.KernelIdeal.main_v5_scv : Memref Cert.KernelIdeal.sig Kind.scVector Space.hbm Cert.KernelIdeal.S32x16 EltTy.f32)
local notation "xS" => (Memref.whole Cert.KernelIdeal.cc0_scratch0 : Memref Cert.KernelIdeal.sig Kind.scVector Space.vmem Cert.KernelIdeal.S1536 EltTy.i32)
local notation "aS" => (Memref.whole Cert.KernelIdeal.cc0_scratch1 : Memref Cert.KernelIdeal.sig Kind.scVector Space.vmem Cert.KernelIdeal.S384x128 EltTy.f32)
local notation "bS" => (Memref.whole Cert.KernelIdeal.cc0_scratch2 : Memref Cert.KernelIdeal.sig Kind.scVector Space.vmem Cert.KernelIdeal.S384x128 EltTy.f32)
local notation "tS" => (Memref.whole Cert.KernelIdeal.cc0_scratch3 : Memref Cert.KernelIdeal.sig Kind.scVector Space.vmem Cert.KernelIdeal.S16 EltTy.f32)

variable [FloatOps F]

open Idealize.ShloMosaic.ValueIdx

/-- The sixteen accumulators at zero, as the kernel builds them. -/
def acc0 : Acc F :=
  (k0_pay85, k0_pay86, k0_pay87 (FloatOps.ofBits FTy.f32 0#32), k0_pay88, k0_pay89, k0_pay90, k0_pay91, k0_pay92, k0_pay93,
    k0_pay94, k0_pay95, k0_pay96, k0_pay97, k0_pay98, k0_pay99, k0_pay100)

/-- Chunk `j`'s 384 row numbers in row `w` of the index matrix. -/
def chunkWords (I4 : S32x1536.Idx → BitVec 32) (w : Fin 32) (j : Fin 4) : S384.Idx → BitVec 32 :=
  fun x => I4 (ix2 w (⟨384 * j.val + (x 0).val, by have := j.isLt; have h : (x 0).val < 384 := (x 0).isLt; omega⟩ : Fin 1536))

/-- The row buffer a chunk's gather leaves: at row `r` the table row the `r`-th word names (a word that names no
    row is read modulo the table's height; under the precondition there is none). -/
def gathered (E : S1000000x128.Idx → Elt F .f32) (f : S384.Idx → BitVec 32) : S384x128.Idx → Elt F .f32 :=
  fun x => E (ix2 (⟨(f (ix1 (x 0))).toNat % 1000000, Nat.mod_lt _ (by norm_num)⟩ : Fin 1000000) (x 1))

/-- Worker `w`'s accumulators after its four chunk-loops. -/
def workerAcc (I4 : S32x1536.Idx → BitVec 32) (E : S1000000x128.Idx → Elt F .f32) (w : Fin 32) : Acc F :=
  iter4 (gathered E (chunkWords I4 w 3))
    (iter3 (gathered E (chunkWords I4 w 2))
      (iter2 (gathered E (chunkWords I4 w 1))
        (iter1 (gathered E (chunkWords I4 w 0)) acc0 k0_t1_loop.trips) k0_t2_loop.trips) k0_t3_loop.trips) k0_t4_loop.trips

/-- The sum of sixteen accumulators, as the kernel adds them. -/
def sum16 : Acc F → FVec F S16 .f32 :=
  fun (a0, a1, a2, a3, a4, a5, a6, a7, a8, a9, a10, a11, a12, a13, a14, a15) =>
    k0_pay105 a0 a1 a2 a3 a4 a5 a6 a7 a8 a9 a10 a11 a12 a13 a14 a15

/-- Worker `w`'s total: sixteen lanes. -/
def workerTotal (I4 : S32x1536.Idx → BitVec 32) (E : S1000000x128.Idx → Elt F .f32) (w : Fin 32) : FVec F S16 .f32 :=
  sum16 (workerAcc I4 E w)

/-- The whole output: row `w` is worker `w`'s total. -/
def outVal : OutFn F := fun _ I4 E o => workerTotal I4 E (o 0) (ix1 (o 1))

end Cert.Proof.KI

end
-- ==== Proof.KJoin.lean ====
/-
  What the kernel's transfers leave, named: the words a chunk's gather reads are that chunk's words of the worker's
  row of the index matrix, and a gather's payload is the chunk's row buffer.
-/
import proofs.«205315_g4544075399421_cont_8to1_c_355_20_alg».proof.Proof.KOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S32x1536 EltTy.i32)
local notation "eV" => (Memref.whole Cert.KernelIdeal.main_arg3_scv : Memref Cert.KernelIdeal.sig Kind.scVector Space.hbm Cert.KernelIdeal.S1000000x128 EltTy.f32)
local notation "oV" => (Memref.whole Cert.KernelIdeal.main_v5_scv : Memref Cert.KernelIdeal.sig Kind.scVector Space.hbm Cert.KernelIdeal.S32x16 EltTy.f32)
local notation "xS" => (Memref.whole Cert.KernelIdeal.cc0_scratch0 : Memref Cert.KernelIdeal.sig Kind.scVector Space.vmem Cert.KernelIdeal.S1536 EltTy.i32)
local notation "aS" => (Memref.whole Cert.KernelIdeal.cc0_scratch1 : Memref Cert.KernelIdeal.sig Kind.scVector Space.vmem Cert.KernelIdeal.S384x128 EltTy.f32)
local notation "bS" => (Memref.whole Cert.KernelIdeal.cc0_scratch2 : Memref Cert.KernelIdeal.sig Kind.scVector Space.vmem Cert.KernelIdeal.S384x128 EltTy.f32)
local notation "tS" => (Memref.whole Cert.KernelIdeal.cc0_scratch3 : Memref Cert.KernelIdeal.sig Kind.scVector Space.vmem Cert.KernelIdeal.S16 EltTy.f32)

variable [FloatOps F]

open Idealize.ShloMosaic.ValueIdx

variable (L : grid0.Coords)

/-- The worker's row number, as an index of the 32 rows. -/
abbrev widF (L : grid0.Coords) : Fin 32 := ⟨wid L, wid_lt L⟩

/-- A gather over row numbers all below a million leaves the chunk's row buffer. -/
theorem gather_eq (E : S1000000x128.Idx → Elt F .f32) (f : S384.Idx → BitVec 32)
    (h : ∀ x, (f x).toNat < S1000000x128.size gathers_S1000000x128_S384x128.axis)
    (hn : S384.numel = S384x128.size gathers_S1000000x128_S384x128.axis') :
    SparseCore.gatherPayload (F := F) gathers_S1000000x128_S384x128 ((tblSrc).view.read (Elt F) E) (SparseCore.rows (F := F) f hn h)
      = gathered E f := by
  funext x
  obtain ⟨r, c, rfl⟩ : ∃ (r : Fin 384) (c : Fin 128), x = ix2 r c := ⟨x 0, x 1, eq_ix2 x⟩
  rw [gatherPayload_apply]
  unfold gathered
  exact congrArg (fun k : Fin 1000000 => E (ix2 k c)) (Fin.ext (Nat.mod_eq_of_lt (h (ix1 r))).symm)

/-- The first index copy lands chunk 0's words. -/
theorem words0 (I4 : S32x1536.Idx → BitVec 32) (g : (xs0).view.ty.Contents (Elt F)) :
    (xs0).view.read (Elt F) ((xs0).view.writes (Elt F) g
        [⟨Rect.whole S384, (ReadAs.same : ReadAs (Elt F) S384 .i32 S384 .i32).apply ((v7 L).view.read (Elt F) I4)⟩])
      = chunkWords I4 (widF L) 0 := by
  rw [read_writes_whole_xs0, ReadAs.apply_same]
  funext x
  rw [v7_read]
  unfold chunkWords
  exact congrArg (fun k : Fin 1536 => I4 (ix2 (widF L) k)) (Fin.ext (by simp))

/-- The second index copy lands chunks 1, 2, 3: chunk 1's words. -/
theorem words1 (I4 : S32x1536.Idx → BitVec 32) (g : S1536.Idx → BitVec 32) :
    (xs1).view.read (Elt F) ((xsR).view.writes (Elt F) g
        [⟨Rect.whole S1152, (ReadAs.same : ReadAs (Elt F) S1152 .i32 S1152 .i32).apply ((v13 L).view.read (Elt F) I4)⟩])
      = chunkWords I4 (widF L) 1 := by
  funext x
  have hx : (x 0).val < 384 := (x 0).isLt
  rw [xs1_read_writes_xsR, ReadAs.apply_same, v13_read]
  unfold chunkWords
  exact congrArg (fun k : Fin 1536 => I4 (ix2 (widF L) k)) (Fin.ext (by simp <;> omega))

/-- The second index copy lands chunks 1, 2, 3: chunk 2's words. -/
theorem words2 (I4 : S32x1536.Idx → BitVec 32) (g : S1536.Idx → BitVec 32) :
    (xs2).view.read (Elt F) ((xsR).view.writes (Elt F) g
        [⟨Rect.whole S1152, (ReadAs.same : ReadAs (Elt F) S1152 .i32 S1152 .i32).apply ((v13 L).view.read (Elt F) I4)⟩])
      = chunkWords I4 (widF L) 2 := by
  funext x
  have hx : (x 0).val < 384 := (x 0).isLt
  rw [xs2_read_writes_xsR, ReadAs.apply_same, v13_read]
  unfold chunkWords
  exact congrArg (fun k : Fin 1536 => I4 (ix2 (widF L) k)) (Fin.ext (by simp <;> omega))

/-- The second index copy lands chunks 1, 2, 3: chunk 3's words. -/
theorem words3 (I4 : S32x1536.Idx → BitVec 32) (g : S1536.Idx → BitVec 32) :
    (xs3).view.read (Elt F) ((xsR).view.writes (Elt F) g
        [⟨Rect.whole S1152, (ReadAs.same : ReadAs (Elt F) S1152 .i32 S1152 .i32).apply ((v13 L).view.read (Elt F) I4)⟩])
      = chunkWords I4 (widF L) 3 := by
  funext x
  have hx : (x 0).val < 384 := (x 0).isLt
  rw [xs3_read_writes_xsR, ReadAs.apply_same, v13_read]
  unfold chunkWords
  exact congrArg (fun k : Fin 1536 => I4 (ix2 (widF L) k)) (Fin.ext (by simp <;> omega))

/-- The output scratch, stored whole, reads back what was stored. -/
theorem read_writes_tS (ft : (tS).view.ty.Contents (Elt F)) (w : S16.Idx → Elt F .f32) :
    (tS).view.read (Elt F) ((tS).view.writes (Elt F) ft [⟨Rect.unit (s := S16) ![0] S16.size inb_S16_S16_0, w⟩]) = w := by
  funext x
  have e := View.read_writes_cons_emb (tS).view (Val := Elt F) (f := ft) (Rect.unit (s := S16) ![0] S16.size inb_S16_S16_0) w [] x
  have hx : (Rect.unit (s := S16) ![0] S16.size inb_S16_S16_0).emb x = x := by
    funext a; apply Fin.ext
    rw [Rect.emb_apply]
    match a with
    | ⟨0, _⟩ => simp
  rw [hx] at e; exact e

/-- The worker's row of the output, written whole, holds the payload at the row's lanes. -/
theorem row_written (O0 : S32x16.Idx → Elt F .f32) (P : S16.Idx → Elt F .f32) (z : S16.Idx) :
    ((oRowK L).view.writes (Elt F) O0 [⟨Rect.whole S16, P⟩]) ((oRowK L).view.emb z) = P z := by
  have e := View.read_writes_cons_emb (oRowK L).view (Val := Elt F) (f := O0) (Rect.whole S16) P [] z
  rw [Rect.emb_whole_apply, View.read_apply, cast_eq] at e
  exact e

end Cert.Proof.KI

end
-- ==== Proof.TileKI.lean ====
/-
  One vector subcore's task, at a symbolic place (SparseCore `L 0`, subcore `L 1`), for any float instance.

  Worker `w = 2·(L 1) + (L 0)` copies row `w` of the index matrix (1536 words: four chunks of 128 target, 128 context
  and 128 negative row numbers) into its index scratch in two copies, gathers each chunk's 384 table rows into one of
  two row buffers (the next chunk's gather in flight while the current chunk is summed), adds for every pair of rows
  `r, 128 + r, 256 + r` of a chunk and every group of sixteen lanes the product `buf[r] · (buf[128 + r] − buf[256 + r])`
  into sixteen lane-vector accumulators, sums the sixteen accumulators, stores the sum in its output scratch and copies
  it to row `w` of the output.
-/
import proofs.«205315_g4544075399421_cont_8to1_c_355_20_alg».proof.Proof.KJoin

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v4_scv : Memref Cert.KernelIdeal.sig Kind.scVector Space.hbm Cert.KernelIdeal.S32x1536 EltTy.i32)
local notation "eV" => (Memref.whole Cert.KernelIdeal.main_arg3_scv : Memref Cert.KernelIdeal.sig Kind.scVector Space.hbm Cert.KernelIdeal.S1000000x128 EltTy.f32)
local notation "oV" => (Memref.whole Cert.KernelIdeal.main_v5_scv : Memref Cert.KernelIdeal.sig Kind.scVector Space.hbm Cert.KernelIdeal.S32x16 EltTy.f32)
local notation "xS" => (Memref.whole Cert.KernelIdeal.cc0_scratch0 : Memref Cert.KernelIdeal.sig Kind.scVector Space.vmem Cert.KernelIdeal.S1536 EltTy.i32)
local notation "aS" => (Memref.whole Cert.KernelIdeal.cc0_scratch1 : Memref Cert.KernelIdeal.sig Kind.scVector Space.vmem Cert.KernelIdeal.S384x128 EltTy.f32)
local notation "bS" => (Memref.whole Cert.KernelIdeal.cc0_scratch2 : Memref Cert.KernelIdeal.sig Kind.scVector Space.vmem Cert.KernelIdeal.S384x128 EltTy.f32)
local notation "tS" => (Memref.whole Cert.KernelIdeal.cc0_scratch3 : Memref Cert.KernelIdeal.sig Kind.scVector Space.vmem Cert.KernelIdeal.S16 EltTy.f32)

variable [FloatOps F]

section Tile

variable (d : Dev nD) (L : grid0.Coords)

omit [FloatOps F] in
/-- Contents may be named: what is held at `f` is held at some `g` equal to `f`. -/
theorem name_contents {ℓ : Loc nD τ sig} {I : Finset (Idx ℓ)} {q : PosShare TreeShare} (f : Buf (Elt F) ℓ) :
    (ℓ ↦[I]{q} f : sProp 𝕄) ⊢ ∃ g, ⌜g = f⌝ ∗ ℓ ↦[I]{q} g := by
  iintro H; iexists f; isplitr
  · ipureintro; rfl
  · iexact H

omit [FloatOps F] in
/-- Elements carved out of a set and the rest of the set, each at some contents, are the set at some contents. -/
theorem rejoin {ℓ : Loc nD τ sig} {I S : Finset (Idx ℓ)} (h : I ⊆ S) (f g : Buf (Elt F) ℓ) :
    iprop((ℓ ↦[I]{fullShare} f) ∗ (ℓ ↦[S \ I]{fullShare} g)) ⊢ (∃ h', ℓ ↦[S]{fullShare} h' : sProp 𝕄) := by
  refine (pointsTo_join (Finset.disjoint_sdiff)).trans ?_
  rw [Finset.union_sdiff_of_subset h]
  iintro H; iexists _; iexact H

/-! ### What a chunk-loop holds before trip `k`: the accumulators after `k` trips, the row buffer unchanged -/

def inv1 (B : Buf (Elt F) ((V d (cV L) (jV L)).loc cc0_scratch1)) (a : Acc F) (k : ℕ) (acc : Acc F) : sProp 𝕄 :=
  iprop(⌜acc = iter1 B a k⌝ ∗ (aS).view.loc (V d (cV L) (jV L)) ↦{fullShare} B)
def inv2 (B : Buf (Elt F) ((V d (cV L) (jV L)).loc cc0_scratch2)) (a : Acc F) (k : ℕ) (acc : Acc F) : sProp 𝕄 :=
  iprop(⌜acc = iter2 B a k⌝ ∗ (bS).view.loc (V d (cV L) (jV L)) ↦{fullShare} B)
def inv3 (B : Buf (Elt F) ((V d (cV L) (jV L)).loc cc0_scratch1)) (a : Acc F) (k : ℕ) (acc : Acc F) : sProp 𝕄 :=
  iprop(⌜acc = iter3 B a k⌝ ∗ (aS).view.loc (V d (cV L) (jV L)) ↦{fullShare} B)
def inv4 (B : Buf (Elt F) ((V d (cV L) (jV L)).loc cc0_scratch2)) (a : Acc F) (k : ℕ) (acc : Acc F) : sProp 𝕄 :=
  iprop(⌜acc = iter4 B a k⌝ ∗ (bS).view.loc (V d (cV L) (jV L)) ↦{fullShare} B)

/-- One trip of chunk-loop 1 carries its invariant from `k` to `k + 1`. -/
theorem region1 (B : Buf (Elt F) ((V d (cV L) (jV L)).loc cc0_scratch1)) (a : Acc F) (k : Fin k0_t1_loop.trips) (acc : Acc F)
    (v28 v29 : FVec F S16 .f32) (c18 : F .f32) :
    inv1 d L B a k.val acc
      ⊢ wp frame (wpE (defs₀ (F := F)) 𝒱₀ (V d (cV L) (jV L)) none) Set.univ
          (k0_t1_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 v28 v29 c18 k acc)
          (inv1 d L B a (k.val + 1)) := by
  unfold inv1
  iintro ⟨%hacc, HB⟩
  iapply ((trip1 d L B k acc v28 v29 c18).trans (wp_mono frame _ _ fun r => ?_)) $$ HB
  iintro ⟨%hr, H⟩
  isplitr
  · ipureintro; rw [hr, hacc, iter1, dif_pos k.isLt]
  · iexact H

/-- One trip of chunk-loop 2 carries its invariant from `k` to `k + 1`. -/
theorem region2 (B : Buf (Elt F) ((V d (cV L) (jV L)).loc cc0_scratch2)) (a : Acc F) (k : Fin k0_t2_loop.trips) (acc : Acc F)
    (w0 w1 w2 w3 w4 w5 w6 w7 w8 w9 w10 w11 w12 w13 w14 w15 : FVec F S16 .f32) (z : BitVec 32) :
    inv2 d L B a k.val acc
      ⊢ wp frame (wpE (defs₀ (F := F)) 𝒱₀ (V d (cV L) (jV L)) none) Set.univ
          (k0_t2_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 w0 w1 w2 w3 w4 w5 w6 w7 w8 w9 w10 w11 w12 w13 w14 w15 z k acc)
          (inv2 d L B a (k.val + 1)) := by
  unfold inv2
  iintro ⟨%hacc, HB⟩
  iapply ((trip2 d L B k acc w0 w1 w2 w3 w4 w5 w6 w7 w8 w9 w10 w11 w12 w13 w14 w15 z).trans (wp_mono frame _ _ fun r => ?_)) $$ HB
  iintro ⟨%hr, H⟩
  isplitr
  · ipureintro; rw [hr, hacc, iter2, dif_pos k.isLt]
  · iexact H

/-- One trip of chunk-loop 3 carries its invariant from `k` to `k + 1`. -/
theorem region3 (B : Buf (Elt F) ((V d (cV L) (jV L)).loc cc0_scratch1)) (a : Acc F) (k : Fin k0_t3_loop.trips) (acc : Acc F)
    (w0 w1 w2 w3 w4 w5 w6 w7 w8 w9 w10 w11 w12 w13 w14 w15 : FVec F S16 .f32) (z : BitVec 32) :
    inv3 d L B a k.val acc
      ⊢ wp frame (wpE (defs₀ (F := F)) 𝒱₀ (V d (cV L) (jV L)) none) Set.univ
          (k0_t3_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 w0 w1 w2 w3 w4 w5 w6 w7 w8 w9 w10 w11 w12 w13 w14 w15 z k acc)
          (inv3 d L B a (k.val + 1)) := by
  unfold inv3
  iintro ⟨%hacc, HB⟩
  iapply ((trip3 d L B k acc w0 w1 w2 w3 w4 w5 w6 w7 w8 w9 w10 w11 w12 w13 w14 w15 z).trans (wp_mono frame _ _ fun r => ?_)) $$ HB
  iintro ⟨%hr, H⟩
  isplitr
  · ipureintro; rw [hr, hacc, iter3, dif_pos k.isLt]
  · iexact H

/-- One trip of chunk-loop 4 carries its invariant from `k` to `k + 1`. -/
theorem region4 (B : Buf (Elt F) ((V d (cV L) (jV L)).loc cc0_scratch2)) (a : Acc F) (k : Fin k0_t4_loop.trips) (acc : Acc F)
    (w0 w1 w2 w3 w4 w5 w6 w7 w8 w9 w10 w11 w12 w13 w14 w15 : FVec F S16 .f32) (z : BitVec 32) :
    inv4 d L B a k.val acc
      ⊢ wp frame (wpE (defs₀ (F := F)) 𝒱₀ (V d (cV L) (jV L)) none) Set.univ
          (k0_t4_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 w0 w1 w2 w3 w4 w5 w6 w7 w8 w9 w10 w11 w12 w13 w14 w15 z k acc)
          (inv4 d L B a (k.val + 1)) := by
  unfold inv4
  iintro ⟨%hacc, HB⟩
  iapply ((trip4 d L B k acc w0 w1 w2 w3 w4 w5 w6 w7 w8 w9 w10 w11 w12 w13 w14 w15 z).trans (wp_mono frame _ _ fun r => ?_)) $$ HB
  iintro ⟨%hr, H⟩
  isplitr
  · ipureintro; rw [hr, hacc, iter4, dif_pos k.isLt]
  · iexact H

/-! ### The row numbers a gather reads are in range -/

omit [FloatOps F] in
/-- After the second index copy has landed, every word of its destination is a word of the index matrix. -/
theorem rest_words_lt (fx : (xsR).view.ty.Contents (Elt F)) (P : S1152.Idx → Elt F .i32) (hP : ∀ y, (P y).toNat < 1000000) :
    ∀ i ∈ (xsR).view.set, (((xsR).view.writes (Elt F) fx [⟨Rect.whole S1152, P⟩]) i).toNat < 1000000 := by
  intro i hi
  obtain ⟨y, -, rfl⟩ := Finset.mem_map.mp hi
  have e := View.read_writes_cons_emb (xsR).view (Val := Elt F) (f := fx) (Rect.whole S1152) P [] y
  rw [Rect.emb_whole_apply, View.read_apply] at e
  rw [cast_eq] at e
  rw [e]; exact hP y

set_option maxHeartbeats 4000000 in
theorem tile_body (hF : (K (F := F)).Facts) (I4 : Buf (Elt F) (iLoc d)) (E : Buf (Elt F) (eLoc d)) (O0 : Buf (Elt F) (oLoc d))
    (qi qe : PosShare TreeShare) (hin : ∀ j, (I4 j).toNat < 1000000)
    (O : CellTallies nD τ sig (HIx 1)) (W : Waits sig (HIx 1)) (hO : ∀ g, O g none = 0) :
    iprop(levAts (K (F := F)).L (K (F := F)).lev ∗ emp
        ∗ (iPts d qi I4 ∗ ePts d qe E ∗ oRowPts d L O0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_partial_kernel L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0)
          fun _ => iprop((iPts d qi I4 ∗ ePts d qe E ∗ oRowPts d L (outVal d I4 E))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_partial_kernel_eq_skeleton]; unfold cc0_partial_kernel_skel
  rw [(K (F := F)).scopedBufs_V hF d (cV L) (jV L), SparseCore.Cfg.scopedSems0_V (Val := Elt F) d (cV L) (jV L), ownSems0_V, ownBufs_V]
  iintro ⟨#Hlv, -, ⟨Hi, He, Ho⟩, ⟨⟨%fx, Hx⟩, ⟨%fa, Ha⟩, ⟨%fb, Hb⟩, ⟨%ft, Ht⟩, Hbufs⟩, ⟨HsA, HsB, HsC, HsD, HsE, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave He' := (Entails.of_eq (pts_eV (F := F) d L _ _).symm) $$ He
  ihave Ho' := (Entails.of_eq (pts_oRowK (F := F) d L _).symm) $$ Ho
  ihave Hx' := (Entails.of_eq (pts_xS (F := F) d L _).symm) $$ Hx
  ihave Ha' := (Entails.of_eq (pts_aS (F := F) d L _).symm) $$ Ha
  ihave Hb' := (Entails.of_eq (pts_bS (F := F) d L _).symm) $$ Hb
  ihave Ht' := (Entails.of_eq (pts_tS (F := F) d L _).symm) $$ Ht
  -- two transfers read the index matrix at once, and two the table: halve each read share
  ihave Hi2 := (pointsTo_share (PosShare.mem_left_op_right qi)).1 $$ Hi'
  icases Hi2 with ⟨HiL, HiR⟩
  ihave He2 := (pointsTo_share (PosShare.mem_left_op_right qe)).1 $$ He'
  icases He2 with ⟨HeL, HeR⟩
  -- the index scratch: the first chunk's words, the other chunks' words, the rest (no word)
  ihave Hx2 := (pointsTo_split_subset (q := fullShare) (f := fx) (S := Finset.univ) (Finset.subset_univ (xs0).view.set)).1 $$ Hx'
  icases Hx2 with ⟨Hx0, Hxr⟩
  ihave Hx3 := (pointsTo_split_subset (q := fullShare) (f := fx) xsR_sub).1 $$ Hxr
  icases Hx3 with ⟨HxR, Hxz⟩
  ihave Hx0' := (Entails.of_eq (pts_xs0 (F := F) d L _).symm) $$ Hx0
  ihave HxR' := (Entails.of_eq (pts_xsR (F := F) d L _).symm) $$ HxR
  sl_exec
  have hin0 : ∀ x, ((xs0).view.read (Elt F) ((xs0).view.writes (Elt F) (xs0).view.junk [⟨Rect.whole S384, tile_body.sl.dma0 d L I4⟩]) x).toNat
      < S1000000x128.size gathers_S1000000x128_S384x128.axis := by
    intro x
    have e := View.read_writes_cons_emb (xs0).view (Val := Elt F) (f := (xs0).view.junk) (Rect.whole S384) (tile_body.sl.dma0 d L I4) [] x
    rw [Rect.emb_whole_apply] at e
    rw [e]
    unfold tile_body.sl.dma0
    simp only [ReadAs.apply_same, View.read_apply, cast_eq]
    exact hin _
  sl_exec
  -- the other three chunks' words, each chunk's apart
  have hP1 : ∀ y, (tile_body.sl.dma0_1 d L I4 y).toNat < 1000000 := by
    intro y
    unfold tile_body.sl.dma0_1
    simp only [ReadAs.apply_same, View.read_apply, cast_eq]
    exact hin _
  obtain ⟨gR, hgR⟩ : ∃ g : Buf (Elt F) ((V d (cV L) (jV L)).loc cc0_scratch0),
      g = (xsR).view.writes (Elt F) fx [⟨Rect.whole S1152, tile_body.sl.dma0_1 d L I4⟩] := ⟨_, rfl⟩
  have hR : ∀ i ∈ (xsR).view.set, (gR i).toNat < 1000000 := by
    rw [hgR]; exact rest_words_lt (F := F) fx (tile_body.sl.dma0_1 d L I4) hP1
  have eR : ((xsR).view.loc (V d (cV L) (jV L)) ↦[(xsR).view.set]{fullShare}
        ((xsR).view.writes (Elt F) fx [⟨Rect.whole S1152, tile_body.sl.dma0_1 d L I4⟩]) : sProp 𝕄)
      = ((V d (cV L) (jV L)).loc cc0_scratch0 ↦[(xsR).view.set]{fullShare} gR) := by rw [hgR]
  ihave HxR0 := (Entails.of_eq eR) $$ HxR'
  ihave S1 := (pointsTo_split_subset (q := fullShare) xs1_sub).1 $$ HxR0
  icases S1 with ⟨Hx1, Hr1⟩
  ihave S2 := (pointsTo_split_subset (q := fullShare) xs2_sub).1 $$ Hr1
  icases S2 with ⟨Hx2, Hr2⟩
  ihave S3 := (pointsTo_split_subset (q := fullShare) xs3_sub).1 $$ Hr2
  icases S3 with ⟨Hx3, Hr3⟩
  ihave Hx1' := (Entails.of_eq (pts_xs1 (F := F) d L _).symm) $$ Hx1
  ihave Hx2' := (Entails.of_eq (pts_xs2 (F := F) d L _).symm) $$ Hx2
  ihave Hx3' := (Entails.of_eq (pts_xs3 (F := F) d L _).symm) $$ Hx3
  have hin1 : ∀ x, ((xs1).view.read (Elt F) gR x).toNat
      < S1000000x128.size gathers_S1000000x128_S384x128.axis := fun x => by
    rw [View.read_apply, cast_eq]; exact hR _ (xs1_sub ((xs1).view.emb_mem_set x))
  have hin2 : ∀ x, ((xs2).view.read (Elt F) gR x).toNat
      < S1000000x128.size gathers_S1000000x128_S384x128.axis := fun x => by
    rw [View.read_apply, cast_eq]; exact hR _ (Finset.mem_sdiff.mp (xs2_sub ((xs2).view.emb_mem_set x))).1
  have hin3 : ∀ x, ((xs3).view.read (Elt F) gR x).toNat
      < S1000000x128.size gathers_S1000000x128_S384x128.axis := fun x => by
    rw [View.read_apply, cast_eq]; exact hR _ (Finset.mem_sdiff.mp (Finset.mem_sdiff.mp (xs3_sub ((xs3).view.emb_mem_set x))).1).1
  sl_exec
  ihave HN1 := (name_contents (F := F) _) $$ Ha'
  icases HN1 with ⟨%B1, %hB1, Ha'⟩
  sl_for (inv1 d L B1 acc0) $$ [Ha']
  case region =>
    intro k acc
    exact region1 d L B1 _ k acc _ _ _
  · unfold inv1
    isplitr
    · ipureintro; rfl
    · iexact Ha'
  iintro %acc1 HI
  obtain ⟨p1_0, p1_1, p1_2, p1_3, p1_4, p1_5, p1_6, p1_7, p1_8, p1_9, p1_10, p1_11, p1_12, p1_13, p1_14, p1_15⟩ := acc1
  unfold inv1
  icases HI with ⟨%hacc1, Ha'⟩
  sl_exec
  ihave HN2 := (name_contents (F := F) _) $$ Hb'
  icases HN2 with ⟨%B2, %hB2, Hb'⟩
  sl_for (inv2 d L B2 (p1_0, p1_1, p1_2, p1_3, p1_4, p1_5, p1_6, p1_7, p1_8, p1_9, p1_10, p1_11, p1_12, p1_13, p1_14, p1_15)) $$ [Hb']
  case region =>
    intro k acc
    exact region2 d L B2 _ k acc _ _ _ _ _ _ _ _ _ _ _ _ _ _ _ _ _
  · unfold inv2
    isplitr
    · ipureintro; rfl
    · iexact Hb'
  iintro %acc2 HI
  obtain ⟨p2_0, p2_1, p2_2, p2_3, p2_4, p2_5, p2_6, p2_7, p2_8, p2_9, p2_10, p2_11, p2_12, p2_13, p2_14, p2_15⟩ := acc2
  unfold inv2
  icases HI with ⟨%hacc2, Hb'⟩
  sl_exec
  ihave HN3 := (name_contents (F := F) _) $$ Ha'
  icases HN3 with ⟨%B3, %hB3, Ha'⟩
  sl_for (inv3 d L B3 (p2_0, p2_1, p2_2, p2_3, p2_4, p2_5, p2_6, p2_7, p2_8, p2_9, p2_10, p2_11, p2_12, p2_13, p2_14, p2_15)) $$ [Ha']
  case region =>
    intro k acc
    exact region3 d L B3 _ k acc _ _ _ _ _ _ _ _ _ _ _ _ _ _ _ _ _
  · unfold inv3
    isplitr
    · ipureintro; rfl
    · iexact Ha'
  iintro %acc3 HI
  obtain ⟨p3_0, p3_1, p3_2, p3_3, p3_4, p3_5, p3_6, p3_7, p3_8, p3_9, p3_10, p3_11, p3_12, p3_13, p3_14, p3_15⟩ := acc3
  unfold inv3
  icases HI with ⟨%hacc3, Ha'⟩
  sl_exec
  ihave HN4 := (name_contents (F := F) _) $$ Hb'
  icases HN4 with ⟨%B4, %hB4, Hb'⟩
  sl_for (inv4 d L B4 (p3_0, p3_1, p3_2, p3_3, p3_4, p3_5, p3_6, p3_7, p3_8, p3_9, p3_10, p3_11, p3_12, p3_13, p3_14, p3_15)) $$ [Hb']
  case region =>
    intro k acc
    exact region4 d L B4 _ k acc _ _ _ _ _ _ _ _ _ _ _ _ _ _ _ _ _
  · unfold inv4
    isplitr
    · ipureintro; rfl
    · iexact Hb'
  iintro %acc4 HI
  obtain ⟨p4_0, p4_1, p4_2, p4_3, p4_4, p4_5, p4_6, p4_7, p4_8, p4_9, p4_10, p4_11, p4_12, p4_13, p4_14, p4_15⟩ := acc4
  unfold inv4
  icases HI with ⟨%hacc4, Hb'⟩
  sl_exec
  sl_step
  -- the two halves of each read share, joined again
  ihave Hi0 := (pointsTo_share (PosShare.mem_left_op_right qi)).2 $$ [HiL HiR]
  · isplitl [HiL]; · iexact HiL
    iexact HiR
  ihave He0 := (pointsTo_share (PosShare.mem_left_op_right qe)).2 $$ [HeL HeR]
  · isplitl [HeL]; · iexact HeL
    iexact HeR
  -- what the row buffers held, hence what the accumulators are, hence what the row of the output holds
  have eB1 : B1 = gathered E (chunkWords I4 (widF L) 0) := by
    rw [hB1]
    refine (writes_whole_aS (F := F) _ _).trans ?_
    unfold tile_body.sl.gather0
    refine (gather_eq (F := F) E _ _ _).trans ?_
    unfold tile_body.sl.dma0
    exact congrArg (gathered E) (words0 (F := F) L I4 _)
  have eB2 : B2 = gathered E (chunkWords I4 (widF L) 1) := by
    rw [hB2]
    refine (writes_whole_bS (F := F) _ _).trans ?_
    unfold tile_body.sl.gather0_1
    refine (gather_eq (F := F) E _ _ _).trans ?_
    rw [hgR]; unfold tile_body.sl.dma0_1
    exact congrArg (gathered E) (words1 (F := F) L I4 _)
  have eB3 : B3 = gathered E (chunkWords I4 (widF L) 2) := by
    rw [hB3]
    refine (writes_whole_aS (F := F) _ _).trans ?_
    unfold tile_body.sl.gather0_2
    refine (gather_eq (F := F) E _ _ _).trans ?_
    rw [hgR]; unfold tile_body.sl.dma0_1
    exact congrArg (gathered E) (words2 (F := F) L I4 _)
  have eB4 : B4 = gathered E (chunkWords I4 (widF L) 3) := by
    rw [hB4]
    refine (writes_whole_bS (F := F) _ _).trans ?_
    unfold tile_body.sl.gather0_3
    refine (gather_eq (F := F) E _ _ _).trans ?_
    rw [hgR]; unfold tile_body.sl.dma0_1
    exact congrArg (gathered E) (words3 (F := F) L I4 _)
  have hW : workerAcc I4 E (widF L) = (p4_0, p4_1, p4_2, p4_3, p4_4, p4_5, p4_6, p4_7, p4_8, p4_9, p4_10, p4_11, p4_12, p4_13, p4_14, p4_15) := by
    unfold workerAcc
    rw [← eB1, ← eB2, ← eB3, ← eB4, hacc4, hacc3, hacc2, hacc1]
  have hagree : ∀ i ∈ oRowSet L,
      ((oRowK L).view.writes (Elt F) O0 [⟨Rect.whole S16, tile_body.sl.dma2 d L ft p4_0 p4_1 p4_2 p4_3 p4_4 p4_5 p4_6 p4_7 p4_8 p4_9 p4_10 p4_11 p4_12 p4_13 p4_14 p4_15⟩]) i = outVal d I4 E i := by
    intro i hi
    obtain ⟨z, -, rfl⟩ := Finset.mem_map.mp hi
    rw [row_written (F := F) L O0 _ z]
    unfold tile_body.sl.dma2
    rw [ReadAs.apply_same]
    unfold tile_body.sl.Ht'_1
    rw [read_writes_tS]
    rw [oRowK_emb]
    unfold outVal workerTotal
    show _ = sum16 (workerAcc I4 E (widF L)) (ValueIdx.ix1 (z 0))
    rw [hW]
    exact congrArg (k0_pay105 p4_0 p4_1 p4_2 p4_3 p4_4 p4_5 p4_6 p4_7 p4_8 p4_9 p4_10 p4_11 p4_12 p4_13 p4_14 p4_15) (ValueIdx.eq_ix1 z)
  isplitl [Hi0 He0 Ho']
  · isplitl [Hi0]; · iexact Hi0
    isplitl [He0]; · iexact He0
    ihave Ho1 := (Entails.of_eq (pts_oRowK (F := F) d L _)) $$ Ho'
    ihave Ho2 := (Entails.of_eq (pointsTo_congr (ℓ := oLoc d) (I := oRowSet L) (q := fullShare) hagree)) $$ Ho1
    iexact Ho2
  isplitl [Hx0' Hx1' Hx2' Hx3' Hr3 Hxz Ha' Hb' Ht' Hbufs]
  · isplitl [Hx0' Hx1' Hx2' Hx3' Hr3 Hxz]
    · -- the index scratch's pieces, joined again
      ihave J3 := (rejoin (F := F) (ℓ := (V d (cV L) (jV L)).loc cc0_scratch0) xs3_sub _ _) $$ [Hx3' Hr3]
      · isplitl [Hx3']; · iexact Hx3'
        iexact Hr3
      icases J3 with ⟨%g3, J3⟩
      ihave J2 := (rejoin (F := F) (ℓ := (V d (cV L) (jV L)).loc cc0_scratch0) xs2_sub _ _) $$ [Hx2' J3]
      · isplitl [Hx2']; · iexact Hx2'
        iexact J3
      icases J2 with ⟨%g2, J2⟩
      ihave J1 := (rejoin (F := F) (ℓ := (V d (cV L) (jV L)).loc cc0_scratch0) xs1_sub _ _) $$ [Hx1' J2]
      · isplitl [Hx1']; · iexact Hx1'
        iexact J2
      icases J1 with ⟨%g1, J1⟩
      ihave JR := (rejoin (F := F) (ℓ := (V d (cV L) (jV L)).loc cc0_scratch0) xsR_sub _ _) $$ [J1 Hxz]
      · isplitl [J1]; · iexact J1
        iexact Hxz
      icases JR with ⟨%g0, JR⟩
      ihave J0 := (rejoin (F := F) (ℓ := (V d (cV L) (jV L)).loc cc0_scratch0) (Finset.subset_univ (xs0).view.set) _ _) $$ [Hx0' JR]
      · isplitl [Hx0']; · iexact Hx0'
        iexact JR
      iexact J0
    isplitl [Ha']; · iexists _; iexact Ha'
    isplitl [Hb']; · iexists _; iexact Hb'
    isplitl [Ht']; · iexists _; iexact Ht'
    iexact Hbufs
  isplitl [HsA HsB HsC HsD HsE Hsems]
  · isplitl [HsA]; · iexact HsA
    isplitl [HsB]; · iexact HsB
    isplitl [HsC]; · iexact HsC
    isplitl [HsD]; · iexact HsD
    isplitl [HsE]; · iexact HsE
    iexact Hsems
  iexists _; isplitr
  swap; · iexact HO
  ipureintro; intro p hp
  repeat (rcases Finset.mem_insert.mp hp with hp | hp; · exact .inr (hp ▸ rfl))
  exact .inl hp

end Tile

/-- Every worker's task, in the launch's words. -/
theorem tile_stmt : TileStmt (F := F) (outVal (F := F)) :=
  fun d L hF I4 E O0 qi qe hin O W hO => tile_body d L hF I4 E O0 qi qe hin O W hO

end Cert.Proof.KI

end
-- ==== Proof.KStepB.lean ====
/-
  The arithmetic of one trip of a chunk-loop, as a pure function of the row buffer, for any float instance.

  A row buffer holds a chunk's 384 gathered table rows: rows `0..127` the targets', `128..255` the contexts',
  `256..383` the negatives'.  Trip `k` visits rows `2k` and `2k + 1`; for each of them and each of the eight groups of
  sixteen lanes it adds `t · (c − n)` — the target row's lanes times the difference of the context row's and the negative
  row's — into that row parity's and lane group's accumulator.  Sixteen accumulators, each sixteen lanes.
-/
import proofs.«205315_g4544075399421_cont_8to1_c_355_20_alg».proof.Proof.TilePreB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S32x1536 EltTy.i32)
local notation "eV" => (Memref.whole Cert.Kernel.main_arg3_scv : Memref Cert.Kernel.sig Kind.scVector Space.hbm Cert.Kernel.S1000000x128 EltTy.f32)
local notation "oV" => (Memref.whole Cert.Kernel.main_v5_scv : Memref Cert.Kernel.sig Kind.scVector Space.hbm Cert.Kernel.S32x16 EltTy.f32)
local notation "xS" => (Memref.whole Cert.Kernel.cc0_scratch0 : Memref Cert.Kernel.sig Kind.scVector Space.vmem Cert.Kernel.S1536 EltTy.i32)
local notation "aS" => (Memref.whole Cert.Kernel.cc0_scratch1 : Memref Cert.Kernel.sig Kind.scVector Space.vmem Cert.Kernel.S384x128 EltTy.f32)
local notation "bS" => (Memref.whole Cert.Kernel.cc0_scratch2 : Memref Cert.Kernel.sig Kind.scVector Space.vmem Cert.Kernel.S384x128 EltTy.f32)
local notation "tS" => (Memref.whole Cert.Kernel.cc0_scratch3 : Memref Cert.Kernel.sig Kind.scVector Space.vmem Cert.Kernel.S16 EltTy.f32)

variable [FloatOps F]

/-- The sixteen lane-vector accumulators a chunk-loop carries: parity 0's eight lane groups, then parity 1's. -/
abbrev Acc (F : FTy → Type) : Type :=
  FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32

/-- The contents of the first and of the second row buffer. -/
abbrev RowBufA (F : FTy → Type) : Type := ((aS).view).ty.Contents (Elt F)
abbrev RowBufB (F : FTy → Type) : Type := ((bS).view).ty.Contents (Elt F)

/-- Sixteen lanes of one row of a row buffer, starting at the printed offsets. -/
def lanesA (B : RowBufA F) (off : Fin 2 → Nat) (inb : ∀ a, off a + S1x16.size a ≤ S384x128.size a) : FVec F S16 .f32 :=
  shapeCast S16 (View.readAt (Elt F) (aS).view (Rect.unit (s := S384x128) off S1x16.size inb).toLoadRect B) shapeCasts_S1x16_S16
def lanesB (B : RowBufB F) (off : Fin 2 → Nat) (inb : ∀ a, off a + S1x16.size a ≤ S384x128.size a) : FVec F S16 .f32 :=
  shapeCast S16 (View.readAt (Elt F) (bS).view (Rect.unit (s := S384x128) off S1x16.size inb).toLoadRect B) shapeCasts_S1x16_S16

/-- An accumulator gains `t · (c − n)`. -/
def upd (a t c n : FVec F S16 .f32) : FVec F S16 .f32 := addf a (mulf t (subf c n))

/-- One trip of chunk-loop 1: every accumulator gains its row's and lane group's product. -/
def step1 (B : RowBufA F) (k : Fin k0_t1_loop.trips) : Acc F → Acc F :=
  fun (a0, a1, a2, a3, a4, a5, a6, a7, a8, a9, a10, a11, a12, a13, a14, a15) =>
    (upd a0 (lanesA B (k0_off3 k) (k0_off3_inb k)) (lanesA B (k0_off4 k 128#32) (k0_off4_inb k 0)) (lanesA B (k0_off4 k 256#32) (k0_off4_inb k 1)),
     upd a1 (lanesA B (k0_off7 k) (k0_off7_inb k)) (lanesA B (k0_off8 k 128#32) (k0_off8_inb k 0)) (lanesA B (k0_off8 k 256#32) (k0_off8_inb k 1)),
     upd a2 (lanesA B (k0_off11 k) (k0_off11_inb k)) (lanesA B (k0_off12 k 128#32) (k0_off12_inb k 0)) (lanesA B (k0_off12 k 256#32) (k0_off12_inb k 1)),
     upd a3 (lanesA B (k0_off15 k) (k0_off15_inb k)) (lanesA B (k0_off16 k 128#32) (k0_off16_inb k 0)) (lanesA B (k0_off16 k 256#32) (k0_off16_inb k 1)),
     upd a4 (lanesA B (k0_off19 k) (k0_off19_inb k)) (lanesA B (k0_off20 k 128#32) (k0_off20_inb k 0)) (lanesA B (k0_off20 k 256#32) (k0_off20_inb k 1)),
     upd a5 (lanesA B (k0_off23 k) (k0_off23_inb k)) (lanesA B (k0_off24 k 128#32) (k0_off24_inb k 0)) (lanesA B (k0_off24 k 256#32) (k0_off24_inb k 1)),
     upd a6 (lanesA B (k0_off27 k) (k0_off27_inb k)) (lanesA B (k0_off28 k 128#32) (k0_off28_inb k 0)) (lanesA B (k0_off28 k 256#32) (k0_off28_inb k 1)),
     upd a7 (lanesA B (k0_off31 k) (k0_off31_inb k)) (lanesA B (k0_off32 k 128#32) (k0_off32_inb k 0)) (lanesA B (k0_off32 k 256#32) (k0_off32_inb k 1)),
     upd a8 (lanesA B (k0_off5 k) (k0_off5_inb k)) (lanesA B (k0_off6 k 128#32) (k0_off6_inb k 0)) (lanesA B (k0_off6 k 256#32) (k0_off6_inb k 1)),
     upd a9 (lanesA B (k0_off9 k) (k0_off9_inb k)) (lanesA B (k0_off10 k 128#32) (k0_off10_inb k 0)) (lanesA B (k0_off10 k 256#32) (k0_off10_inb k 1)),
     upd a10 (lanesA B (k0_off13 k) (k0_off13_inb k)) (lanesA B (k0_off14 k 128#32) (k0_off14_inb k 0)) (lanesA B (k0_off14 k 256#32) (k0_off14_inb k 1)),
     upd a11 (lanesA B (k0_off17 k) (k0_off17_inb k)) (lanesA B (k0_off18 k 128#32) (k0_off18_inb k 0)) (lanesA B (k0_off18 k 256#32) (k0_off18_inb k 1)),
     upd a12 (lanesA B (k0_off21 k) (k0_off21_inb k)) (lanesA B (k0_off22 k 128#32) (k0_off22_inb k 0)) (lanesA B (k0_off22 k 256#32) (k0_off22_inb k 1)),
     upd a13 (lanesA B (k0_off25 k) (k0_off25_inb k)) (lanesA B (k0_off26 k 128#32) (k0_off26_inb k 0)) (lanesA B (k0_off26 k 256#32) (k0_off26_inb k 1)),
     upd a14 (lanesA B (k0_off29 k) (k0_off29_inb k)) (lanesA B (k0_off30 k 128#32) (k0_off30_inb k 0)) (lanesA B (k0_off30 k 256#32) (k0_off30_inb k 1)),
     upd a15 (lanesA B (k0_off33 k) (k0_off33_inb k)) (lanesA B (k0_off34 k 128#32) (k0_off34_inb k 0)) (lanesA B (k0_off34 k 256#32) (k0_off34_inb k 1)))

/-- The accumulators after the first `n` trips of chunk-loop 1. -/
def iter1 (B : RowBufA F) (a : Acc F) : ℕ → Acc F
  | 0 => a
  | n + 1 => if h : n < k0_t1_loop.trips then step1 B ⟨n, h⟩ (iter1 B a n) else iter1 B a n

/-- One trip of chunk-loop 2: every accumulator gains its row's and lane group's product. -/
def step2 (B : RowBufB F) (k : Fin k0_t2_loop.trips) : Acc F → Acc F :=
  fun (a0, a1, a2, a3, a4, a5, a6, a7, a8, a9, a10, a11, a12, a13, a14, a15) =>
    (upd a0 (lanesB B (k0_off35 k) (k0_off35_inb k)) (lanesB B (k0_off36 k 128#32) (k0_off36_inb k 0)) (lanesB B (k0_off36 k 256#32) (k0_off36_inb k 1)),
     upd a1 (lanesB B (k0_off39 k) (k0_off39_inb k)) (lanesB B (k0_off40 k 128#32) (k0_off40_inb k 0)) (lanesB B (k0_off40 k 256#32) (k0_off40_inb k 1)),
     upd a2 (lanesB B (k0_off43 k) (k0_off43_inb k)) (lanesB B (k0_off44 k 128#32) (k0_off44_inb k 0)) (lanesB B (k0_off44 k 256#32) (k0_off44_inb k 1)),
     upd a3 (lanesB B (k0_off47 k) (k0_off47_inb k)) (lanesB B (k0_off48 k 128#32) (k0_off48_inb k 0)) (lanesB B (k0_off48 k 256#32) (k0_off48_inb k 1)),
     upd a4 (lanesB B (k0_off51 k) (k0_off51_inb k)) (lanesB B (k0_off52 k 128#32) (k0_off52_inb k 0)) (lanesB B (k0_off52 k 256#32) (k0_off52_inb k 1)),
     upd a5 (lanesB B (k0_off55 k) (k0_off55_inb k)) (lanesB B (k0_off56 k 128#32) (k0_off56_inb k 0)) (lanesB B (k0_off56 k 256#32) (k0_off56_inb k 1)),
     upd a6 (lanesB B (k0_off59 k) (k0_off59_inb k)) (lanesB B (k0_off60 k 128#32) (k0_off60_inb k 0)) (lanesB B (k0_off60 k 256#32) (k0_off60_inb k 1)),
     upd a7 (lanesB B (k0_off63 k) (k0_off63_inb k)) (lanesB B (k0_off64 k 128#32) (k0_off64_inb k 0)) (lanesB B (k0_off64 k 256#32) (k0_off64_inb k 1)),
     upd a8 (lanesB B (k0_off37 k) (k0_off37_inb k)) (lanesB B (k0_off38 k 128#32) (k0_off38_inb k 0)) (lanesB B (k0_off38 k 256#32) (k0_off38_inb k 1)),
     upd a9 (lanesB B (k0_off41 k) (k0_off41_inb k)) (lanesB B (k0_off42 k 128#32) (k0_off42_inb k 0)) (lanesB B (k0_off42 k 256#32) (k0_off42_inb k 1)),
     upd a10 (lanesB B (k0_off45 k) (k0_off45_inb k)) (lanesB B (k0_off46 k 128#32) (k0_off46_inb k 0)) (lanesB B (k0_off46 k 256#32) (k0_off46_inb k 1)),
     upd a11 (lanesB B (k0_off49 k) (k0_off49_inb k)) (lanesB B (k0_off50 k 128#32) (k0_off50_inb k 0)) (lanesB B (k0_off50 k 256#32) (k0_off50_inb k 1)),
     upd a12 (lanesB B (k0_off53 k) (k0_off53_inb k)) (lanesB B (k0_off54 k 128#32) (k0_off54_inb k 0)) (lanesB B (k0_off54 k 256#32) (k0_off54_inb k 1)),
     upd a13 (lanesB B (k0_off57 k) (k0_off57_inb k)) (lanesB B (k0_off58 k 128#32) (k0_off58_inb k 0)) (lanesB B (k0_off58 k 256#32) (k0_off58_inb k 1)),
     upd a14 (lanesB B (k0_off61 k) (k0_off61_inb k)) (lanesB B (k0_off62 k 128#32) (k0_off62_inb k 0)) (lanesB B (k0_off62 k 256#32) (k0_off62_inb k 1)),
     upd a15 (lanesB B (k0_off65 k) (k0_off65_inb k)) (lanesB B (k0_off66 k 128#32) (k0_off66_inb k 0)) (lanesB B (k0_off66 k 256#32) (k0_off66_inb k 1)))

/-- The accumulators after the first `n` trips of chunk-loop 2. -/
def iter2 (B : RowBufB F) (a : Acc F) : ℕ → Acc F
  | 0 => a
  | n + 1 => if h : n < k0_t2_loop.trips then step2 B ⟨n, h⟩ (iter2 B a n) else iter2 B a n

/-- One trip of chunk-loop 3: every accumulator gains its row's and lane group's product. -/
def step3 (B : RowBufA F) (k : Fin k0_t3_loop.trips) : Acc F → Acc F :=
  fun (a0, a1, a2, a3, a4, a5, a6, a7, a8, a9, a10, a11, a12, a13, a14, a15) =>
    (upd a0 (lanesA B (k0_off67 k) (k0_off67_inb k)) (lanesA B (k0_off68 k 128#32) (k0_off68_inb k 0)) (lanesA B (k0_off68 k 256#32) (k0_off68_inb k 1)),
     upd a1 (lanesA B (k0_off71 k) (k0_off71_inb k)) (lanesA B (k0_off72 k 128#32) (k0_off72_inb k 0)) (lanesA B (k0_off72 k 256#32) (k0_off72_inb k 1)),
     upd a2 (lanesA B (k0_off75 k) (k0_off75_inb k)) (lanesA B (k0_off76 k 128#32) (k0_off76_inb k 0)) (lanesA B (k0_off76 k 256#32) (k0_off76_inb k 1)),
     upd a3 (lanesA B (k0_off79 k) (k0_off79_inb k)) (lanesA B (k0_off80 k 128#32) (k0_off80_inb k 0)) (lanesA B (k0_off80 k 256#32) (k0_off80_inb k 1)),
     upd a4 (lanesA B (k0_off83 k) (k0_off83_inb k)) (lanesA B (k0_off84 k 128#32) (k0_off84_inb k 0)) (lanesA B (k0_off84 k 256#32) (k0_off84_inb k 1)),
     upd a5 (lanesA B (k0_off87 k) (k0_off87_inb k)) (lanesA B (k0_off88 k 128#32) (k0_off88_inb k 0)) (lanesA B (k0_off88 k 256#32) (k0_off88_inb k 1)),
     upd a6 (lanesA B (k0_off91 k) (k0_off91_inb k)) (lanesA B (k0_off92 k 128#32) (k0_off92_inb k 0)) (lanesA B (k0_off92 k 256#32) (k0_off92_inb k 1)),
     upd a7 (lanesA B (k0_off95 k) (k0_off95_inb k)) (lanesA B (k0_off96 k 128#32) (k0_off96_inb k 0)) (lanesA B (k0_off96 k 256#32) (k0_off96_inb k 1)),
     upd a8 (lanesA B (k0_off69 k) (k0_off69_inb k)) (lanesA B (k0_off70 k 128#32) (k0_off70_inb k 0)) (lanesA B (k0_off70 k 256#32) (k0_off70_inb k 1)),
     upd a9 (lanesA B (k0_off73 k) (k0_off73_inb k)) (lanesA B (k0_off74 k 128#32) (k0_off74_inb k 0)) (lanesA B (k0_off74 k 256#32) (k0_off74_inb k 1)),
     upd a10 (lanesA B (k0_off77 k) (k0_off77_inb k)) (lanesA B (k0_off78 k 128#32) (k0_off78_inb k 0)) (lanesA B (k0_off78 k 256#32) (k0_off78_inb k 1)),
     upd a11 (lanesA B (k0_off81 k) (k0_off81_inb k)) (lanesA B (k0_off82 k 128#32) (k0_off82_inb k 0)) (lanesA B (k0_off82 k 256#32) (k0_off82_inb k 1)),
     upd a12 (lanesA B (k0_off85 k) (k0_off85_inb k)) (lanesA B (k0_off86 k 128#32) (k0_off86_inb k 0)) (lanesA B (k0_off86 k 256#32) (k0_off86_inb k 1)),
     upd a13 (lanesA B (k0_off89 k) (k0_off89_inb k)) (lanesA B (k0_off90 k 128#32) (k0_off90_inb k 0)) (lanesA B (k0_off90 k 256#32) (k0_off90_inb k 1)),
     upd a14 (lanesA B (k0_off93 k) (k0_off93_inb k)) (lanesA B (k0_off94 k 128#32) (k0_off94_inb k 0)) (lanesA B (k0_off94 k 256#32) (k0_off94_inb k 1)),
     upd a15 (lanesA B (k0_off97 k) (k0_off97_inb k)) (lanesA B (k0_off98 k 128#32) (k0_off98_inb k 0)) (lanesA B (k0_off98 k 256#32) (k0_off98_inb k 1)))

/-- The accumulators after the first `n` trips of chunk-loop 3. -/
def iter3 (B : RowBufA F) (a : Acc F) : ℕ → Acc F
  | 0 => a
  | n + 1 => if h : n < k0_t3_loop.trips then step3 B ⟨n, h⟩ (iter3 B a n) else iter3 B a n

/-- One trip of chunk-loop 4: every accumulator gains its row's and lane group's product. -/
def step4 (B : RowBufB F) (k : Fin k0_t4_loop.trips) : Acc F → Acc F :=
  fun (a0, a1, a2, a3, a4, a5, a6, a7, a8, a9, a10, a11, a12, a13, a14, a15) =>
    (upd a0 (lanesB B (k0_off99 k) (k0_off99_inb k)) (lanesB B (k0_off100 k 128#32) (k0_off100_inb k 0)) (lanesB B (k0_off100 k 256#32) (k0_off100_inb k 1)),
     upd a1 (lanesB B (k0_off103 k) (k0_off103_inb k)) (lanesB B (k0_off104 k 128#32) (k0_off104_inb k 0)) (lanesB B (k0_off104 k 256#32) (k0_off104_inb k 1)),
     upd a2 (lanesB B (k0_off107 k) (k0_off107_inb k)) (lanesB B (k0_off108 k 128#32) (k0_off108_inb k 0)) (lanesB B (k0_off108 k 256#32) (k0_off108_inb k 1)),
     upd a3 (lanesB B (k0_off111 k) (k0_off111_inb k)) (lanesB B (k0_off112 k 128#32) (k0_off112_inb k 0)) (lanesB B (k0_off112 k 256#32) (k0_off112_inb k 1)),
     upd a4 (lanesB B (k0_off115 k) (k0_off115_inb k)) (lanesB B (k0_off116 k 128#32) (k0_off116_inb k 0)) (lanesB B (k0_off116 k 256#32) (k0_off116_inb k 1)),
     upd a5 (lanesB B (k0_off119 k) (k0_off119_inb k)) (lanesB B (k0_off120 k 128#32) (k0_off120_inb k 0)) (lanesB B (k0_off120 k 256#32) (k0_off120_inb k 1)),
     upd a6 (lanesB B (k0_off123 k) (k0_off123_inb k)) (lanesB B (k0_off124 k 128#32) (k0_off124_inb k 0)) (lanesB B (k0_off124 k 256#32) (k0_off124_inb k 1)),
     upd a7 (lanesB B (k0_off127 k) (k0_off127_inb k)) (lanesB B (k0_off128 k 128#32) (k0_off128_inb k 0)) (lanesB B (k0_off128 k 256#32) (k0_off128_inb k 1)),
     upd a8 (lanesB B (k0_off101 k) (k0_off101_inb k)) (lanesB B (k0_off102 k 128#32) (k0_off102_inb k 0)) (lanesB B (k0_off102 k 256#32) (k0_off102_inb k 1)),
     upd a9 (lanesB B (k0_off105 k) (k0_off105_inb k)) (lanesB B (k0_off106 k 128#32) (k0_off106_inb k 0)) (lanesB B (k0_off106 k 256#32) (k0_off106_inb k 1)),
     upd a10 (lanesB B (k0_off109 k) (k0_off109_inb k)) (lanesB B (k0_off110 k 128#32) (k0_off110_inb k 0)) (lanesB B (k0_off110 k 256#32) (k0_off110_inb k 1)),
     upd a11 (lanesB B (k0_off113 k) (k0_off113_inb k)) (lanesB B (k0_off114 k 128#32) (k0_off114_inb k 0)) (lanesB B (k0_off114 k 256#32) (k0_off114_inb k 1)),
     upd a12 (lanesB B (k0_off117 k) (k0_off117_inb k)) (lanesB B (k0_off118 k 128#32) (k0_off118_inb k 0)) (lanesB B (k0_off118 k 256#32) (k0_off118_inb k 1)),
     upd a13 (lanesB B (k0_off121 k) (k0_off121_inb k)) (lanesB B (k0_off122 k 128#32) (k0_off122_inb k 0)) (lanesB B (k0_off122 k 256#32) (k0_off122_inb k 1)),
     upd a14 (lanesB B (k0_off125 k) (k0_off125_inb k)) (lanesB B (k0_off126 k 128#32) (k0_off126_inb k 0)) (lanesB B (k0_off126 k 256#32) (k0_off126_inb k 1)),
     upd a15 (lanesB B (k0_off129 k) (k0_off129_inb k)) (lanesB B (k0_off130 k 128#32) (k0_off130_inb k 0)) (lanesB B (k0_off130 k 256#32) (k0_off130_inb k 1)))

/-- The accumulators after the first `n` trips of chunk-loop 4. -/
def iter4 (B : RowBufB F) (a : Acc F) : ℕ → Acc F
  | 0 => a
  | n + 1 => if h : n < k0_t4_loop.trips then step4 B ⟨n, h⟩ (iter4 B a n) else iter4 B a n

section Trips

variable (d : Dev nD) (L : grid0.Coords)

set_option maxHeartbeats 4000000 in
/-- One trip of chunk-loop 1 reads its row buffer and yields `step1` of the accumulators. -/
theorem trip1 (B : Buf (Elt F) ((V d (cV L) (jV L)).loc cc0_scratch1)) (k : Fin k0_t1_loop.trips) (acc : Acc F)
    (v28 v29 : FVec F S16 .f32) (c18 : F .f32) :
    ((aS).view.loc (V d (cV L) (jV L)) ↦{fullShare} B : sProp 𝕄)
      ⊢ wp frame (wpE (defs₀ (F := F)) 𝒱₀ (V d (cV L) (jV L)) none) Set.univ
          (k0_t1_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 v28 v29 c18 k acc)
          (fun r => iprop(⌜r = step1 B k acc⌝ ∗ (aS).view.loc (V d (cV L) (jV L)) ↦{fullShare} B)) := by
  obtain ⟨a0, a1, a2, a3, a4, a5, a6, a7, a8, a9, a10, a11, a12, a13, a14, a15⟩ := acc
  unfold k0_t1_body
  iintro H
  sl_exec
  sl_step
  isplitr
  · ipureintro; rfl
  · iexact H

set_option maxHeartbeats 4000000 in
/-- One trip of chunk-loop 2 reads its row buffer and yields `step2` of the accumulators. -/
theorem trip2 (B : Buf (Elt F) ((V d (cV L) (jV L)).loc cc0_scratch2)) (k : Fin k0_t2_loop.trips) (acc : Acc F)
    (w0 w1 w2 w3 w4 w5 w6 w7 w8 w9 w10 w11 w12 w13 w14 w15 : FVec F S16 .f32) (z : BitVec 32) :
    ((bS).view.loc (V d (cV L) (jV L)) ↦{fullShare} B : sProp 𝕄)
      ⊢ wp frame (wpE (defs₀ (F := F)) 𝒱₀ (V d (cV L) (jV L)) none) Set.univ
          (k0_t2_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 w0 w1 w2 w3 w4 w5 w6 w7 w8 w9 w10 w11 w12 w13 w14 w15 z k acc)
          (fun r => iprop(⌜r = step2 B k acc⌝ ∗ (bS).view.loc (V d (cV L) (jV L)) ↦{fullShare} B)) := by
  obtain ⟨a0, a1, a2, a3, a4, a5, a6, a7, a8, a9, a10, a11, a12, a13, a14, a15⟩ := acc
  unfold k0_t2_body
  iintro H
  sl_exec
  sl_step
  isplitr
  · ipureintro; rfl
  · iexact H

set_option maxHeartbeats 4000000 in
/-- One trip of chunk-loop 3 reads its row buffer and yields `step3` of the accumulators. -/
theorem trip3 (B : Buf (Elt F) ((V d (cV L) (jV L)).loc cc0_scratch1)) (k : Fin k0_t3_loop.trips) (acc : Acc F)
    (w0 w1 w2 w3 w4 w5 w6 w7 w8 w9 w10 w11 w12 w13 w14 w15 : FVec F S16 .f32) (z : BitVec 32) :
    ((aS).view.loc (V d (cV L) (jV L)) ↦{fullShare} B : sProp 𝕄)
      ⊢ wp frame (wpE (defs₀ (F := F)) 𝒱₀ (V d (cV L) (jV L)) none) Set.univ
          (k0_t3_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 w0 w1 w2 w3 w4 w5 w6 w7 w8 w9 w10 w11 w12 w13 w14 w15 z k acc)
          (fun r => iprop(⌜r = step3 B k acc⌝ ∗ (aS).view.loc (V d (cV L) (jV L)) ↦{fullShare} B)) := by
  obtain ⟨a0, a1, a2, a3, a4, a5, a6, a7, a8, a9, a10, a11, a12, a13, a14, a15⟩ := acc
  unfold k0_t3_body
  iintro H
  sl_exec
  sl_step
  isplitr
  · ipureintro; rfl
  · iexact H

set_option maxHeartbeats 4000000 in
/-- One trip of chunk-loop 4 reads its row buffer and yields `step4` of the accumulators. -/
theorem trip4 (B : Buf (Elt F) ((V d (cV L) (jV L)).loc cc0_scratch2)) (k : Fin k0_t4_loop.trips) (acc : Acc F)
    (w0 w1 w2 w3 w4 w5 w6 w7 w8 w9 w10 w11 w12 w13 w14 w15 : FVec F S16 .f32) (z : BitVec 32) :
    ((bS).view.loc (V d (cV L) (jV L)) ↦{fullShare} B : sProp 𝕄)
      ⊢ wp frame (wpE (defs₀ (F := F)) 𝒱₀ (V d (cV L) (jV L)) none) Set.univ
          (k0_t4_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 w0 w1 w2 w3 w4 w5 w6 w7 w8 w9 w10 w11 w12 w13 w14 w15 z k acc)
          (fun r => iprop(⌜r = step4 B k acc⌝ ∗ (bS).view.loc (V d (cV L) (jV L)) ↦{fullShare} B)) := by
  obtain ⟨a0, a1, a2, a3, a4, a5, a6, a7, a8, a9, a10, a11, a12, a13, a14, a15⟩ := acc
  unfold k0_t4_body
  iintro H
  sl_exec
  sl_step
  isplitr
  · ipureintro; rfl
  · iexact H

end Trips

end Cert.Proof.KB

end
-- ==== Proof.KPlumbB.lean ====
/-
  Where the task's views sit in their buffers, and what they read.

  A whole buffer written whole holds the payload.  Worker `w = 2·(L 1) + (L 0)`'s two slices of the index matrix are row
  `w`, columns `0..383` and `384..1535`; its slice of the output is row `w`.  The index scratch's four chunk slices sit
  at words `384 j ..`, and the three later ones read, out of the 1152 words copied in at word 384, the words
  `384 (j − 1) ..`.  A row gather of the whole table delivers, at row `r` and lane `c`, the table's entry at the row the
  list's `r`-th word names and lane `c`.
-/
import proofs.«205315_g4544075399421_cont_8to1_c_355_20_alg».proof.Proof.KStepB
import Idealize.ShloMosaic.Lib.Writes
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S32x1536 EltTy.i32)
local notation "eV" => (Memref.whole Cert.Kernel.main_arg3_scv : Memref Cert.Kernel.sig Kind.scVector Space.hbm Cert.Kernel.S1000000x128 EltTy.f32)
local notation "oV" => (Memref.whole Cert.Kernel.main_v5_scv : Memref Cert.Kernel.sig Kind.scVector Space.hbm Cert.Kernel.S32x16 EltTy.f32)
local notation "xS" => (Memref.whole Cert.Kernel.cc0_scratch0 : Memref Cert.Kernel.sig Kind.scVector Space.vmem Cert.Kernel.S1536 EltTy.i32)
local notation "aS" => (Memref.whole Cert.Kernel.cc0_scratch1 : Memref Cert.Kernel.sig Kind.scVector Space.vmem Cert.Kernel.S384x128 EltTy.f32)
local notation "bS" => (Memref.whole Cert.Kernel.cc0_scratch2 : Memref Cert.Kernel.sig Kind.scVector Space.vmem Cert.Kernel.S384x128 EltTy.f32)
local notation "tS" => (Memref.whole Cert.Kernel.cc0_scratch3 : Memref Cert.Kernel.sig Kind.scVector Space.vmem Cert.Kernel.S16 EltTy.f32)

open Idealize.ShloMosaic.ValueIdx

variable [FloatOps F]

/-! ## A whole buffer written whole -/

/-- The first row buffer, written whole, holds the payload. -/
theorem writes_whole_aS (g : RowBufA F) (P : S384x128.Idx → Elt F .f32) :
    (aS).view.writes (Elt F) g [⟨Rect.whole S384x128, P⟩] = P := by
  funext i
  exact (congrArg (fun j => (aS).view.writes (Elt F) g [⟨Rect.whole S384x128, P⟩] j) (Rect.emb_whole_apply S384x128 i)).symm.trans
    (View.read_writes_cons_emb (aS).view g (Rect.whole S384x128) P [] i)

/-- The second row buffer, written whole, holds the payload. -/
theorem writes_whole_bS (g : RowBufB F) (P : S384x128.Idx → Elt F .f32) :
    (bS).view.writes (Elt F) g [⟨Rect.whole S384x128, P⟩] = P := by
  funext i
  exact (congrArg (fun j => (bS).view.writes (Elt F) g [⟨Rect.whole S384x128, P⟩] j) (Rect.emb_whole_apply S384x128 i)).symm.trans
    (View.read_writes_cons_emb (bS).view g (Rect.whole S384x128) P [] i)

/-- The first chunk's 384 words of the index scratch, written whole, read the payload. -/
theorem read_writes_whole_xs0 (g : (xs0).view.ty.Contents (Elt F)) (P : S384.Idx → Elt F .i32) :
    (xs0).view.read (Elt F) ((xs0).view.writes (Elt F) g [⟨Rect.whole S384, P⟩]) = P := by
  funext x
  exact (congrArg (fun j => (xs0).view.read (Elt F) ((xs0).view.writes (Elt F) g [⟨Rect.whole S384, P⟩]) j)
    (Rect.emb_whole_apply S384 x)).symm.trans (View.read_writes_cons_emb (xs0).view g (Rect.whole S384) P [] x)

/-! ## The worker's row of the index matrix and of the output -/

/-- The worker's number. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- A one-axis index matched with `[1, n]` is `(0, ·)`. -/
theorem reshapeEquiv_1n {n : ℕ} (h : (⟨1, ![n]⟩ : Shape).numel = (⟨2, ![1, n]⟩ : Shape).numel) (x : (⟨1, ![n]⟩ : Shape).Idx) :
    Shape.reshapeEquiv h x = ix2 (0 : Fin 1) (⟨(x 0).val, (x 0).isLt⟩ : Fin n) :=
  Shape.reshapeEquiv_eq_of_rowMajor h (by
    rw [Shape.rowMajor_val_two, Shape.rowMajor_val_one]
    show 0 * n + (x 0).val = (x 0).val
    omega)

/-- The worker's first slice of the index matrix: its row's first 384 words. -/
abbrev v7 (L : grid0.Coords) : Memref sig .scVector .hbm S384 .i32 :=
  ((iV).slice (Rect.unit (s := S32x1536) (k0_off1 L) S1x384.size (k0_off1_inb L)) (fun _ => rfl)).squeeze S384 squeezes_S1x384_S384

/-- The worker's second slice of the index matrix: its row's other 1152 words. -/
abbrev v13 (L : grid0.Coords) : Memref sig .scVector .hbm S1152 .i32 :=
  ((iV).slice (Rect.unit (s := S32x1536) (k0_off2 L) S1x1152.size (k0_off2_inb L)) (fun _ => rfl)).squeeze S1152 squeezes_S1x1152_S1152

theorem v7_emb (L : grid0.Coords) (x : S384.Idx) :
    (v7 L).view.emb x = ix2 (⟨wid L, wid_lt L⟩ : Fin 32) (⟨(x 0).val, by have h : (x 0).val < 384 := (x 0).isLt; omega⟩ : Fin 1536) := by
  funext a
  refine Fin.ext ?_
  show ((Rect.unit (s := S32x1536) (k0_off1 L) S1x384.size (k0_off1_inb L)).emb
    (Shape.reshapeEquiv squeezes_S1x384_S384.numel_eq x) a : ℕ) = _
  rw [Rect.emb_apply, reshapeEquiv_1n]
  show k0_off1 L a + 1 * ((ix2 (0 : Fin 1) (⟨(x 0).val, (x 0).isLt⟩ : Fin 384)) a).val = _
  rw [k0_off1_eq]
  match a with
  | ⟨0, _⟩ => show 2 * (L 1).val + (L 0).val + 1 * 0 = wid L; unfold wid; omega
  | ⟨1, _⟩ => show 0 + 1 * (x 0).val = (x 0).val; omega

theorem v13_emb (L : grid0.Coords) (y : S1152.Idx) :
    (v13 L).view.emb y = ix2 (⟨wid L, wid_lt L⟩ : Fin 32) (⟨384 + (y 0).val, by have h : (y 0).val < 1152 := (y 0).isLt; omega⟩ : Fin 1536) := by
  funext a
  refine Fin.ext ?_
  show ((Rect.unit (s := S32x1536) (k0_off2 L) S1x1152.size (k0_off2_inb L)).emb
    (Shape.reshapeEquiv squeezes_S1x1152_S1152.numel_eq y) a : ℕ) = _
  rw [Rect.emb_apply, reshapeEquiv_1n]
  show k0_off2 L a + 1 * ((ix2 (0 : Fin 1) (⟨(y 0).val, (y 0).isLt⟩ : Fin 1152)) a).val = _
  rw [k0_off2_eq]
  match a with
  | ⟨0, _⟩ => show 2 * (L 1).val + (L 0).val + 1 * 0 = wid L; unfold wid; omega
  | ⟨1, _⟩ => show 384 + 1 * (y 0).val = 384 + (y 0).val; omega

theorem oRowK_emb (L : grid0.Coords) (z : S16.Idx) :
    (oRowK L).view.emb z = ix2 (⟨wid L, wid_lt L⟩ : Fin 32) (⟨(z 0).val, (z 0).isLt⟩ : Fin 16) := by
  funext a
  refine Fin.ext ?_
  show ((Rect.unit (s := S32x16) (k0_off131 L) S1x16.size (k0_off131_inb L)).emb
    (Shape.reshapeEquiv squeezes_S1x16_S16.numel_eq z) a : ℕ) = _
  rw [Rect.emb_apply, reshapeEquiv_1n]
  show k0_off131 L a + 1 * ((ix2 (0 : Fin 1) (⟨(z 0).val, (z 0).isLt⟩ : Fin 16)) a).val = _
  rw [k0_off131_eq]
  match a with
  | ⟨0, _⟩ => show 2 * (L 1).val + (L 0).val + 1 * 0 = wid L; unfold wid; omega
  | ⟨1, _⟩ => show 0 + 1 * (z 0).val = (z 0).val; omega

/-- The first slice reads the worker's row of the index matrix at the same column. -/
theorem v7_read (L : grid0.Coords) (I4 : S32x1536.Idx → BitVec 32) (x : S384.Idx) :
    (v7 L).view.read (Elt F) I4 x
      = I4 (ix2 (⟨wid L, wid_lt L⟩ : Fin 32) (⟨(x 0).val, by have h : (x 0).val < 384 := (x 0).isLt; omega⟩ : Fin 1536)) := by
  rw [View.read_apply, v7_emb]; rfl

/-- The second slice reads the worker's row of the index matrix 384 columns on. -/
theorem v13_read (L : grid0.Coords) (I4 : S32x1536.Idx → BitVec 32) (y : S1152.Idx) :
    (v13 L).view.read (Elt F) I4 y
      = I4 (ix2 (⟨wid L, wid_lt L⟩ : Fin 32) (⟨384 + (y 0).val, by have h : (y 0).val < 1152 := (y 0).isLt; omega⟩ : Fin 1536)) := by
  rw [View.read_apply, v13_emb]; rfl

/-- The output slice reads the worker's row of the output. -/
theorem oRowK_read (L : grid0.Coords) (O : S32x16.Idx → Elt F .f32) (z : S16.Idx) :
    (oRowK L).view.read (Elt F) O z = O (ix2 (⟨wid L, wid_lt L⟩ : Fin 32) (⟨(z 0).val, (z 0).isLt⟩ : Fin 16)) := by
  rw [View.read_apply, oRowK_emb]; rfl

/-! ## The index scratch's slices -/

theorem xs0_emb (x : S384.Idx) :
    (xs0).view.emb x = ix1 (⟨0 + (x 0).val, by have h : (x 0).val < 384 := (x 0).isLt; omega⟩ : Fin 1536) := by
  funext a
  refine Fin.ext ?_
  match a with
  | ⟨0, _⟩ => show 0 + 1 * (x 0).val = 0 + (x 0).val; omega

/-- Chunk 0's slice reads the scratch's words from word 0 on. -/
theorem xs0_read (g : S1536.Idx → BitVec 32) (x : S384.Idx) :
    (xs0).view.read (Elt F) g x
      = g (ix1 (⟨0 + (x 0).val, by have h : (x 0).val < 384 := (x 0).isLt; omega⟩ : Fin 1536)) := by
  rw [View.read_apply, xs0_emb]; rfl

theorem xs1_emb (x : S384.Idx) :
    (xs1).view.emb x = ix1 (⟨384 + (x 0).val, by have h : (x 0).val < 384 := (x 0).isLt; omega⟩ : Fin 1536) := by
  funext a
  refine Fin.ext ?_
  match a with
  | ⟨0, _⟩ => show 384 + 1 * (x 0).val = 384 + (x 0).val; omega

/-- Chunk 1's slice reads the scratch's words from word 384 on. -/
theorem xs1_read (g : S1536.Idx → BitVec 32) (x : S384.Idx) :
    (xs1).view.read (Elt F) g x
      = g (ix1 (⟨384 + (x 0).val, by have h : (x 0).val < 384 := (x 0).isLt; omega⟩ : Fin 1536)) := by
  rw [View.read_apply, xs1_emb]; rfl

theorem xs2_emb (x : S384.Idx) :
    (xs2).view.emb x = ix1 (⟨768 + (x 0).val, by have h : (x 0).val < 384 := (x 0).isLt; omega⟩ : Fin 1536) := by
  funext a
  refine Fin.ext ?_
  match a with
  | ⟨0, _⟩ => show 768 + 1 * (x 0).val = 768 + (x 0).val; omega

/-- Chunk 2's slice reads the scratch's words from word 768 on. -/
theorem xs2_read (g : S1536.Idx → BitVec 32) (x : S384.Idx) :
    (xs2).view.read (Elt F) g x
      = g (ix1 (⟨768 + (x 0).val, by have h : (x 0).val < 384 := (x 0).isLt; omega⟩ : Fin 1536)) := by
  rw [View.read_apply, xs2_emb]; rfl

theorem xs3_emb (x : S384.Idx) :
    (xs3).view.emb x = ix1 (⟨1152 + (x 0).val, by have h : (x 0).val < 384 := (x 0).isLt; omega⟩ : Fin 1536) := by
  funext a
  refine Fin.ext ?_
  match a with
  | ⟨0, _⟩ => show 1152 + 1 * (x 0).val = 1152 + (x 0).val; omega

/-- Chunk 3's slice reads the scratch's words from word 1152 on. -/
theorem xs3_read (g : S1536.Idx → BitVec 32) (x : S384.Idx) :
    (xs3).view.read (Elt F) g x
      = g (ix1 (⟨1152 + (x 0).val, by have h : (x 0).val < 384 := (x 0).isLt; omega⟩ : Fin 1536)) := by
  rw [View.read_apply, xs3_emb]; rfl

theorem xsR_emb (y : S1152.Idx) :
    (xsR).view.emb y = ix1 (⟨384 + (y 0).val, by have h : (y 0).val < 1152 := (y 0).isLt; omega⟩ : Fin 1536) := by
  funext a
  refine Fin.ext ?_
  match a with
  | ⟨0, _⟩ => show 384 + 1 * (y 0).val = 384 + (y 0).val; omega

/-- The later chunks' slice reads the scratch's words from word 384 on. -/
theorem xsR_read (g : S1536.Idx → BitVec 32) (y : S1152.Idx) :
    (xsR).view.read (Elt F) g y
      = g (ix1 (⟨384 + (y 0).val, by have h : (y 0).val < 1152 := (y 0).isLt; omega⟩ : Fin 1536)) := by
  rw [View.read_apply, xsR_emb]; rfl

/-- The later chunks' 1152 words, written whole: word `384 + y` of the scratch holds the payload's word `y`. -/
theorem writes_whole_xsR_apply (g : S1536.Idx → BitVec 32) (P : S1152.Idx → BitVec 32) (y : Fin 1152) :
    ((xsR).view.writes (Elt F) g [⟨Rect.whole S1152, P⟩] : S1536.Idx → BitVec 32)
        (ix1 (⟨384 + y.val, by have := y.isLt; omega⟩ : Fin 1536)) = P (ix1 y) := by
  have h := View.read_writes_cons_emb (Val := Elt F) (xsR).view g (Rect.whole S1152) P [] (ix1 y)
  generalize (xsR).view.writes (Elt F) g [⟨Rect.whole S1152, P⟩] = W at h ⊢
  have e : (Rect.whole S1152).emb (ix1 y) = ix1 y := Rect.emb_whole_apply S1152 (ix1 y)
  rw [e, xsR_read] at h
  exact h

/-- Chunk 1's slice, after the 1152 words are written, reads the payload from word 0 on. -/
theorem xs1_read_writes_xsR (g : S1536.Idx → BitVec 32) (P : S1152.Idx → BitVec 32) (x : S384.Idx) :
    (xs1).view.read (Elt F) ((xsR).view.writes (Elt F) g [⟨Rect.whole S1152, P⟩]) x
      = P (ix1 (⟨0 + (x 0).val, by have h : (x 0).val < 384 := (x 0).isLt; omega⟩ : Fin 1152)) := by
  have hx : (x 0).val < 384 := (x 0).isLt
  rw [xs1_read]
  have h := writes_whole_xsR_apply (F := F) g P (⟨0 + (x 0).val, by omega⟩ : Fin 1152)
  refine Eq.trans (congrArg _ (congrArg ix1 (Fin.ext ?_))) h
  show 384 + (x 0).val = 384 + (0 + (x 0).val)
  omega

/-- Chunk 2's slice, after the 1152 words are written, reads the payload from word 384 on. -/
theorem xs2_read_writes_xsR (g : S1536.Idx → BitVec 32) (P : S1152.Idx → BitVec 32) (x : S384.Idx) :
    (xs2).view.read (Elt F) ((xsR).view.writes (Elt F) g [⟨Rect.whole S1152, P⟩]) x
      = P (ix1 (⟨384 + (x 0).val, by have h : (x 0).val < 384 := (x 0).isLt; omega⟩ : Fin 1152)) := by
  have hx : (x 0).val < 384 := (x 0).isLt
  rw [xs2_read]
  have h := writes_whole_xsR_apply (F := F) g P (⟨384 + (x 0).val, by omega⟩ : Fin 1152)
  refine Eq.trans (congrArg _ (congrArg ix1 (Fin.ext ?_))) h
  show 768 + (x 0).val = 384 + (384 + (x 0).val)
  omega

/-- Chunk 3's slice, after the 1152 words are written, reads the payload from word 768 on. -/
theorem xs3_read_writes_xsR (g : S1536.Idx → BitVec 32) (P : S1152.Idx → BitVec 32) (x : S384.Idx) :
    (xs3).view.read (Elt F) ((xsR).view.writes (Elt F) g [⟨Rect.whole S1152, P⟩]) x
      = P (ix1 (⟨768 + (x 0).val, by have h : (x 0).val < 384 := (x 0).isLt; omega⟩ : Fin 1152)) := by
  have hx : (x 0).val < 384 := (x 0).isLt
  rw [xs3_read]
  have h := writes_whole_xsR_apply (F := F) g P (⟨768 + (x 0).val, by omega⟩ : Fin 1152)
  refine Eq.trans (congrArg _ (congrArg ix1 (Fin.ext ?_))) h
  show 1152 + (x 0).val = 384 + (768 + (x 0).val)
  omega

/-! ## The row gather -/

/-- The whole table as the kernel slices it. -/
abbrev tblSrc : Memref sig .scVector .hbm S1000000x128 .f32 :=
  (eV).slice (Rect.unit (s := S1000000x128) ![0, 0] S1000000x128.size inb_S1000000x128_S1000000x128_0_0) (fun _ => rfl)

/-- A row gather of the whole table: row `r`, lane `c` of what it delivers is the table's entry at the row the list's
    `r`-th word names, lane `c`. -/
theorem gatherPayload_apply (E : S1000000x128.Idx → Elt F .f32) (f : S384.Idx → BitVec 32)
    (h : ∀ x, (f x).toNat < S1000000x128.size gathers_S1000000x128_S384x128.axis)
    (hn : S384.numel = S384x128.size gathers_S1000000x128_S384x128.axis') (r : Fin 384) (c : Fin 128) :
    SparseCore.gatherPayload (F := F) gathers_S1000000x128_S384x128 ((tblSrc).view.read (Elt F) E) (SparseCore.rows (F := F) f hn h)
        (ix2 r c)
      = E (ix2 (⟨(f (ix1 r)).toNat, h (ix1 r)⟩ : Fin 1000000) c) := by
  unfold SparseCore.gatherPayload
  rw [View.read_apply]
  show E _ = _
  refine congrArg E (funext fun a => Fin.ext ?_)
  match a with
  | ⟨0, _⟩ =>
    show 0 + 1 * (f (S384.rowMajor.symm ((⟨r.val, _⟩ : Fin _)))).toNat = (f (ix1 r)).toNat
    have hr : S384.rowMajor.symm (Fin.cast hn.symm r) = ix1 r := by
      rw [Equiv.symm_apply_eq]; exact Fin.ext (by rw [Shape.rowMajor_val_one]; rfl)
    rw [Nat.zero_add, Nat.one_mul]
    exact congrArg (fun i => (f i).toNat) hr
  | ⟨1, _⟩ => show 0 + 1 * c.val = c.val; omega

end Cert.Proof.KB

end
-- ==== Proof.KOutB.lean ====
/-
  What the kernel leaves in the output, as a pure function of the index matrix and the table, for any float instance.

  Worker `w` (row `w` of the index matrix) has four chunks of 384 row numbers; chunk `j`'s are the words
  `384 j .. 384 j + 383` of the row.  A chunk's row buffer holds, at row `r`, the table row its `r`-th word names.  The
  worker's sixteen accumulators are the four chunk-loops run one after the other from zero; its total is their sum;
  the output holds worker `w`'s total in row `w`.
-/
import proofs.«205315_g4544075399421_cont_8to1_c_355_20_alg».proof.Proof.KPlumbB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S32x1536 EltTy.i32)
local notation "eV" => (Memref.whole Cert.Kernel.main_arg3_scv : Memref Cert.Kernel.sig Kind.scVector Space.hbm Cert.Kernel.S1000000x128 EltTy.f32)
local notation "oV" => (Memref.whole Cert.Kernel.main_v5_scv : Memref Cert.Kernel.sig Kind.scVector Space.hbm Cert.Kernel.S32x16 EltTy.f32)
local notation "xS" => (Memref.whole Cert.Kernel.cc0_scratch0 : Memref Cert.Kernel.sig Kind.scVector Space.vmem Cert.Kernel.S1536 EltTy.i32)
local notation "aS" => (Memref.whole Cert.Kernel.cc0_scratch1 : Memref Cert.Kernel.sig Kind.scVector Space.vmem Cert.Kernel.S384x128 EltTy.f32)
local notation "bS" => (Memref.whole Cert.Kernel.cc0_scratch2 : Memref Cert.Kernel.sig Kind.scVector Space.vmem Cert.Kernel.S384x128 EltTy.f32)
local notation "tS" => (Memref.whole Cert.Kernel.cc0_scratch3 : Memref Cert.Kernel.sig Kind.scVector Space.vmem Cert.Kernel.S16 EltTy.f32)

variable [FloatOps F]

open Idealize.ShloMosaic.ValueIdx

/-- The sixteen accumulators at zero, as the kernel builds them. -/
def acc0 : Acc F :=
  (k0_pay85, k0_pay86, k0_pay87 (FloatOps.ofBits FTy.f32 0#32), k0_pay88, k0_pay89, k0_pay90, k0_pay91, k0_pay92, k0_pay93,
    k0_pay94, k0_pay95, k0_pay96, k0_pay97, k0_pay98, k0_pay99, k0_pay100)

/-- Chunk `j`'s 384 row numbers in row `w` of the index matrix. -/
def chunkWords (I4 : S32x1536.Idx → BitVec 32) (w : Fin 32) (j : Fin 4) : S384.Idx → BitVec 32 :=
  fun x => I4 (ix2 w (⟨384 * j.val + (x 0).val, by have := j.isLt; have h : (x 0).val < 384 := (x 0).isLt; omega⟩ : Fin 1536))

/-- The row buffer a chunk's gather leaves: at row `r` the table row the `r`-th word names (a word that names no
    row is read modulo the table's height; under the precondition there is none). -/
def gathered (E : S1000000x128.Idx → Elt F .f32) (f : S384.Idx → BitVec 32) : S384x128.Idx → Elt F .f32 :=
  fun x => E (ix2 (⟨(f (ix1 (x 0))).toNat % 1000000, Nat.mod_lt _ (by norm_num)⟩ : Fin 1000000) (x 1))

/-- Worker `w`'s accumulators after its four chunk-loops. -/
def workerAcc (I4 : S32x1536.Idx → BitVec 32) (E : S1000000x128.Idx → Elt F .f32) (w : Fin 32) : Acc F :=
  iter4 (gathered E (chunkWords I4 w 3))
    (iter3 (gathered E (chunkWords I4 w 2))
      (iter2 (gathered E (chunkWords I4 w 1))
        (iter1 (gathered E (chunkWords I4 w 0)) acc0 k0_t1_loop.trips) k0_t2_loop.trips) k0_t3_loop.trips) k0_t4_loop.trips

/-- The sum of sixteen accumulators, as the kernel adds them. -/
def sum16 : Acc F → FVec F S16 .f32 :=
  fun (a0, a1, a2, a3, a4, a5, a6, a7, a8, a9, a10, a11, a12, a13, a14, a15) =>
    k0_pay105 a0 a1 a2 a3 a4 a5 a6 a7 a8 a9 a10 a11 a12 a13 a14 a15

/-- Worker `w`'s total: sixteen lanes. -/
def workerTotal (I4 : S32x1536.Idx → BitVec 32) (E : S1000000x128.Idx → Elt F .f32) (w : Fin 32) : FVec F S16 .f32 :=
  sum16 (workerAcc I4 E w)

/-- The whole output: row `w` is worker `w`'s total. -/
def outVal : OutFn F := fun _ I4 E o => workerTotal I4 E (o 0) (ix1 (o 1))

end Cert.Proof.KB

end
-- ==== Proof.KJoinB.lean ====
/-
  What the kernel's transfers leave, named: the words a chunk's gather reads are that chunk's words of the worker's
  row of the index matrix, and a gather's payload is the chunk's row buffer.
-/
import proofs.«205315_g4544075399421_cont_8to1_c_355_20_alg».proof.Proof.KOutB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S32x1536 EltTy.i32)
local notation "eV" => (Memref.whole Cert.Kernel.main_arg3_scv : Memref Cert.Kernel.sig Kind.scVector Space.hbm Cert.Kernel.S1000000x128 EltTy.f32)
local notation "oV" => (Memref.whole Cert.Kernel.main_v5_scv : Memref Cert.Kernel.sig Kind.scVector Space.hbm Cert.Kernel.S32x16 EltTy.f32)
local notation "xS" => (Memref.whole Cert.Kernel.cc0_scratch0 : Memref Cert.Kernel.sig Kind.scVector Space.vmem Cert.Kernel.S1536 EltTy.i32)
local notation "aS" => (Memref.whole Cert.Kernel.cc0_scratch1 : Memref Cert.Kernel.sig Kind.scVector Space.vmem Cert.Kernel.S384x128 EltTy.f32)
local notation "bS" => (Memref.whole Cert.Kernel.cc0_scratch2 : Memref Cert.Kernel.sig Kind.scVector Space.vmem Cert.Kernel.S384x128 EltTy.f32)
local notation "tS" => (Memref.whole Cert.Kernel.cc0_scratch3 : Memref Cert.Kernel.sig Kind.scVector Space.vmem Cert.Kernel.S16 EltTy.f32)

variable [FloatOps F]

open Idealize.ShloMosaic.ValueIdx

variable (L : grid0.Coords)

/-- The worker's row number, as an index of the 32 rows. -/
abbrev widF (L : grid0.Coords) : Fin 32 := ⟨wid L, wid_lt L⟩

/-- A gather over row numbers all below a million leaves the chunk's row buffer. -/
theorem gather_eq (E : S1000000x128.Idx → Elt F .f32) (f : S384.Idx → BitVec 32)
    (h : ∀ x, (f x).toNat < S1000000x128.size gathers_S1000000x128_S384x128.axis)
    (hn : S384.numel = S384x128.size gathers_S1000000x128_S384x128.axis') :
    SparseCore.gatherPayload (F := F) gathers_S1000000x128_S384x128 ((tblSrc).view.read (Elt F) E) (SparseCore.rows (F := F) f hn h)
      = gathered E f := by
  funext x
  obtain ⟨r, c, rfl⟩ : ∃ (r : Fin 384) (c : Fin 128), x = ix2 r c := ⟨x 0, x 1, eq_ix2 x⟩
  rw [gatherPayload_apply]
  unfold gathered
  exact congrArg (fun k : Fin 1000000 => E (ix2 k c)) (Fin.ext (Nat.mod_eq_of_lt (h (ix1 r))).symm)

/-- The first index copy lands chunk 0's words. -/
theorem words0 (I4 : S32x1536.Idx → BitVec 32) (g : (xs0).view.ty.Contents (Elt F)) :
    (xs0).view.read (Elt F) ((xs0).view.writes (Elt F) g
        [⟨Rect.whole S384, (ReadAs.same : ReadAs (Elt F) S384 .i32 S384 .i32).apply ((v7 L).view.read (Elt F) I4)⟩])
      = chunkWords I4 (widF L) 0 := by
  rw [read_writes_whole_xs0, ReadAs.apply_same]
  funext x
  rw [v7_read]
  unfold chunkWords
  exact congrArg (fun k : Fin 1536 => I4 (ix2 (widF L) k)) (Fin.ext (by simp))

/-- The second index copy lands chunks 1, 2, 3: chunk 1's words. -/
theorem words1 (I4 : S32x1536.Idx → BitVec 32) (g : S1536.Idx → BitVec 32) :
    (xs1).view.read (Elt F) ((xsR).view.writes (Elt F) g
        [⟨Rect.whole S1152, (ReadAs.same : ReadAs (Elt F) S1152 .i32 S1152 .i32).apply ((v13 L).view.read (Elt F) I4)⟩])
      = chunkWords I4 (widF L) 1 := by
  funext x
  have hx : (x 0).val < 384 := (x 0).isLt
  rw [xs1_read_writes_xsR, ReadAs.apply_same, v13_read]
  unfold chunkWords
  exact congrArg (fun k : Fin 1536 => I4 (ix2 (widF L) k)) (Fin.ext (by simp <;> omega))

/-- The second index copy lands chunks 1, 2, 3: chunk 2's words. -/
theorem words2 (I4 : S32x1536.Idx → BitVec 32) (g : S1536.Idx → BitVec 32) :
    (xs2).view.read (Elt F) ((xsR).view.writes (Elt F) g
        [⟨Rect.whole S1152, (ReadAs.same : ReadAs (Elt F) S1152 .i32 S1152 .i32).apply ((v13 L).view.read (Elt F) I4)⟩])
      = chunkWords I4 (widF L) 2 := by
  funext x
  have hx : (x 0).val < 384 := (x 0).isLt
  rw [xs2_read_writes_xsR, ReadAs.apply_same, v13_read]
  unfold chunkWords
  exact congrArg (fun k : Fin 1536 => I4 (ix2 (widF L) k)) (Fin.ext (by simp <;> omega))

/-- The second index copy lands chunks 1, 2, 3: chunk 3's words. -/
theorem words3 (I4 : S32x1536.Idx → BitVec 32) (g : S1536.Idx → BitVec 32) :
    (xs3).view.read (Elt F) ((xsR).view.writes (Elt F) g
        [⟨Rect.whole S1152, (ReadAs.same : ReadAs (Elt F) S1152 .i32 S1152 .i32).apply ((v13 L).view.read (Elt F) I4)⟩])
      = chunkWords I4 (widF L) 3 := by
  funext x
  have hx : (x 0).val < 384 := (x 0).isLt
  rw [xs3_read_writes_xsR, ReadAs.apply_same, v13_read]
  unfold chunkWords
  exact congrArg (fun k : Fin 1536 => I4 (ix2 (widF L) k)) (Fin.ext (by simp <;> omega))

/-- The output scratch, stored whole, reads back what was stored. -/
theorem read_writes_tS (ft : (tS).view.ty.Contents (Elt F)) (w : S16.Idx → Elt F .f32) :
    (tS).view.read (Elt F) ((tS).view.writes (Elt F) ft [⟨Rect.unit (s := S16) ![0] S16.size inb_S16_S16_0, w⟩]) = w := by
  funext x
  have e := View.read_writes_cons_emb (tS).view (Val := Elt F) (f := ft) (Rect.unit (s := S16) ![0] S16.size inb_S16_S16_0) w [] x
  have hx : (Rect.unit (s := S16) ![0] S16.size inb_S16_S16_0).emb x = x := by
    funext a; apply Fin.ext
    rw [Rect.emb_apply]
    match a with
    | ⟨0, _⟩ => simp
  rw [hx] at e; exact e

/-- The worker's row of the output, written whole, holds the payload at the row's lanes. -/
theorem row_written (O0 : S32x16.Idx → Elt F .f32) (P : S16.Idx → Elt F .f32) (z : S16.Idx) :
    ((oRowK L).view.writes (Elt F) O0 [⟨Rect.whole S16, P⟩]) ((oRowK L).view.emb z) = P z := by
  have e := View.read_writes_cons_emb (oRowK L).view (Val := Elt F) (f := O0) (Rect.whole S16) P [] z
  rw [Rect.emb_whole_apply, View.read_apply, cast_eq] at e
  exact e

end Cert.Proof.KB

end
-- ==== Proof.TileKB.lean ====
/-
  One vector subcore's task, at a symbolic place (SparseCore `L 0`, subcore `L 1`), for any float instance.

  Worker `w = 2·(L 1) + (L 0)` copies row `w` of the index matrix (1536 words: four chunks of 128 target, 128 context
  and 128 negative row numbers) into its index scratch in two copies, gathers each chunk's 384 table rows into one of
  two row buffers (the next chunk's gather in flight while the current chunk is summed), adds for every pair of rows
  `r, 128 + r, 256 + r` of a chunk and every group of sixteen lanes the product `buf[r] · (buf[128 + r] − buf[256 + r])`
  into sixteen lane-vector accumulators, sums the sixteen accumulators, stores the sum in its output scratch and copies
  it to row `w` of the output.
-/
import proofs.«205315_g4544075399421_cont_8to1_c_355_20_alg».proof.Proof.KJoinB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v4_scv : Memref Cert.Kernel.sig Kind.scVector Space.hbm Cert.Kernel.S32x1536 EltTy.i32)
local notation "eV" => (Memref.whole Cert.Kernel.main_arg3_scv : Memref Cert.Kernel.sig Kind.scVector Space.hbm Cert.Kernel.S1000000x128 EltTy.f32)
local notation "oV" => (Memref.whole Cert.Kernel.main_v5_scv : Memref Cert.Kernel.sig Kind.scVector Space.hbm Cert.Kernel.S32x16 EltTy.f32)
local notation "xS" => (Memref.whole Cert.Kernel.cc0_scratch0 : Memref Cert.Kernel.sig Kind.scVector Space.vmem Cert.Kernel.S1536 EltTy.i32)
local notation "aS" => (Memref.whole Cert.Kernel.cc0_scratch1 : Memref Cert.Kernel.sig Kind.scVector Space.vmem Cert.Kernel.S384x128 EltTy.f32)
local notation "bS" => (Memref.whole Cert.Kernel.cc0_scratch2 : Memref Cert.Kernel.sig Kind.scVector Space.vmem Cert.Kernel.S384x128 EltTy.f32)
local notation "tS" => (Memref.whole Cert.Kernel.cc0_scratch3 : Memref Cert.Kernel.sig Kind.scVector Space.vmem Cert.Kernel.S16 EltTy.f32)

variable [FloatOps F]

section Tile

variable (d : Dev nD) (L : grid0.Coords)

omit [FloatOps F] in
/-- Contents may be named: what is held at `f` is held at some `g` equal to `f`. -/
theorem name_contents {ℓ : Loc nD τ sig} {I : Finset (Idx ℓ)} {q : PosShare TreeShare} (f : Buf (Elt F) ℓ) :
    (ℓ ↦[I]{q} f : sProp 𝕄) ⊢ ∃ g, ⌜g = f⌝ ∗ ℓ ↦[I]{q} g := by
  iintro H; iexists f; isplitr
  · ipureintro; rfl
  · iexact H

omit [FloatOps F] in
/-- Elements carved out of a set and the rest of the set, each at some contents, are the set at some contents. -/
theorem rejoin {ℓ : Loc nD τ sig} {I S : Finset (Idx ℓ)} (h : I ⊆ S) (f g : Buf (Elt F) ℓ) :
    iprop((ℓ ↦[I]{fullShare} f) ∗ (ℓ ↦[S \ I]{fullShare} g)) ⊢ (∃ h', ℓ ↦[S]{fullShare} h' : sProp 𝕄) := by
  refine (pointsTo_join (Finset.disjoint_sdiff)).trans ?_
  rw [Finset.union_sdiff_of_subset h]
  iintro H; iexists _; iexact H

/-! ### What a chunk-loop holds before trip `k`: the accumulators after `k` trips, the row buffer unchanged -/

def inv1 (B : Buf (Elt F) ((V d (cV L) (jV L)).loc cc0_scratch1)) (a : Acc F) (k : ℕ) (acc : Acc F) : sProp 𝕄 :=
  iprop(⌜acc = iter1 B a k⌝ ∗ (aS).view.loc (V d (cV L) (jV L)) ↦{fullShare} B)
def inv2 (B : Buf (Elt F) ((V d (cV L) (jV L)).loc cc0_scratch2)) (a : Acc F) (k : ℕ) (acc : Acc F) : sProp 𝕄 :=
  iprop(⌜acc = iter2 B a k⌝ ∗ (bS).view.loc (V d (cV L) (jV L)) ↦{fullShare} B)
def inv3 (B : Buf (Elt F) ((V d (cV L) (jV L)).loc cc0_scratch1)) (a : Acc F) (k : ℕ) (acc : Acc F) : sProp 𝕄 :=
  iprop(⌜acc = iter3 B a k⌝ ∗ (aS).view.loc (V d (cV L) (jV L)) ↦{fullShare} B)
def inv4 (B : Buf (Elt F) ((V d (cV L) (jV L)).loc cc0_scratch2)) (a : Acc F) (k : ℕ) (acc : Acc F) : sProp 𝕄 :=
  iprop(⌜acc = iter4 B a k⌝ ∗ (bS).view.loc (V d (cV L) (jV L)) ↦{fullShare} B)

/-- One trip of chunk-loop 1 carries its invariant from `k` to `k + 1`. -/
theorem region1 (B : Buf (Elt F) ((V d (cV L) (jV L)).loc cc0_scratch1)) (a : Acc F) (k : Fin k0_t1_loop.trips) (acc : Acc F)
    (v28 v29 : FVec F S16 .f32) (c18 : F .f32) :
    inv1 d L B a k.val acc
      ⊢ wp frame (wpE (defs₀ (F := F)) 𝒱₀ (V d (cV L) (jV L)) none) Set.univ
          (k0_t1_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 v28 v29 c18 k acc)
          (inv1 d L B a (k.val + 1)) := by
  unfold inv1
  iintro ⟨%hacc, HB⟩
  iapply ((trip1 d L B k acc v28 v29 c18).trans (wp_mono frame _ _ fun r => ?_)) $$ HB
  iintro ⟨%hr, H⟩
  isplitr
  · ipureintro; rw [hr, hacc, iter1, dif_pos k.isLt]
  · iexact H

/-- One trip of chunk-loop 2 carries its invariant from `k` to `k + 1`. -/
theorem region2 (B : Buf (Elt F) ((V d (cV L) (jV L)).loc cc0_scratch2)) (a : Acc F) (k : Fin k0_t2_loop.trips) (acc : Acc F)
    (w0 w1 w2 w3 w4 w5 w6 w7 w8 w9 w10 w11 w12 w13 w14 w15 : FVec F S16 .f32) (z : BitVec 32) :
    inv2 d L B a k.val acc
      ⊢ wp frame (wpE (defs₀ (F := F)) 𝒱₀ (V d (cV L) (jV L)) none) Set.univ
          (k0_t2_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 w0 w1 w2 w3 w4 w5 w6 w7 w8 w9 w10 w11 w12 w13 w14 w15 z k acc)
          (inv2 d L B a (k.val + 1)) := by
  unfold inv2
  iintro ⟨%hacc, HB⟩
  iapply ((trip2 d L B k acc w0 w1 w2 w3 w4 w5 w6 w7 w8 w9 w10 w11 w12 w13 w14 w15 z).trans (wp_mono frame _ _ fun r => ?_)) $$ HB
  iintro ⟨%hr, H⟩
  isplitr
  · ipureintro; rw [hr, hacc, iter2, dif_pos k.isLt]
  · iexact H

/-- One trip of chunk-loop 3 carries its invariant from `k` to `k + 1`. -/
theorem region3 (B : Buf (Elt F) ((V d (cV L) (jV L)).loc cc0_scratch1)) (a : Acc F) (k : Fin k0_t3_loop.trips) (acc : Acc F)
    (w0 w1 w2 w3 w4 w5 w6 w7 w8 w9 w10 w11 w12 w13 w14 w15 : FVec F S16 .f32) (z : BitVec 32) :
    inv3 d L B a k.val acc
      ⊢ wp frame (wpE (defs₀ (F := F)) 𝒱₀ (V d (cV L) (jV L)) none) Set.univ
          (k0_t3_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 w0 w1 w2 w3 w4 w5 w6 w7 w8 w9 w10 w11 w12 w13 w14 w15 z k acc)
          (inv3 d L B a (k.val + 1)) := by
  unfold inv3
  iintro ⟨%hacc, HB⟩
  iapply ((trip3 d L B k acc w0 w1 w2 w3 w4 w5 w6 w7 w8 w9 w10 w11 w12 w13 w14 w15 z).trans (wp_mono frame _ _ fun r => ?_)) $$ HB
  iintro ⟨%hr, H⟩
  isplitr
  · ipureintro; rw [hr, hacc, iter3, dif_pos k.isLt]
  · iexact H

/-- One trip of chunk-loop 4 carries its invariant from `k` to `k + 1`. -/
theorem region4 (B : Buf (Elt F) ((V d (cV L) (jV L)).loc cc0_scratch2)) (a : Acc F) (k : Fin k0_t4_loop.trips) (acc : Acc F)
    (w0 w1 w2 w3 w4 w5 w6 w7 w8 w9 w10 w11 w12 w13 w14 w15 : FVec F S16 .f32) (z : BitVec 32) :
    inv4 d L B a k.val acc
      ⊢ wp frame (wpE (defs₀ (F := F)) 𝒱₀ (V d (cV L) (jV L)) none) Set.univ
          (k0_t4_body L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0 w0 w1 w2 w3 w4 w5 w6 w7 w8 w9 w10 w11 w12 w13 w14 w15 z k acc)
          (inv4 d L B a (k.val + 1)) := by
  unfold inv4
  iintro ⟨%hacc, HB⟩
  iapply ((trip4 d L B k acc w0 w1 w2 w3 w4 w5 w6 w7 w8 w9 w10 w11 w12 w13 w14 w15 z).trans (wp_mono frame _ _ fun r => ?_)) $$ HB
  iintro ⟨%hr, H⟩
  isplitr
  · ipureintro; rw [hr, hacc, iter4, dif_pos k.isLt]
  · iexact H

/-! ### The row numbers a gather reads are in range -/

omit [FloatOps F] in
/-- After the second index copy has landed, every word of its destination is a word of the index matrix. -/
theorem rest_words_lt (fx : (xsR).view.ty.Contents (Elt F)) (P : S1152.Idx → Elt F .i32) (hP : ∀ y, (P y).toNat < 1000000) :
    ∀ i ∈ (xsR).view.set, (((xsR).view.writes (Elt F) fx [⟨Rect.whole S1152, P⟩]) i).toNat < 1000000 := by
  intro i hi
  obtain ⟨y, -, rfl⟩ := Finset.mem_map.mp hi
  have e := View.read_writes_cons_emb (xsR).view (Val := Elt F) (f := fx) (Rect.whole S1152) P [] y
  rw [Rect.emb_whole_apply, View.read_apply] at e
  rw [cast_eq] at e
  rw [e]; exact hP y

set_option maxHeartbeats 4000000 in
theorem tile_body (hF : (K (F := F)).Facts) (I4 : Buf (Elt F) (iLoc d)) (E : Buf (Elt F) (eLoc d)) (O0 : Buf (Elt F) (oLoc d))
    (qi qe : PosShare TreeShare) (hin : ∀ j, (I4 j).toNat < 1000000)
    (O : CellTallies nD τ sig (HIx 1)) (W : Waits sig (HIx 1)) (hO : ∀ g, O g none = 0) :
    iprop(levAts (K (F := F)).L (K (F := F)).lev ∗ emp
        ∗ (iPts d qi I4 ∗ ePts d qe E ∗ oRowPts d L O0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_partial_kernel L iV (Memref.isWhole_whole _) eV (Memref.isWhole_whole _) oV (Memref.isWhole_whole _)
            xS (Memref.isWhole_whole _) aS (Memref.isWhole_whole _) bS (Memref.isWhole_whole _) tS (Memref.isWhole_whole _)
            cc0_scratch4 cc0_scratch5 cc0_scratch6 cc0_scratch7 cc0_scoped0)
          fun _ => iprop((iPts d qi I4 ∗ ePts d qe E ∗ oRowPts d L (outVal d I4 E))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_partial_kernel_eq_skeleton]; unfold cc0_partial_kernel_skel
  rw [(K (F := F)).scopedBufs_V hF d (cV L) (jV L), SparseCore.Cfg.scopedSems0_V (Val := Elt F) d (cV L) (jV L), ownSems0_V, ownBufs_V]
  iintro ⟨#Hlv, -, ⟨Hi, He, Ho⟩, ⟨⟨%fx, Hx⟩, ⟨%fa, Ha⟩, ⟨%fb, Hb⟩, ⟨%ft, Ht⟩, Hbufs⟩, ⟨HsA, HsB, HsC, HsD, HsE, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave He' := (Entails.of_eq (pts_eV (F := F) d L _ _).symm) $$ He
  ihave Ho' := (Entails.of_eq (pts_oRowK (F := F) d L _).symm) $$ Ho
  ihave Hx' := (Entails.of_eq (pts_xS (F := F) d L _).symm) $$ Hx
  ihave Ha' := (Entails.of_eq (pts_aS (F := F) d L _).symm) $$ Ha
  ihave Hb' := (Entails.of_eq (pts_bS (F := F) d L _).symm) $$ Hb
  ihave Ht' := (Entails.of_eq (pts_tS (F := F) d L _).symm) $$ Ht
  -- two transfers read the index matrix at once, and two the table: halve each read share
  ihave Hi2 := (pointsTo_share (PosShare.mem_left_op_right qi)).1 $$ Hi'
  icases Hi2 with ⟨HiL, HiR⟩
  ihave He2 := (pointsTo_share (PosShare.mem_left_op_right qe)).1 $$ He'
  icases He2 with ⟨HeL, HeR⟩
  -- the index scratch: the first chunk's words, the other chunks' words, the rest (no word)
  ihave Hx2 := (pointsTo_split_subset (q := fullShare) (f := fx) (S := Finset.univ) (Finset.subset_univ (xs0).view.set)).1 $$ Hx'
  icases Hx2 with ⟨Hx0, Hxr⟩
  ihave Hx3 := (pointsTo_split_subset (q := fullShare) (f := fx) xsR_sub).1 $$ Hxr
  icases Hx3 with ⟨HxR, Hxz⟩
  ihave Hx0' := (Entails.of_eq (pts_xs0 (F := F) d L _).symm) $$ Hx0
  ihave HxR' := (Entails.of_eq (pts_xsR (F := F) d L _).symm) $$ HxR
  sl_exec
  have hin0 : ∀ x, ((xs0).view.read (Elt F) ((xs0).view.writes (Elt F) (xs0).view.junk [⟨Rect.whole S384, tile_body.sl.dma0 d L I4⟩]) x).toNat
      < S1000000x128.size gathers_S1000000x128_S384x128.axis := by
    intro x
    have e := View.read_writes_cons_emb (xs0).view (Val := Elt F) (f := (xs0).view.junk) (Rect.whole S384) (tile_body.sl.dma0 d L I4) [] x
    rw [Rect.emb_whole_apply] at e
    rw [e]
    unfold tile_body.sl.dma0
    simp only [ReadAs.apply_same, View.read_apply, cast_eq]
    exact hin _
  sl_exec
  -- the other three chunks' words, each chunk's apart
  have hP1 : ∀ y, (tile_body.sl.dma0_1 d L I4 y).toNat < 1000000 := by
    intro y
    unfold tile_body.sl.dma0_1
    simp only [ReadAs.apply_same, View.read_apply, cast_eq]
    exact hin _
  obtain ⟨gR, hgR⟩ : ∃ g : Buf (Elt F) ((V d (cV L) (jV L)).loc cc0_scratch0),
      g = (xsR).view.writes (Elt F) fx [⟨Rect.whole S1152, tile_body.sl.dma0_1 d L I4⟩] := ⟨_, rfl⟩
  have hR : ∀ i ∈ (xsR).view.set, (gR i).toNat < 1000000 := by
    rw [hgR]; exact rest_words_lt (F := F) fx (tile_body.sl.dma0_1 d L I4) hP1
  have eR : ((xsR).view.loc (V d (cV L) (jV L)) ↦[(xsR).view.set]{fullShare}
        ((xsR).view.writes (Elt F) fx [⟨Rect.whole S1152, tile_body.sl.dma0_1 d L I4⟩]) : sProp 𝕄)
      = ((V d (cV L) (jV L)).loc cc0_scratch0 ↦[(xsR).view.set]{fullShare} gR) := by rw [hgR]
  ihave HxR0 := (Entails.of_eq eR) $$ HxR'
  ihave S1 := (pointsTo_split_subset (q := fullShare) xs1_sub).1 $$ HxR0
  icases S1 with ⟨Hx1, Hr1⟩
  ihave S2 := (pointsTo_split_subset (q := fullShare) xs2_sub).1 $$ Hr1
  icases S2 with ⟨Hx2, Hr2⟩
  ihave S3 := (pointsTo_split_subset (q := fullShare) xs3_sub).1 $$ Hr2
  icases S3 with ⟨Hx3, Hr3⟩
  ihave Hx1' := (Entails.of_eq (pts_xs1 (F := F) d L _).symm) $$ Hx1
  ihave Hx2' := (Entails.of_eq (pts_xs2 (F := F) d L _).symm) $$ Hx2
  ihave Hx3' := (Entails.of_eq (pts_xs3 (F := F) d L _).symm) $$ Hx3
  have hin1 : ∀ x, ((xs1).view.read (Elt F) gR x).toNat
      < S1000000x128.size gathers_S1000000x128_S384x128.axis := fun x => by
    rw [View.read_apply, cast_eq]; exact hR _ (xs1_sub ((xs1).view.emb_mem_set x))
  have hin2 : ∀ x, ((xs2).view.read (Elt F) gR x).toNat
      < S1000000x128.size gathers_S1000000x128_S384x128.axis := fun x => by
    rw [View.read_apply, cast_eq]; exact hR _ (Finset.mem_sdiff.mp (xs2_sub ((xs2).view.emb_mem_set x))).1
  have hin3 : ∀ x, ((xs3).view.read (Elt F) gR x).toNat
      < S1000000x128.size gathers_S1000000x128_S384x128.axis := fun x => by
    rw [View.read_apply, cast_eq]; exact hR _ (Finset.mem_sdiff.mp (Finset.mem_sdiff.mp (xs3_sub ((xs3).view.emb_mem_set x))).1).1
  sl_exec
  ihave HN1 := (name_contents (F := F) _) $$ Ha'
  icases HN1 with ⟨%B1, %hB1, Ha'⟩
  sl_for (inv1 d L B1 acc0) $$ [Ha']
  case region =>
    intro k acc
    exact region1 d L B1 _ k acc _ _ _
  · unfold inv1
    isplitr
    · ipureintro; rfl
    · iexact Ha'
  iintro %acc1 HI
  obtain ⟨p1_0, p1_1, p1_2, p1_3, p1_4, p1_5, p1_6, p1_7, p1_8, p1_9, p1_10, p1_11, p1_12, p1_13, p1_14, p1_15⟩ := acc1
  unfold inv1
  icases HI with ⟨%hacc1, Ha'⟩
  sl_exec
  ihave HN2 := (name_contents (F := F) _) $$ Hb'
  icases HN2 with ⟨%B2, %hB2, Hb'⟩
  sl_for (inv2 d L B2 (p1_0, p1_1, p1_2, p1_3, p1_4, p1_5, p1_6, p1_7, p1_8, p1_9, p1_10, p1_11, p1_12, p1_13, p1_14, p1_15)) $$ [Hb']
  case region =>
    intro k acc
    exact region2 d L B2 _ k acc _ _ _ _ _ _ _ _ _ _ _ _ _ _ _ _ _
  · unfold inv2
    isplitr
    · ipureintro; rfl
    · iexact Hb'
  iintro %acc2 HI
  obtain ⟨p2_0, p2_1, p2_2, p2_3, p2_4, p2_5, p2_6, p2_7, p2_8, p2_9, p2_10, p2_11, p2_12, p2_13, p2_14, p2_15⟩ := acc2
  unfold inv2
  icases HI with ⟨%hacc2, Hb'⟩
  sl_exec
  ihave HN3 := (name_contents (F := F) _) $$ Ha'
  icases HN3 with ⟨%B3, %hB3, Ha'⟩
  sl_for (inv3 d L B3 (p2_0, p2_1, p2_2, p2_3, p2_4, p2_5, p2_6, p2_7, p2_8, p2_9, p2_10, p2_11, p2_12, p2_13, p2_14, p2_15)) $$ [Ha']
  case region =>
    intro k acc
    exact region3 d L B3 _ k acc _ _ _ _ _ _ _ _ _ _ _ _ _ _ _ _ _
  · unfold inv3
    isplitr
    · ipureintro; rfl
    · iexact Ha'
  iintro %acc3 HI
  obtain ⟨p3_0, p3_1, p3_2, p3_3, p3_4, p3_5, p3_6, p3_7, p3_8, p3_9, p3_10, p3_11, p3_12, p3_13, p3_14, p3_15⟩ := acc3
  unfold inv3
  icases HI with ⟨%hacc3, Ha'⟩
  sl_exec
  ihave HN4 := (name_contents (F := F) _) $$ Hb'
  icases HN4 with ⟨%B4, %hB4, Hb'⟩
  sl_for (inv4 d L B4 (p3_0, p3_1, p3_2, p3_3, p3_4, p3_5, p3_6, p3_7, p3_8, p3_9, p3_10, p3_11, p3_12, p3_13, p3_14, p3_15)) $$ [Hb']
  case region =>
    intro k acc
    exact region4 d L B4 _ k acc _ _ _ _ _ _ _ _ _ _ _ _ _ _ _ _ _
  · unfold inv4
    isplitr
    · ipureintro; rfl
    · iexact Hb'
  iintro %acc4 HI
  obtain ⟨p4_0, p4_1, p4_2, p4_3, p4_4, p4_5, p4_6, p4_7, p4_8, p4_9, p4_10, p4_11, p4_12, p4_13, p4_14, p4_15⟩ := acc4
  unfold inv4
  icases HI with ⟨%hacc4, Hb'⟩
  sl_exec
  sl_step
  -- the two halves of each read share, joined again
  ihave Hi0 := (pointsTo_share (PosShare.mem_left_op_right qi)).2 $$ [HiL HiR]
  · isplitl [HiL]; · iexact HiL
    iexact HiR
  ihave He0 := (pointsTo_share (PosShare.mem_left_op_right qe)).2 $$ [HeL HeR]
  · isplitl [HeL]; · iexact HeL
    iexact HeR
  -- what the row buffers held, hence what the accumulators are, hence what the row of the output holds
  have eB1 : B1 = gathered E (chunkWords I4 (widF L) 0) := by
    rw [hB1]
    refine (writes_whole_aS (F := F) _ _).trans ?_
    unfold tile_body.sl.gather0
    refine (gather_eq (F := F) E _ _ _).trans ?_
    unfold tile_body.sl.dma0
    exact congrArg (gathered E) (words0 (F := F) L I4 _)
  have eB2 : B2 = gathered E (chunkWords I4 (widF L) 1) := by
    rw [hB2]
    refine (writes_whole_bS (F := F) _ _).trans ?_
    unfold tile_body.sl.gather0_1
    refine (gather_eq (F := F) E _ _ _).trans ?_
    rw [hgR]; unfold tile_body.sl.dma0_1
    exact congrArg (gathered E) (words1 (F := F) L I4 _)
  have eB3 : B3 = gathered E (chunkWords I4 (widF L) 2) := by
    rw [hB3]
    refine (writes_whole_aS (F := F) _ _).trans ?_
    unfold tile_body.sl.gather0_2
    refine (gather_eq (F := F) E _ _ _).trans ?_
    rw [hgR]; unfold tile_body.sl.dma0_1
    exact congrArg (gathered E) (words2 (F := F) L I4 _)
  have eB4 : B4 = gathered E (chunkWords I4 (widF L) 3) := by
    rw [hB4]
    refine (writes_whole_bS (F := F) _ _).trans ?_
    unfold tile_body.sl.gather0_3
    refine (gather_eq (F := F) E _ _ _).trans ?_
    rw [hgR]; unfold tile_body.sl.dma0_1
    exact congrArg (gathered E) (words3 (F := F) L I4 _)
  have hW : workerAcc I4 E (widF L) = (p4_0, p4_1, p4_2, p4_3, p4_4, p4_5, p4_6, p4_7, p4_8, p4_9, p4_10, p4_11, p4_12, p4_13, p4_14, p4_15) := by
    unfold workerAcc
    rw [← eB1, ← eB2, ← eB3, ← eB4, hacc4, hacc3, hacc2, hacc1]
  have hagree : ∀ i ∈ oRowSet L,
      ((oRowK L).view.writes (Elt F) O0 [⟨Rect.whole S16, tile_body.sl.dma2 d L ft p4_0 p4_1 p4_2 p4_3 p4_4 p4_5 p4_6 p4_7 p4_8 p4_9 p4_10 p4_11 p4_12 p4_13 p4_14 p4_15⟩]) i = outVal d I4 E i := by
    intro i hi
    obtain ⟨z, -, rfl⟩ := Finset.mem_map.mp hi
    rw [row_written (F := F) L O0 _ z]
    unfold tile_body.sl.dma2
    rw [ReadAs.apply_same]
    unfold tile_body.sl.Ht'_1
    rw [read_writes_tS]
    rw [oRowK_emb]
    unfold outVal workerTotal
    show _ = sum16 (workerAcc I4 E (widF L)) (ValueIdx.ix1 (z 0))
    rw [hW]
    exact congrArg (k0_pay105 p4_0 p4_1 p4_2 p4_3 p4_4 p4_5 p4_6 p4_7 p4_8 p4_9 p4_10 p4_11 p4_12 p4_13 p4_14 p4_15) (ValueIdx.eq_ix1 z)
  isplitl [Hi0 He0 Ho']
  · isplitl [Hi0]; · iexact Hi0
    isplitl [He0]; · iexact He0
    ihave Ho1 := (Entails.of_eq (pts_oRowK (F := F) d L _)) $$ Ho'
    ihave Ho2 := (Entails.of_eq (pointsTo_congr (ℓ := oLoc d) (I := oRowSet L) (q := fullShare) hagree)) $$ Ho1
    iexact Ho2
  isplitl [Hx0' Hx1' Hx2' Hx3' Hr3 Hxz Ha' Hb' Ht' Hbufs]
  · isplitl [Hx0' Hx1' Hx2' Hx3' Hr3 Hxz]
    · -- the index scratch's pieces, joined again
      ihave J3 := (rejoin (F := F) (ℓ := (V d (cV L) (jV L)).loc cc0_scratch0) xs3_sub _ _) $$ [Hx3' Hr3]
      · isplitl [Hx3']; · iexact Hx3'
        iexact Hr3
      icases J3 with ⟨%g3, J3⟩
      ihave J2 := (rejoin (F := F) (ℓ := (V d (cV L) (jV L)).loc cc0_scratch0) xs2_sub _ _) $$ [Hx2' J3]
      · isplitl [Hx2']; · iexact Hx2'
        iexact J3
      icases J2 with ⟨%g2, J2⟩
      ihave J1 := (rejoin (F := F) (ℓ := (V d (cV L) (jV L)).loc cc0_scratch0) xs1_sub _ _) $$ [Hx1' J2]
      · isplitl [Hx1']; · iexact Hx1'
        iexact J2
      icases J1 with ⟨%g1, J1⟩
      ihave JR := (rejoin (F := F) (ℓ := (V d (cV L) (jV L)).loc cc0_scratch0) xsR_sub _ _) $$ [J1 Hxz]
      · isplitl [J1]; · iexact J1
        iexact Hxz
      icases JR with ⟨%g0, JR⟩
      ihave J0 := (rejoin (F := F) (ℓ := (V d (cV L) (jV L)).loc cc0_scratch0) (Finset.subset_univ (xs0).view.set) _ _) $$ [Hx0' JR]
      · isplitl [Hx0']; · iexact Hx0'
        iexact JR
      iexact J0
    isplitl [Ha']; · iexists _; iexact Ha'
    isplitl [Hb']; · iexists _; iexact Hb'
    isplitl [Ht']; · iexists _; iexact Ht'
    iexact Hbufs
  isplitl [HsA HsB HsC HsD HsE Hsems]
  · isplitl [HsA]; · iexact HsA
    isplitl [HsB]; · iexact HsB
    isplitl [HsC]; · iexact HsC
    isplitl [HsD]; · iexact HsD
    isplitl [HsE]; · iexact HsE
    iexact Hsems
  iexists _; isplitr
  swap; · iexact HO
  ipureintro; intro p hp
  repeat (rcases Finset.mem_insert.mp hp with hp | hp; · exact .inr (hp ▸ rfl))
  exact .inl hp

end Tile

/-- Every worker's task, in the launch's words. -/
theorem tile_stmt : TileStmt (F := F) (outVal (F := F)) :=
  fun d L hF I4 E O0 qi qe hin O W hO => tile_body d L hF I4 E O0 qi qe hin O W hO

end Cert.Proof.KB

end
-- ==== Proof.KIdeal.lean ====
/-
  The chunk-loops' arithmetic read at the extended reals, one accumulator and one lane at a time.

  A row buffer is a 384 × 128 array of extended reals: rows 0..127 the targets' table rows of a chunk, 128..255 the
  contexts', 256..383 the negatives'.  Accumulator `a` of the sixteen belongs to row parity `a / 8` and lane group
  `a % 8`; its lane `l` is column `16 (a % 8) + l` of the buffer.  Trip `k` adds to it the entry of row `2k + a / 8`
  times the difference of the entries 128 and 256 rows further down.  After the sixty-four trips of a loop the
  accumulator has gained the sum of those sixty-four products.  The sixteen accumulators are finally added lane by
  lane, and they start from zero.
-/
import proofs.«205315_g4544075399421_cont_8to1_c_355_20_alg».proof.Proof.KStep
import Idealize.ShloMosaic.Lib.ValueLayout
import Idealize.ShloMosaic.Lib.ValueIdx
import Idealize.ShloMosaic.PureOps.Ideal.Laws

noncomputable section

open scoped BigOperators

namespace Cert.Proof.KI

open Cert.KernelIdeal Cert.KernelIdeal.Gen Idealize.ShloMosaic Idealize.ShloMosaic.ValueIdx

/-! ## The row buffer read at a row and a column -/

/-- Entry `(r, c)` of a row buffer (zero outside the buffer, where nothing reads). -/
def rd (B : S384x128.Idx → EReal) (r c : ℕ) : EReal :=
  if h : r < 384 ∧ c < 128 then B (ix2 (⟨r, h.1⟩ : Fin 384) (⟨c, h.2⟩ : Fin 128)) else 0

/-- Inside the buffer it is the buffer's entry. -/
theorem rd_eq (B : S384x128.Idx → EReal) {r c : ℕ} (hr : r < 384) (hc : c < 128) :
    rd B r c = B (ix2 (⟨r, hr⟩ : Fin 384) (⟨c, hc⟩ : Fin 128)) := dif_pos ⟨hr, hc⟩

/-- The product one trip contributes: the entry of row `r0` times the difference of the entries of rows `r1` and `r2`,
    all at column `c`. -/
def prod3 (B : S384x128.Idx → EReal) (r0 r1 r2 c : ℕ) : EReal := rd B r0 c * (rd B r1 c - rd B r2 c)

/-- Trip `k`'s contribution to lane `l` of accumulator `a`: row `2k + a / 8` against the rows 128 and 256 further down,
    at column `16 (a % 8) + l`. -/
def term (B : S384x128.Idx → EReal) (k a l : ℕ) : EReal :=
  prod3 B (2 * k + a / 8) (128 + 2 * k + a / 8) (256 + 2 * k + a / 8) (16 * (a % 8) + l)

/-- The sixteen accumulators by number: 0..7 row parity 0's lane groups, 8..15 row parity 1's. -/
def comp (acc : Acc Ideal) : Fin 16 → (S16.Idx → EReal)
  | ⟨0, _⟩ => acc.1
  | ⟨1, _⟩ => acc.2.1
  | ⟨2, _⟩ => acc.2.2.1
  | ⟨3, _⟩ => acc.2.2.2.1
  | ⟨4, _⟩ => acc.2.2.2.2.1
  | ⟨5, _⟩ => acc.2.2.2.2.2.1
  | ⟨6, _⟩ => acc.2.2.2.2.2.2.1
  | ⟨7, _⟩ => acc.2.2.2.2.2.2.2.1
  | ⟨8, _⟩ => acc.2.2.2.2.2.2.2.2.1
  | ⟨9, _⟩ => acc.2.2.2.2.2.2.2.2.2.1
  | ⟨10, _⟩ => acc.2.2.2.2.2.2.2.2.2.2.1
  | ⟨11, _⟩ => acc.2.2.2.2.2.2.2.2.2.2.2.1
  | ⟨12, _⟩ => acc.2.2.2.2.2.2.2.2.2.2.2.2.1
  | ⟨13, _⟩ => acc.2.2.2.2.2.2.2.2.2.2.2.2.2.1
  | ⟨14, _⟩ => acc.2.2.2.2.2.2.2.2.2.2.2.2.2.2.1
  | ⟨15, _⟩ => acc.2.2.2.2.2.2.2.2.2.2.2.2.2.2.2
  | ⟨_ + 16, h⟩ => absurd h (by omega)

/-! ## Sixteen lanes of a row, and one accumulator's gain -/

/-- Sixteen lanes of a row of the first row buffer at offsets `(r, c)`: lane `l` is the buffer's entry `(r, c + l)`. -/
theorem lanesA_apply (B : RowBufA Ideal) (off : Fin 2 → Nat) (inb : ∀ a, off a + S1x16.size a ≤ S384x128.size a)
    (r c : ℕ) (hoff : off = ![r, c]) (hr : r < 384) (hc : c + 16 ≤ 128) (l : Fin 16) :
    lanesA B off inb (ix1 l) = rd B r (c + l.val) := by
  subst hoff
  have hl : l.val < 16 := l.isLt
  unfold lanesA
  rw [shapeCast_1a_a_apply, View.readAt_apply, View.read_apply, rd_eq B hr (by omega)]
  show (B : S384x128.Idx → EReal) ((Rect.unit (s := S384x128) ![r, c] S1x16.size inb).toLoadRect.idx (ix2 (0 : Fin 1) l)) = _
  refine congrArg B (funext fun a => Fin.ext ?_)
  match a with
  | ⟨0, _⟩ => show r + 1 * 0 = r; omega
  | ⟨1, _⟩ => show c + 1 * l.val = c + l.val; omega

/-- An accumulator's gain from the first row buffer, read at a lane: with the three loads' offsets at rows
    `R0`, `R1`, `R2` and column `C`, lane `l` gains entry `(R0, C + l)` times the difference of entries `(R1, C + l)` and
    `(R2, C + l)`. -/
theorem gainA (B : RowBufA Ideal) (x : FVec Ideal S16 .f32) {ot oc on : Fin 2 → Nat}
    (it : ∀ a, ot a + S1x16.size a ≤ S384x128.size a) (ic : ∀ a, oc a + S1x16.size a ≤ S384x128.size a)
    (iN : ∀ a, on a + S1x16.size a ≤ S384x128.size a) {rt rc rn cc : ℕ}
    (ht : ot = ![rt, cc]) (hc : oc = ![rc, cc]) (hn : on = ![rn, cc]) (R0 R1 R2 C : ℕ)
    (e0 : rt = R0) (e1 : rc = R1) (e2 : rn = R2) (e3 : cc = C)
    (h0 : R0 < 384) (h1 : R1 < 384) (h2 : R2 < 384) (hC : C + 16 ≤ 128) (l : Fin 16) :
    upd x (lanesA B ot it) (lanesA B oc ic) (lanesA B on iN) (ix1 l)
      = x (ix1 l) + prod3 B R0 R1 R2 (C + l.val) := by
  subst e0 e1 e2 e3
  show x (ix1 l) + lanesA B ot it (ix1 l) * (lanesA B oc ic (ix1 l) - lanesA B on iN (ix1 l)) = _
  rw [lanesA_apply B ot it rt cc ht h0 hC l, lanesA_apply B oc ic rc cc hc h1 hC l,
    lanesA_apply B on iN rn cc hn h2 hC l]
  rfl

/-- Sixteen lanes of a row of the second row buffer at offsets `(r, c)`: lane `l` is the buffer's entry `(r, c + l)`. -/
theorem lanesB_apply (B : RowBufB Ideal) (off : Fin 2 → Nat) (inb : ∀ a, off a + S1x16.size a ≤ S384x128.size a)
    (r c : ℕ) (hoff : off = ![r, c]) (hr : r < 384) (hc : c + 16 ≤ 128) (l : Fin 16) :
    lanesB B off inb (ix1 l) = rd B r (c + l.val) := by
  subst hoff
  have hl : l.val < 16 := l.isLt
  unfold lanesB
  rw [shapeCast_1a_a_apply, View.readAt_apply, View.read_apply, rd_eq B hr (by omega)]
  show (B : S384x128.Idx → EReal) ((Rect.unit (s := S384x128) ![r, c] S1x16.size inb).toLoadRect.idx (ix2 (0 : Fin 1) l)) = _
  refine congrArg B (funext fun a => Fin.ext ?_)
  match a with
  | ⟨0, _⟩ => show r + 1 * 0 = r; omega
  | ⟨1, _⟩ => show c + 1 * l.val = c + l.val; omega

/-- An accumulator's gain from the second row buffer, read at a lane: with the three loads' offsets at rows
    `R0`, `R1`, `R2` and column `C`, lane `l` gains entry `(R0, C + l)` times the difference of entries `(R1, C + l)` and
    `(R2, C + l)`. -/
theorem gainB (B : RowBufB Ideal) (x : FVec Ideal S16 .f32) {ot oc on : Fin 2 → Nat}
    (it : ∀ a, ot a + S1x16.size a ≤ S384x128.size a) (ic : ∀ a, oc a + S1x16.size a ≤ S384x128.size a)
    (iN : ∀ a, on a + S1x16.size a ≤ S384x128.size a) {rt rc rn cc : ℕ}
    (ht : ot = ![rt, cc]) (hc : oc = ![rc, cc]) (hn : on = ![rn, cc]) (R0 R1 R2 C : ℕ)
    (e0 : rt = R0) (e1 : rc = R1) (e2 : rn = R2) (e3 : cc = C)
    (h0 : R0 < 384) (h1 : R1 < 384) (h2 : R2 < 384) (hC : C + 16 ≤ 128) (l : Fin 16) :
    upd x (lanesB B ot it) (lanesB B oc ic) (lanesB B on iN) (ix1 l)
      = x (ix1 l) + prod3 B R0 R1 R2 (C + l.val) := by
  subst e0 e1 e2 e3
  show x (ix1 l) + lanesB B ot it (ix1 l) * (lanesB B oc ic (ix1 l) - lanesB B on iN (ix1 l)) = _
  rw [lanesB_apply B ot it rt cc ht h0 hC l, lanesB_apply B oc ic rc cc hc h1 hC l,
    lanesB_apply B on iN rn cc hn h2 hC l]
  rfl

/-! ## The four chunk-loops -/

/-- One trip of chunk-loop 1, one accumulator, one lane: the accumulator gains the product of the target row's entry
    with the difference of the context row's and the negative row's, at the trip's row of the accumulator's parity and
    the lane of its lane group. -/
theorem step1_comp (B : RowBufA Ideal) (k : Fin k0_t1_loop.trips) (acc : Acc Ideal) (a l : Fin 16) :
    comp (step1 B k acc) a (ix1 l) = comp acc a (ix1 l) + term B k.val a.val l.val := by
  obtain ⟨a0, a1, a2, a3, a4, a5, a6, a7, a8, a9, a10, a11, a12, a13, a14, a15⟩ := acc
  have hk : k.val < 64 := k.isLt
  have hl : l.val < 16 := l.isLt
  exact match a with
  | ⟨0, _⟩ => by
    show upd a0 (lanesA B (k0_off3 k) (k0_off3_inb k)) (lanesA B (k0_off4 k 128#32) (k0_off4_inb k 0))
        (lanesA B (k0_off4 k 256#32) (k0_off4_inb k 1)) (ix1 l)
      = a0 (ix1 l) + prod3 B (2 * k.val + 0 / 8) (128 + 2 * k.val + 0 / 8) (256 + 2 * k.val + 0 / 8) (16 * (0 % 8) + l.val)
    exact gainA B a0 _ _ _ (k0_off3_eq k) (k0_off4_eq k 0) (k0_off4_eq k 1) _ _ _ _ (by omega)
      (by show 128 * 0 + 2 * k.val + 128 = _; omega) (by show 128 * 1 + 2 * k.val + 128 = _; omega) (by omega)
      (by omega) (by omega) (by omega) (by omega) l
  | ⟨1, _⟩ => by
    show upd a1 (lanesA B (k0_off7 k) (k0_off7_inb k)) (lanesA B (k0_off8 k 128#32) (k0_off8_inb k 0))
        (lanesA B (k0_off8 k 256#32) (k0_off8_inb k 1)) (ix1 l)
      = a1 (ix1 l) + prod3 B (2 * k.val + 1 / 8) (128 + 2 * k.val + 1 / 8) (256 + 2 * k.val + 1 / 8) (16 * (1 % 8) + l.val)
    exact gainA B a1 _ _ _ (k0_off7_eq k) (k0_off8_eq k 0) (k0_off8_eq k 1) _ _ _ _ (by omega)
      (by show 128 * 0 + 2 * k.val + 128 = _; omega) (by show 128 * 1 + 2 * k.val + 128 = _; omega) (by omega)
      (by omega) (by omega) (by omega) (by omega) l
  | ⟨2, _⟩ => by
    show upd a2 (lanesA B (k0_off11 k) (k0_off11_inb k)) (lanesA B (k0_off12 k 128#32) (k0_off12_inb k 0))
        (lanesA B (k0_off12 k 256#32) (k0_off12_inb k 1)) (ix1 l)
      = a2 (ix1 l) + prod3 B (2 * k.val + 2 / 8) (128 + 2 * k.val + 2 / 8) (256 + 2 * k.val + 2 / 8) (16 * (2 % 8) + l.val)
    exact gainA B a2 _ _ _ (k0_off11_eq k) (k0_off12_eq k 0) (k0_off12_eq k 1) _ _ _ _ (by omega)
      (by show 128 * 0 + 2 * k.val + 128 = _; omega) (by show 128 * 1 + 2 * k.val + 128 = _; omega) (by omega)
      (by omega) (by omega) (by omega) (by omega) l
  | ⟨3, _⟩ => by
    show upd a3 (lanesA B (k0_off15 k) (k0_off15_inb k)) (lanesA B (k0_off16 k 128#32) (k0_off16_inb k 0))
        (lanesA B (k0_off16 k 256#32) (k0_off16_inb k 1)) (ix1 l)
      = a3 (ix1 l) + prod3 B (2 * k.val + 3 / 8) (128 + 2 * k.val + 3 / 8) (256 + 2 * k.val + 3 / 8) (16 * (3 % 8) + l.val)
    exact gainA B a3 _ _ _ (k0_off15_eq k) (k0_off16_eq k 0) (k0_off16_eq k 1) _ _ _ _ (by omega)
      (by show 128 * 0 + 2 * k.val + 128 = _; omega) (by show 128 * 1 + 2 * k.val + 128 = _; omega) (by omega)
      (by omega) (by omega) (by omega) (by omega) l
  | ⟨4, _⟩ => by
    show upd a4 (lanesA B (k0_off19 k) (k0_off19_inb k)) (lanesA B (k0_off20 k 128#32) (k0_off20_inb k 0))
        (lanesA B (k0_off20 k 256#32) (k0_off20_inb k 1)) (ix1 l)
      = a4 (ix1 l) + prod3 B (2 * k.val + 4 / 8) (128 + 2 * k.val + 4 / 8) (256 + 2 * k.val + 4 / 8) (16 * (4 % 8) + l.val)
    exact gainA B a4 _ _ _ (k0_off19_eq k) (k0_off20_eq k 0) (k0_off20_eq k 1) _ _ _ _ (by omega)
      (by show 128 * 0 + 2 * k.val + 128 = _; omega) (by show 128 * 1 + 2 * k.val + 128 = _; omega) (by omega)
      (by omega) (by omega) (by omega) (by omega) l
  | ⟨5, _⟩ => by
    show upd a5 (lanesA B (k0_off23 k) (k0_off23_inb k)) (lanesA B (k0_off24 k 128#32) (k0_off24_inb k 0))
        (lanesA B (k0_off24 k 256#32) (k0_off24_inb k 1)) (ix1 l)
      = a5 (ix1 l) + prod3 B (2 * k.val + 5 / 8) (128 + 2 * k.val + 5 / 8) (256 + 2 * k.val + 5 / 8) (16 * (5 % 8) + l.val)
    exact gainA B a5 _ _ _ (k0_off23_eq k) (k0_off24_eq k 0) (k0_off24_eq k 1) _ _ _ _ (by omega)
      (by show 128 * 0 + 2 * k.val + 128 = _; omega) (by show 128 * 1 + 2 * k.val + 128 = _; omega) (by omega)
      (by omega) (by omega) (by omega) (by omega) l
  | ⟨6, _⟩ => by
    show upd a6 (lanesA B (k0_off27 k) (k0_off27_inb k)) (lanesA B (k0_off28 k 128#32) (k0_off28_inb k 0))
        (lanesA B (k0_off28 k 256#32) (k0_off28_inb k 1)) (ix1 l)
      = a6 (ix1 l) + prod3 B (2 * k.val + 6 / 8) (128 + 2 * k.val + 6 / 8) (256 + 2 * k.val + 6 / 8) (16 * (6 % 8) + l.val)
    exact gainA B a6 _ _ _ (k0_off27_eq k) (k0_off28_eq k 0) (k0_off28_eq k 1) _ _ _ _ (by omega)
      (by show 128 * 0 + 2 * k.val + 128 = _; omega) (by show 128 * 1 + 2 * k.val + 128 = _; omega) (by omega)
      (by omega) (by omega) (by omega) (by omega) l
  | ⟨7, _⟩ => by
    show upd a7 (lanesA B (k0_off31 k) (k0_off31_inb k)) (lanesA B (k0_off32 k 128#32) (k0_off32_inb k 0))
        (lanesA B (k0_off32 k 256#32) (k0_off32_inb k 1)) (ix1 l)
      = a7 (ix1 l) + prod3 B (2 * k.val + 7 / 8) (128 + 2 * k.val + 7 / 8) (256 + 2 * k.val + 7 / 8) (16 * (7 % 8) + l.val)
    exact gainA B a7 _ _ _ (k0_off31_eq k) (k0_off32_eq k 0) (k0_off32_eq k 1) _ _ _ _ (by omega)
      (by show 128 * 0 + 2 * k.val + 128 = _; omega) (by show 128 * 1 + 2 * k.val + 128 = _; omega) (by omega)
      (by omega) (by omega) (by omega) (by omega) l
  | ⟨8, _⟩ => by
    show upd a8 (lanesA B (k0_off5 k) (k0_off5_inb k)) (lanesA B (k0_off6 k 128#32) (k0_off6_inb k 0))
        (lanesA B (k0_off6 k 256#32) (k0_off6_inb k 1)) (ix1 l)
      = a8 (ix1 l) + prod3 B (2 * k.val + 8 / 8) (128 + 2 * k.val + 8 / 8) (256 + 2 * k.val + 8 / 8) (16 * (8 % 8) + l.val)
    exact gainA B a8 _ _ _ (k0_off5_eq k) (k0_off6_eq k 0) (k0_off6_eq k 1) _ _ _ _ (by omega)
      (by show 128 * 0 + 2 * k.val + 129 = _; omega) (by show 128 * 1 + 2 * k.val + 129 = _; omega) (by omega)
      (by omega) (by omega) (by omega) (by omega) l
  | ⟨9, _⟩ => by
    show upd a9 (lanesA B (k0_off9 k) (k0_off9_inb k)) (lanesA B (k0_off10 k 128#32) (k0_off10_inb k 0))
        (lanesA B (k0_off10 k 256#32) (k0_off10_inb k 1)) (ix1 l)
      = a9 (ix1 l) + prod3 B (2 * k.val + 9 / 8) (128 + 2 * k.val + 9 / 8) (256 + 2 * k.val + 9 / 8) (16 * (9 % 8) + l.val)
    exact gainA B a9 _ _ _ (k0_off9_eq k) (k0_off10_eq k 0) (k0_off10_eq k 1) _ _ _ _ (by omega)
      (by show 128 * 0 + 2 * k.val + 129 = _; omega) (by show 128 * 1 + 2 * k.val + 129 = _; omega) (by omega)
      (by omega) (by omega) (by omega) (by omega) l
  | ⟨10, _⟩ => by
    show upd a10 (lanesA B (k0_off13 k) (k0_off13_inb k)) (lanesA B (k0_off14 k 128#32) (k0_off14_inb k 0))
        (lanesA B (k0_off14 k 256#32) (k0_off14_inb k 1)) (ix1 l)
      = a10 (ix1 l) + prod3 B (2 * k.val + 10 / 8) (128 + 2 * k.val + 10 / 8) (256 + 2 * k.val + 10 / 8) (16 * (10 % 8) + l.val)
    exact gainA B a10 _ _ _ (k0_off13_eq k) (k0_off14_eq k 0) (k0_off14_eq k 1) _ _ _ _ (by omega)
      (by show 128 * 0 + 2 * k.val + 129 = _; omega) (by show 128 * 1 + 2 * k.val + 129 = _; omega) (by omega)
      (by omega) (by omega) (by omega) (by omega) l
  | ⟨11, _⟩ => by
    show upd a11 (lanesA B (k0_off17 k) (k0_off17_inb k)) (lanesA B (k0_off18 k 128#32) (k0_off18_inb k 0))
        (lanesA B (k0_off18 k 256#32) (k0_off18_inb k 1)) (ix1 l)
      = a11 (ix1 l) + prod3 B (2 * k.val + 11 / 8) (128 + 2 * k.val + 11 / 8) (256 + 2 * k.val + 11 / 8) (16 * (11 % 8) + l.val)
    exact gainA B a11 _ _ _ (k0_off17_eq k) (k0_off18_eq k 0) (k0_off18_eq k 1) _ _ _ _ (by omega)
      (by show 128 * 0 + 2 * k.val + 129 = _; omega) (by show 128 * 1 + 2 * k.val + 129 = _; omega) (by omega)
      (by omega) (by omega) (by omega) (by omega) l
  | ⟨12, _⟩ => by
    show upd a12 (lanesA B (k0_off21 k) (k0_off21_inb k)) (lanesA B (k0_off22 k 128#32) (k0_off22_inb k 0))
        (lanesA B (k0_off22 k 256#32) (k0_off22_inb k 1)) (ix1 l)
      = a12 (ix1 l) + prod3 B (2 * k.val + 12 / 8) (128 + 2 * k.val + 12 / 8) (256 + 2 * k.val + 12 / 8) (16 * (12 % 8) + l.val)
    exact gainA B a12 _ _ _ (k0_off21_eq k) (k0_off22_eq k 0) (k0_off22_eq k 1) _ _ _ _ (by omega)
      (by show 128 * 0 + 2 * k.val + 129 = _; omega) (by show 128 * 1 + 2 * k.val + 129 = _; omega) (by omega)
      (by omega) (by omega) (by omega) (by omega) l
  | ⟨13, _⟩ => by
    show upd a13 (lanesA B (k0_off25 k) (k0_off25_inb k)) (lanesA B (k0_off26 k 128#32) (k0_off26_inb k 0))
        (lanesA B (k0_off26 k 256#32) (k0_off26_inb k 1)) (ix1 l)
      = a13 (ix1 l) + prod3 B (2 * k.val + 13 / 8) (128 + 2 * k.val + 13 / 8) (256 + 2 * k.val + 13 / 8) (16 * (13 % 8) + l.val)
    exact gainA B a13 _ _ _ (k0_off25_eq k) (k0_off26_eq k 0) (k0_off26_eq k 1) _ _ _ _ (by omega)
      (by show 128 * 0 + 2 * k.val + 129 = _; omega) (by show 128 * 1 + 2 * k.val + 129 = _; omega) (by omega)
      (by omega) (by omega) (by omega) (by omega) l
  | ⟨14, _⟩ => by
    show upd a14 (lanesA B (k0_off29 k) (k0_off29_inb k)) (lanesA B (k0_off30 k 128#32) (k0_off30_inb k 0))
        (lanesA B (k0_off30 k 256#32) (k0_off30_inb k 1)) (ix1 l)
      = a14 (ix1 l) + prod3 B (2 * k.val + 14 / 8) (128 + 2 * k.val + 14 / 8) (256 + 2 * k.val + 14 / 8) (16 * (14 % 8) + l.val)
    exact gainA B a14 _ _ _ (k0_off29_eq k) (k0_off30_eq k 0) (k0_off30_eq k 1) _ _ _ _ (by omega)
      (by show 128 * 0 + 2 * k.val + 129 = _; omega) (by show 128 * 1 + 2 * k.val + 129 = _; omega) (by omega)
      (by omega) (by omega) (by omega) (by omega) l
  | ⟨15, _⟩ => by
    show upd a15 (lanesA B (k0_off33 k) (k0_off33_inb k)) (lanesA B (k0_off34 k 128#32) (k0_off34_inb k 0))
        (lanesA B (k0_off34 k 256#32) (k0_off34_inb k 1)) (ix1 l)
      = a15 (ix1 l) + prod3 B (2 * k.val + 15 / 8) (128 + 2 * k.val + 15 / 8) (256 + 2 * k.val + 15 / 8) (16 * (15 % 8) + l.val)
    exact gainA B a15 _ _ _ (k0_off33_eq k) (k0_off34_eq k 0) (k0_off34_eq k 1) _ _ _ _ (by omega)
      (by show 128 * 0 + 2 * k.val + 129 = _; omega) (by show 128 * 1 + 2 * k.val + 129 = _; omega) (by omega)
      (by omega) (by omega) (by omega) (by omega) l
  | ⟨_ + 16, h⟩ => absurd h (by omega)

/-- The first `n` trips of chunk-loop 1, one accumulator, one lane: the accumulator gains the trips' products. -/
theorem iter1_comp_le (B : RowBufA Ideal) (acc : Acc Ideal) (a l : Fin 16) :
    ∀ n, n ≤ 64 → comp (iter1 B acc n) a (ix1 l) = comp acc a (ix1 l) + ∑ k ∈ Finset.range n, term B k a.val l.val
  | 0, _ => by rw [iter1, Finset.sum_range_zero, add_zero]
  | n + 1, h => by
    have hn : n < k0_t1_loop.trips := by show n < 64; omega
    rw [iter1, dif_pos hn, step1_comp, iter1_comp_le B acc a l n (by omega), Finset.sum_range_succ, add_assoc]

/-- All sixty-four trips of chunk-loop 1: the accumulator gains the sum over the trips of their products. -/
theorem iter1_comp (B : RowBufA Ideal) (acc : Acc Ideal) (a l : Fin 16) :
    comp (iter1 B acc 64) a (ix1 l) = comp acc a (ix1 l) + ∑ k : Fin 64, term B k.val a.val l.val := by
  rw [iter1_comp_le B acc a l 64 (Nat.le_refl _), Finset.sum_range]

/-- One trip of chunk-loop 2, one accumulator, one lane: the accumulator gains the product of the target row's entry
    with the difference of the context row's and the negative row's, at the trip's row of the accumulator's parity and
    the lane of its lane group. -/
theorem step2_comp (B : RowBufB Ideal) (k : Fin k0_t2_loop.trips) (acc : Acc Ideal) (a l : Fin 16) :
    comp (step2 B k acc) a (ix1 l) = comp acc a (ix1 l) + term B k.val a.val l.val := by
  obtain ⟨a0, a1, a2, a3, a4, a5, a6, a7, a8, a9, a10, a11, a12, a13, a14, a15⟩ := acc
  have hk : k.val < 64 := k.isLt
  have hl : l.val < 16 := l.isLt
  exact match a with
  | ⟨0, _⟩ => by
    show upd a0 (lanesB B (k0_off35 k) (k0_off35_inb k)) (lanesB B (k0_off36 k 128#32) (k0_off36_inb k 0))
        (lanesB B (k0_off36 k 256#32) (k0_off36_inb k 1)) (ix1 l)
      = a0 (ix1 l) + prod3 B (2 * k.val + 0 / 8) (128 + 2 * k.val + 0 / 8) (256 + 2 * k.val + 0 / 8) (16 * (0 % 8) + l.val)
    exact gainB B a0 _ _ _ (k0_off35_eq k) (k0_off36_eq k 0) (k0_off36_eq k 1) _ _ _ _ (by omega)
      (by show 128 * 0 + 2 * k.val + 128 = _; omega) (by show 128 * 1 + 2 * k.val + 128 = _; omega) (by omega)
      (by omega) (by omega) (by omega) (by omega) l
  | ⟨1, _⟩ => by
    show upd a1 (lanesB B (k0_off39 k) (k0_off39_inb k)) (lanesB B (k0_off40 k 128#32) (k0_off40_inb k 0))
        (lanesB B (k0_off40 k 256#32) (k0_off40_inb k 1)) (ix1 l)
      = a1 (ix1 l) + prod3 B (2 * k.val + 1 / 8) (128 + 2 * k.val + 1 / 8) (256 + 2 * k.val + 1 / 8) (16 * (1 % 8) + l.val)
    exact gainB B a1 _ _ _ (k0_off39_eq k) (k0_off40_eq k 0) (k0_off40_eq k 1) _ _ _ _ (by omega)
      (by show 128 * 0 + 2 * k.val + 128 = _; omega) (by show 128 * 1 + 2 * k.val + 128 = _; omega) (by omega)
      (by omega) (by omega) (by omega) (by omega) l
  | ⟨2, _⟩ => by
    show upd a2 (lanesB B (k0_off43 k) (k0_off43_inb k)) (lanesB B (k0_off44 k 128#32) (k0_off44_inb k 0))
        (lanesB B (k0_off44 k 256#32) (k0_off44_inb k 1)) (ix1 l)
      = a2 (ix1 l) + prod3 B (2 * k.val + 2 / 8) (128 + 2 * k.val + 2 / 8) (256 + 2 * k.val + 2 / 8) (16 * (2 % 8) + l.val)
    exact gainB B a2 _ _ _ (k0_off43_eq k) (k0_off44_eq k 0) (k0_off44_eq k 1) _ _ _ _ (by omega)
      (by show 128 * 0 + 2 * k.val + 128 = _; omega) (by show 128 * 1 + 2 * k.val + 128 = _; omega) (by omega)
      (by omega) (by omega) (by omega) (by omega) l
  | ⟨3, _⟩ => by
    show upd a3 (lanesB B (k0_off47 k) (k0_off47_inb k)) (lanesB B (k0_off48 k 128#32) (k0_off48_inb k 0))
        (lanesB B (k0_off48 k 256#32) (k0_off48_inb k 1)) (ix1 l)
      = a3 (ix1 l) + prod3 B (2 * k.val + 3 / 8) (128 + 2 * k.val + 3 / 8) (256 + 2 * k.val + 3 / 8) (16 * (3 % 8) + l.val)
    exact gainB B a3 _ _ _ (k0_off47_eq k) (k0_off48_eq k 0) (k0_off48_eq k 1) _ _ _ _ (by omega)
      (by show 128 * 0 + 2 * k.val + 128 = _; omega) (by show 128 * 1 + 2 * k.val + 128 = _; omega) (by omega)
      (by omega) (by omega) (by omega) (by omega) l
  | ⟨4, _⟩ => by
    show upd a4 (lanesB B (k0_off51 k) (k0_off51_inb k)) (lanesB B (k0_off52 k 128#32) (k0_off52_inb k 0))
        (lanesB B (k0_off52 k 256#32) (k0_off52_inb k 1)) (ix1 l)
      = a4 (ix1 l) + prod3 B (2 * k.val + 4 / 8) (128 + 2 * k.val + 4 / 8) (256 + 2 * k.val + 4 / 8) (16 * (4 % 8) + l.val)
    exact gainB B a4 _ _ _ (k0_off51_eq k) (k0_off52_eq k 0) (k0_off52_eq k 1) _ _ _ _ (by omega)
      (by show 128 * 0 + 2 * k.val + 128 = _; omega) (by show 128 * 1 + 2 * k.val + 128 = _; omega) (by omega)
      (by omega) (by omega) (by omega) (by omega) l
  | ⟨5, _⟩ => by
    show upd a5 (lanesB B (k0_off55 k) (k0_off55_inb k)) (lanesB B (k0_off56 k 128#32) (k0_off56_inb k 0))
        (lanesB B (k0_off56 k 256#32) (k0_off56_inb k 1)) (ix1 l)
      = a5 (ix1 l) + prod3 B (2 * k.val + 5 / 8) (128 + 2 * k.val + 5 / 8) (256 + 2 * k.val + 5 / 8) (16 * (5 % 8) + l.val)
    exact gainB B a5 _ _ _ (k0_off55_eq k) (k0_off56_eq k 0) (k0_off56_eq k 1) _ _ _ _ (by omega)
      (by show 128 * 0 + 2 * k.val + 128 = _; omega) (by show 128 * 1 + 2 * k.val + 128 = _; omega) (by omega)
      (by omega) (by omega) (by omega) (by omega) l
  | ⟨6, _⟩ => by
    show upd a6 (lanesB B (k0_off59 k) (k0_off59_inb k)) (lanesB B (k0_off60 k 128#32) (k0_off60_inb k 0))
        (lanesB B (k0_off60 k 256#32) (k0_off60_inb k 1)) (ix1 l)
      = a6 (ix1 l) + prod3 B (2 * k.val + 6 / 8) (128 + 2 * k.val + 6 / 8) (256 + 2 * k.val + 6 / 8) (16 * (6 % 8) + l.val)
    exact gainB B a6 _ _ _ (k0_off59_eq k) (k0_off60_eq k 0) (k0_off60_eq k 1) _ _ _ _ (by omega)
      (by show 128 * 0 + 2 * k.val + 128 = _; omega) (by show 128 * 1 + 2 * k.val + 128 = _; omega) (by omega)
      (by omega) (by omega) (by omega) (by omega) l
  | ⟨7, _⟩ => by
    show upd a7 (lanesB B (k0_off63 k) (k0_off63_inb k)) (lanesB B (k0_off64 k 128#32) (k0_off64_inb k 0))
        (lanesB B (k0_off64 k 256#32) (k0_off64_inb k 1)) (ix1 l)
      = a7 (ix1 l) + prod3 B (2 * k.val + 7 / 8) (128 + 2 * k.val + 7 / 8) (256 + 2 * k.val + 7 / 8) (16 * (7 % 8) + l.val)
    exact gainB B a7 _ _ _ (k0_off63_eq k) (k0_off64_eq k 0) (k0_off64_eq k 1) _ _ _ _ (by omega)
      (by show 128 * 0 + 2 * k.val + 128 = _; omega) (by show 128 * 1 + 2 * k.val + 128 = _; omega) (by omega)
      (by omega) (by omega) (by omega) (by omega) l
  | ⟨8, _⟩ => by
    show upd a8 (lanesB B (k0_off37 k) (k0_off37_inb k)) (lanesB B (k0_off38 k 128#32) (k0_off38_inb k 0))
        (lanesB B (k0_off38 k 256#32) (k0_off38_inb k 1)) (ix1 l)
      = a8 (ix1 l) + prod3 B (2 * k.val + 8 / 8) (128 + 2 * k.val + 8 / 8) (256 + 2 * k.val + 8 / 8) (16 * (8 % 8) + l.val)
    exact gainB B a8 _ _ _ (k0_off37_eq k) (k0_off38_eq k 0) (k0_off38_eq k 1) _ _ _ _ (by omega)
      (by show 128 * 0 + 2 * k.val + 129 = _; omega) (by show 128 * 1 + 2 * k.val + 129 = _; omega) (by omega)
      (by omega) (by omega) (by omega) (by omega) l
  | ⟨9, _⟩ => by
    show upd a9 (lanesB B (k0_off41 k) (k0_off41_inb k)) (lanesB B (k0_off42 k 128#32) (k0_off42_inb k 0))
        (lanesB B (k0_off42 k 256#32) (k0_off42_inb k 1)) (ix1 l)
      = a9 (ix1 l) + prod3 B (2 * k.val + 9 / 8) (128 + 2 * k.val + 9 / 8) (256 + 2 * k.val + 9 / 8) (16 * (9 % 8) + l.val)
    exact gainB B a9 _ _ _ (k0_off41_eq k) (k0_off42_eq k 0) (k0_off42_eq k 1) _ _ _ _ (by omega)
      (by show 128 * 0 + 2 * k.val + 129 = _; omega) (by show 128 * 1 + 2 * k.val + 129 = _; omega) (by omega)
      (by omega) (by omega) (by omega) (by omega) l
  | ⟨10, _⟩ => by
    show upd a10 (lanesB B (k0_off45 k) (k0_off45_inb k)) (lanesB B (k0_off46 k 128#32) (k0_off46_inb k 0))
        (lanesB B (k0_off46 k 256#32) (k0_off46_inb k 1)) (ix1 l)
      = a10 (ix1 l) + prod3 B (2 * k.val + 10 / 8) (128 + 2 * k.val + 10 / 8) (256 + 2 * k.val + 10 / 8) (16 * (10 % 8) + l.val)
    exact gainB B a10 _ _ _ (k0_off45_eq k) (k0_off46_eq k 0) (k0_off46_eq k 1) _ _ _ _ (by omega)
      (by show 128 * 0 + 2 * k.val + 129 = _; omega) (by show 128 * 1 + 2 * k.val + 129 = _; omega) (by omega)
      (by omega) (by omega) (by omega) (by omega) l
  | ⟨11, _⟩ => by
    show upd a11 (lanesB B (k0_off49 k) (k0_off49_inb k)) (lanesB B (k0_off50 k 128#32) (k0_off50_inb k 0))
        (lanesB B (k0_off50 k 256#32) (k0_off50_inb k 1)) (ix1 l)
      = a11 (ix1 l) + prod3 B (2 * k.val + 11 / 8) (128 + 2 * k.val + 11 / 8) (256 + 2 * k.val + 11 / 8) (16 * (11 % 8) + l.val)
    exact gainB B a11 _ _ _ (k0_off49_eq k) (k0_off50_eq k 0) (k0_off50_eq k 1) _ _ _ _ (by omega)
      (by show 128 * 0 + 2 * k.val + 129 = _; omega) (by show 128 * 1 + 2 * k.val + 129 = _; omega) (by omega)
      (by omega) (by omega) (by omega) (by omega) l
  | ⟨12, _⟩ => by
    show upd a12 (lanesB B (k0_off53 k) (k0_off53_inb k)) (lanesB B (k0_off54 k 128#32) (k0_off54_inb k 0))
        (lanesB B (k0_off54 k 256#32) (k0_off54_inb k 1)) (ix1 l)
      = a12 (ix1 l) + prod3 B (2 * k.val + 12 / 8) (128 + 2 * k.val + 12 / 8) (256 + 2 * k.val + 12 / 8) (16 * (12 % 8) + l.val)
    exact gainB B a12 _ _ _ (k0_off53_eq k) (k0_off54_eq k 0) (k0_off54_eq k 1) _ _ _ _ (by omega)
      (by show 128 * 0 + 2 * k.val + 129 = _; omega) (by show 128 * 1 + 2 * k.val + 129 = _; omega) (by omega)
      (by omega) (by omega) (by omega) (by omega) l
  | ⟨13, _⟩ => by
    show upd a13 (lanesB B (k0_off57 k) (k0_off57_inb k)) (lanesB B (k0_off58 k 128#32) (k0_off58_inb k 0))
        (lanesB B (k0_off58 k 256#32) (k0_off58_inb k 1)) (ix1 l)
      = a13 (ix1 l) + prod3 B (2 * k.val + 13 / 8) (128 + 2 * k.val + 13 / 8) (256 + 2 * k.val + 13 / 8) (16 * (13 % 8) + l.val)
    exact gainB B a13 _ _ _ (k0_off57_eq k) (k0_off58_eq k 0) (k0_off58_eq k 1) _ _ _ _ (by omega)
      (by show 128 * 0 + 2 * k.val + 129 = _; omega) (by show 128 * 1 + 2 * k.val + 129 = _; omega) (by omega)
      (by omega) (by omega) (by omega) (by omega) l
  | ⟨14, _⟩ => by
    show upd a14 (lanesB B (k0_off61 k) (k0_off61_inb k)) (lanesB B (k0_off62 k 128#32) (k0_off62_inb k 0))
        (lanesB B (k0_off62 k 256#32) (k0_off62_inb k 1)) (ix1 l)
      = a14 (ix1 l) + prod3 B (2 * k.val + 14 / 8) (128 + 2 * k.val + 14 / 8) (256 + 2 * k.val + 14 / 8) (16 * (14 % 8) + l.val)
    exact gainB B a14 _ _ _ (k0_off61_eq k) (k0_off62_eq k 0) (k0_off62_eq k 1) _ _ _ _ (by omega)
      (by show 128 * 0 + 2 * k.val + 129 = _; omega) (by show 128 * 1 + 2 * k.val + 129 = _; omega) (by omega)
      (by omega) (by omega) (by omega) (by omega) l
  | ⟨15, _⟩ => by
    show upd a15 (lanesB B (k0_off65 k) (k0_off65_inb k)) (lanesB B (k0_off66 k 128#32) (k0_off66_inb k 0))
        (lanesB B (k0_off66 k 256#32) (k0_off66_inb k 1)) (ix1 l)
      = a15 (ix1 l) + prod3 B (2 * k.val + 15 / 8) (128 + 2 * k.val + 15 / 8) (256 + 2 * k.val + 15 / 8) (16 * (15 % 8) + l.val)
    exact gainB B a15 _ _ _ (k0_off65_eq k) (k0_off66_eq k 0) (k0_off66_eq k 1) _ _ _ _ (by omega)
      (by show 128 * 0 + 2 * k.val + 129 = _; omega) (by show 128 * 1 + 2 * k.val + 129 = _; omega) (by omega)
      (by omega) (by omega) (by omega) (by omega) l
  | ⟨_ + 16, h⟩ => absurd h (by omega)

/-- The first `n` trips of chunk-loop 2, one accumulator, one lane: the accumulator gains the trips' products. -/
theorem iter2_comp_le (B : RowBufB Ideal) (acc : Acc Ideal) (a l : Fin 16) :
    ∀ n, n ≤ 64 → comp (iter2 B acc n) a (ix1 l) = comp acc a (ix1 l) + ∑ k ∈ Finset.range n, term B k a.val l.val
  | 0, _ => by rw [iter2, Finset.sum_range_zero, add_zero]
  | n + 1, h => by
    have hn : n < k0_t2_loop.trips := by show n < 64; omega
    rw [iter2, dif_pos hn, step2_comp, iter2_comp_le B acc a l n (by omega), Finset.sum_range_succ, add_assoc]

/-- All sixty-four trips of chunk-loop 2: the accumulator gains the sum over the trips of their products. -/
theorem iter2_comp (B : RowBufB Ideal) (acc : Acc Ideal) (a l : Fin 16) :
    comp (iter2 B acc 64) a (ix1 l) = comp acc a (ix1 l) + ∑ k : Fin 64, term B k.val a.val l.val := by
  rw [iter2_comp_le B acc a l 64 (Nat.le_refl _), Finset.sum_range]

/-- One trip of chunk-loop 3, one accumulator, one lane: the accumulator gains the product of the target row's entry
    with the difference of the context row's and the negative row's, at the trip's row of the accumulator's parity and
    the lane of its lane group. -/
theorem step3_comp (B : RowBufA Ideal) (k : Fin k0_t3_loop.trips) (acc : Acc Ideal) (a l : Fin 16) :
    comp (step3 B k acc) a (ix1 l) = comp acc a (ix1 l) + term B k.val a.val l.val := by
  obtain ⟨a0, a1, a2, a3, a4, a5, a6, a7, a8, a9, a10, a11, a12, a13, a14, a15⟩ := acc
  have hk : k.val < 64 := k.isLt
  have hl : l.val < 16 := l.isLt
  exact match a with
  | ⟨0, _⟩ => by
    show upd a0 (lanesA B (k0_off67 k) (k0_off67_inb k)) (lanesA B (k0_off68 k 128#32) (k0_off68_inb k 0))
        (lanesA B (k0_off68 k 256#32) (k0_off68_inb k 1)) (ix1 l)
      = a0 (ix1 l) + prod3 B (2 * k.val + 0 / 8) (128 + 2 * k.val + 0 / 8) (256 + 2 * k.val + 0 / 8) (16 * (0 % 8) + l.val)
    exact gainA B a0 _ _ _ (k0_off67_eq k) (k0_off68_eq k 0) (k0_off68_eq k 1) _ _ _ _ (by omega)
      (by show 128 * 0 + 2 * k.val + 128 = _; omega) (by show 128 * 1 + 2 * k.val + 128 = _; omega) (by omega)
      (by omega) (by omega) (by omega) (by omega) l
  | ⟨1, _⟩ => by
    show upd a1 (lanesA B (k0_off71 k) (k0_off71_inb k)) (lanesA B (k0_off72 k 128#32) (k0_off72_inb k 0))
        (lanesA B (k0_off72 k 256#32) (k0_off72_inb k 1)) (ix1 l)
      = a1 (ix1 l) + prod3 B (2 * k.val + 1 / 8) (128 + 2 * k.val + 1 / 8) (256 + 2 * k.val + 1 / 8) (16 * (1 % 8) + l.val)
    exact gainA B a1 _ _ _ (k0_off71_eq k) (k0_off72_eq k 0) (k0_off72_eq k 1) _ _ _ _ (by omega)
      (by show 128 * 0 + 2 * k.val + 128 = _; omega) (by show 128 * 1 + 2 * k.val + 128 = _; omega) (by omega)
      (by omega) (by omega) (by omega) (by omega) l
  | ⟨2, _⟩ => by
    show upd a2 (lanesA B (k0_off75 k) (k0_off75_inb k)) (lanesA B (k0_off76 k 128#32) (k0_off76_inb k 0))
        (lanesA B (k0_off76 k 256#32) (k0_off76_inb k 1)) (ix1 l)
      = a2 (ix1 l) + prod3 B (2 * k.val + 2 / 8) (128 + 2 * k.val + 2 / 8) (256 + 2 * k.val + 2 / 8) (16 * (2 % 8) + l.val)
    exact gainA B a2 _ _ _ (k0_off75_eq k) (k0_off76_eq k 0) (k0_off76_eq k 1) _ _ _ _ (by omega)
      (by show 128 * 0 + 2 * k.val + 128 = _; omega) (by show 128 * 1 + 2 * k.val + 128 = _; omega) (by omega)
      (by omega) (by omega) (by omega) (by omega) l
  | ⟨3, _⟩ => by
    show upd a3 (lanesA B (k0_off79 k) (k0_off79_inb k)) (lanesA B (k0_off80 k 128#32) (k0_off80_inb k 0))
        (lanesA B (k0_off80 k 256#32) (k0_off80_inb k 1)) (ix1 l)
      = a3 (ix1 l) + prod3 B (2 * k.val + 3 / 8) (128 + 2 * k.val + 3 / 8) (256 + 2 * k.val + 3 / 8) (16 * (3 % 8) + l.val)
    exact gainA B a3 _ _ _ (k0_off79_eq k) (k0_off80_eq k 0) (k0_off80_eq k 1) _ _ _ _ (by omega)
      (by show 128 * 0 + 2 * k.val + 128 = _; omega) (by show 128 * 1 + 2 * k.val + 128 = _; omega) (by omega)
      (by omega) (by omega) (by omega) (by omega) l
  | ⟨4, _⟩ => by
    show upd a4 (lanesA B (k0_off83 k) (k0_off83_inb k)) (lanesA B (k0_off84 k 128#32) (k0_off84_inb k 0))
        (lanesA B (k0_off84 k 256#32) (k0_off84_inb k 1)) (ix1 l)
      = a4 (ix1 l) + prod3 B (2 * k.val + 4 / 8) (128 + 2 * k.val + 4 / 8) (256 + 2 * k.val + 4 / 8) (16 * (4 % 8) + l.val)
    exact gainA B a4 _ _ _ (k0_off83_eq k) (k0_off84_eq k 0) (k0_off84_eq k 1) _ _ _ _ (by omega)
      (by show 128 * 0 + 2 * k.val + 128 = _; omega) (by show 128 * 1 + 2 * k.val + 128 = _; omega) (by omega)
      (by omega) (by omega) (by omega) (by omega) l
  | ⟨5, _⟩ => by
    show upd a5 (lanesA B (k0_off87 k) (k0_off87_inb k)) (lanesA B (k0_off88 k 128#32) (k0_off88_inb k 0))
        (lanesA B (k0_off88 k 256#32) (k0_off88_inb k 1)) (ix1 l)
      = a5 (ix1 l) + prod3 B (2 * k.val + 5 / 8) (128 + 2 * k.val + 5 / 8) (256 + 2 * k.val + 5 / 8) (16 * (5 % 8) + l.val)
    exact gainA B a5 _ _ _ (k0_off87_eq k) (k0_off88_eq k 0) (k0_off88_eq k 1) _ _ _ _ (by omega)
      (by show 128 * 0 + 2 * k.val + 128 = _; omega) (by show 128 * 1 + 2 * k.val + 128 = _; omega) (by omega)
      (by omega) (by omega) (by omega) (by omega) l
  | ⟨6, _⟩ => by
    show upd a6 (lanesA B (k0_off91 k) (k0_off91_inb k)) (lanesA B (k0_off92 k 128#32) (k0_off92_inb k 0))
        (lanesA B (k0_off92 k 256#32) (k0_off92_inb k 1)) (ix1 l)
      = a6 (ix1 l) + prod3 B (2 * k.val + 6 / 8) (128 + 2 * k.val + 6 / 8) (256 + 2 * k.val + 6 / 8) (16 * (6 % 8) + l.val)
    exact gainA B a6 _ _ _ (k0_off91_eq k) (k0_off92_eq k 0) (k0_off92_eq k 1) _ _ _ _ (by omega)
      (by show 128 * 0 + 2 * k.val + 128 = _; omega) (by show 128 * 1 + 2 * k.val + 128 = _; omega) (by omega)
      (by omega) (by omega) (by omega) (by omega) l
  | ⟨7, _⟩ => by
    show upd a7 (lanesA B (k0_off95 k) (k0_off95_inb k)) (lanesA B (k0_off96 k 128#32) (k0_off96_inb k 0))
        (lanesA B (k0_off96 k 256#32) (k0_off96_inb k 1)) (ix1 l)
      = a7 (ix1 l) + prod3 B (2 * k.val + 7 / 8) (128 + 2 * k.val + 7 / 8) (256 + 2 * k.val + 7 / 8) (16 * (7 % 8) + l.val)
    exact gainA B a7 _ _ _ (k0_off95_eq k) (k0_off96_eq k 0) (k0_off96_eq k 1) _ _ _ _ (by omega)
      (by show 128 * 0 + 2 * k.val + 128 = _; omega) (by show 128 * 1 + 2 * k.val + 128 = _; omega) (by omega)
      (by omega) (by omega) (by omega) (by omega) l
  | ⟨8, _⟩ => by
    show upd a8 (lanesA B (k0_off69 k) (k0_off69_inb k)) (lanesA B (k0_off70 k 128#32) (k0_off70_inb k 0))
        (lanesA B (k0_off70 k 256#32) (k0_off70_inb k 1)) (ix1 l)
      = a8 (ix1 l) + prod3 B (2 * k.val + 8 / 8) (128 + 2 * k.val + 8 / 8) (256 + 2 * k.val + 8 / 8) (16 * (8 % 8) + l.val)
    exact gainA B a8 _ _ _ (k0_off69_eq k) (k0_off70_eq k 0) (k0_off70_eq k 1) _ _ _ _ (by omega)
      (by show 128 * 0 + 2 * k.val + 129 = _; omega) (by show 128 * 1 + 2 * k.val + 129 = _; omega) (by omega)
      (by omega) (by omega) (by omega) (by omega) l
  | ⟨9, _⟩ => by
    show upd a9 (lanesA B (k0_off73 k) (k0_off73_inb k)) (lanesA B (k0_off74 k 128#32) (k0_off74_inb k 0))
        (lanesA B (k0_off74 k 256#32) (k0_off74_inb k 1)) (ix1 l)
      = a9 (ix1 l) + prod3 B (2 * k.val + 9 / 8) (128 + 2 * k.val + 9 / 8) (256 + 2 * k.val + 9 / 8) (16 * (9 % 8) + l.val)
    exact gainA B a9 _ _ _ (k0_off73_eq k) (k0_off74_eq k 0) (k0_off74_eq k 1) _ _ _ _ (by omega)
      (by show 128 * 0 + 2 * k.val + 129 = _; omega) (by show 128 * 1 + 2 * k.val + 129 = _; omega) (by omega)
      (by omega) (by omega) (by omega) (by omega) l
  | ⟨10, _⟩ => by
    show upd a10 (lanesA B (k0_off77 k) (k0_off77_inb k)) (lanesA B (k0_off78 k 128#32) (k0_off78_inb k 0))
        (lanesA B (k0_off78 k 256#32) (k0_off78_inb k 1)) (ix1 l)
      = a10 (ix1 l) + prod3 B (2 * k.val + 10 / 8) (128 + 2 * k.val + 10 / 8) (256 + 2 * k.val + 10 / 8) (16 * (10 % 8) + l.val)
    exact gainA B a10 _ _ _ (k0_off77_eq k) (k0_off78_eq k 0) (k0_off78_eq k 1) _ _ _ _ (by omega)
      (by show 128 * 0 + 2 * k.val + 129 = _; omega) (by show 128 * 1 + 2 * k.val + 129 = _; omega) (by omega)
      (by omega) (by omega) (by omega) (by omega) l
  | ⟨11, _⟩ => by
    show upd a11 (lanesA B (k0_off81 k) (k0_off81_inb k)) (lanesA B (k0_off82 k 128#32) (k0_off82_inb k 0))
        (lanesA B (k0_off82 k 256#32) (k0_off82_inb k 1)) (ix1 l)
      = a11 (ix1 l) + prod3 B (2 * k.val + 11 / 8) (128 + 2 * k.val + 11 / 8) (256 + 2 * k.val + 11 / 8) (16 * (11 % 8) + l.val)
    exact gainA B a11 _ _ _ (k0_off81_eq k) (k0_off82_eq k 0) (k0_off82_eq k 1) _ _ _ _ (by omega)
      (by show 128 * 0 + 2 * k.val + 129 = _; omega) (by show 128 * 1 + 2 * k.val + 129 = _; omega) (by omega)
      (by omega) (by omega) (by omega) (by omega) l
  | ⟨12, _⟩ => by
    show upd a12 (lanesA B (k0_off85 k) (k0_off85_inb k)) (lanesA B (k0_off86 k 128#32) (k0_off86_inb k 0))
        (lanesA B (k0_off86 k 256#32) (k0_off86_inb k 1)) (ix1 l)
      = a12 (ix1 l) + prod3 B (2 * k.val + 12 / 8) (128 + 2 * k.val + 12 / 8) (256 + 2 * k.val + 12 / 8) (16 * (12 % 8) + l.val)
    exact gainA B a12 _ _ _ (k0_off85_eq k) (k0_off86_eq k 0) (k0_off86_eq k 1) _ _ _ _ (by omega)
      (by show 128 * 0 + 2 * k.val + 129 = _; omega) (by show 128 * 1 + 2 * k.val + 129 = _; omega) (by omega)
      (by omega) (by omega) (by omega) (by omega) l
  | ⟨13, _⟩ => by
    show upd a13 (lanesA B (k0_off89 k) (k0_off89_inb k)) (lanesA B (k0_off90 k 128#32) (k0_off90_inb k 0))
        (lanesA B (k0_off90 k 256#32) (k0_off90_inb k 1)) (ix1 l)
      = a13 (ix1 l) + prod3 B (2 * k.val + 13 / 8) (128 + 2 * k.val + 13 / 8) (256 + 2 * k.val + 13 / 8) (16 * (13 % 8) + l.val)
    exact gainA B a13 _ _ _ (k0_off89_eq k) (k0_off90_eq k 0) (k0_off90_eq k 1) _ _ _ _ (by omega)
      (by show 128 * 0 + 2 * k.val + 129 = _; omega) (by show 128 * 1 + 2 * k.val + 129 = _; omega) (by omega)
      (by omega) (by omega) (by omega) (by omega) l
  | ⟨14, _⟩ => by
    show upd a14 (lanesA B (k0_off93 k) (k0_off93_inb k)) (lanesA B (k0_off94 k 128#32) (k0_off94_inb k 0))
        (lanesA B (k0_off94 k 256#32) (k0_off94_inb k 1)) (ix1 l)
      = a14 (ix1 l) + prod3 B (2 * k.val + 14 / 8) (128 + 2 * k.val + 14 / 8) (256 + 2 * k.val + 14 / 8) (16 * (14 % 8) + l.val)
    exact gainA B a14 _ _ _ (k0_off93_eq k) (k0_off94_eq k 0) (k0_off94_eq k 1) _ _ _ _ (by omega)
      (by show 128 * 0 + 2 * k.val + 129 = _; omega) (by show 128 * 1 + 2 * k.val + 129 = _; omega) (by omega)
      (by omega) (by omega) (by omega) (by omega) l
  | ⟨15, _⟩ => by
    show upd a15 (lanesA B (k0_off97 k) (k0_off97_inb k)) (lanesA B (k0_off98 k 128#32) (k0_off98_inb k 0))
        (lanesA B (k0_off98 k 256#32) (k0_off98_inb k 1)) (ix1 l)
      = a15 (ix1 l) + prod3 B (2 * k.val + 15 / 8) (128 + 2 * k.val + 15 / 8) (256 + 2 * k.val + 15 / 8) (16 * (15 % 8) + l.val)
    exact gainA B a15 _ _ _ (k0_off97_eq k) (k0_off98_eq k 0) (k0_off98_eq k 1) _ _ _ _ (by omega)
      (by show 128 * 0 + 2 * k.val + 129 = _; omega) (by show 128 * 1 + 2 * k.val + 129 = _; omega) (by omega)
      (by omega) (by omega) (by omega) (by omega) l
  | ⟨_ + 16, h⟩ => absurd h (by omega)

/-- The first `n` trips of chunk-loop 3, one accumulator, one lane: the accumulator gains the trips' products. -/
theorem iter3_comp_le (B : RowBufA Ideal) (acc : Acc Ideal) (a l : Fin 16) :
    ∀ n, n ≤ 64 → comp (iter3 B acc n) a (ix1 l) = comp acc a (ix1 l) + ∑ k ∈ Finset.range n, term B k a.val l.val
  | 0, _ => by rw [iter3, Finset.sum_range_zero, add_zero]
  | n + 1, h => by
    have hn : n < k0_t3_loop.trips := by show n < 64; omega
    rw [iter3, dif_pos hn, step3_comp, iter3_comp_le B acc a l n (by omega), Finset.sum_range_succ, add_assoc]

/-- All sixty-four trips of chunk-loop 3: the accumulator gains the sum over the trips of their products. -/
theorem iter3_comp (B : RowBufA Ideal) (acc : Acc Ideal) (a l : Fin 16) :
    comp (iter3 B acc 64) a (ix1 l) = comp acc a (ix1 l) + ∑ k : Fin 64, term B k.val a.val l.val := by
  rw [iter3_comp_le B acc a l 64 (Nat.le_refl _), Finset.sum_range]

/-- One trip of chunk-loop 4, one accumulator, one lane: the accumulator gains the product of the target row's entry
    with the difference of the context row's and the negative row's, at the trip's row of the accumulator's parity and
    the lane of its lane group. -/
theorem step4_comp (B : RowBufB Ideal) (k : Fin k0_t4_loop.trips) (acc : Acc Ideal) (a l : Fin 16) :
    comp (step4 B k acc) a (ix1 l) = comp acc a (ix1 l) + term B k.val a.val l.val := by
  obtain ⟨a0, a1, a2, a3, a4, a5, a6, a7, a8, a9, a10, a11, a12, a13, a14, a15⟩ := acc
  have hk : k.val < 64 := k.isLt
  have hl : l.val < 16 := l.isLt
  exact match a with
  | ⟨0, _⟩ => by
    show upd a0 (lanesB B (k0_off99 k) (k0_off99_inb k)) (lanesB B (k0_off100 k 128#32) (k0_off100_inb k 0))
        (lanesB B (k0_off100 k 256#32) (k0_off100_inb k 1)) (ix1 l)
      = a0 (ix1 l) + prod3 B (2 * k.val + 0 / 8) (128 + 2 * k.val + 0 / 8) (256 + 2 * k.val + 0 / 8) (16 * (0 % 8) + l.val)
    exact gainB B a0 _ _ _ (k0_off99_eq k) (k0_off100_eq k 0) (k0_off100_eq k 1) _ _ _ _ (by omega)
      (by show 128 * 0 + 2 * k.val + 128 = _; omega) (by show 128 * 1 + 2 * k.val + 128 = _; omega) (by omega)
      (by omega) (by omega) (by omega) (by omega) l
  | ⟨1, _⟩ => by
    show upd a1 (lanesB B (k0_off103 k) (k0_off103_inb k)) (lanesB B (k0_off104 k 128#32) (k0_off104_inb k 0))
        (lanesB B (k0_off104 k 256#32) (k0_off104_inb k 1)) (ix1 l)
      = a1 (ix1 l) + prod3 B (2 * k.val + 1 / 8) (128 + 2 * k.val + 1 / 8) (256 + 2 * k.val + 1 / 8) (16 * (1 % 8) + l.val)
    exact gainB B a1 _ _ _ (k0_off103_eq k) (k0_off104_eq k 0) (k0_off104_eq k 1) _ _ _ _ (by omega)
      (by show 128 * 0 + 2 * k.val + 128 = _; omega) (by show 128 * 1 + 2 * k.val + 128 = _; omega) (by omega)
      (by omega) (by omega) (by omega) (by omega) l
  | ⟨2, _⟩ => by
    show upd a2 (lanesB B (k0_off107 k) (k0_off107_inb k)) (lanesB B (k0_off108 k 128#32) (k0_off108_inb k 0))
        (lanesB B (k0_off108 k 256#32) (k0_off108_inb k 1)) (ix1 l)
      = a2 (ix1 l) + prod3 B (2 * k.val + 2 / 8) (128 + 2 * k.val + 2 / 8) (256 + 2 * k.val + 2 / 8) (16 * (2 % 8) + l.val)
    exact gainB B a2 _ _ _ (k0_off107_eq k) (k0_off108_eq k 0) (k0_off108_eq k 1) _ _ _ _ (by omega)
      (by show 128 * 0 + 2 * k.val + 128 = _; omega) (by show 128 * 1 + 2 * k.val + 128 = _; omega) (by omega)
      (by omega) (by omega) (by omega) (by omega) l
  | ⟨3, _⟩ => by
    show upd a3 (lanesB B (k0_off111 k) (k0_off111_inb k)) (lanesB B (k0_off112 k 128#32) (k0_off112_inb k 0))
        (lanesB B (k0_off112 k 256#32) (k0_off112_inb k 1)) (ix1 l)
      = a3 (ix1 l) + prod3 B (2 * k.val + 3 / 8) (128 + 2 * k.val + 3 / 8) (256 + 2 * k.val + 3 / 8) (16 * (3 % 8) + l.val)
    exact gainB B a3 _ _ _ (k0_off111_eq k) (k0_off112_eq k 0) (k0_off112_eq k 1) _ _ _ _ (by omega)
      (by show 128 * 0 + 2 * k.val + 128 = _; omega) (by show 128 * 1 + 2 * k.val + 128 = _; omega) (by omega)
      (by omega) (by omega) (by omega) (by omega) l
  | ⟨4, _⟩ => by
    show upd a4 (lanesB B (k0_off115 k) (k0_off115_inb k)) (lanesB B (k0_off116 k 128#32) (k0_off116_inb k 0))
        (lanesB B (k0_off116 k 256#32) (k0_off116_inb k 1)) (ix1 l)
      = a4 (ix1 l) + prod3 B (2 * k.val + 4 / 8) (128 + 2 * k.val + 4 / 8) (256 + 2 * k.val + 4 / 8) (16 * (4 % 8) + l.val)
    exact gainB B a4 _ _ _ (k0_off115_eq k) (k0_off116_eq k 0) (k0_off116_eq k 1) _ _ _ _ (by omega)
      (by show 128 * 0 + 2 * k.val + 128 = _; omega) (by show 128 * 1 + 2 * k.val + 128 = _; omega) (by omega)
      (by omega) (by omega) (by omega) (by omega) l
  | ⟨5, _⟩ => by
    show upd a5 (lanesB B (k0_off119 k) (k0_off119_inb k)) (lanesB B (k0_off120 k 128#32) (k0_off120_inb k 0))
        (lanesB B (k0_off120 k 256#32) (k0_off120_inb k 1)) (ix1 l)
      = a5 (ix1 l) + prod3 B (2 * k.val + 5 / 8) (128 + 2 * k.val + 5 / 8) (256 + 2 * k.val + 5 / 8) (16 * (5 % 8) + l.val)
    exact gainB B a5 _ _ _ (k0_off119_eq k) (k0_off120_eq k 0) (k0_off120_eq k 1) _ _ _ _ (by omega)
      (by show 128 * 0 + 2 * k.val + 128 = _; omega) (by show 128 * 1 + 2 * k.val + 128 = _; omega) (by omega)
      (by omega) (by omega) (by omega) (by omega) l
  | ⟨6, _⟩ => by
    show upd a6 (lanesB B (k0_off123 k) (k0_off123_inb k)) (lanesB B (k0_off124 k 128#32) (k0_off124_inb k 0))
        (lanesB B (k0_off124 k 256#32) (k0_off124_inb k 1)) (ix1 l)
      = a6 (ix1 l) + prod3 B (2 * k.val + 6 / 8) (128 + 2 * k.val + 6 / 8) (256 + 2 * k.val + 6 / 8) (16 * (6 % 8) + l.val)
    exact gainB B a6 _ _ _ (k0_off123_eq k) (k0_off124_eq k 0) (k0_off124_eq k 1) _ _ _ _ (by omega)
      (by show 128 * 0 + 2 * k.val + 128 = _; omega) (by show 128 * 1 + 2 * k.val + 128 = _; omega) (by omega)
      (by omega) (by omega) (by omega) (by omega) l
  | ⟨7, _⟩ => by
    show upd a7 (lanesB B (k0_off127 k) (k0_off127_inb k)) (lanesB B (k0_off128 k 128#32) (k0_off128_inb k 0))
        (lanesB B (k0_off128 k 256#32) (k0_off128_inb k 1)) (ix1 l)
      = a7 (ix1 l) + prod3 B (2 * k.val + 7 / 8) (128 + 2 * k.val + 7 / 8) (256 + 2 * k.val + 7 / 8) (16 * (7 % 8) + l.val)
    exact gainB B a7 _ _ _ (k0_off127_eq k) (k0_off128_eq k 0) (k0_off128_eq k 1) _ _ _ _ (by omega)
      (by show 128 * 0 + 2 * k.val + 128 = _; omega) (by show 128 * 1 + 2 * k.val + 128 = _; omega) (by omega)
      (by omega) (by omega) (by omega) (by omega) l
  | ⟨8, _⟩ => by
    show upd a8 (lanesB B (k0_off101 k) (k0_off101_inb k)) (lanesB B (k0_off102 k 128#32) (k0_off102_inb k 0))
        (lanesB B (k0_off102 k 256#32) (k0_off102_inb k 1)) (ix1 l)
      = a8 (ix1 l) + prod3 B (2 * k.val + 8 / 8) (128 + 2 * k.val + 8 / 8) (256 + 2 * k.val + 8 / 8) (16 * (8 % 8) + l.val)
    exact gainB B a8 _ _ _ (k0_off101_eq k) (k0_off102_eq k 0) (k0_off102_eq k 1) _ _ _ _ (by omega)
      (by show 128 * 0 + 2 * k.val + 129 = _; omega) (by show 128 * 1 + 2 * k.val + 129 = _; omega) (by omega)
      (by omega) (by omega) (by omega) (by omega) l
  | ⟨9, _⟩ => by
    show upd a9 (lanesB B (k0_off105 k) (k0_off105_inb k)) (lanesB B (k0_off106 k 128#32) (k0_off106_inb k 0))
        (lanesB B (k0_off106 k 256#32) (k0_off106_inb k 1)) (ix1 l)
      = a9 (ix1 l) + prod3 B (2 * k.val + 9 / 8) (128 + 2 * k.val + 9 / 8) (256 + 2 * k.val + 9 / 8) (16 * (9 % 8) + l.val)
    exact gainB B a9 _ _ _ (k0_off105_eq k) (k0_off106_eq k 0) (k0_off106_eq k 1) _ _ _ _ (by omega)
      (by show 128 * 0 + 2 * k.val + 129 = _; omega) (by show 128 * 1 + 2 * k.val + 129 = _; omega) (by omega)
      (by omega) (by omega) (by omega) (by omega) l
  | ⟨10, _⟩ => by
    show upd a10 (lanesB B (k0_off109 k) (k0_off109_inb k)) (lanesB B (k0_off110 k 128#32) (k0_off110_inb k 0))
        (lanesB B (k0_off110 k 256#32) (k0_off110_inb k 1)) (ix1 l)
      = a10 (ix1 l) + prod3 B (2 * k.val + 10 / 8) (128 + 2 * k.val + 10 / 8) (256 + 2 * k.val + 10 / 8) (16 * (10 % 8) + l.val)
    exact gainB B a10 _ _ _ (k0_off109_eq k) (k0_off110_eq k 0) (k0_off110_eq k 1) _ _ _ _ (by omega)
      (by show 128 * 0 + 2 * k.val + 129 = _; omega) (by show 128 * 1 + 2 * k.val + 129 = _; omega) (by omega)
      (by omega) (by omega) (by omega) (by omega) l
  | ⟨11, _⟩ => by
    show upd a11 (lanesB B (k0_off113 k) (k0_off113_inb k)) (lanesB B (k0_off114 k 128#32) (k0_off114_inb k 0))
        (lanesB B (k0_off114 k 256#32) (k0_off114_inb k 1)) (ix1 l)
      = a11 (ix1 l) + prod3 B (2 * k.val + 11 / 8) (128 + 2 * k.val + 11 / 8) (256 + 2 * k.val + 11 / 8) (16 * (11 % 8) + l.val)
    exact gainB B a11 _ _ _ (k0_off113_eq k) (k0_off114_eq k 0) (k0_off114_eq k 1) _ _ _ _ (by omega)
      (by show 128 * 0 + 2 * k.val + 129 = _; omega) (by show 128 * 1 + 2 * k.val + 129 = _; omega) (by omega)
      (by omega) (by omega) (by omega) (by omega) l
  | ⟨12, _⟩ => by
    show upd a12 (lanesB B (k0_off117 k) (k0_off117_inb k)) (lanesB B (k0_off118 k 128#32) (k0_off118_inb k 0))
        (lanesB B (k0_off118 k 256#32) (k0_off118_inb k 1)) (ix1 l)
      = a12 (ix1 l) + prod3 B (2 * k.val + 12 / 8) (128 + 2 * k.val + 12 / 8) (256 + 2 * k.val + 12 / 8) (16 * (12 % 8) + l.val)
    exact gainB B a12 _ _ _ (k0_off117_eq k) (k0_off118_eq k 0) (k0_off118_eq k 1) _ _ _ _ (by omega)
      (by show 128 * 0 + 2 * k.val + 129 = _; omega) (by show 128 * 1 + 2 * k.val + 129 = _; omega) (by omega)
      (by omega) (by omega) (by omega) (by omega) l
  | ⟨13, _⟩ => by
    show upd a13 (lanesB B (k0_off121 k) (k0_off121_inb k)) (lanesB B (k0_off122 k 128#32) (k0_off122_inb k 0))
        (lanesB B (k0_off122 k 256#32) (k0_off122_inb k 1)) (ix1 l)
      = a13 (ix1 l) + prod3 B (2 * k.val + 13 / 8) (128 + 2 * k.val + 13 / 8) (256 + 2 * k.val + 13 / 8) (16 * (13 % 8) + l.val)
    exact gainB B a13 _ _ _ (k0_off121_eq k) (k0_off122_eq k 0) (k0_off122_eq k 1) _ _ _ _ (by omega)
      (by show 128 * 0 + 2 * k.val + 129 = _; omega) (by show 128 * 1 + 2 * k.val + 129 = _; omega) (by omega)
      (by omega) (by omega) (by omega) (by omega) l
  | ⟨14, _⟩ => by
    show upd a14 (lanesB B (k0_off125 k) (k0_off125_inb k)) (lanesB B (k0_off126 k 128#32) (k0_off126_inb k 0))
        (lanesB B (k0_off126 k 256#32) (k0_off126_inb k 1)) (ix1 l)
      = a14 (ix1 l) + prod3 B (2 * k.val + 14 / 8) (128 + 2 * k.val + 14 / 8) (256 + 2 * k.val + 14 / 8) (16 * (14 % 8) + l.val)
    exact gainB B a14 _ _ _ (k0_off125_eq k) (k0_off126_eq k 0) (k0_off126_eq k 1) _ _ _ _ (by omega)
      (by show 128 * 0 + 2 * k.val + 129 = _; omega) (by show 128 * 1 + 2 * k.val + 129 = _; omega) (by omega)
      (by omega) (by omega) (by omega) (by omega) l
  | ⟨15, _⟩ => by
    show upd a15 (lanesB B (k0_off129 k) (k0_off129_inb k)) (lanesB B (k0_off130 k 128#32) (k0_off130_inb k 0))
        (lanesB B (k0_off130 k 256#32) (k0_off130_inb k 1)) (ix1 l)
      = a15 (ix1 l) + prod3 B (2 * k.val + 15 / 8) (128 + 2 * k.val + 15 / 8) (256 + 2 * k.val + 15 / 8) (16 * (15 % 8) + l.val)
    exact gainB B a15 _ _ _ (k0_off129_eq k) (k0_off130_eq k 0) (k0_off130_eq k 1) _ _ _ _ (by omega)
      (by show 128 * 0 + 2 * k.val + 129 = _; omega) (by show 128 * 1 + 2 * k.val + 129 = _; omega) (by omega)
      (by omega) (by omega) (by omega) (by omega) l
  | ⟨_ + 16, h⟩ => absurd h (by omega)

/-- The first `n` trips of chunk-loop 4, one accumulator, one lane: the accumulator gains the trips' products. -/
theorem iter4_comp_le (B : RowBufB Ideal) (acc : Acc Ideal) (a l : Fin 16) :
    ∀ n, n ≤ 64 → comp (iter4 B acc n) a (ix1 l) = comp acc a (ix1 l) + ∑ k ∈ Finset.range n, term B k a.val l.val
  | 0, _ => by rw [iter4, Finset.sum_range_zero, add_zero]
  | n + 1, h => by
    have hn : n < k0_t4_loop.trips := by show n < 64; omega
    rw [iter4, dif_pos hn, step4_comp, iter4_comp_le B acc a l n (by omega), Finset.sum_range_succ, add_assoc]

/-- All sixty-four trips of chunk-loop 4: the accumulator gains the sum over the trips of their products. -/
theorem iter4_comp (B : RowBufB Ideal) (acc : Acc Ideal) (a l : Fin 16) :
    comp (iter4 B acc 64) a (ix1 l) = comp acc a (ix1 l) + ∑ k : Fin 64, term B k.val a.val l.val := by
  rw [iter4_comp_le B acc a l 64 (Nat.le_refl _), Finset.sum_range]

/-! ## The accumulators added up, and their start -/

/-- The sixteen accumulators added lane by lane. -/
theorem pay105_apply (a0 a1 a2 a3 a4 a5 a6 a7 a8 a9 a10 a11 a12 a13 a14 a15 : FVec Ideal S16 .f32) (l : Fin 16) :
    k0_pay105 a0 a1 a2 a3 a4 a5 a6 a7 a8 a9 a10 a11 a12 a13 a14 a15 (ix1 l) = ∑ a : Fin 16, comp (a0, a1, a2, a3, a4, a5, a6, a7, a8, a9, a10, a11, a12, a13, a14, a15) a (ix1 l) := by
  unfold k0_pay105
  rw [shapeCast_self]
  show a0 (ix1 l) + a1 (ix1 l) + a2 (ix1 l) + a3 (ix1 l) + a4 (ix1 l) + a5 (ix1 l) + a6 (ix1 l) + a7 (ix1 l) + a8 (ix1 l) + a9 (ix1 l) + a10 (ix1 l) + a11 (ix1 l) + a12 (ix1 l) + a13 (ix1 l) + a14 (ix1 l) + a15 (ix1 l) = _
  simp only [Fin.sum_univ_succ, Fin.sum_univ_zero, add_zero]
  simp only [add_assoc]
  rfl

/-- The accumulators start from zero at every lane. -/
theorem splat_zero_apply (j : S16.Idx) : (broadcast S16 (Scalar.ofBits (F := Ideal) .f32 0x00000000#32) : FVec Ideal S16 .f32) j = 0 :=
  Ideal.ofBits_zero_f32

theorem pay85_apply (j : S16.Idx) : k0_pay85 (F := Ideal) j = 0 := splat_zero_apply j
theorem pay86_apply (j : S16.Idx) : k0_pay86 (F := Ideal) j = 0 := splat_zero_apply j
theorem pay88_apply (j : S16.Idx) : k0_pay88 (F := Ideal) j = 0 := splat_zero_apply j
theorem pay89_apply (j : S16.Idx) : k0_pay89 (F := Ideal) j = 0 := splat_zero_apply j
theorem pay90_apply (j : S16.Idx) : k0_pay90 (F := Ideal) j = 0 := splat_zero_apply j
theorem pay91_apply (j : S16.Idx) : k0_pay91 (F := Ideal) j = 0 := splat_zero_apply j
theorem pay92_apply (j : S16.Idx) : k0_pay92 (F := Ideal) j = 0 := splat_zero_apply j
theorem pay93_apply (j : S16.Idx) : k0_pay93 (F := Ideal) j = 0 := splat_zero_apply j
theorem pay94_apply (j : S16.Idx) : k0_pay94 (F := Ideal) j = 0 := splat_zero_apply j
theorem pay95_apply (j : S16.Idx) : k0_pay95 (F := Ideal) j = 0 := splat_zero_apply j
theorem pay96_apply (j : S16.Idx) : k0_pay96 (F := Ideal) j = 0 := splat_zero_apply j
theorem pay97_apply (j : S16.Idx) : k0_pay97 (F := Ideal) j = 0 := splat_zero_apply j
theorem pay98_apply (j : S16.Idx) : k0_pay98 (F := Ideal) j = 0 := splat_zero_apply j
theorem pay99_apply (j : S16.Idx) : k0_pay99 (F := Ideal) j = 0 := splat_zero_apply j
theorem pay100_apply (j : S16.Idx) : k0_pay100 (F := Ideal) j = 0 := splat_zero_apply j
/-- The third accumulator starts from the scalar it is given, at every lane … -/
theorem pay87_apply (c : Ideal .f32) (j : S16.Idx) : k0_pay87 (F := Ideal) c j = c := rfl
/-- … which is the zero word's value. -/
theorem pay87_zero_apply (j : S16.Idx) : k0_pay87 (F := Ideal) (Scalar.ofBits (F := Ideal) .f32 0x00000000#32) j = 0 :=
  splat_zero_apply j

end Cert.Proof.KI

end
-- ==== Proof.KValue.lean ====
/-
  The kernel's output, summed over workers and lanes, in the specification's tiled order.

  Worker `w`'s lane `l` of the output is the sum of its sixteen accumulators' lane `l`.  Each accumulator starts at zero
  and gains, over the four chunk-loops' sixty-four trips each, one product per trip; with the row buffer holding the
  gathered table rows and the index matrix the three index arrays packed, the product of chunk `j`, trip `k`, accumulator
  `8 p + g`, lane `l` is the contribution of sample `512 w + 128 j + 2 k + p` at table lane `16 g + l`.  The sixteen
  accumulators are the two row parities times the eight lane groups; so the sum over workers and lanes of the output is
  the sum of all contributions in the order worker, lane, parity, lane group, chunk, trip.  Only that addition of
  extended reals is commutative and associative is used.
-/
import proofs.«205315_g4544075399421_cont_8to1_c_355_20_alg».proof.Proof.KIdeal
import proofs.«205315_g4544075399421_cont_8to1_c_355_20_alg».proof.Proof.KOut
import proofs.«205315_g4544075399421_cont_8to1_c_355_20_alg».proof.Proof.HostIndex
import proofs.«205315_g4544075399421_cont_8to1_c_355_20_alg».proof.Proof.Retile

noncomputable section

open scoped BigOperators

namespace Cert.Proof.KI

open Cert.KernelIdeal Cert.KernelIdeal.Gen Idealize.ShloMosaic Idealize.ShloMosaic.ValueIdx
open Cert.Spec (ent sampleOf laneOf tiledSum)

/-! ## One output entry as a sum over accumulators, chunks and trips -/

/-- The accumulators start at zero, every one of them, at every lane. -/
theorem acc0_comp (a l : Fin 16) : comp (acc0 (F := Ideal)) a (ix1 l) = 0 :=
  match a with
  | ⟨0, _⟩ => pay85_apply (ix1 l)
  | ⟨1, _⟩ => pay86_apply (ix1 l)
  | ⟨2, _⟩ => (pay87_apply (FloatOps.ofBits (F := Ideal) FTy.f32 0#32) (ix1 l)).trans Ideal.ofBits_zero_f32
  | ⟨3, _⟩ => pay88_apply (ix1 l)
  | ⟨4, _⟩ => pay89_apply (ix1 l)
  | ⟨5, _⟩ => pay90_apply (ix1 l)
  | ⟨6, _⟩ => pay91_apply (ix1 l)
  | ⟨7, _⟩ => pay92_apply (ix1 l)
  | ⟨8, _⟩ => pay93_apply (ix1 l)
  | ⟨9, _⟩ => pay94_apply (ix1 l)
  | ⟨10, _⟩ => pay95_apply (ix1 l)
  | ⟨11, _⟩ => pay96_apply (ix1 l)
  | ⟨12, _⟩ => pay97_apply (ix1 l)
  | ⟨13, _⟩ => pay98_apply (ix1 l)
  | ⟨14, _⟩ => pay99_apply (ix1 l)
  | ⟨15, _⟩ => pay100_apply (ix1 l)
  | ⟨_ + 16, h⟩ => absurd h (by omega)

/-- The sum of sixteen accumulators, lane by lane. -/
theorem sum16_apply (acc : Acc Ideal) (l : Fin 16) : sum16 acc (ix1 l) = ∑ a : Fin 16, comp acc a (ix1 l) := by
  obtain ⟨a0, a1, a2, a3, a4, a5, a6, a7, a8, a9, a10, a11, a12, a13, a14, a15⟩ := acc
  exact pay105_apply a0 a1 a2 a3 a4 a5 a6 a7 a8 a9 a10 a11 a12 a13 a14 a15 l

/-- A worker's accumulator after its four chunk-loops: the four chunks' sixty-four products each. -/
theorem workerAcc_comp (I4 : S32x1536.Idx → BitVec 32) (E : S1000000x128.Idx → EReal) (w : Fin 32) (a l : Fin 16) :
    comp (workerAcc (F := Ideal) I4 E w) a (ix1 l)
      = ∑ j : Fin 4, ∑ k : Fin 64, term (gathered (F := Ideal) E (chunkWords I4 w j)) k.val a.val l.val := by
  show comp (iter4 (gathered (F := Ideal) E (chunkWords I4 w 3)) (iter3 (gathered (F := Ideal) E (chunkWords I4 w 2))
    (iter2 (gathered (F := Ideal) E (chunkWords I4 w 1)) (iter1 (gathered (F := Ideal) E (chunkWords I4 w 0)) acc0 64) 64) 64) 64) a (ix1 l) = _
  rw [iter4_comp, iter3_comp, iter2_comp, iter1_comp, acc0_comp, zero_add, Fin.sum_univ_four]

/-- One entry of the output: the sum over the sixteen accumulators, the four chunks and the sixty-four trips. -/
theorem outVal_apply (d : Dev nD) (I4 : S32x1536.Idx → BitVec 32) (E : S1000000x128.Idx → EReal) (w : Fin 32) (l : Fin 16) :
    outVal (F := Ideal) d I4 E (ix2 w l)
      = ∑ a : Fin 16, ∑ j : Fin 4, ∑ k : Fin 64, term (gathered (F := Ideal) E (chunkWords I4 w j)) k.val a.val l.val := by
  show sum16 (workerAcc (F := Ideal) I4 E w) (ix1 l) = _
  rw [sum16_apply]
  exact Finset.sum_congr rfl fun a _ => workerAcc_comp I4 E w a l

/-! ## One product as a sample's contribution -/

/-- An entry of a gathered row buffer is the table's entry at the row the word names. -/
theorem rd_gathered (E : S1000000x128.Idx → EReal) (f : S384.Idx → BitVec 32) (r c : ℕ) (hr : r < 384) (hc : c < 128) :
    rd (gathered (F := Ideal) E f) r c = ent E (f (ix1 (⟨r, hr⟩ : Fin 384))) (⟨c, hc⟩ : Fin 128) := by
  rw [rd_eq _ hr hc]; rfl

section Words
variable (Tg Cx : IVec S16384 32) (Ng : IVec S16384x1 32) (w : Fin 32) (j : Fin 4)

/-- A chunk's first 128 words are its samples' targets, the next 128 their contexts, the last 128 their negatives. -/
theorem chunkWords_t (r : ℕ) (hr : r < 128) :
    chunkWords (v4 Tg Cx Ng) w j (ix1 (⟨r, by omega⟩ : Fin 384)) = Tg (ix1 (smp w j ⟨r, hr⟩)) := by
  have e : (⟨384 * j.val + r, by have := j.isLt; omega⟩ : Fin 1536) = col j 0 ⟨r, hr⟩ :=
    Fin.ext (by show 384 * j.val + r = 384 * j.val + 128 * 0 + r; omega)
  show v4 Tg Cx Ng (ix2 w (⟨384 * j.val + r, _⟩ : Fin 1536)) = _
  rw [e, v4_apply_t]

theorem chunkWords_c (r : ℕ) (hr : r < 128) :
    chunkWords (v4 Tg Cx Ng) w j (ix1 (⟨128 + r, by omega⟩ : Fin 384)) = Cx (ix1 (smp w j ⟨r, hr⟩)) := by
  have e : (⟨384 * j.val + (128 + r), by have := j.isLt; omega⟩ : Fin 1536) = col j 1 ⟨r, hr⟩ :=
    Fin.ext (by show 384 * j.val + (128 + r) = 384 * j.val + 128 * 1 + r; omega)
  show v4 Tg Cx Ng (ix2 w (⟨384 * j.val + (128 + r), _⟩ : Fin 1536)) = _
  rw [e, v4_apply_c]

theorem chunkWords_n (r : ℕ) (hr : r < 128) :
    chunkWords (v4 Tg Cx Ng) w j (ix1 (⟨256 + r, by omega⟩ : Fin 384)) = Ng (ix2 (smp w j ⟨r, hr⟩) 0) := by
  have e : (⟨384 * j.val + (256 + r), by have := j.isLt; omega⟩ : Fin 1536) = col j 2 ⟨r, hr⟩ :=
    Fin.ext (by show 384 * j.val + (256 + r) = 384 * j.val + 128 * 2 + r; omega)
  show v4 Tg Cx Ng (ix2 w (⟨384 * j.val + (256 + r), _⟩ : Fin 1536)) = _
  rw [e, v4_apply_n]

/-- Trip `k`'s product for accumulator `8 p + g` at lane `l`, in chunk `j` of worker `w`, is the contribution of sample
    `512 w + 128 j + 2 k + p` at table lane `16 g + l`. -/
theorem term_eq (E : S1000000x128.Idx → EReal) (k : Fin 64) (p : Fin 2) (g : Fin 8) (l : Fin 16) :
    term (gathered (F := Ideal) E (chunkWords (v4 Tg Cx Ng) w j)) k.val (8 * p.val + g.val) l.val
      = Cert.Spec.term (fun i => Tg (ix1 i)) (fun i => Cx (ix1 i)) (fun i => Ng (ix2 i 0)) E (sampleOf w j k p) (laneOf g l) := by
  have hk : k.val < 64 := k.isLt
  have hp : p.val < 2 := p.isLt
  have hg : g.val < 8 := g.isLt
  have hl : l.val < 16 := l.isLt
  have h8 : (8 * p.val + g.val) / 8 = p.val := by omega
  have hm : (8 * p.val + g.val) % 8 = g.val := by omega
  have hs : smp w j (⟨2 * k.val + p.val, by omega⟩ : Fin 128) = sampleOf w j k p :=
    Fin.ext (by show 512 * w.val + 128 * j.val + (2 * k.val + p.val) = 512 * w.val + 128 * j.val + 2 * k.val + p.val; omega)
  unfold term prod3 Cert.Spec.term
  rw [h8, hm,
    rd_gathered E _ (2 * k.val + p.val) (16 * g.val + l.val) (by omega) (by omega),
    rd_gathered E _ (128 + 2 * k.val + p.val) (16 * g.val + l.val) (by omega) (by omega),
    rd_gathered E _ (256 + 2 * k.val + p.val) (16 * g.val + l.val) (by omega) (by omega)]
  have et := chunkWords_t Tg Cx Ng w j (2 * k.val + p.val) (by omega)
  have ec := chunkWords_c Tg Cx Ng w j (2 * k.val + p.val) (by omega)
  have en := chunkWords_n Tg Cx Ng w j (2 * k.val + p.val) (by omega)
  rw [hs] at et ec en
  have ec' : chunkWords (v4 Tg Cx Ng) w j (ix1 (⟨128 + 2 * k.val + p.val, by omega⟩ : Fin 384)) = Cx (ix1 (sampleOf w j k p)) :=
    (congrArg (fun i : Fin 384 => chunkWords (v4 Tg Cx Ng) w j (ix1 i)) (Fin.ext (by show 128 + 2 * k.val + p.val = 128 + (2 * k.val + p.val); omega))).trans ec
  have en' : chunkWords (v4 Tg Cx Ng) w j (ix1 (⟨256 + 2 * k.val + p.val, by omega⟩ : Fin 384)) = Ng (ix2 (sampleOf w j k p) 0) :=
    (congrArg (fun i : Fin 384 => chunkWords (v4 Tg Cx Ng) w j (ix1 i)) (Fin.ext (by show 256 + 2 * k.val + p.val = 256 + (2 * k.val + p.val); omega))).trans en
  rw [et, ec', en']
  rfl

end Words

/-! ## Sixteen accumulators: two row parities times eight lane groups -/

/-- Accumulator `8 p + g` is parity `p`, lane group `g`. -/
def pgEquiv : Fin 2 × Fin 8 ≃ Fin 16 where
  toFun x := ⟨8 * x.1.val + x.2.val, by have := x.1.isLt; have := x.2.isLt; omega⟩
  invFun a := (⟨a.val / 8, by have := a.isLt; omega⟩, ⟨a.val % 8, by omega⟩)
  left_inv := by
    rintro ⟨p, g⟩
    have := p.isLt; have := g.isLt
    simp only [Prod.mk.injEq, Fin.ext_iff]
    constructor <;> omega
  right_inv := by
    intro a
    have := a.isLt
    simp only [Fin.ext_iff]
    omega

/-- A sum over the sixteen accumulators is the sum over parities and lane groups. -/
theorem sum_fin16 {M : Type*} [AddCommMonoid M] (G : Fin 16 → M) :
    ∑ a : Fin 16, G a = ∑ p : Fin 2, ∑ g : Fin 8, G (pgEquiv (p, g)) := by
  rw [← Equiv.sum_comp pgEquiv G, Fintype.sum_prod_type]

/-! ## The whole output summed -/

/-- Entry `(w, l)` of the kernel's output, as an extended real. -/
def outE (d : Dev nD) (I4 : S32x1536.Idx → BitVec 32) (E : S1000000x128.Idx → EReal) (w : Fin 32) (l : Fin 16) : EReal :=
  outVal (F := Ideal) d I4 E (ix2 w l)

theorem outE_eq (d : Dev nD) (I4 : S32x1536.Idx → BitVec 32) (E : S1000000x128.Idx → EReal) (w : Fin 32) (l : Fin 16) :
    outE d I4 E w l = outVal (F := Ideal) d I4 E (ix2 w l) := rfl

/-- The kernel's output summed over workers and lanes is the sum of all contributions in the tiled order. -/
theorem outVal_sum_ideal (d : Dev nD) (Tg Cx : IVec S16384 32) (Ng : IVec S16384x1 32) (E : S1000000x128.Idx → EReal) :
    ∑ w : Fin 32, ∑ l : Fin 16, outE d (v4 Tg Cx Ng) E w l
      = tiledSum (fun i => Tg (ix1 i)) (fun i => Cx (ix1 i)) (fun i => Ng (ix2 i 0)) E := by
  unfold Cert.Spec.tiledSum
  refine Finset.sum_congr rfl fun w _ => Finset.sum_congr rfl fun l _ => ?_
  rw [outE_eq, outVal_apply, sum_fin16]
  refine Finset.sum_congr rfl fun p _ => Finset.sum_congr rfl fun g _ => Finset.sum_congr rfl fun j _ =>
    Finset.sum_congr rfl fun k _ => ?_
  exact term_eq Tg Cx Ng w j E k p g l

/-- The same for any array of extended reals that is the kernel's output. -/
theorem sum_of_eq_outVal (d : Dev nD) (Tg Cx : IVec S16384 32) (Ng : IVec S16384x1 32) (E : S1000000x128.Idx → EReal)
    (O : S32x16.Idx → EReal) (hO : O = outVal (F := Ideal) d (v4 Tg Cx Ng) E) :
    ∑ w : Fin 32, ∑ l : Fin 16, O (ix2 w l)
      = tiledSum (fun i => Tg (ix1 i)) (fun i => Cx (ix1 i)) (fun i => Ng (ix2 i 0)) E := by
  subst hO
  exact outVal_sum_ideal d Tg Cx Ng E

end Cert.Proof.KI

end
-- ==== Proof.lean ====
/- The proof of `Cert.Claim` (proofs.«205315_g4544075399421_cont_8to1_c_355_20_alg».proof.Defs): the three frames, the preservation and the algebraic equivalence.

   The kernel sums, over 16384 samples and 128 lanes, the contributions `E[t i, d] · (E[c i, d] − E[n i, d])` of a table
   `E` at three index arrays, and returns minus the sum over 16384; the reference forms `pos i = Σ_d E[t i, d] · E[c i, d]`
   and `neg k = Σ_d E[t k, d] · E[n k, d]` and returns minus the mean of `pos i − mean neg`.

   * The two kernel frames (the program as printed, and read at the extended reals) are one run theorem at two float
     instances with its value forgotten: under the precondition — every index word in [0, 999999] — each of the 32
     workers reads its row of the index matrix and the table rows it names and writes its own row of the output, so
     every weakly fair execution terminates and the argument arrays are never written.
   * The reference's frame is its straight-line run with the value forgotten.
   * The idealization rewrote no operation, so it preserves trivially.
   * At the extended reals the kernel's result is minus the quotient by 16384 of the sum of the 32 × 16 output; that
     sum is the contributions added in the tiles' order, hence the plain double sum over samples and lanes.  The
     precondition makes every table entry a real number, and over the reals
     `Σ_i Σ_d a i d · (c i d − n i d) = Σ_i (pos i − μ)` with `μ = (Σ_k neg k) / 16384`, by distributivity and
     `Σ_{i<16384} μ = 16384 · μ`.  So both programs end at the same function of the arguments, which stay unchanged. -/
import proofs.«205315_g4544075399421_cont_8to1_c_355_20_alg».proof.Defs
import proofs.«205315_g4544075399421_cont_8to1_c_355_20_alg».proof.Proof.Gen.Kernel
import proofs.«205315_g4544075399421_cont_8to1_c_355_20_alg».proof.Proof.Gen.Kernel.Skeleton
import proofs.«205315_g4544075399421_cont_8to1_c_355_20_alg».proof.Proof.Gen.KernelIdeal
import proofs.«205315_g4544075399421_cont_8to1_c_355_20_alg».proof.Proof.Gen.KernelIdeal.Skeleton
import proofs.«205315_g4544075399421_cont_8to1_c_355_20_alg».proof.Proof.Gen.ReferenceIdeal
import proofs.«205315_g4544075399421_cont_8to1_c_355_20_alg».proof.Proof.Gen.Pre_input_domain
import proofs.«205315_g4544075399421_cont_8to1_c_355_20_alg».proof.Proof.Assemble
import proofs.«205315_g4544075399421_cont_8to1_c_355_20_alg».proof.Proof.TileKI
import proofs.«205315_g4544075399421_cont_8to1_c_355_20_alg».proof.Proof.TileKB
import proofs.«205315_g4544075399421_cont_8to1_c_355_20_alg».proof.Proof.KValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  frame_Kernel_of KB.outVal KB.tile_stmt,
  frame_KernelIdeal_of KI.outVal KI.tile_stmt,
  Cert.ReferenceIdeal.Hand.frame,
  trivial,
  algebraic_of KI.outVal KI.tile_stmt fun d T C N E => KI.sum_of_eq_outVal d T C N E _ rfl⟩

end Cert.Proof

end
